-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S_ : Shape := ⟨0, ![]⟩
abbrev S1x1600000 : Shape := ⟨2, ![1, 1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  slices_S2x1600000_S1x1600000_0_0 : S2x1600000.Slices ![0, 0] S1x1600000
  shapeCasts_S1x1600000_S1600000 : S1x1600000.ShapeCasts S1600000

variable [Facts]

def fn_part3 {F : FTy → Type} [FloatOps F] (main_arg1 : IVec S2x1600000 32) (main_v48 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_c_19 : IVec S_ 1 := constantI S_ 1 1#1
  let main_v53 : IVec S_ 1 := (fun x v => Host.reduce IntOp.andi x v reducesTo_S1600000_S_d0 h_S_) main_v52 main_c_19
  let main_v54 : IVec S_ 1 := andi main_v48 main_v53
  let main_v55 : IVec S1x1600000 32 := (extractStridedSlice S1x1600000 ![0, 0] · slices_S2x1600000_S1x1600000_0_0) main_arg1
  let main_v56 : IVec S1600000 32 := shapeCast S1600000 main_v55 shapeCasts_S1x1600000_S1600000
  let main_c_20 : IVec S_ 32 := constantI S_ 32 100000#32
  let main_v57 : IVec S1600000 32 := broadcastInDim S1600000 ![] bcast_S_S1600000 main_c_20
  let main_v58 : IVec S1600000 1 := cmpi .slt main_v56 main_v57
  let main_c_21 : IVec S_ 1 := constantI S_ 1 1#1
  let main_v59 : IVec S_ 1 := (fun x v => Host.reduce IntOp.andi x v reducesTo_S1600000_S_d0 h_S_) main_v58 main_c_21
  let main_v60 : IVec S_ 1 := andi main_v54 main_v59
  main_v60

def fn_part2 {F : FTy → Type} [FloatOps F] (main_arg1 : IVec S2x1600000 32) (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : IVec S1x1600000 32 := (extractStridedSlice S1x1600000 ![0, 0] · slices_S2x1600000_S1x1600000_0_0) main_arg1
  let main_v50 : IVec S1600000 32 := shapeCast S1600000 main_v49 shapeCasts_S1x1600000_S1600000
  let main_c_18 : IVec S_ 32 := constantI S_ 32 0#32
  fn_part3 (F := F) main_arg1 main_v48 main_v50 main_c_18

def fn_part1 {F : FTy → Type} [FloatOps F] (main_arg1 : IVec S2x1600000 32) (main_arg5 : FVec F S128 .f32) (main_arg6 : FVec F S128 .f32) (main_arg7 : FVec F S128x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S100000x128 : Shape := ⟨2, ![100000, 128]⟩
abbrev S4000x256 : Shape := ⟨2, ![4000, 256]⟩
abbrev S4000x128 : Shape := ⟨2, ![4000, 128]⟩
abbrev S1600000x1 : Shape := ⟨2, ![1600000, 1]⟩
abbrev S_ : Shape := ⟨0, ![]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S10000x128 : Shape := ⟨2, ![10000, 128]⟩

abbrev nBuf : Space → Nat
  | .hbm => 115
  | .vmem => 42
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S100000x128, .f32⟩
  | .hbm, ⟨16, _⟩ => ⟨S1600000x1, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1, .i32⟩
  | .hbm, ⟨26, _⟩ => ⟨S_, .i32⟩
  | .hbm, ⟨27, _⟩ => ⟨S1600000x1, .i32⟩
  | .hbm, ⟨28, _⟩ => ⟨S1600000x1, .i1⟩
  | .hbm, ⟨29, _⟩ => ⟨S1x1, .i32⟩
  | .hbm, ⟨30, _⟩ => ⟨S1600000x1, .i32⟩
  | .hbm, ⟨31, _⟩ => ⟨S1600000x1, .i1⟩
  | .hbm, ⟨32, _⟩ => ⟨S1600000x1, .i1⟩
  | .hbm, ⟨33, _⟩ => ⟨S_, .i1⟩
  | .hbm, ⟨34, _⟩ => ⟨S1600000, .i1⟩
  | .hbm, ⟨35, _⟩ => ⟨S1600000x128, .f32⟩
  | .hbm, ⟨36, _⟩ => ⟨S1600000x128, .i1⟩
  | .hbm, ⟨37, _⟩ => ⟨S_, .f32⟩
  | .hbm, ⟨38, _⟩ => ⟨S1600000x128, .f32⟩
  | .hbm, ⟨39, _⟩ => ⟨S1600000x128, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S128, .f32⟩
  | .hbm, ⟨50, _⟩ => ⟨S_, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S1x128, .f32⟩
  | .hbm, ⟨61, _⟩ => ⟨S1x128, .f32⟩
  | .hbm, ⟨62, _⟩ => ⟨S1x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S1600000x1, .f32⟩
  | .hbm, ⟨67, _⟩ => ⟨S_, .i32⟩
  | .hbm, ⟨68, _⟩ => ⟨S1600000, .i32⟩
  | .hbm, ⟨69, _⟩ => ⟨S1600000, .i1⟩
  | .hbm, ⟨70, _⟩ => ⟨S_, .i32⟩
  | .hbm, ⟨71, _⟩ => ⟨S1600000, .i32⟩
  | .hbm, ⟨72, _⟩ => ⟨S1600000, .i32⟩
  | .hbm, ⟨73, _⟩ => ⟨S1600000, .i32⟩
  | .hbm, ⟨74, _⟩ => ⟨S1600000x1, .i32⟩
  | .hbm, ⟨75, _⟩ => ⟨S1, .i32⟩
  | .hbm, ⟨76, _⟩ => ⟨S_, .i32⟩
  | .hbm, ⟨77, _⟩ => ⟨S1600000x1, .i32⟩
  | .hbm, ⟨78, _⟩ => ⟨S1600000x1, .i1⟩
  | .hbm, ⟨79, _⟩ => ⟨S1x1, .i32⟩
  | .hbm, ⟨80, _⟩ => ⟨S1600000x1, .i32⟩
  | .hbm, ⟨81, _⟩ => ⟨S1600000x1, .i1⟩
  | .hbm, ⟨82, _⟩ => ⟨S1600000x1, .i1⟩
  | .hbm, ⟨83, _⟩ => ⟨S_, .i1⟩
  | .hbm, ⟨84, _⟩ => ⟨S1600000, .i1⟩
  | .hbm, ⟨85, _⟩ => ⟨S1600000x128, .f32⟩
  | .hbm, ⟨86, _⟩ => ⟨S1600000x128, .i1⟩
  | .hbm, ⟨87, _⟩ => ⟨S_, .f32⟩
  | .hbm, ⟨88, _⟩ => ⟨S1600000x128, .f32⟩
  | .hbm, ⟨89, _⟩ => ⟨S1600000x128, .f32⟩
  | .hbm, ⟨90, _⟩ => ⟨S1600000x128, .f32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S1x128, .f32⟩
  | .hbm, ⟨97, _⟩ => ⟨S1x128, .f32⟩
  | .hbm, ⟨98, _⟩ => ⟨S1x128, .f32⟩
  | .hbm, ⟨99, _⟩ => ⟨S128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S1x128, .f32⟩
  | .hbm, ⟨110, _⟩ => ⟨S1x128, .f32⟩
  | .hbm, ⟨111, _⟩ => ⟨S1x128, .f32⟩
  | .hbm, ⟨112, _⟩ => ⟨S1x128, .f32⟩
  | .hbm, ⟨113, _⟩ => ⟨S1x128, .f32⟩
  | .hbm, ⟨114, _⟩ => ⟨S100000x128, .f32⟩
  | .local _ .vmem, ⟨0, _⟩ => ⟨S4000x256, .f32⟩
  | .local _ .vmem, ⟨1, _⟩ => ⟨S4000x256, .f32⟩
  | .local _ .vmem, ⟨2, _⟩ => ⟨S256x128, .f32⟩
  | .local _ .vmem, ⟨3, _⟩ => ⟨S4000x128, .f32⟩
  | .local _ .vmem, ⟨4, _⟩ => ⟨S4000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S10000x128, .f32⟩
  | .local _ .vmem, ⟨13, _⟩ => ⟨S10000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S10000x128, .f32⟩
  | .local _ .vmem, ⟨20, _⟩ => ⟨S10000x128, .f32⟩
  | .local _ .vmem, ⟨21, _⟩ => ⟨S4000x128, .f32⟩
  | .local _ .vmem, ⟨22, _⟩ => ⟨S4000x128, .f32⟩
  | .local _ .vmem, ⟨23, _⟩ => ⟨S128x128, .f32⟩
  | .local _ .vmem, ⟨24, _⟩ => ⟨S4000x128, .f32⟩
  | .local _ .vmem, ⟨25, _⟩ => ⟨S4000x128, .f32⟩
  | .local _ .vmem, ⟨26, _⟩ => ⟨S10000x128, .f32⟩
  | .local _ .vmem, ⟨27, _⟩ => ⟨S10000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S10000x128, .f32⟩
  | .local _ .vmem, ⟨34, _⟩ => ⟨S10000x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S10000x128, .f32⟩
  | .local _ .vmem, ⟨41, _⟩ => ⟨S10000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13_0 : Ref sig .tc := ⟨.hbm, 47, rfl⟩
abbrev main_v13_1 : Ref sig .tc := ⟨.hbm, 48, rfl⟩
abbrev main_v14 : Ref sig .tc := ⟨.hbm, 49, rfl⟩
abbrev main_cst_0 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_1 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_call1_c : Ref sig .tc := ⟨.hbm, 67, rfl⟩
abbrev main_call1_v0 : Ref sig .tc := ⟨.hbm, 68, rfl⟩
abbrev main_call1_v1 : Ref sig .tc := ⟨.hbm, 69, rfl⟩
abbrev main_call1_c_0 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_c_1 : Ref sig .tc := ⟨.hbm, 75, rfl⟩
abbrev main_call1_c_2 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_call1_c_3 : Ref sig .tc := ⟨.hbm, 83, rfl⟩
abbrev main_call1_v12 : Ref sig .tc := ⟨.hbm, 84, rfl⟩
abbrev main_call1_v13 : Ref sig .tc := ⟨.hbm, 85, rfl⟩
abbrev main_call1_v14 : Ref sig .tc := ⟨.hbm, 86, rfl⟩
abbrev main_call1_cst : Ref sig .tc := ⟨.hbm, 87, rfl⟩
abbrev main_call1_v15 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_cst_2 : Ref sig .tc := ⟨.hbm, 92, rfl⟩
abbrev main_v33 : Ref sig .tc := ⟨.hbm, 93, rfl⟩
abbrev main_v34 : Ref sig .tc := ⟨.hbm, 94, rfl⟩
abbrev main_v35 : Ref sig .tc := ⟨.hbm, 95, rfl⟩
abbrev main_v36 : Ref sig .tc := ⟨.hbm, 96, rfl⟩
abbrev main_v37_0 : Ref sig .tc := ⟨.hbm, 97, rfl⟩
abbrev main_v37_1 : Ref sig .tc := ⟨.hbm, 98, rfl⟩
abbrev main_v38 : Ref sig .tc := ⟨.hbm, 99, rfl⟩
abbrev main_cst_3 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_cst_4 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg2_0 : Ref sig .tc := ⟨.vmem, 29, rfl⟩
abbrev cc4_stg3_0 : Ref sig .tc := ⟨.vmem, 30, rfl⟩
abbrev cc4_scratch0 : Ref sig .tc := ⟨.vmem, 31, rfl⟩
abbrev cc4_scratch1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg2_0 : Ref sig .tc := ⟨.vmem, 36, rfl⟩
abbrev cc5_stg3_0 : Ref sig .tc := ⟨.vmem, 37, rfl⟩
abbrev cc5_stg4_0 : Ref sig .tc := ⟨.vmem, 38, rfl⟩
abbrev cc5_stg5_0 : Ref sig .tc := ⟨.vmem, 39, rfl⟩
abbrev cc5_stg6_0 : Ref sig .tc := ⟨.vmem, 40, rfl⟩
abbrev cc5_stg6_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem6_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem3_0 : DmaSem sig := 33
abbrev cc5_sem4_0 : DmaSem sig := 34
abbrev cc5_sem5_0 : DmaSem sig := 35
abbrev cc5_sem6_0 : DmaSem sig := 36
abbrev cc5_sem6_1 : DmaSem sig := 37

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v24 : BitVec 1 := Scalar.cmpi .eq arg0 c9_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S10000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S4000x256_S4000x256_0_0 : ∀ a, (![0, 0] : Fin 2 → Nat) a + S4000x256.size a ≤ S4000x256.size a
  h_S4000x256 : 0 < S4000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S4000x128_S4000x128_0_0 : ∀ a, (![0, 0] : Fin 2 → Nat) a + S4000x128.size a ≤ S4000x128.size a
  h_S4000x128 : 0 < S4000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S10000x128 : S1x128.Broadcasts S10000x128
  reduces_S10000x128_S128 : S10000x128.Reduces [0] S128
  shapeCasts_S1x128_S128 : S1x128.ShapeCasts S128
  bcast_S_S128 : S_.BroadcastsInDim S128 (![] : Fin 0 → Fin S128.rank)
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  dot_S4000x256_S256x128_S4000x128_1_0_0_1_n_n_wf : DotDims.WF S4000x256 S256x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x128.size a ≤ S100000x128.size a
  hwx3_2 : ∀ i : grid3.Coords, EltTy.bits .f32 = 32 ∨ (Rect.block (s := S100000x128) S4000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S100000x128.size a
  hwx5_0 : ∀ i : grid5.Coords, EltTy.bits .f32 = 32 ∨ (Rect.block (s := S100000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S10000x128.size a ≤ S100000x128.size a
  hwx5_6 : ∀ i : grid5.Coords, EltTy.bits .f32 = 32 ∨ (Rect.block (s := S100000x128) S10000x128.size (cc5_transform_6 i) (hinb5_6 i)).WholeWords (EltTy.packing .f32)

variable [Facts₀]

def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13_0) S1x128.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13_1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v11) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v27) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v27) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v28) S4000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v35) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v36) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v37_0) S1x128.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v37_1) S1x128.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v35) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v48) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v49) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v50) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v51) S10000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x128 : Shape := ⟨2, ![128, 128]⟩
abbrev S1x1600000 : Shape := ⟨2, ![1, 1600000]⟩
abbrev S100000x128 : Shape := ⟨2, ![100000, 128]⟩
abbrev S1600000x1 : Shape := ⟨2, ![1600000, 1]⟩
abbrev S_ : Shape := ⟨0, ![]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩

abbrev nBuf : Space → Nat
  | .hbm => 149
  | .vmem => 0
  | .smem => 0
  | _ => 0

abbrev hbmTy0_0 (i : Nat) : BufTy := match i % 128 with
  | 0 => ⟨S100000x256, .f32⟩
  | 1 => ⟨S2x1600000, .i32⟩
  | 2 => ⟨S1600000, .f32⟩
  | 3 => ⟨S256x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S1x1600000, .i32⟩
  | 12 => ⟨S1600000, .i32⟩
  | 13 => ⟨S1x1600000, .i32⟩
  | 14 => ⟨S1600000, .i32⟩
  | 15 => ⟨S100000x128, .f32⟩
  | 16 => ⟨S1600000x1, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1, .i32⟩
  | 26 => ⟨S_, .i32⟩
  | 27 => ⟨S1600000x1, .i32⟩
  | 28 => ⟨S1600000x1, .i1⟩
  | 29 => ⟨S1x1, .i32⟩
  | 30 => ⟨S1600000x1, .i32⟩
  | 31 => ⟨S1600000x1, .i1⟩
  | 32 => ⟨S1600000x1, .i1⟩
  | 33 => ⟨S_, .i1⟩
  | 34 => ⟨S1600000, .i1⟩
  | 35 => ⟨S1600000x128, .f32⟩
  | 36 => ⟨S1600000x128, .i1⟩
  | 37 => ⟨S_, .f32⟩
  | 38 => ⟨S1600000x128, .f32⟩
  | 39 => ⟨S1600000x128, .f32⟩
  | 40 => ⟨S1600000x128, .f32⟩
  | 41 => ⟨S1600000x128, .f32⟩
  | 42 => ⟨S_, .f32⟩
  | 43 => ⟨S100000x128, .f32⟩
  | 44 => ⟨S1600000x1, .i32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S100000x128, .f32⟩
  | 56 => ⟨S100000x128, .f32⟩
  | 57 => ⟨S100000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S100000x128, .f32⟩
  | 65 => ⟨S100000x128, .f32⟩
  | 66 => ⟨S_, .f32⟩
  | 67 => ⟨S128, .f32⟩
  | 68 => ⟨S128, .f32⟩
  | 69 => ⟨S128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S1x128, .f32⟩
  | 77 => ⟨S100000x128, .f32⟩
  | 78 => ⟨S100000x128, .f32⟩
  | 79 => ⟨S_, .f32⟩
  | 80 => ⟨S100000x128, .f32⟩
  | 81 => ⟨S100000x128, .f32⟩
  | 82 => ⟨S100000x128, .f32⟩
  | 83 => ⟨S1600000x1, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1, .i32⟩
  | 93 => ⟨S_, .i32⟩
  | 94 => ⟨S1600000x1, .i32⟩
  | 95 => ⟨S1600000x1, .i1⟩
  | 96 => ⟨S1x1, .i32⟩
  | 97 => ⟨S1600000x1, .i32⟩
  | 98 => ⟨S1600000x1, .i1⟩
  | 99 => ⟨S1600000x1, .i1⟩
  | 100 => ⟨S_, .i1⟩
  | 101 => ⟨S1600000, .i1⟩
  | 102 => ⟨S1600000x128, .f32⟩
  | 103 => ⟨S1600000x128, .i1⟩
  | 104 => ⟨S_, .f32⟩
  | 105 => ⟨S1600000x128, .f32⟩
  | 106 => ⟨S1600000x128, .f32⟩
  | 107 => ⟨S1600000x128, .f32⟩
  | 108 => ⟨S1600000x128, .f32⟩
  | 109 => ⟨S_, .f32⟩
  | 110 => ⟨S100000x128, .f32⟩
  | 111 => ⟨S1600000x1, .i32⟩
  | 112 => ⟨S100000x128, .f32⟩
  | 113 => ⟨S1x128, .f32⟩
  | 114 => ⟨S100000x128, .f32⟩
  | 115 => ⟨S100000x128, .f32⟩
  | 116 => ⟨S_, .f32⟩
  | 117 => ⟨S128, .f32⟩
  | 118 => ⟨S_, .f32⟩
  | 119 => ⟨S128, .f32⟩
  | 120 => ⟨S128, .f32⟩
  | 121 => ⟨S1x128, .f32⟩
  | 122 => ⟨S100000x128, .f32⟩
  | 123 => ⟨S100000x128, .f32⟩
  | 124 => ⟨S100000x128, .f32⟩
  | 125 => ⟨S_, .f32⟩
  | 126 => ⟨S128, .f32⟩
  | 127 => ⟨S_, .f32⟩
  | _ => ⟨S100000x256, .f32⟩

abbrev hbmTy0_1 (i : Nat) : BufTy := match i % 128 with
  | 0 => ⟨S128, .f32⟩
  | 1 => ⟨S128, .f32⟩
  | 2 => ⟨S1x128, .f32⟩
  | 3 => ⟨S100000x128, .f32⟩
  | 4 => ⟨S100000x128, .f32⟩
  | 5 => ⟨S_, .f32⟩
  | 6 => ⟨S128, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S_, .f32⟩
  | 19 => ⟨S100000x128, .f32⟩
  | 20 => ⟨S100000x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_cst : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_0 : Ref sig .tc := ⟨.hbm, 49, rfl⟩
abbrev main_v15 : Ref sig .tc := ⟨.hbm, 50, rfl⟩
abbrev main_cst_1 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_2 : Ref sig .tc := ⟨.hbm, 58, rfl⟩
abbrev main_v22 : Ref sig .tc := ⟨.hbm, 59, rfl⟩
abbrev main_cst_3 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_cst_4 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_call1_cst : Ref sig .tc := ⟨.hbm, 79, rfl⟩
abbrev main_call1_v0 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_call2_c : Ref sig .tc := ⟨.hbm, 84, rfl⟩
abbrev main_call2_v0 : Ref sig .tc := ⟨.hbm, 85, rfl⟩
abbrev main_call2_v1 : Ref sig .tc := ⟨.hbm, 86, rfl⟩
abbrev main_call2_c_0 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_c_1 : Ref sig .tc := ⟨.hbm, 92, rfl⟩
abbrev main_call2_c_2 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_3 : Ref sig .tc := ⟨.hbm, 100, rfl⟩
abbrev main_call2_v12 : Ref sig .tc := ⟨.hbm, 101, rfl⟩
abbrev main_call2_v13 : Ref sig .tc := ⟨.hbm, 102, rfl⟩
abbrev main_call2_v14 : Ref sig .tc := ⟨.hbm, 103, rfl⟩
abbrev main_call2_cst : Ref sig .tc := ⟨.hbm, 104, rfl⟩
abbrev main_call2_v15 : Ref sig .tc := ⟨.hbm, 105, rfl⟩
abbrev main_v43 : Ref sig .tc := ⟨.hbm, 106, rfl⟩
abbrev main_v44 : Ref sig .tc := ⟨.hbm, 107, rfl⟩
abbrev main_v45 : Ref sig .tc := ⟨.hbm, 108, rfl⟩
abbrev main_cst_5 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_cst_6 : Ref sig .tc := ⟨.hbm, 116, rfl⟩
abbrev main_v52 : Ref sig .tc := ⟨.hbm, 117, rfl⟩
abbrev main_cst_7 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_8 : Ref sig .tc := ⟨.hbm, 125, rfl⟩
abbrev main_v59 : Ref sig .tc := ⟨.hbm, 126, rfl⟩
abbrev main_cst_9 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_cst_10 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_call3_cst : Ref sig .tc := ⟨.hbm, 146, rfl⟩
abbrev main_call3_v0 : Ref sig .tc := ⟨.hbm, 147, rfl⟩
abbrev main_v77 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.Kernel.R0.lean ====
/-
  The first matrix product's region (pallas_call 0): row blocks of x times the whole weight W1.
  The body loads a row block of the left factor and the whole weight, multiplies them on the matrix unit into a zero
  accumulator, and stores the product block; nothing is kept between grid points. For any float instance.
-/
import proofs.«163396_j33732673143025_1_alg».proof.Proof.Gen.Kernel.Launch
import proofs.«163396_j33732673143025_1_alg».proof.Proof.Gen.Kernel.Skeleton
import proofs.«163396_j33732673143025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks

Window 0 walks the left factor in row blocks, window 1 is the whole weight at every point, window 2 the product's
row blocks. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's current staging buffer holds its row block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: fetched at the first, its index never moves. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4000x256 := Rect.unit (s := S4000x256) ![0, 0] S4000x256.size inb_S4000x256_S4000x256_0_0
abbrev r0_1 : Rect S256x128 := Rect.unit (s := S256x128) ![0, 0] S256x128.size inb_S256x128_S256x128_0_0
abbrev r0_2 : Rect S4000x128 := Rect.unit (s := S4000x128) ![0, 0] S4000x128.size inb_S4000x128_S4000x128_0_0

/-- The product block the body leaves in the output window's buffer: its one store, of the block product. -/
def out0_2 (x0 : Vec F S4000x256 .f32) (x1 : Vec F S256x128 .f32) : Vec F S4000x128 .f32 :=
  View.canon [⟨r0_2, k0_pay1 (View.ld x0 r0_0) (View.ld x1 r0_1)⟩]

/-- The one store covers the buffer. -/
theorem cover0_2 (p0 : Vec F S4000x128 .f32) (y : S4000x128.Idx) :
    ∃ pc ∈ ([⟨r0_2, p0⟩] : List (View.Piece (Elt F) S4000x128 .f32)), y ∈ pc.1.set :=
  View.cover_of_tiled [⟨r0_2, p0⟩] S4000x128.size (by rfl) y

/-! ## The body's triple -/

set_option maxHeartbeats 1000000 in
/-- On whole staging buffers, the factors' at `x0`, `x1` and the product's at anything, the body runs to its return
    with the factors as they were and the product's buffer at the block product. -/
theorem sound_kernel0 (c : Dev nD) (E : Set ℕ) (i : grid0.Coords) (arg1 : Memref sig .tc .vmem S4000x256 .f32) (harg1 : arg1.IsWhole)
    (arg2 : Memref sig .tc .vmem S256x128 .f32) (harg2 : arg2.IsWhole) (arg3 : Memref sig .tc .vmem S4000x128 .f32) (harg3 : arg3.IsWhole)
    (x0 : Vec F S4000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core `c`, from the contents `V` its region is entered at: after the body at point
    `t` each factor's buffer at its block and the product's at the block product; the invariant is the scoped buffers no
    window stages and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

/-- The invariant at the first point, from the generator register and the scoped buffers no window stages. -/
theorem Phi_in0 (c : Dev nD) :
    (iprop((∃ r, prngReg c r) ∗ Pipeline.scopedRest (Ix := Unit) (Name := ℕ) (U := Pipeline.UD sig nD τ) (Lvl := ℕ) (Val := Elt F) spec0 c) : sProp 𝕄)
      ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- The invariant at the last point gives both back. -/
theorem Phi_out0 (c : Dev nD) :
    ((dat0 V c).Φ (Fin.last cfg0.N) : sProp 𝕄)
      ⊢ iprop((∃ r, prngReg c r) ∗ Pipeline.scopedRest (Ix := Unit) (Name := ℕ) (U := Pipeline.UD sig nD τ) (Lvl := ℕ) (Val := Elt F) spec0 c) := by
  rw [show (dat0 V c).Φ (Fin.last cfg0.N) = Pipeline.ΦA spec0 c from rfl]; unfold Pipeline.ΦA
  iintro ⟨Hr, Hp⟩
  isplitl [Hp]; · iexact Hp
  iexact Hr

end Cert.Kernel.Hand

end
-- ==== Proof.Kernel.R1.lean ====
/-
  The first statistics region (pallas_call 1): column sums of (A + b) and of its square, accumulated over ten row blocks in two scratch rows and written out at the last block.

  The body has three control cases over the grid: at the first point it zeroes the two scratch rows before adding the
  block's column sums; at the middle points it only adds; at the last point it adds and then copies the two scratch
  rows into the output windows' buffers. The scratch rows are carried from point to point by the invariant, at the
  running sums `acc1`; the output windows are idle (handed back untouched, not written back) everywhere but at the
  last point.
-/
import proofs.«163396_j33732673143025_1_alg».proof.Proof.Gen.Kernel.Launch
import proofs.«163396_j33732673143025_1_alg».proof.Proof.Gen.Kernel.Skeleton
import proofs.«163396_j33732673143025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WholeRead
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Whole-row loads and stores -/

/-- The two zero offsets of a rank-2 rectangle, as the constant function. -/
theorem zeros1 : (![0, 0] : Fin 2 → ℕ) = fun _ => 0 := by
  funext a; fin_cases a <;> rfl

/-- A load through the whole-shape rectangle of a whole memref held at the raw contents that read `X` reads `X`. -/
theorem readAt_unit_unread1 {κ : Kind} {sp : Space} {s : Shape} {e : EltTy} {m : Memref sig κ sp s e} (h : m.IsWhole)
    (X : s.Idx → Elt F e) {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread, View.ld_unit_zero ho inb]

/-- After a store through the whole-shape rectangle, last, the buffer reads the stored payload. -/
theorem read_writes_unit1 {κ : Kind} {sp : Space} {s : Shape} {e : EltTy} (v : View sig κ sp s e) (f : v.ty.Contents (Elt F))
    {off : Fin s.rank → ℕ} (ho : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon v f _ (fun y => ⟨_, List.mem_cons_self, View.mem_set_unit_zero ho inb y⟩),
    View.canon_cons_unit_zero ho inb w L]

/-! ## The body's branch conditions, decided over the grid -/

/-- The first conditional's condition (the point is the grid's first), from the grid coordinates. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's condition (the point is the grid's last). -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output windows are idle, and not written back, at every point but the last, where they are live. -/
theorem idle1_2 : ∀ t : Fin cfg1.N, ¬cond1_1 (grid1.coords t) → cfg1.idle 2 (grid1.coords t) = true := by decide +kernel
theorem idle1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem live1_2 : ∀ t : Fin cfg1.N, cond1_1 (grid1.coords t) → cfg1.idle 2 (grid1.coords t) = false := by decide +kernel
theorem live1_3 : ∀ t : Fin cfg1.N, cond1_1 (grid1.coords t) → cfg1.idle 3 (grid1.coords t) = false := by decide +kernel

/-! ## The kernel body on any whole memrefs, case by case -/

set_option maxHeartbeats 1000000 in
/-- FIRST POINT. The scratch rows at anything; the body zeroes them, adds the block's column sums, and leaves the
    output buffers as they were. -/
theorem run1_A (c : Dev nD) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i)
    (x0 : Vec F S10000x128 .f32) (x1 xi2 xi3 : Vec F S1x128 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k1_pay4 x0 x1 (k1_pay1 (F := F)))
            ∗ owns (c : Thread nD τ) arg6 fullShare (k1_pay5 x0 x1 (k1_pay2 (F := F)))) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg1.eq_unread hf0; obtain rfl := harg2.eq_unread hf1
  obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    rw [read_writes_unit1 (s := S1x128) _ _ zeros1, readAt_unit_unread1 harg1 _ zeros1, readAt_unit_unread1 harg2 _ zeros1,
      View.readCov_cons_toLoadRect]
  · iexists _; isplitr
    swap; · iexact HS1
    ipureintro
    sl_unfold_run_names
    rw [read_writes_unit1 (s := S1x128) _ _ zeros1, readAt_unit_unread1 harg1 _ zeros1, readAt_unit_unread1 harg2 _ zeros1,
      View.readCov_cons_toLoadRect]

set_option maxHeartbeats 1000000 in
/-- MIDDLE POINTS. The scratch rows at the running sums `xs0`, `xs1`; the body adds the block's column sums and
    leaves the output buffers as they were. -/
theorem run1_B (c : Dev nD) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i)
    (x0 : Vec F S10000x128 .f32) (x1 xi2 xi3 xs0 xs1 : Vec F S1x128 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k1_pay4 x0 x1 xs0)
            ∗ owns (c : Thread nD τ) arg6 fullShare (k1_pay5 x0 x1 xs1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    rw [read_writes_unit1 (s := S1x128) _ _ zeros1, readAt_unit_unread1 harg1 _ zeros1, readAt_unit_unread1 harg2 _ zeros1,
      readAt_unit_unread1 harg5 _ zeros1]
  · iexists _; isplitr
    swap; · iexact HS1
    ipureintro
    sl_unfold_run_names
    rw [read_writes_unit1 (s := S1x128) _ _ zeros1, readAt_unit_unread1 harg1 _ zeros1, readAt_unit_unread1 harg2 _ zeros1,
      readAt_unit_unread1 harg6 _ zeros1]

set_option maxHeartbeats 1000000 in
/-- LAST POINT. The scratch rows at the running sums; the body adds the block's column sums and copies the two rows
    into the output buffers, held at anything before. -/
theorem run1_C (c : Dev nD) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i)
    (x0 : Vec F S10000x128 .f32) (x1 xs0 xs1 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare (k1_pay4 x0 x1 xs0) ∗ owns (c : Thread nD τ) arg4 fullShare (k1_pay5 x0 x1 xs1)
            ∗ owns (c : Thread nD τ) arg5 fullShare (k1_pay4 x0 x1 xs0)
            ∗ owns (c : Thread nD τ) arg6 fullShare (k1_pay5 x0 x1 xs1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  obtain rfl := harg1.eq_unread hf0; obtain rfl := harg2.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [read_writes_unit1 (s := S1x128) _ _ zeros1, View.readCov_cons_toLoadRect, readAt_unit_unread1 harg1 _ zeros1,
      readAt_unit_unread1 harg2 _ zeros1, readAt_unit_unread1 harg5 _ zeros1]
  isplitl [H3]
  · iexists _; isplitr
    swap; · iexact H3
    ipureintro
    sl_unfold_run_names
    rw [read_writes_unit1 (s := S1x128) _ _ zeros1, View.readCov_cons_toLoadRect, readAt_unit_unread1 harg1 _ zeros1,
      readAt_unit_unread1 harg2 _ zeros1, readAt_unit_unread1 harg6 _ zeros1]
  isplitl [HS0]
  · iexists _; isplitr
    swap; · iexact HS0
    ipureintro
    sl_unfold_run_names
    rw [read_writes_unit1 (s := S1x128) _ _ zeros1, readAt_unit_unread1 harg1 _ zeros1, readAt_unit_unread1 harg2 _ zeros1,
      readAt_unit_unread1 harg5 _ zeros1]
  · iexists _; isplitr
    swap; · iexact HS1
    ipureintro
    sl_unfold_run_names
    rw [read_writes_unit1 (s := S1x128) _ _ zeros1, readAt_unit_unread1 harg1 _ zeros1, readAt_unit_unread1 harg2 _ zeros1,
      readAt_unit_unread1 harg6 _ zeros1]

/-! ## The staging memrefs at a point, the scratch rows, the windows' blocks -/

variable (V : (c : Dev nD) → (b : Ref sig .tc) → Buf (Elt F) ((c : Thread nD τ).loc b))

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch rows: whole scoped buffers of the kernel's own. -/
abbrev scM1_0 : Memref sig .tc .vmem S1x128 .f32 := Memref.whole cc1_scratch0
abbrev scM1_1 : Memref sig .tc .vmem S1x128 .f32 := Memref.whole cc1_scratch1

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The running sums -/

/-- What the two scratch rows hold after the body at position `n`: at the first point the block's column sums added
    to the zero row, afterwards added to what the point before left. -/
def acc1 (c : Dev nD) : (n : ℕ) → n < cfg1.N → Vec F S1x128 .f32 × Vec F S1x128 .f32
  | 0, hn => (k1_pay4 (iblk1 V c 0 ⟨0, hn⟩) (iblk1 V c 1 ⟨0, hn⟩) (k1_pay1 (F := F)),
              k1_pay5 (iblk1 V c 0 ⟨0, hn⟩) (iblk1 V c 1 ⟨0, hn⟩) (k1_pay2 (F := F)))
  | n + 1, hn => (k1_pay4 (iblk1 V c 0 ⟨n + 1, hn⟩) (iblk1 V c 1 ⟨n + 1, hn⟩) (acc1 c n (Nat.lt_of_succ_lt hn)).1,
                  k1_pay5 (iblk1 V c 0 ⟨n + 1, hn⟩) (iblk1 V c 1 ⟨n + 1, hn⟩) (acc1 c n (Nat.lt_of_succ_lt hn)).2)

theorem acc1_zero (c : Dev nD) (t : Fin cfg1.N) (hz : t.val = 0) :
    acc1 V c t.val t.isLt = (k1_pay4 (iblk1 V c 0 t) (iblk1 V c 1 t) (k1_pay1 (F := F)),
      k1_pay5 (iblk1 V c 0 t) (iblk1 V c 1 t) (k1_pay2 (F := F))) := by
  obtain ⟨n, hn⟩ := t
  cases n with
  | zero => rfl
  | succ n => exact absurd hz (Nat.succ_ne_zero n)

theorem acc1_pos (c : Dev nD) (t : Fin cfg1.N) (hz : t.val ≠ 0) :
    acc1 V c t.val t.isLt = (k1_pay4 (iblk1 V c 0 t) (iblk1 V c 1 t) (acc1 V c (t.val - 1) (Nat.lt_of_le_of_lt (Nat.sub_le _ _) t.isLt)).1,
      k1_pay5 (iblk1 V c 0 t) (iblk1 V c 1 t) (acc1 V c (t.val - 1) (Nat.lt_of_le_of_lt (Nat.sub_le _ _) t.isLt)).2) := by
  obtain ⟨n, hn⟩ := t
  cases n with
  | zero => exact absurd rfl hz
  | succ n => rfl

/-! ## The invariant -/

/-- The scoped buffers that are neither staging buffers nor the two scratch rows, unopened. -/
abbrev rest1 (c : Dev nD) : sProp 𝕄 :=
  Pipeline.scopedRestBut (Ix := Unit) (Name := ℕ) (U := Pipeline.UD sig nD τ) (Lvl := ℕ) (Val := Elt F) spec1 c [cc1_scratch0, cc1_scratch1]

/-- The invariant before position `n`: before the first point the two scratch rows at anything, afterwards at the
    running sums the point before left; beside them the other scoped buffers and the generator register. -/
def Phi1 (c : Dev nD) : (n : ℕ) → n ≤ cfg1.N → sProp 𝕄
  | 0, _ => iprop(iprop((∃ d, owns (c : Thread nD τ) scM1_0 fullShare d) ∗ (∃ d, owns (c : Thread nD τ) scM1_1 fullShare d)) ∗ rest1 c ∗ (∃ r, prngReg c r))
  | n + 1, hn => iprop(iprop(owns (c : Thread nD τ) scM1_0 fullShare (acc1 V c n hn).1 ∗ owns (c : Thread nD τ) scM1_1 fullShare (acc1 V c n hn).2) ∗ rest1 c ∗ (∃ r, prngReg c r))

theorem Phi1_zero (c : Dev nD) (n : ℕ) (h : n ≤ cfg1.N) (hz : n = 0) :
    Phi1 V c n h = iprop(iprop((∃ d, owns (c : Thread nD τ) scM1_0 fullShare d) ∗ (∃ d, owns (c : Thread nD τ) scM1_1 fullShare d)) ∗ rest1 c ∗ (∃ r, prngReg c r)) := by
  subst hz; rfl

theorem Phi1_succ (c : Dev nD) (n : ℕ) (hn : n < cfg1.N) :
    Phi1 V c (n + 1) hn = iprop(iprop(owns (c : Thread nD τ) scM1_0 fullShare (acc1 V c n hn).1 ∗ owns (c : Thread nD τ) scM1_1 fullShare (acc1 V c n hn).2) ∗ rest1 c ∗ (∃ r, prngReg c r)) := rfl

theorem Phi1_pos (c : Dev nD) (n : ℕ) (h : n ≤ cfg1.N) (hz : n ≠ 0) :
    Phi1 V c n h = iprop(iprop(owns (c : Thread nD τ) scM1_0 fullShare (acc1 V c (n - 1) (by omega)).1 ∗ owns (c : Thread nD τ) scM1_1 fullShare (acc1 V c (n - 1) (by omega)).2) ∗ rest1 c ∗ (∃ r, prngReg c r)) := by
  cases n with
  | zero => exact absurd rfl hz
  | succ n => rfl

/-! ## The proof data -/

/-- Pipeline 1's proof data on core `c`, from the contents `V` its region is entered at. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
    | ⟨3, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c t.val t.isLt).1 := by dsimp only [dat1]
theorem after1_3 (c : Dev nD) (t : Fin cfg1.N) : (dat1 V c).after 3 t = (acc1 V c t.val t.isLt).2 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which of the three cases the
    point is in; the invariant hands the body the scratch rows (at anything at the first point, at the running sums
    afterwards) and takes them back at this point's running sums; the output buffers are handed back untouched except
    at the last point, where they receive the sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 10 := lt_of_lt_of_eq t.isLt (show cfg1.N = 10 from N_1)
  by_cases h1 : t.val % 10 = 9
  · have h0 : ¬ t.val % 10 = 0 := by omega
    have hz : t.val ≠ 0 := by omega
    rw [show (dat1 V c).leavesExact 2 t = owns (c : Thread nD τ) (ms1_2 t) fullShare ((dat1 V c).after 2 t) from by
      unfold Dat.leavesExact; rw [live1_2 t ((hcond1_1 t).mpr h1)], after1_2]
    rw [show (dat1 V c).leavesExact 3 t = owns (c : Thread nD τ) (ms1_3 t) fullShare ((dat1 V c).after 3 t) from by
      unfold Dat.leavesExact; rw [live1_3 t ((hcond1_1 t).mpr h1)], after1_3]
    rw [acc1_pos V c t hz]
    rw [Phi1_castSucc V c t, Phi1_pos V c _ _ hz]
    iintro ⟨⟨⟨HS0, HS1⟩, Hr, Hg⟩, Ho, ⟨%d0, H0⟩, ⟨%d1, H1⟩, ⟨%d2, H2⟩, ⟨%d3, H3⟩⟩
    iapply (run1_C c (grid1.coords t) _ _ _ _ _ _ _ _ _ _ _ _ (fun h => h0 ((hcond1_0 t).mp h)) ((hcond1_1 t).mpr h1)
      (iblk1 V c 0 t) (iblk1 V c 1 t) _ _ Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat1 V c) 2 t (idle1_2 t (fun h => h1 ((hcond1_1 t).mp h))) (noFlush1_2 t (fun h => h1 ((hcond1_1 t).mp h)))]
    rw [Dat.leavesExact_idle (dat1 V c) 3 t (idle1_3 t (fun h => h1 ((hcond1_1 t).mp h))) (noFlush1_3 t (fun h => h1 ((hcond1_1 t).mp h)))]
    by_cases h0 : t.val % 10 = 0
    · have hz : t.val = 0 := by omega
      rw [acc1_zero V c t hz]
      rw [Phi1_castSucc V c t, Phi1_zero V c _ _ hz]
      iintro ⟨⟨⟨HS0, HS1⟩, Hr, Hg⟩, Ho, ⟨%d0, H0⟩, ⟨%d1, H1⟩, ⟨%d2, H2⟩, ⟨%d3, H3⟩⟩
      iapply (run1_A c (grid1.coords t) _ _ _ _ _ _ _ _ _ _ _ _ ((hcond1_0 t).mpr h0) (fun h => h1 ((hcond1_1 t).mp h))
        (iblk1 V c 0 t) (iblk1 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexists _; iexact H2
      iexists _; iexact H3
    · have hz : t.val ≠ 0 := by omega
      rw [acc1_pos V c t hz]
      rw [Phi1_castSucc V c t, Phi1_pos V c _ _ hz]
      iintro ⟨⟨⟨HS0, HS1⟩, Hr, Hg⟩, Ho, ⟨%d0, H0⟩, ⟨%d1, H1⟩, ⟨%d2, H2⟩, ⟨%d3, H3⟩⟩
      iapply (run1_B c (grid1.coords t) _ _ _ _ _ _ _ _ _ _ _ _ (fun h => h0 ((hcond1_0 t).mp h)) (fun h => h1 ((hcond1_1 t).mp h))
        (iblk1 V c 0 t) (iblk1 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexists _; iexact H2
      iexists _; iexact H3

/-- The body obligation at every grid point. -/
theorem body_obligation1 (c : Dev nD) : BodyObligation (dat1 (F := F) V c) (defs₀ (F := F)) Variants.none () Set.univ := fun t => by
  rw [bigSep_W1, bigSep_W1]
  exact sound_body1 V c t

/-- The invariant at the first point, from the generator register and the scoped buffers no window stages. -/
theorem Phi_in1 (c : Dev nD) :
    (iprop((∃ r, prngReg c r) ∗ Pipeline.scopedRest (Ix := Unit) (Name := ℕ) (U := Pipeline.UD sig nD τ) (Lvl := ℕ) (Val := Elt F) spec1 c) : sProp 𝕄)
      ⊢ (dat1 V c).Φ 0 := by
  rw [show (dat1 V c).Φ 0 = Phi1 V c 0 (Nat.zero_le _) from rfl, Phi1_zero V c 0 _ rfl, scopedRest1_split]
  simp only [scM1_0, scM1_1, owns_whole]
  iintro ⟨Hg, ⟨HS0, HS1⟩, Hr⟩
  isplitl [HS0 HS1]
  · isplitl [HS0]; · iexact HS0
    iexact HS1
  isplitl [Hr]; · iexact Hr
  iexact Hg

/-- The invariant at the last point gives both back. -/
theorem Phi_out1 (c : Dev nD) :
    ((dat1 V c).Φ (Fin.last cfg1.N) : sProp 𝕄)
      ⊢ iprop((∃ r, prngReg c r) ∗ Pipeline.scopedRest (Ix := Unit) (Name := ℕ) (U := Pipeline.UD sig nD τ) (Lvl := ℕ) (Val := Elt F) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega), scopedRest1_split]
  simp only [scM1_0, scM1_1, owns_whole]
  iintro ⟨⟨HS0, HS1⟩, Hr, Hg⟩
  isplitl [Hg]; · iexact Hg
  isplitl [HS0 HS1]
  · isplitl [HS0]; · iexists _; iexact HS0
    iexists _; iexact HS1
  iexact Hr

end Cert.Kernel.Hand

end
-- ==== Proof.Kernel.R2.lean ====
/-
  The first normalisation region (pallas_call 2): each row block normalised, scaled, shifted and clamped at zero.

  The region's grid has ten points, one per block of 10000 rows. At a point the body reads the row block of the
  array A and the five parameter rows (added row, mean, variance, scale, shift), forms
  max(((A + b) - mean) * rsqrt(var + eps) * g + beta, 0) entry by entry, and writes it over the whole output block.
  Nothing else of the core's state is read or written, so the region's invariant is the untouched remainder.
-/
import proofs.«163396_j33732673143025_1_alg».proof.Proof.Gen.Kernel.Launch
import proofs.«163396_j33732673143025_1_alg».proof.Proof.Gen.Kernel.Skeleton
import proofs.«163396_j33732673143025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## Blocks of the entry arrays -/

/-- The block of window `w` at grid point `t`, cut out of the array the region was entered with. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- Input window 0: whenever the body starts, its buffer holds the window's block at that point. If the point
    fetched it, that is what a fetch delivers; if not, the block index is the previous point's and the body left
    the buffer alone, so it still holds the same block. -/
theorem before2_0_of {c : Dev nD} (dat : Dat τ (Elt F) Unit ℕ (Pipeline.UD sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl

/-- Input window 1: whenever the body starts, its buffer holds the window's block at that point. If the point
    fetched it, that is what a fetch delivers; if not, the block index is the previous point's and the body left
    the buffer alone, so it still holds the same block. -/
theorem before2_1_of {c : Dev nD} (dat : Dat τ (Elt F) Unit ℕ (Pipeline.UD sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  rw [dat.before_in_eq_fetched 1 rfl (fun _ => rfl) (fun _ _ _ => rfl) hkeep t d]
  unfold Dat.fetched Dat.blockOf iblk2; rw [hA]; try rfl

/-- Input window 2: whenever the body starts, its buffer holds the window's block at that point. If the point
    fetched it, that is what a fetch delivers; if not, the block index is the previous point's and the body left
    the buffer alone, so it still holds the same block. -/
theorem before2_2_of {c : Dev nD} (dat : Dat τ (Elt F) Unit ℕ (Pipeline.UD sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  rw [dat.before_in_eq_fetched 2 rfl (fun _ => rfl) (fun _ _ _ => rfl) hkeep t d]
  unfold Dat.fetched Dat.blockOf iblk2; rw [hA]; try rfl

/-- Input window 3: whenever the body starts, its buffer holds the window's block at that point. If the point
    fetched it, that is what a fetch delivers; if not, the block index is the previous point's and the body left
    the buffer alone, so it still holds the same block. -/
theorem before2_3_of {c : Dev nD} (dat : Dat τ (Elt F) Unit ℕ (Pipeline.UD sig nD τ) ℕ cfg2 c)
    (hA : dat.A 3 = V c (Pipeline.arrRef spec2 3)) (hafter : ∀ t, dat.after 3 t = iblk2 V c 3 t)
    (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  rw [dat.before_in_eq_fetched 3 rfl (fun _ => rfl) (fun _ _ _ => rfl) hkeep t d]
  unfold Dat.fetched Dat.blockOf iblk2; rw [hA]; try rfl

/-- Input window 4: whenever the body starts, its buffer holds the window's block at that point. If the point
    fetched it, that is what a fetch delivers; if not, the block index is the previous point's and the body left
    the buffer alone, so it still holds the same block. -/
theorem before2_4_of {c : Dev nD} (dat : Dat τ (Elt F) Unit ℕ (Pipeline.UD sig nD τ) ℕ cfg2 c)
    (hA : dat.A 4 = V c (Pipeline.arrRef spec2 4)) (hafter : ∀ t, dat.after 4 t = iblk2 V c 4 t)
    (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  rw [dat.before_in_eq_fetched 4 rfl (fun _ => rfl) (fun _ _ _ => rfl) hkeep t d]
  unfold Dat.fetched Dat.blockOf iblk2; rw [hA]; try rfl

/-- Input window 5: whenever the body starts, its buffer holds the window's block at that point. If the point
    fetched it, that is what a fetch delivers; if not, the block index is the previous point's and the body left
    the buffer alone, so it still holds the same block. -/
theorem before2_5_of {c : Dev nD} (dat : Dat τ (Elt F) Unit ℕ (Pipeline.UD sig nD τ) ℕ cfg2 c)
    (hA : dat.A 5 = V c (Pipeline.arrRef spec2 5)) (hafter : ∀ t, dat.after 5 t = iblk2 V c 5 t)
    (t : Fin cfg2.N) (d) : dat.before 5 t d = iblk2 V c 5 t := by
  have hkeep : ∀ t, (cfg2.win 5).cut (cfg2.grid.coords t) (dat.after 5 t) = dat.blockOf 5 t := fun t => by
    rw [hafter]; unfold Dat.blockOf iblk2; rw [hA]; try rfl
  rw [dat.before_in_eq_fetched 5 rfl (fun _ => rfl) (fun _ _ _ => rfl) hkeep t d]
  unfold Dat.fetched Dat.blockOf iblk2; rw [hA]; try rfl

/-! ## The body's reads and its one write -/

/-- The whole of a [10000,128] block, and the whole of a [1,128] row: the only rectangles the body touches. -/
abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

/-- The output buffer after the body, from what the six input buffers hold: the single store, over the whole block,
    of the normalised, scaled, shifted and clamped entries. The body reads the variance row (window 3) before the
    mean row (window 2); the payload takes them in the order they were read. -/
def out2_6 (x0 : Vec F S10000x128 .f32) (x1 x2 x3 x4 x5 : Vec F S1x128 .f32) : Vec F S10000x128 .f32 :=
  View.canon [⟨r2_0, k2_pay1 (View.ld x0 r2_0) (View.ld x1 r2_1) (View.ld x3 r2_1) (View.ld x2 r2_1)
    (View.ld x4 r2_1) (View.ld x5 r2_1)⟩]

/-- One store over the whole block reaches every entry of it. -/
theorem cover2_6 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body as a triple -/

set_option maxHeartbeats 1000000 in
/-- Run on whole buffers, the six inputs' at known contents and the output's at anything, the body ends with the
    inputs' contents as they were and the output's at `out2_6` of them. -/
theorem sound_kernel2 (c : Dev nD) (E : Set ℕ) (i : grid2.Coords)
    (arg1 : Memref sig .tc .vmem S10000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S10000x128 .f32) (harg7 : arg7.IsWhole)
    (x0 : Vec F S10000x128 .f32) (x1 x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The region's proof data -/

/-- Pipeline 2's proof data on core `c`, from the contents `V` its region is entered at: after the body at point
    `t` every input buffer still holds its block and the output buffer holds `out2_6` of the six blocks. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by
  dsimp only [dat2]

/-- What the body finds in each input buffer. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is started with at point `t`: the invariant, the core's debt, and the seven current buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it must hand back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at point `t`: the input buffers hold their blocks, so the triple above applies; the invariant and the
    debt are neither read nor changed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- The invariant at the first point, from the generator register and the scoped buffers no window stages. -/
theorem Phi_in2 (c : Dev nD) :
    (iprop((∃ r, prngReg c r) ∗ Pipeline.scopedRest (Ix := Unit) (Name := ℕ) (U := Pipeline.UD sig nD τ) (Lvl := ℕ) (Val := Elt F) spec2 c) : sProp 𝕄)
      ⊢ (dat2 V c).Φ 0 := by
  show _ ⊢ Pipeline.ΦA spec2 c
  unfold Pipeline.ΦA
  iintro ⟨Hr, Hs⟩
  isplitl [Hs]; · iexact Hs
  iexact Hr

/-- The invariant at the last point gives both back. -/
theorem Phi_out2 (c : Dev nD) :
    ((dat2 V c).Φ (Fin.last cfg2.N) : sProp 𝕄)
      ⊢ iprop((∃ r, prngReg c r) ∗ Pipeline.scopedRest (Ix := Unit) (Name := ℕ) (U := Pipeline.UD sig nD τ) (Lvl := ℕ) (Val := Elt F) spec2 c) := by
  show Pipeline.ΦA spec2 c ⊢ _
  unfold Pipeline.ΦA
  iintro ⟨Hs, Hr⟩
  isplitl [Hr]; · iexact Hr
  iexact Hs

end Cert.Kernel.Hand

end
-- ==== Proof.Kernel.R3.lean ====
/-
  The second matrix product's region (pallas_call 3): row blocks of the first layer's output times the whole weight W2.
  The body loads a row block of the left factor and the whole weight, multiplies them on the matrix unit into a zero
  accumulator, and stores the product block; nothing is kept between grid points. For any float instance.
-/
import proofs.«163396_j33732673143025_1_alg».proof.Proof.Gen.Kernel.Launch
import proofs.«163396_j33732673143025_1_alg».proof.Proof.Gen.Kernel.Skeleton
import proofs.«163396_j33732673143025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks

Window 0 walks the left factor in row blocks, window 1 is the whole weight at every point, window 2 the product's
row blocks. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's current staging buffer holds its row block at every point. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight's staging buffer holds the whole weight at every point: fetched at the first, its index never moves. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S4000x128 := Rect.unit (s := S4000x128) ![0, 0] S4000x128.size inb_S4000x128_S4000x128_0_0
abbrev r3_1 : Rect S128x128 := Rect.unit (s := S128x128) ![0, 0] S128x128.size inb_S128x128_S128x128_0_0
abbrev r3_2 : Rect S4000x128 := Rect.unit (s := S4000x128) ![0, 0] S4000x128.size inb_S4000x128_S4000x128_0_0

/-- The product block the body leaves in the output window's buffer: its one store, of the block product. -/
def out3_2 (x0 : Vec F S4000x128 .f32) (x1 : Vec F S128x128 .f32) : Vec F S4000x128 .f32 :=
  View.canon [⟨r3_2, k3_pay1 (View.ld x0 r3_0) (View.ld x1 r3_1)⟩]

/-- The one store covers the buffer. -/
theorem cover3_2 (p0 : Vec F S4000x128 .f32) (y : S4000x128.Idx) :
    ∃ pc ∈ ([⟨r3_2, p0⟩] : List (View.Piece (Elt F) S4000x128 .f32)), y ∈ pc.1.set :=
  View.cover_of_tiled [⟨r3_2, p0⟩] S4000x128.size (by rfl) y

/-! ## The body's triple -/

set_option maxHeartbeats 1000000 in
/-- On whole staging buffers, the factors' at `x0`, `x1` and the product's at anything, the body runs to its return
    with the factors as they were and the product's buffer at the block product. -/
theorem sound_kernel3 (c : Dev nD) (E : Set ℕ) (i : grid3.Coords) (arg1 : Memref sig .tc .vmem S4000x128 .f32) (harg1 : arg1.IsWhole)
    (arg2 : Memref sig .tc .vmem S128x128 .f32) (harg2 : arg2.IsWhole) (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- Pipeline 3's proof data on core `c`, from the contents `V` its region is entered at: after the body at point
    `t` each factor's buffer at its block and the product's at the block product; the invariant is the scoped buffers no
    window stages and the generator register, untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the factors' buffers hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation3 (c : Dev nD) : BodyObligation (dat3 (F := F) V c) (defs₀ (F := F)) Variants.none () Set.univ := fun t => by
  rw [bigSep_W3, bigSep_W3]
  exact sound_body3 V c t

/-- The invariant at the first point, from the generator register and the scoped buffers no window stages. -/
theorem Phi_in3 (c : Dev nD) :
    (iprop((∃ r, prngReg c r) ∗ Pipeline.scopedRest (Ix := Unit) (Name := ℕ) (U := Pipeline.UD sig nD τ) (Lvl := ℕ) (Val := Elt F) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- The invariant at the last point gives both back. -/
theorem Phi_out3 (c : Dev nD) :
    ((dat3 V c).Φ (Fin.last cfg3.N) : sProp 𝕄)
      ⊢ iprop((∃ r, prngReg c r) ∗ Pipeline.scopedRest (Ix := Unit) (Name := ℕ) (U := Pipeline.UD sig nD τ) (Lvl := ℕ) (Val := Elt F) spec3 c) := by
  rw [show (dat3 V c).Φ (Fin.last cfg3.N) = Pipeline.ΦA spec3 c from rfl]; unfold Pipeline.ΦA
  iintro ⟨Hr, Hp⟩
  isplitl [Hp]; · iexact Hp
  iexact Hr

end Cert.Kernel.Hand

end
-- ==== Proof.Kernel.R4.lean ====
/-
  The second statistics region (pallas_call 4): column sums of (A + b) and of its square, accumulated over ten row blocks in two scratch rows and written out at the last block.

  The body has three control cases over the grid: at the first point it zeroes the two scratch rows before adding the
  block's column sums; at the middle points it only adds; at the last point it adds and then copies the two scratch
  rows into the output windows' buffers. The scratch rows are carried from point to point by the invariant, at the
  running sums `acc4`; the output windows are idle (handed back untouched, not written back) everywhere but at the
  last point.
-/
import proofs.«163396_j33732673143025_1_alg».proof.Proof.Gen.Kernel.Launch
import proofs.«163396_j33732673143025_1_alg».proof.Proof.Gen.Kernel.Skeleton
import proofs.«163396_j33732673143025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WholeRead
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Whole-row loads and stores -/

/-- The two zero offsets of a rank-2 rectangle, as the constant function. -/
theorem zeros4 : (![0, 0] : Fin 2 → ℕ) = fun _ => 0 := by
  funext a; fin_cases a <;> rfl

/-- A load through the whole-shape rectangle of a whole memref held at the raw contents that read `X` reads `X`. -/
theorem readAt_unit_unread4 {κ : Kind} {sp : Space} {s : Shape} {e : EltTy} {m : Memref sig κ sp s e} (h : m.IsWhole)
    (X : s.Idx → Elt F e) {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread, View.ld_unit_zero ho inb]

/-- After a store through the whole-shape rectangle, last, the buffer reads the stored payload. -/
theorem read_writes_unit4 {κ : Kind} {sp : Space} {s : Shape} {e : EltTy} (v : View sig κ sp s e) (f : v.ty.Contents (Elt F))
    {off : Fin s.rank → ℕ} (ho : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon v f _ (fun y => ⟨_, List.mem_cons_self, View.mem_set_unit_zero ho inb y⟩),
    View.canon_cons_unit_zero ho inb w L]

/-! ## The body's branch conditions, decided over the grid -/

/-- The first conditional's condition (the point is the grid's first), from the grid coordinates. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's condition (the point is the grid's last). -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-- The input windows are never idle. -/
theorem live4_0 : ∀ t : Fin cfg4.N, cfg4.idle 0 (grid4.coords t) = false := by decide +kernel
theorem live4_1 : ∀ t : Fin cfg4.N, cfg4.idle 1 (grid4.coords t) = false := by decide +kernel
/-- The output windows are idle, and not written back, at every point but the last, where they are live. -/
theorem idle4_2 : ∀ t : Fin cfg4.N, ¬cond4_1 (grid4.coords t) → cfg4.idle 2 (grid4.coords t) = true := by decide +kernel
theorem idle4_3 : ∀ t : Fin cfg4.N, ¬cond4_1 (grid4.coords t) → cfg4.idle 3 (grid4.coords t) = true := by decide +kernel
theorem noFlush4_2 : ∀ t : Fin cfg4.N, ¬cond4_1 (grid4.coords t) → (cfg4.win 2).flush t = false := by decide +kernel
theorem noFlush4_3 : ∀ t : Fin cfg4.N, ¬cond4_1 (grid4.coords t) → (cfg4.win 3).flush t = false := by decide +kernel
theorem live4_2 : ∀ t : Fin cfg4.N, cond4_1 (grid4.coords t) → cfg4.idle 2 (grid4.coords t) = false := by decide +kernel
theorem live4_3 : ∀ t : Fin cfg4.N, cond4_1 (grid4.coords t) → cfg4.idle 3 (grid4.coords t) = false := by decide +kernel

/-! ## The kernel body on any whole memrefs, case by case -/

set_option maxHeartbeats 1000000 in
/-- FIRST POINT. The scratch rows at anything; the body zeroes them, adds the block's column sums, and leaves the
    output buffers as they were. -/
theorem run4_A (c : Dev nD) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (hc1 : ¬cond4_1 i)
    (x0 : Vec F S10000x128 .f32) (x1 xi2 xi3 : Vec F S1x128 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k4_pay4 x0 x1 (k4_pay1 (F := F)))
            ∗ owns (c : Thread nD τ) arg6 fullShare (k4_pay5 x0 x1 (k4_pay2 (F := F)))) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg1.eq_unread hf0; obtain rfl := harg2.eq_unread hf1
  obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    rw [read_writes_unit4 (s := S1x128) _ _ zeros4, readAt_unit_unread4 harg1 _ zeros4, readAt_unit_unread4 harg2 _ zeros4,
      View.readCov_cons_toLoadRect]
  · iexists _; isplitr
    swap; · iexact HS1
    ipureintro
    sl_unfold_run_names
    rw [read_writes_unit4 (s := S1x128) _ _ zeros4, readAt_unit_unread4 harg1 _ zeros4, readAt_unit_unread4 harg2 _ zeros4,
      View.readCov_cons_toLoadRect]

set_option maxHeartbeats 1000000 in
/-- MIDDLE POINTS. The scratch rows at the running sums `xs0`, `xs1`; the body adds the block's column sums and
    leaves the output buffers as they were. -/
theorem run4_B (c : Dev nD) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (hc1 : ¬cond4_1 i)
    (x0 : Vec F S10000x128 .f32) (x1 xi2 xi3 xs0 xs1 : Vec F S1x128 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k4_pay4 x0 x1 xs0)
            ∗ owns (c : Thread nD τ) arg6 fullShare (k4_pay5 x0 x1 xs1)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    rw [read_writes_unit4 (s := S1x128) _ _ zeros4, readAt_unit_unread4 harg1 _ zeros4, readAt_unit_unread4 harg2 _ zeros4,
      readAt_unit_unread4 harg5 _ zeros4]
  · iexists _; isplitr
    swap; · iexact HS1
    ipureintro
    sl_unfold_run_names
    rw [read_writes_unit4 (s := S1x128) _ _ zeros4, readAt_unit_unread4 harg1 _ zeros4, readAt_unit_unread4 harg2 _ zeros4,
      readAt_unit_unread4 harg6 _ zeros4]

set_option maxHeartbeats 1000000 in
/-- LAST POINT. The scratch rows at the running sums; the body adds the block's column sums and copies the two rows
    into the output buffers, held at anything before. -/
theorem run4_C (c : Dev nD) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (hc1 : cond4_1 i)
    (x0 : Vec F S10000x128 .f32) (x1 xs0 xs1 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare (k4_pay4 x0 x1 xs0) ∗ owns (c : Thread nD τ) arg4 fullShare (k4_pay5 x0 x1 xs1)
            ∗ owns (c : Thread nD τ) arg5 fullShare (k4_pay4 x0 x1 xs0)
            ∗ owns (c : Thread nD τ) arg6 fullShare (k4_pay5 x0 x1 xs1)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  obtain rfl := harg1.eq_unread hf0; obtain rfl := harg2.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [read_writes_unit4 (s := S1x128) _ _ zeros4, View.readCov_cons_toLoadRect, readAt_unit_unread4 harg1 _ zeros4,
      readAt_unit_unread4 harg2 _ zeros4, readAt_unit_unread4 harg5 _ zeros4]
  isplitl [H3]
  · iexists _; isplitr
    swap; · iexact H3
    ipureintro
    sl_unfold_run_names
    rw [read_writes_unit4 (s := S1x128) _ _ zeros4, View.readCov_cons_toLoadRect, readAt_unit_unread4 harg1 _ zeros4,
      readAt_unit_unread4 harg2 _ zeros4, readAt_unit_unread4 harg6 _ zeros4]
  isplitl [HS0]
  · iexists _; isplitr
    swap; · iexact HS0
    ipureintro
    sl_unfold_run_names
    rw [read_writes_unit4 (s := S1x128) _ _ zeros4, readAt_unit_unread4 harg1 _ zeros4, readAt_unit_unread4 harg2 _ zeros4,
      readAt_unit_unread4 harg5 _ zeros4]
  · iexists _; isplitr
    swap; · iexact HS1
    ipureintro
    sl_unfold_run_names
    rw [read_writes_unit4 (s := S1x128) _ _ zeros4, readAt_unit_unread4 harg1 _ zeros4, readAt_unit_unread4 harg2 _ zeros4,
      readAt_unit_unread4 harg6 _ zeros4]

/-! ## The staging memrefs at a point, the scratch rows, the windows' blocks -/

variable (V : (c : Dev nD) → (b : Ref sig .tc) → Buf (Elt F) ((c : Thread nD τ).loc b))

abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two scratch rows: whole scoped buffers of the kernel's own. -/
abbrev scM4_0 : Memref sig .tc .vmem S1x128 .f32 := Memref.whole cc4_scratch0
abbrev scM4_1 : Memref sig .tc .vmem S1x128 .f32 := Memref.whole cc4_scratch1

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The running sums -/

/-- What the two scratch rows hold after the body at position `n`: at the first point the block's column sums added
    to the zero row, afterwards added to what the point before left. -/
def acc4 (c : Dev nD) : (n : ℕ) → n < cfg4.N → Vec F S1x128 .f32 × Vec F S1x128 .f32
  | 0, hn => (k4_pay4 (iblk4 V c 0 ⟨0, hn⟩) (iblk4 V c 1 ⟨0, hn⟩) (k4_pay1 (F := F)),
              k4_pay5 (iblk4 V c 0 ⟨0, hn⟩) (iblk4 V c 1 ⟨0, hn⟩) (k4_pay2 (F := F)))
  | n + 1, hn => (k4_pay4 (iblk4 V c 0 ⟨n + 1, hn⟩) (iblk4 V c 1 ⟨n + 1, hn⟩) (acc4 c n (Nat.lt_of_succ_lt hn)).1,
                  k4_pay5 (iblk4 V c 0 ⟨n + 1, hn⟩) (iblk4 V c 1 ⟨n + 1, hn⟩) (acc4 c n (Nat.lt_of_succ_lt hn)).2)

theorem acc4_zero (c : Dev nD) (t : Fin cfg4.N) (hz : t.val = 0) :
    acc4 V c t.val t.isLt = (k4_pay4 (iblk4 V c 0 t) (iblk4 V c 1 t) (k4_pay1 (F := F)),
      k4_pay5 (iblk4 V c 0 t) (iblk4 V c 1 t) (k4_pay2 (F := F))) := by
  obtain ⟨n, hn⟩ := t
  cases n with
  | zero => rfl
  | succ n => exact absurd hz (Nat.succ_ne_zero n)

theorem acc4_pos (c : Dev nD) (t : Fin cfg4.N) (hz : t.val ≠ 0) :
    acc4 V c t.val t.isLt = (k4_pay4 (iblk4 V c 0 t) (iblk4 V c 1 t) (acc4 V c (t.val - 1) (Nat.lt_of_le_of_lt (Nat.sub_le _ _) t.isLt)).1,
      k4_pay5 (iblk4 V c 0 t) (iblk4 V c 1 t) (acc4 V c (t.val - 1) (Nat.lt_of_le_of_lt (Nat.sub_le _ _) t.isLt)).2) := by
  obtain ⟨n, hn⟩ := t
  cases n with
  | zero => exact absurd rfl hz
  | succ n => rfl

/-! ## The invariant -/

/-- The scoped buffers that are neither staging buffers nor the two scratch rows, unopened. -/
abbrev rest4 (c : Dev nD) : sProp 𝕄 :=
  Pipeline.scopedRestBut (Ix := Unit) (Name := ℕ) (U := Pipeline.UD sig nD τ) (Lvl := ℕ) (Val := Elt F) spec4 c [cc4_scratch0, cc4_scratch1]

/-- The invariant before position `n`: before the first point the two scratch rows at anything, afterwards at the
    running sums the point before left; beside them the other scoped buffers and the generator register. -/
def Phi4 (c : Dev nD) : (n : ℕ) → n ≤ cfg4.N → sProp 𝕄
  | 0, _ => iprop(iprop((∃ d, owns (c : Thread nD τ) scM4_0 fullShare d) ∗ (∃ d, owns (c : Thread nD τ) scM4_1 fullShare d)) ∗ rest4 c ∗ (∃ r, prngReg c r))
  | n + 1, hn => iprop(iprop(owns (c : Thread nD τ) scM4_0 fullShare (acc4 V c n hn).1 ∗ owns (c : Thread nD τ) scM4_1 fullShare (acc4 V c n hn).2) ∗ rest4 c ∗ (∃ r, prngReg c r))

theorem Phi4_zero (c : Dev nD) (n : ℕ) (h : n ≤ cfg4.N) (hz : n = 0) :
    Phi4 V c n h = iprop(iprop((∃ d, owns (c : Thread nD τ) scM4_0 fullShare d) ∗ (∃ d, owns (c : Thread nD τ) scM4_1 fullShare d)) ∗ rest4 c ∗ (∃ r, prngReg c r)) := by
  subst hz; rfl

theorem Phi4_succ (c : Dev nD) (n : ℕ) (hn : n < cfg4.N) :
    Phi4 V c (n + 1) hn = iprop(iprop(owns (c : Thread nD τ) scM4_0 fullShare (acc4 V c n hn).1 ∗ owns (c : Thread nD τ) scM4_1 fullShare (acc4 V c n hn).2) ∗ rest4 c ∗ (∃ r, prngReg c r)) := rfl

theorem Phi4_pos (c : Dev nD) (n : ℕ) (h : n ≤ cfg4.N) (hz : n ≠ 0) :
    Phi4 V c n h = iprop(iprop(owns (c : Thread nD τ) scM4_0 fullShare (acc4 V c (n - 1) (by omega)).1 ∗ owns (c : Thread nD τ) scM4_1 fullShare (acc4 V c (n - 1) (by omega)).2) ∗ rest4 c ∗ (∃ r, prngReg c r)) := by
  cases n with
  | zero => exact absurd rfl hz
  | succ n => rfl

/-! ## The proof data -/

/-- Pipeline 4's proof data on core `c`, from the contents `V` its region is entered at. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => (acc4 V c t.val t.isLt).1
    | ⟨3, _⟩ => (acc4 V c t.val t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (acc4 V c t.val t.isLt).1 := by dsimp only [dat4]
theorem after4_3 (c : Dev nD) (t : Fin cfg4.N) : (dat4 V c).after 3 t = (acc4 V c t.val t.isLt).2 := by dsimp only [dat4]

/-- Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the closed forms say which of the three cases the
    point is in; the invariant hands the body the scratch rows (at anything at the first point, at the running sums
    afterwards) and takes them back at this point's running sums; the output buffers are handed back untouched except
    at the last point, where they receive the sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  have hN : t.val < 10 := lt_of_lt_of_eq t.isLt (show cfg4.N = 10 from N_4)
  by_cases h1 : t.val % 10 = 9
  · have h0 : ¬ t.val % 10 = 0 := by omega
    have hz : t.val ≠ 0 := by omega
    rw [show (dat4 V c).leavesExact 2 t = owns (c : Thread nD τ) (ms4_2 t) fullShare ((dat4 V c).after 2 t) from by
      unfold Dat.leavesExact; rw [live4_2 t ((hcond4_1 t).mpr h1)], after4_2]
    rw [show (dat4 V c).leavesExact 3 t = owns (c : Thread nD τ) (ms4_3 t) fullShare ((dat4 V c).after 3 t) from by
      unfold Dat.leavesExact; rw [live4_3 t ((hcond4_1 t).mpr h1)], after4_3]
    rw [acc4_pos V c t hz]
    rw [Phi4_castSucc V c t, Phi4_pos V c _ _ hz]
    iintro ⟨⟨⟨HS0, HS1⟩, Hr, Hg⟩, Ho, ⟨%d0, H0⟩, ⟨%d1, H1⟩, ⟨%d2, H2⟩, ⟨%d3, H3⟩⟩
    iapply (run4_C c (grid4.coords t) _ _ _ _ _ _ _ _ _ _ _ _ (fun h => h0 ((hcond4_0 t).mp h)) ((hcond4_1 t).mpr h1)
      (iblk4 V c 0 t) (iblk4 V c 1 t) _ _ Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat4 V c) 2 t (idle4_2 t (fun h => h1 ((hcond4_1 t).mp h))) (noFlush4_2 t (fun h => h1 ((hcond4_1 t).mp h)))]
    rw [Dat.leavesExact_idle (dat4 V c) 3 t (idle4_3 t (fun h => h1 ((hcond4_1 t).mp h))) (noFlush4_3 t (fun h => h1 ((hcond4_1 t).mp h)))]
    by_cases h0 : t.val % 10 = 0
    · have hz : t.val = 0 := by omega
      rw [acc4_zero V c t hz]
      rw [Phi4_castSucc V c t, Phi4_zero V c _ _ hz]
      iintro ⟨⟨⟨HS0, HS1⟩, Hr, Hg⟩, Ho, ⟨%d0, H0⟩, ⟨%d1, H1⟩, ⟨%d2, H2⟩, ⟨%d3, H3⟩⟩
      iapply (run4_A c (grid4.coords t) _ _ _ _ _ _ _ _ _ _ _ _ ((hcond4_0 t).mpr h0) (fun h => h1 ((hcond4_1 t).mp h))
        (iblk4 V c 0 t) (iblk4 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexists _; iexact H2
      iexists _; iexact H3
    · have hz : t.val ≠ 0 := by omega
      rw [acc4_pos V c t hz]
      rw [Phi4_castSucc V c t, Phi4_pos V c _ _ hz]
      iintro ⟨⟨⟨HS0, HS1⟩, Hr, Hg⟩, Ho, ⟨%d0, H0⟩, ⟨%d1, H1⟩, ⟨%d2, H2⟩, ⟨%d3, H3⟩⟩
      iapply (run4_B c (grid4.coords t) _ _ _ _ _ _ _ _ _ _ _ _ (fun h => h0 ((hcond4_0 t).mp h)) (fun h => h1 ((hcond4_1 t).mp h))
        (iblk4 V c 0 t) (iblk4 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexists _; iexact H2
      iexists _; iexact H3

/-- The body obligation at every grid point. -/
theorem body_obligation4 (c : Dev nD) : BodyObligation (dat4 (F := F) V c) (defs₀ (F := F)) Variants.none () Set.univ := fun t => by
  rw [bigSep_W4, bigSep_W4]
  exact sound_body4 V c t

/-- The invariant at the first point, from the generator register and the scoped buffers no window stages. -/
theorem Phi_in4 (c : Dev nD) :
    (iprop((∃ r, prngReg c r) ∗ Pipeline.scopedRest (Ix := Unit) (Name := ℕ) (U := Pipeline.UD sig nD τ) (Lvl := ℕ) (Val := Elt F) spec4 c) : sProp 𝕄)
      ⊢ (dat4 V c).Φ 0 := by
  rw [show (dat4 V c).Φ 0 = Phi4 V c 0 (Nat.zero_le _) from rfl, Phi4_zero V c 0 _ rfl, scopedRest4_split]
  simp only [scM4_0, scM4_1, owns_whole]
  iintro ⟨Hg, ⟨HS0, HS1⟩, Hr⟩
  isplitl [HS0 HS1]
  · isplitl [HS0]; · iexact HS0
    iexact HS1
  isplitl [Hr]; · iexact Hr
  iexact Hg

/-- The invariant at the last point gives both back. -/
theorem Phi_out4 (c : Dev nD) :
    ((dat4 V c).Φ (Fin.last cfg4.N) : sProp 𝕄)
      ⊢ iprop((∃ r, prngReg c r) ∗ Pipeline.scopedRest (Ix := Unit) (Name := ℕ) (U := Pipeline.UD sig nD τ) (Lvl := ℕ) (Val := Elt F) spec4 c) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega), scopedRest4_split]
  simp only [scM4_0, scM4_1, owns_whole]
  iintro ⟨⟨HS0, HS1⟩, Hr, Hg⟩
  isplitl [Hg]; · iexact Hg
  isplitl [HS0 HS1]
  · isplitl [HS0]; · iexists _; iexact HS0
    iexists _; iexact HS1
  iexact Hr

end Cert.Kernel.Hand

end
-- ==== Proof.Kernel.R5.lean ====
/-
  The second normalisation region (pallas_call 5): each row block normalised, scaled, shifted and clamped at zero.

  The region's grid has ten points, one per block of 10000 rows. At a point the body reads the row block of the
  array A and the five parameter rows (added row, mean, variance, scale, shift), forms
  max(((A + b) - mean) * rsqrt(var + eps) * g + beta, 0) entry by entry, and writes it over the whole output block.
  Nothing else of the core's state is read or written, so the region's invariant is the untouched remainder.
-/
import proofs.«163396_j33732673143025_1_alg».proof.Proof.Gen.Kernel.Launch
import proofs.«163396_j33732673143025_1_alg».proof.Proof.Gen.Kernel.Skeleton
import proofs.«163396_j33732673143025_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## Blocks of the entry arrays -/

/-- The block of window `w` at grid point `t`, cut out of the array the region was entered with. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- Input window 0: whenever the body starts, its buffer holds the window's block at that point. If the point
    fetched it, that is what a fetch delivers; if not, the block index is the previous point's and the body left
    the buffer alone, so it still holds the same block. -/
theorem before5_0_of {c : Dev nD} (dat : Dat τ (Elt F) Unit ℕ (Pipeline.UD sig nD τ) ℕ cfg5 c)
    (hA : dat.A 0 = V c (Pipeline.arrRef spec5 0)) (hafter : ∀ t, dat.after 0 t = iblk5 V c 0 t)
    (t : Fin cfg5.N) (d) : dat.before 0 t d = iblk5 V c 0 t := by
  have hkeep : ∀ t, (cfg5.win 0).cut (cfg5.grid.coords t) (dat.after 0 t) = dat.blockOf 0 t := fun t => by
    rw [hafter]; unfold Dat.blockOf iblk5; rw [hA]; try rfl
  rw [dat.before_in_eq_fetched 0 rfl (fun _ => rfl) (fun _ _ _ => rfl) hkeep t d]
  unfold Dat.fetched Dat.blockOf iblk5; rw [hA]; try rfl

/-- Input window 1: whenever the body starts, its buffer holds the window's block at that point. If the point
    fetched it, that is what a fetch delivers; if not, the block index is the previous point's and the body left
    the buffer alone, so it still holds the same block. -/
theorem before5_1_of {c : Dev nD} (dat : Dat τ (Elt F) Unit ℕ (Pipeline.UD sig nD τ) ℕ cfg5 c)
    (hA : dat.A 1 = V c (Pipeline.arrRef spec5 1)) (hafter : ∀ t, dat.after 1 t = iblk5 V c 1 t)
    (t : Fin cfg5.N) (d) : dat.before 1 t d = iblk5 V c 1 t := by
  have hkeep : ∀ t, (cfg5.win 1).cut (cfg5.grid.coords t) (dat.after 1 t) = dat.blockOf 1 t := fun t => by
    rw [hafter]; unfold Dat.blockOf iblk5; rw [hA]; try rfl
  rw [dat.before_in_eq_fetched 1 rfl (fun _ => rfl) (fun _ _ _ => rfl) hkeep t d]
  unfold Dat.fetched Dat.blockOf iblk5; rw [hA]; try rfl

/-- Input window 2: whenever the body starts, its buffer holds the window's block at that point. If the point
    fetched it, that is what a fetch delivers; if not, the block index is the previous point's and the body left
    the buffer alone, so it still holds the same block. -/
theorem before5_2_of {c : Dev nD} (dat : Dat τ (Elt F) Unit ℕ (Pipeline.UD sig nD τ) ℕ cfg5 c)
    (hA : dat.A 2 = V c (Pipeline.arrRef spec5 2)) (hafter : ∀ t, dat.after 2 t = iblk5 V c 2 t)
    (t : Fin cfg5.N) (d) : dat.before 2 t d = iblk5 V c 2 t := by
  have hkeep : ∀ t, (cfg5.win 2).cut (cfg5.grid.coords t) (dat.after 2 t) = dat.blockOf 2 t := fun t => by
    rw [hafter]; unfold Dat.blockOf iblk5; rw [hA]; try rfl
  rw [dat.before_in_eq_fetched 2 rfl (fun _ => rfl) (fun _ _ _ => rfl) hkeep t d]
  unfold Dat.fetched Dat.blockOf iblk5; rw [hA]; try rfl

/-- Input window 3: whenever the body starts, its buffer holds the window's block at that point. If the point
    fetched it, that is what a fetch delivers; if not, the block index is the previous point's and the body left
    the buffer alone, so it still holds the same block. -/
theorem before5_3_of {c : Dev nD} (dat : Dat τ (Elt F) Unit ℕ (Pipeline.UD sig nD τ) ℕ cfg5 c)
    (hA : dat.A 3 = V c (Pipeline.arrRef spec5 3)) (hafter : ∀ t, dat.after 3 t = iblk5 V c 3 t)
    (t : Fin cfg5.N) (d) : dat.before 3 t d = iblk5 V c 3 t := by
  have hkeep : ∀ t, (cfg5.win 3).cut (cfg5.grid.coords t) (dat.after 3 t) = dat.blockOf 3 t := fun t => by
    rw [hafter]; unfold Dat.blockOf iblk5; rw [hA]; try rfl
  rw [dat.before_in_eq_fetched 3 rfl (fun _ => rfl) (fun _ _ _ => rfl) hkeep t d]
  unfold Dat.fetched Dat.blockOf iblk5; rw [hA]; try rfl

/-- Input window 4: whenever the body starts, its buffer holds the window's block at that point. If the point
    fetched it, that is what a fetch delivers; if not, the block index is the previous point's and the body left
    the buffer alone, so it still holds the same block. -/
theorem before5_4_of {c : Dev nD} (dat : Dat τ (Elt F) Unit ℕ (Pipeline.UD sig nD τ) ℕ cfg5 c)
    (hA : dat.A 4 = V c (Pipeline.arrRef spec5 4)) (hafter : ∀ t, dat.after 4 t = iblk5 V c 4 t)
    (t : Fin cfg5.N) (d) : dat.before 4 t d = iblk5 V c 4 t := by
  have hkeep : ∀ t, (cfg5.win 4).cut (cfg5.grid.coords t) (dat.after 4 t) = dat.blockOf 4 t := fun t => by
    rw [hafter]; unfold Dat.blockOf iblk5; rw [hA]; try rfl
  rw [dat.before_in_eq_fetched 4 rfl (fun _ => rfl) (fun _ _ _ => rfl) hkeep t d]
  unfold Dat.fetched Dat.blockOf iblk5; rw [hA]; try rfl

/-- Input window 5: whenever the body starts, its buffer holds the window's block at that point. If the point
    fetched it, that is what a fetch delivers; if not, the block index is the previous point's and the body left
    the buffer alone, so it still holds the same block. -/
theorem before5_5_of {c : Dev nD} (dat : Dat τ (Elt F) Unit ℕ (Pipeline.UD sig nD τ) ℕ cfg5 c)
    (hA : dat.A 5 = V c (Pipeline.arrRef spec5 5)) (hafter : ∀ t, dat.after 5 t = iblk5 V c 5 t)
    (t : Fin cfg5.N) (d) : dat.before 5 t d = iblk5 V c 5 t := by
  have hkeep : ∀ t, (cfg5.win 5).cut (cfg5.grid.coords t) (dat.after 5 t) = dat.blockOf 5 t := fun t => by
    rw [hafter]; unfold Dat.blockOf iblk5; rw [hA]; try rfl
  rw [dat.before_in_eq_fetched 5 rfl (fun _ => rfl) (fun _ _ _ => rfl) hkeep t d]
  unfold Dat.fetched Dat.blockOf iblk5; rw [hA]; try rfl

/-! ## The body's reads and its one write -/

/-- The whole of a [10000,128] block, and the whole of a [1,128] row: the only rectangles the body touches. -/
abbrev r5_0 : Rect S10000x128 := Rect.unit (s := S10000x128) ![0, 0] S10000x128.size inb_S10000x128_S10000x128_0_0
abbrev r5_1 : Rect S1x128 := Rect.unit (s := S1x128) ![0, 0] S1x128.size inb_S1x128_S1x128_0_0

/-- The output buffer after the body, from what the six input buffers hold: the single store, over the whole block,
    of the normalised, scaled, shifted and clamped entries. The body reads the variance row (window 3) before the
    mean row (window 2); the payload takes them in the order they were read. -/
def out5_6 (x0 : Vec F S10000x128 .f32) (x1 x2 x3 x4 x5 : Vec F S1x128 .f32) : Vec F S10000x128 .f32 :=
  View.canon [⟨r5_0, k5_pay1 (View.ld x0 r5_0) (View.ld x1 r5_1) (View.ld x3 r5_1) (View.ld x2 r5_1)
    (View.ld x4 r5_1) (View.ld x5 r5_1)⟩]

/-- One store over the whole block reaches every entry of it. -/
theorem cover5_6 (p0 : Vec F S10000x128 .f32) (y : S10000x128.Idx) :
    ∃ pc ∈ ([⟨r5_0, p0⟩] : List (View.Piece (Elt F) S10000x128 .f32)), y ∈ pc.1.set :=
  View.cover_of_tiled [⟨r5_0, p0⟩] S10000x128.size (by rfl) y

/-! ## The body as a triple -/

set_option maxHeartbeats 1000000 in
/-- Run on whole buffers, the six inputs' at known contents and the output's at anything, the body ends with the
    inputs' contents as they were and the output's at `out5_6` of them. -/
theorem sound_kernel5 (c : Dev nD) (E : Set ℕ) (i : grid5.Coords)
    (arg1 : Memref sig .tc .vmem S10000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S10000x128 .f32) (harg7 : arg7.IsWhole)
    (x0 : Vec F S10000x128 .f32) (x1 x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E
          (cc5__norm_kernel i arg1 harg1 arg2 harg2 arg3 harg3 arg4 harg4 arg5 harg5 arg6 harg6 arg7 harg7) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The region's proof data -/

/-- Pipeline 5's proof data on core `c`, from the contents `V` its region is entered at: after the body at point
    `t` every input buffer still holds its block and the output buffer holds `out5_6` of the six blocks. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by
  dsimp only [dat5]

/-- What the body finds in each input buffer. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation -/

/-- What the body is started with at point `t`: the invariant, the core's debt, and the seven current buffers. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- What it must hand back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at point `t`: the input buffers hold their blocks, so the triple above applies; the invariant and the
    debt are neither read nor changed. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- The invariant at the first point, from the generator register and the scoped buffers no window stages. -/
theorem Phi_in5 (c : Dev nD) :
    (iprop((∃ r, prngReg c r) ∗ Pipeline.scopedRest (Ix := Unit) (Name := ℕ) (U := Pipeline.UD sig nD τ) (Lvl := ℕ) (Val := Elt F) spec5 c) : sProp 𝕄)
      ⊢ (dat5 V c).Φ 0 := by
  show _ ⊢ Pipeline.ΦA spec5 c
  unfold Pipeline.ΦA
  iintro ⟨Hr, Hs⟩
  isplitl [Hs]; · iexact Hs
  iexact Hr

/-- The invariant at the last point gives both back. -/
theorem Phi_out5 (c : Dev nD) :
    ((dat5 V c).Φ (Fin.last cfg5.N) : sProp 𝕄)
      ⊢ iprop((∃ r, prngReg c r) ∗ Pipeline.scopedRest (Ix := Unit) (Name := ℕ) (U := Pipeline.UD sig nD τ) (Lvl := ℕ) (Val := Elt F) spec5 c) := by
  show Pipeline.ΦA spec5 c ⊢ _
  unfold Pipeline.ΦA
  iintro ⟨Hs, Hr⟩
  isplitl [Hr]; · iexact Hr
  iexact Hs

end Cert.Kernel.Hand

end
-- ==== Proof.Kernel.Run.lean ====
/-
  The whole program as a chain of segments: fifteen items of @main - nine stretches of host operations and the six
  kernel regions - run one after the other from the launch memory. Between two items every unscoped buffer of a core is
  held at named contents: a stretch applies its operations to them, a region replaces its arrays by what its
  write-backs leave and keeps every other buffer. The run ends with every unscoped buffer at the last boundary's
  contents; the arguments' part of that is the frame claim, the result's part the value. For any float instance.
-/
import proofs.«163396_j33732673143025_1_alg».proof.Proof.Kernel.R0
import proofs.«163396_j33732673143025_1_alg».proof.Proof.Kernel.R1
import proofs.«163396_j33732673143025_1_alg».proof.Proof.Kernel.R2
import proofs.«163396_j33732673143025_1_alg».proof.Proof.Kernel.R3
import proofs.«163396_j33732673143025_1_alg».proof.Proof.Kernel.R4
import proofs.«163396_j33732673143025_1_alg».proof.Proof.Kernel.R5
import proofs.«163396_j33732673143025_1_alg».proof.Proof.Gen.Kernel.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s unscoped buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the host operations `hostOps0`. -/
def W1 (c : Dev nD) : Valuation τ sig (Elt F) := StableHlo.after hostOps0 (W0 m c)
abbrev V1 : (c : Dev nD) → (b : Ref sig .tc) → Buf (Elt F) ((c : Thread nD τ).loc b) := fun c b => W1 m c b
/-- After region 0: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operations `hostOps1`. -/
def W3 (c : Dev nD) : Valuation τ sig (Elt F) := StableHlo.after hostOps1 (W2 m c)
abbrev V3 : (c : Dev nD) → (b : Ref sig .tc) → Buf (Elt F) ((c : Thread nD τ).loc b) := fun c b => W3 m c b
/-- After the host operations `hostOps1_1`. -/
def W4 (c : Dev nD) : Valuation τ sig (Elt F) := StableHlo.after hostOps1_1 (W3 m c)
abbrev V4 : (c : Dev nD) → (b : Ref sig .tc) → Buf (Elt F) ((c : Thread nD τ).loc b) := fun c b => W4 m c b
/-- After the host operations `hostOps1_2`. -/
def W5 (c : Dev nD) : Valuation τ sig (Elt F) := StableHlo.after hostOps1_2 (W4 m c)
abbrev V5 : (c : Dev nD) → (b : Ref sig .tc) → Buf (Elt F) ((c : Thread nD τ).loc b) := fun c b => W5 m c b
/-- After region 1: its arrays at what its write-backs leave, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the host operations `hostOps2`. -/
def W7 (c : Dev nD) : Valuation τ sig (Elt F) := StableHlo.after hostOps2 (W6 m c)
abbrev V7 : (c : Dev nD) → (b : Ref sig .tc) → Buf (Elt F) ((c : Thread nD τ).loc b) := fun c b => W7 m c b
/-- After region 2: its arrays at what its write-backs leave, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After region 3: its arrays at what its write-backs leave, every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)
/-- After the host operations `hostOps4`. -/
def W10 (c : Dev nD) : Valuation τ sig (Elt F) := StableHlo.after hostOps4 (W9 m c)
abbrev V10 : (c : Dev nD) → (b : Ref sig .tc) → Buf (Elt F) ((c : Thread nD τ).loc b) := fun c b => W10 m c b
/-- After the host operations `hostOps4_1`. -/
def W11 (c : Dev nD) : Valuation τ sig (Elt F) := StableHlo.after hostOps4_1 (W10 m c)
abbrev V11 : (c : Dev nD) → (b : Ref sig .tc) → Buf (Elt F) ((c : Thread nD τ).loc b) := fun c b => W11 m c b
/-- After the host operations `hostOps4_2`. -/
def W12 (c : Dev nD) : Valuation τ sig (Elt F) := StableHlo.after hostOps4_2 (W11 m c)
abbrev V12 : (c : Dev nD) → (b : Ref sig .tc) → Buf (Elt F) ((c : Thread nD τ).loc b) := fun c b => W12 m c b
/-- After region 4: its arrays at what its write-backs leave, every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)
/-- After the host operations `hostOps5`. -/
def W14 (c : Dev nD) : Valuation τ sig (Elt F) := StableHlo.after hostOps5 (W13 m c)
abbrev V14 : (c : Dev nD) → (b : Ref sig .tc) → Buf (Elt F) ((c : Thread nD τ).loc b) := fun c b => W14 m c b
/-- After region 5: its arrays at what its write-backs leave, every other buffer as entered. -/
def W15 (c : Dev nD) : Valuation τ sig (Elt F) :=
  Pipeline.withArrays spec5 c (W14 m c) fun w => (dat5 (V14 m) c).arrAt w cfg5.N
theorem W15_arr (c : Dev nD) (w : Fin cfg5.W) :
    W15 m c (Proc.devRef .tc (Pipeline.arrRef spec5 w)) = (dat5 (V14 m) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m c (Proc.devRef .tc b) = W14 m c (Proc.devRef .tc b) := by
  unfold W15; exact Pipeline.withArrays_of_ne spec5 c _ _ b hb
abbrev V15 : (c : Dev nD) → (b : Ref sig .tc) → Buf (Elt F) ((c : Thread nD τ).loc b) := fun c b => W15 m c b
theorem hF5 (c : Dev nD) (w : Fin cfg5.W) : (dat5 (V14 m) c).arrAt w cfg5.N = V15 m c (Pipeline.arrRef spec5 w) :=
  (W15_arr m c w).symm
theorem hrest5 (c : Dev nD) : ∀ b, b ∉ Finset.univ.image (Pipeline.arrRef spec5) → V15 m c b = V14 m c b :=
  fun b hb => W15_of_ne m c b fun w e => hb (Finset.mem_image.mpr ⟨w, Finset.mem_univ _, e⟩)

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V5 m) c
  | ⟨2, _⟩ => fun c => dat2 (V7 m) c
  | ⟨3, _⟩ => fun c => dat3 (V8 m) c
  | ⟨4, _⟩ => fun c => dat4 (V12 m) c
  | ⟨5, _⟩ => fun c => dat5 (V14 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W15 m c) ∗ ∃ r, prngReg c r)

/-! ## The regions as segments -/

set_option backward.isDefEq.respectTransparency.types false in
/-- Region 0 over the thread state: entered with every unscoped buffer at `W1`, left with them at `W2`. Its arrays
    are split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (Phi_in0 (V1 m) c)
    isplitl [Hp]; · iexact Hp
    iexact Hr
  hout c := by
    rw [Pipeline.ownSems0_none, show (pdats m 0 c).Φ (Fin.last _) = (dat0 (V1 m) c).Φ (Fin.last cfg0.N) from rfl]
    iintro HΦ
    ihave H := (Phi_out0 (V1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its arrays
    are split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5 m) c).Φ 0 from rfl]
    iintro ⟨Hp, -, Hr⟩
    iapply (Phi_in1 (V5 m) c)
    isplitl [Hp]; · iexact Hp
    iexact Hr
  hout c := by
    rw [Pipeline.ownSems0_none, show (pdats m 1 c).Φ (Fin.last _) = (dat1 (V5 m) c).Φ (Fin.last cfg1.N) from rfl]
    iintro HΦ
    ihave H := (Phi_out1 (V5 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its arrays
    are split out of the unscoped buffers and put back at the exit contents; the generator register goes into the
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V7 m) c).Φ 0 from rfl]
    iintro ⟨Hp, -, Hr⟩
    iapply (Phi_in2 (V7 m) c)
    isplitl [Hp]; · iexact Hp
    iexact Hr
  hout c := by
    rw [Pipeline.ownSems0_none, show (pdats m 2 c).Φ (Fin.last _) = (dat2 (V7 m) c).Φ (Fin.last cfg2.N) from rfl]
    iintro HΦ
    ihave H := (Phi_out2 (V7 m) c) $$ HΦ
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W8`, left with them at `W9`. Its arrays
    are split out of the unscoped buffers and put back at the exit contents; the generator register goes into the
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V8 m) c).Φ 0 from rfl]
    iintro ⟨Hp, -, Hr⟩
    iapply (Phi_in3 (V8 m) c)
    isplitl [Hp]; · iexact Hp
    iexact Hr
  hout c := by
    rw [Pipeline.ownSems0_none, show (pdats m 3 c).Φ (Fin.last _) = (dat3 (V8 m) c).Φ (Fin.last cfg3.N) from rfl]
    iintro HΦ
    ihave H := (Phi_out3 (V8 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W12`, left with them at `W13`. Its arrays
    are split out of the unscoped buffers and put back at the exit contents; the generator register goes into the
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V12 m) c).Φ 0 from rfl]
    iintro ⟨Hp, -, Hr⟩
    iapply (Phi_in4 (V12 m) c)
    isplitl [Hp]; · iexact Hp
    iexact Hr
  hout c := by
    rw [Pipeline.ownSems0_none, show (pdats m 4 c).Φ (Fin.last _) = (dat4 (V12 m) c).Φ (Fin.last cfg4.N) from rfl]
    iintro HΦ
    ihave H := (Phi_out4 (V12 m) c) $$ HΦ
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W14`, left with them at `W15`. Its arrays
    are split out of the unscoped buffers and put back at the exit contents; the generator register goes into the
    invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V14 m) c).loose
  hwaits := Pipeline.hwaits_of_owed_zero _ _ _ _ L lv 5 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (V14 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (V14 m) c).Φ 0 from rfl]
    iintro ⟨Hp, -, Hr⟩
    iapply (Phi_in5 (V14 m) c)
    isplitl [Hp]; · iexact Hp
    iexact Hr
  hout c := by
    rw [Pipeline.ownSems0_none, show (pdats m 5 c).Φ (Fin.last _) = (dat5 (V14 m) c).Φ (Fin.last cfg5.N) from rfl]
    iintro HΦ
    ihave H := (Phi_out5 (V14 m) c) $$ HΦ
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (V14 m c) (V15 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .region (reg3 m),
    .host (hseg hostOps4 hostOps4_sub hostOps4_fresh (W9 m)),
    .host (hseg hostOps4_1 hostOps4_1_sub hostOps4_1_fresh (W10 m)),
    .host (hseg hostOps4_2 hostOps4_2_sub hostOps4_2_fresh (W11 m)),
    .region (reg4 m),
    .host (hseg hostOps5 hostOps5_sub hostOps5_fresh (W13 m)),
    .region (reg5 m) ]

theorem main_run (c : Dev nD) : main (F := F) c = Pipeline.Seg.run (segs m) := (main_chain c).trans (by chain_rfl)

set_option backward.isDefEq.respectTransparency.types false in
/-- From any memory with zero counters every weakly fair execution of @main on the TensorCores terminates, nothing
    faulting, and every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W15 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

end Cert.Kernel.Hand

end
-- ==== Proof.Kernel.Final.lean ====
/-
  What the run leaves where the claims look: every argument array ends as launched - no stretch of host operations
  writes one, and a region touches one only as an input window, which it leaves as entered -, and the result buffer
  ends at the last boundary's contents. For any float instance.
-/
import proofs.«163396_j33732673143025_1_alg».proof.Proof.Kernel.Run

set_option maxRecDepth 16384

noncomputable section

namespace Cert.Kernel.Hand

open Cert.Kernel Cert.Kernel.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-! ## A stretch of host operations leaves what it does not write -/

theorem W1_keep (c : Dev nD) (r : Ref sig .tc) (h : r ∉ hostOps0_W) :
    W1 m c (Proc.devRef .tc r) = W0 m c (Proc.devRef .tc r) := by
  unfold W1; exact StableHlo.after_of_writes_sub hostOps0 _ hostOps0_writes h
theorem W3_keep (c : Dev nD) (r : Ref sig .tc) (h : r ∉ hostOps1_W) :
    W3 m c (Proc.devRef .tc r) = W2 m c (Proc.devRef .tc r) := by
  unfold W3; exact StableHlo.after_of_writes_sub hostOps1 _ hostOps1_writes h
theorem W4_keep (c : Dev nD) (r : Ref sig .tc) (h : r ∉ hostOps1_1_W) :
    W4 m c (Proc.devRef .tc r) = W3 m c (Proc.devRef .tc r) := by
  unfold W4; exact StableHlo.after_of_writes_sub hostOps1_1 _ hostOps1_1_writes h
theorem W5_keep (c : Dev nD) (r : Ref sig .tc) (h : r ∉ hostOps1_2_W) :
    W5 m c (Proc.devRef .tc r) = W4 m c (Proc.devRef .tc r) := by
  unfold W5; exact StableHlo.after_of_writes_sub hostOps1_2 _ hostOps1_2_writes h
theorem W7_keep (c : Dev nD) (r : Ref sig .tc) (h : r ∉ hostOps2_W) :
    W7 m c (Proc.devRef .tc r) = W6 m c (Proc.devRef .tc r) := by
  unfold W7; exact StableHlo.after_of_writes_sub hostOps2 _ hostOps2_writes h
theorem W10_keep (c : Dev nD) (r : Ref sig .tc) (h : r ∉ hostOps4_W) :
    W10 m c (Proc.devRef .tc r) = W9 m c (Proc.devRef .tc r) := by
  unfold W10; exact StableHlo.after_of_writes_sub hostOps4 _ hostOps4_writes h
theorem W11_keep (c : Dev nD) (r : Ref sig .tc) (h : r ∉ hostOps4_1_W) :
    W11 m c (Proc.devRef .tc r) = W10 m c (Proc.devRef .tc r) := by
  unfold W11; exact StableHlo.after_of_writes_sub hostOps4_1 _ hostOps4_1_writes h
theorem W12_keep (c : Dev nD) (r : Ref sig .tc) (h : r ∉ hostOps4_2_W) :
    W12 m c (Proc.devRef .tc r) = W11 m c (Proc.devRef .tc r) := by
  unfold W12; exact StableHlo.after_of_writes_sub hostOps4_2 _ hostOps4_2_writes h
theorem W14_keep (c : Dev nD) (r : Ref sig .tc) (h : r ∉ hostOps5_W) :
    W14 m c (Proc.devRef .tc r) = W13 m c (Proc.devRef .tc r) := by
  unfold W14; exact StableHlo.after_of_writes_sub hostOps5 _ hostOps5_writes h

/-! ## The arguments end as launched -/

/-- `main_arg0` reaches the end as launched: no stretch writes it, and a region reads it at most through an input window. -/
theorem W15_main_arg0 (c : Dev nD) : W15 m c (Proc.devRef .tc main_arg0) = m ((c : Thread nD τ).loc main_arg0) :=
  (W15_of_ne m c main_arg0 (by decide)).trans <|
  (W14_keep m c main_arg0 (by decide)).trans <|
  (W13_of_ne m c main_arg0 (by decide)).trans <|
  (W12_keep m c main_arg0 (by decide)).trans <|
  (W11_keep m c main_arg0 (by decide)).trans <|
  (W10_keep m c main_arg0 (by decide)).trans <|
  (W9_of_ne m c main_arg0 (by decide)).trans <|
  (W8_of_ne m c main_arg0 (by decide)).trans <|
  (W7_keep m c main_arg0 (by decide)).trans <|
  (W6_of_ne m c main_arg0 (by decide)).trans <|
  (W5_keep m c main_arg0 (by decide)).trans <|
  (W4_keep m c main_arg0 (by decide)).trans <|
  (W3_keep m c main_arg0 (by decide)).trans <|
  ((W2_arr m c 0).trans (((dat0 (V1 m) c).arrAt_in 0 rfl _).trans (A_eq0 (V1 m) c 0))).trans <|
  (W1_keep m c main_arg0 (by decide))
/-- `main_arg1` reaches the end as launched: no stretch writes it, and a region reads it at most through an input window. -/
theorem W15_main_arg1 (c : Dev nD) : W15 m c (Proc.devRef .tc main_arg1) = m ((c : Thread nD τ).loc main_arg1) :=
  (W15_of_ne m c main_arg1 (by decide)).trans <|
  (W14_keep m c main_arg1 (by decide)).trans <|
  (W13_of_ne m c main_arg1 (by decide)).trans <|
  (W12_keep m c main_arg1 (by decide)).trans <|
  (W11_keep m c main_arg1 (by decide)).trans <|
  (W10_keep m c main_arg1 (by decide)).trans <|
  (W9_of_ne m c main_arg1 (by decide)).trans <|
  (W8_of_ne m c main_arg1 (by decide)).trans <|
  (W7_keep m c main_arg1 (by decide)).trans <|
  (W6_of_ne m c main_arg1 (by decide)).trans <|
  (W5_keep m c main_arg1 (by decide)).trans <|
  (W4_keep m c main_arg1 (by decide)).trans <|
  (W3_keep m c main_arg1 (by decide)).trans <|
  (W2_of_ne m c main_arg1 (by decide)).trans <|
  (W1_keep m c main_arg1 (by decide))
/-- `main_arg2` reaches the end as launched: no stretch writes it, and a region reads it at most through an input window. -/
theorem W15_main_arg2 (c : Dev nD) : W15 m c (Proc.devRef .tc main_arg2) = m ((c : Thread nD τ).loc main_arg2) :=
  (W15_of_ne m c main_arg2 (by decide)).trans <|
  (W14_keep m c main_arg2 (by decide)).trans <|
  (W13_of_ne m c main_arg2 (by decide)).trans <|
  (W12_keep m c main_arg2 (by decide)).trans <|
  (W11_keep m c main_arg2 (by decide)).trans <|
  (W10_keep m c main_arg2 (by decide)).trans <|
  (W9_of_ne m c main_arg2 (by decide)).trans <|
  (W8_of_ne m c main_arg2 (by decide)).trans <|
  (W7_keep m c main_arg2 (by decide)).trans <|
  (W6_of_ne m c main_arg2 (by decide)).trans <|
  (W5_keep m c main_arg2 (by decide)).trans <|
  (W4_keep m c main_arg2 (by decide)).trans <|
  (W3_keep m c main_arg2 (by decide)).trans <|
  (W2_of_ne m c main_arg2 (by decide)).trans <|
  (W1_keep m c main_arg2 (by decide))
/-- `main_arg3` reaches the end as launched: no stretch writes it, and a region reads it at most through an input window. -/
theorem W15_main_arg3 (c : Dev nD) : W15 m c (Proc.devRef .tc main_arg3) = m ((c : Thread nD τ).loc main_arg3) :=
  (W15_of_ne m c main_arg3 (by decide)).trans <|
  (W14_keep m c main_arg3 (by decide)).trans <|
  (W13_of_ne m c main_arg3 (by decide)).trans <|
  (W12_keep m c main_arg3 (by decide)).trans <|
  (W11_keep m c main_arg3 (by decide)).trans <|
  (W10_keep m c main_arg3 (by decide)).trans <|
  (W9_of_ne m c main_arg3 (by decide)).trans <|
  (W8_of_ne m c main_arg3 (by decide)).trans <|
  (W7_keep m c main_arg3 (by decide)).trans <|
  (W6_of_ne m c main_arg3 (by decide)).trans <|
  (W5_keep m c main_arg3 (by decide)).trans <|
  (W4_keep m c main_arg3 (by decide)).trans <|
  (W3_keep m c main_arg3 (by decide)).trans <|
  ((W2_arr m c 1).trans (((dat0 (V1 m) c).arrAt_in 1 rfl _).trans (A_eq0 (V1 m) c 1))).trans <|
  (W1_keep m c main_arg3 (by decide))
/-- `main_arg4` reaches the end as launched: no stretch writes it, and a region reads it at most through an input window. -/
theorem W15_main_arg4 (c : Dev nD) : W15 m c (Proc.devRef .tc main_arg4) = m ((c : Thread nD τ).loc main_arg4) :=
  (W15_of_ne m c main_arg4 (by decide)).trans <|
  (W14_keep m c main_arg4 (by decide)).trans <|
  (W13_of_ne m c main_arg4 (by decide)).trans <|
  (W12_keep m c main_arg4 (by decide)).trans <|
  (W11_keep m c main_arg4 (by decide)).trans <|
  (W10_keep m c main_arg4 (by decide)).trans <|
  (W9_of_ne m c main_arg4 (by decide)).trans <|
  (W8_of_ne m c main_arg4 (by decide)).trans <|
  (W7_keep m c main_arg4 (by decide)).trans <|
  (W6_of_ne m c main_arg4 (by decide)).trans <|
  (W5_keep m c main_arg4 (by decide)).trans <|
  (W4_keep m c main_arg4 (by decide)).trans <|
  (W3_keep m c main_arg4 (by decide)).trans <|
  (W2_of_ne m c main_arg4 (by decide)).trans <|
  (W1_keep m c main_arg4 (by decide))
/-- `main_arg5` reaches the end as launched: no stretch writes it, and a region reads it at most through an input window. -/
theorem W15_main_arg5 (c : Dev nD) : W15 m c (Proc.devRef .tc main_arg5) = m ((c : Thread nD τ).loc main_arg5) :=
  (W15_of_ne m c main_arg5 (by decide)).trans <|
  (W14_keep m c main_arg5 (by decide)).trans <|
  (W13_of_ne m c main_arg5 (by decide)).trans <|
  (W12_keep m c main_arg5 (by decide)).trans <|
  (W11_keep m c main_arg5 (by decide)).trans <|
  (W10_keep m c main_arg5 (by decide)).trans <|
  (W9_of_ne m c main_arg5 (by decide)).trans <|
  (W8_of_ne m c main_arg5 (by decide)).trans <|
  (W7_keep m c main_arg5 (by decide)).trans <|
  (W6_of_ne m c main_arg5 (by decide)).trans <|
  (W5_keep m c main_arg5 (by decide)).trans <|
  (W4_keep m c main_arg5 (by decide)).trans <|
  (W3_keep m c main_arg5 (by decide)).trans <|
  (W2_of_ne m c main_arg5 (by decide)).trans <|
  (W1_keep m c main_arg5 (by decide))
/-- `main_arg6` reaches the end as launched: no stretch writes it, and a region reads it at most through an input window. -/
theorem W15_main_arg6 (c : Dev nD) : W15 m c (Proc.devRef .tc main_arg6) = m ((c : Thread nD τ).loc main_arg6) :=
  (W15_of_ne m c main_arg6 (by decide)).trans <|
  (W14_keep m c main_arg6 (by decide)).trans <|
  (W13_of_ne m c main_arg6 (by decide)).trans <|
  (W12_keep m c main_arg6 (by decide)).trans <|
  (W11_keep m c main_arg6 (by decide)).trans <|
  (W10_keep m c main_arg6 (by decide)).trans <|
  (W9_of_ne m c main_arg6 (by decide)).trans <|
  (W8_of_ne m c main_arg6 (by decide)).trans <|
  (W7_keep m c main_arg6 (by decide)).trans <|
  (W6_of_ne m c main_arg6 (by decide)).trans <|
  (W5_keep m c main_arg6 (by decide)).trans <|
  (W4_keep m c main_arg6 (by decide)).trans <|
  (W3_keep m c main_arg6 (by decide)).trans <|
  (W2_of_ne m c main_arg6 (by decide)).trans <|
  (W1_keep m c main_arg6 (by decide))
/-- `main_arg7` reaches the end as launched: no stretch writes it, and a region reads it at most through an input window. -/
theorem W15_main_arg7 (c : Dev nD) : W15 m c (Proc.devRef .tc main_arg7) = m ((c : Thread nD τ).loc main_arg7) :=
  (W15_of_ne m c main_arg7 (by decide)).trans <|
  (W14_keep m c main_arg7 (by decide)).trans <|
  (W13_of_ne m c main_arg7 (by decide)).trans <|
  (W12_keep m c main_arg7 (by decide)).trans <|
  (W11_keep m c main_arg7 (by decide)).trans <|
  (W10_keep m c main_arg7 (by decide)).trans <|
  ((W9_arr m c 1).trans (((dat3 (V8 m) c).arrAt_in 1 rfl _).trans (A_eq3 (V8 m) c 1))).trans <|
  (W8_of_ne m c main_arg7 (by decide)).trans <|
  (W7_keep m c main_arg7 (by decide)).trans <|
  (W6_of_ne m c main_arg7 (by decide)).trans <|
  (W5_keep m c main_arg7 (by decide)).trans <|
  (W4_keep m c main_arg7 (by decide)).trans <|
  (W3_keep m c main_arg7 (by decide)).trans <|
  (W2_of_ne m c main_arg7 (by decide)).trans <|
  (W1_keep m c main_arg7 (by decide))
/-- `main_arg8` reaches the end as launched: no stretch writes it, and a region reads it at most through an input window. -/
theorem W15_main_arg8 (c : Dev nD) : W15 m c (Proc.devRef .tc main_arg8) = m ((c : Thread nD τ).loc main_arg8) :=
  (W15_of_ne m c main_arg8 (by decide)).trans <|
  (W14_keep m c main_arg8 (by decide)).trans <|
  (W13_of_ne m c main_arg8 (by decide)).trans <|
  (W12_keep m c main_arg8 (by decide)).trans <|
  (W11_keep m c main_arg8 (by decide)).trans <|
  (W10_keep m c main_arg8 (by decide)).trans <|
  (W9_of_ne m c main_arg8 (by decide)).trans <|
  (W8_of_ne m c main_arg8 (by decide)).trans <|
  (W7_keep m c main_arg8 (by decide)).trans <|
  (W6_of_ne m c main_arg8 (by decide)).trans <|
  (W5_keep m c main_arg8 (by decide)).trans <|
  (W4_keep m c main_arg8 (by decide)).trans <|
  (W3_keep m c main_arg8 (by decide)).trans <|
  (W2_of_ne m c main_arg8 (by decide)).trans <|
  (W1_keep m c main_arg8 (by decide))
/-- `main_arg9` reaches the end as launched: no stretch writes it, and a region reads it at most through an input window. -/
theorem W15_main_arg9 (c : Dev nD) : W15 m c (Proc.devRef .tc main_arg9) = m ((c : Thread nD τ).loc main_arg9) :=
  (W15_of_ne m c main_arg9 (by decide)).trans <|
  (W14_keep m c main_arg9 (by decide)).trans <|
  (W13_of_ne m c main_arg9 (by decide)).trans <|
  (W12_keep m c main_arg9 (by decide)).trans <|
  (W11_keep m c main_arg9 (by decide)).trans <|
  (W10_keep m c main_arg9 (by decide)).trans <|
  (W9_of_ne m c main_arg9 (by decide)).trans <|
  (W8_of_ne m c main_arg9 (by decide)).trans <|
  (W7_keep m c main_arg9 (by decide)).trans <|
  (W6_of_ne m c main_arg9 (by decide)).trans <|
  (W5_keep m c main_arg9 (by decide)).trans <|
  (W4_keep m c main_arg9 (by decide)).trans <|
  (W3_keep m c main_arg9 (by decide)).trans <|
  (W2_of_ne m c main_arg9 (by decide)).trans <|
  (W1_keep m c main_arg9 (by decide))
/-- `main_arg10` reaches the end as launched: no stretch writes it, and a region reads it at most through an input window. -/
theorem W15_main_arg10 (c : Dev nD) : W15 m c (Proc.devRef .tc main_arg10) = m ((c : Thread nD τ).loc main_arg10) :=
  (W15_of_ne m c main_arg10 (by decide)).trans <|
  (W14_keep m c main_arg10 (by decide)).trans <|
  (W13_of_ne m c main_arg10 (by decide)).trans <|
  (W12_keep m c main_arg10 (by decide)).trans <|
  (W11_keep m c main_arg10 (by decide)).trans <|
  (W10_keep m c main_arg10 (by decide)).trans <|
  (W9_of_ne m c main_arg10 (by decide)).trans <|
  (W8_of_ne m c main_arg10 (by decide)).trans <|
  (W7_keep m c main_arg10 (by decide)).trans <|
  (W6_of_ne m c main_arg10 (by decide)).trans <|
  (W5_keep m c main_arg10 (by decide)).trans <|
  (W4_keep m c main_arg10 (by decide)).trans <|
  (W3_keep m c main_arg10 (by decide)).trans <|
  (W2_of_ne m c main_arg10 (by decide)).trans <|
  (W1_keep m c main_arg10 (by decide))

/-! ## The frame, and the run with the result named -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨(h c _ (mem_uc main_arg0 (by decide))).trans (W15_main_arg0 m c),
     (h c _ (mem_uc main_arg1 (by decide))).trans (W15_main_arg1 m c),
     (h c _ (mem_uc main_arg2 (by decide))).trans (W15_main_arg2 m c),
     (h c _ (mem_uc main_arg3 (by decide))).trans (W15_main_arg3 m c),
     (h c _ (mem_uc main_arg4 (by decide))).trans (W15_main_arg4 m c),
     (h c _ (mem_uc main_arg5 (by decide))).trans (W15_main_arg5 m c),
     (h c _ (mem_uc main_arg6 (by decide))).trans (W15_main_arg6 m c),
     (h c _ (mem_uc main_arg7 (by decide))).trans (W15_main_arg7 m c),
     (h c _ (mem_uc main_arg8 (by decide))).trans (W15_main_arg8 m c),
     (h c _ (mem_uc main_arg9 (by decide))).trans (W15_main_arg9 m c),
     (h c _ (mem_uc main_arg10 (by decide))).trans (W15_main_arg10 m c)⟩) (run_all m ρ)

/-- The same run, with the result buffer at the last boundary's contents. -/
theorem run_result : θ_run defs (onTc (τ := τ) (main (F := F))) ⟨m, fun _ => 0, ρ⟩ (fun r => ∀ c : Dev nD,
      r.2.mem ((c.tc : Thread nD τ).loc main_v51) = W15 m c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨h c _ (mem_uc main_v51 (by decide)),
     (h c _ (mem_uc main_arg0 (by decide))).trans (W15_main_arg0 m c),
     (h c _ (mem_uc main_arg1 (by decide))).trans (W15_main_arg1 m c),
     (h c _ (mem_uc main_arg2 (by decide))).trans (W15_main_arg2 m c),
     (h c _ (mem_uc main_arg3 (by decide))).trans (W15_main_arg3 m c),
     (h c _ (mem_uc main_arg4 (by decide))).trans (W15_main_arg4 m c),
     (h c _ (mem_uc main_arg5 (by decide))).trans (W15_main_arg5 m c),
     (h c _ (mem_uc main_arg6 (by decide))).trans (W15_main_arg6 m c),
     (h c _ (mem_uc main_arg7 (by decide))).trans (W15_main_arg7 m c),
     (h c _ (mem_uc main_arg8 (by decide))).trans (W15_main_arg8 m c),
     (h c _ (mem_uc main_arg9 (by decide))).trans (W15_main_arg9 m c),
     (h c _ (mem_uc main_arg10 (by decide))).trans (W15_main_arg10 m c)⟩) (run_all m ρ)

end Cert.Kernel.Hand

end
-- ==== Proof.KernelIdeal.R0.lean ====
/-
  The first matrix product's region (pallas_call 0): row blocks of x times the whole weight W1.
  The body loads a row block of the left factor and the whole weight, multiplies them on the matrix unit into a zero
  accumulator, and stores the product block; nothing is kept between grid points. For any float instance.
-/
import proofs.«163396_j33732673143025_1_alg».proof.Proof.Gen.KernelIdeal.Launch
import proofs.«163396_j33732673143025_1_alg».proof.Proof.Gen.KernelIdeal.Skeleton
import proofs.«163396_j33732673143025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks

Window 0 walks the left factor in row blocks, window 1 is the whole weight at every point, window 2 the product's
row blocks. -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The left factor's current staging buffer holds its row block at every point. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight's staging buffer holds the whole weight at every point: fetched at the first, its index never moves. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_0 : Rect S4000x256 := Rect.unit (s := S4000x256) ![0, 0] S4000x256.size inb_S4000x256_S4000x256_0_0
abbrev r0_1 : Rect S256x128 := Rect.unit (s := S256x128) ![0, 0] S256x128.size inb_S256x128_S256x128_0_0
abbrev r0_2 : Rect S4000x128 := Rect.unit (s := S4000x128) ![0, 0] S4000x128.size inb_S4000x128_S4000x128_0_0

/-- The product block the body leaves in the output window's buffer: its one store, of the block product. -/
def out0_2 (x0 : Vec F S4000x256 .f32) (x1 : Vec F S256x128 .f32) : Vec F S4000x128 .f32 :=
  View.canon [⟨r0_2, k0_pay1 (View.ld x0 r0_0) (View.ld x1 r0_1)⟩]

/-- The one store covers the buffer. -/
theorem cover0_2 (p0 : Vec F S4000x128 .f32) (y : S4000x128.Idx) :
    ∃ pc ∈ ([⟨r0_2, p0⟩] : List (View.Piece (Elt F) S4000x128 .f32)), y ∈ pc.1.set :=
  View.cover_of_tiled [⟨r0_2, p0⟩] S4000x128.size (by rfl) y

/-! ## The body's triple -/

set_option maxHeartbeats 1000000 in
/-- On whole staging buffers, the factors' at `x0`, `x1` and the product's at anything, the body runs to its return
    with the factors as they were and the product's buffer at the block product. -/
theorem sound_kernel0 (c : Dev nD) (E : Set ℕ) (i : grid0.Coords) (arg1 : Memref sig .tc .vmem S4000x256 .f32) (harg1 : arg1.IsWhole)
    (arg2 : Memref sig .tc .vmem S256x128 .f32) (harg2 : arg2.IsWhole) (arg3 : Memref sig .tc .vmem S4000x128 .f32) (harg3 : arg3.IsWhole)
    (x0 : Vec F S4000x256 .f32) (x1 : Vec F S256x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- Pipeline 0's proof data on core `c`, from the contents `V` its region is entered at: after the body at point
    `t` each factor's buffer at its block and the product's at the block product; the invariant is the scoped buffers no
    window stages and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

/-- The invariant at the first point, from the generator register and the scoped buffers no window stages. -/
theorem Phi_in0 (c : Dev nD) :
    (iprop((∃ r, prngReg c r) ∗ Pipeline.scopedRest (Ix := Unit) (Name := ℕ) (U := Pipeline.UD sig nD τ) (Lvl := ℕ) (Val := Elt F) spec0 c) : sProp 𝕄)
      ⊢ (dat0 V c).Φ 0 := by
  rw [show (dat0 V c).Φ 0 = Pipeline.ΦA spec0 c from rfl]; unfold Pipeline.ΦA
  iintro ⟨Hp, Hr⟩
  isplitl [Hr]; · iexact Hr
  iexact Hp

/-- The invariant at the last point gives both back. -/
theorem Phi_out0 (c : Dev nD) :
    ((dat0 V c).Φ (Fin.last cfg0.N) : sProp 𝕄)
      ⊢ iprop((∃ r, prngReg c r) ∗ Pipeline.scopedRest (Ix := Unit) (Name := ℕ) (U := Pipeline.UD sig nD τ) (Lvl := ℕ) (Val := Elt F) spec0 c) := by
  rw [show (dat0 V c).Φ (Fin.last cfg0.N) = Pipeline.ΦA spec0 c from rfl]; unfold Pipeline.ΦA
  iintro ⟨Hr, Hp⟩
  isplitl [Hp]; · iexact Hp
  iexact Hr

end Cert.KernelIdeal.Hand

end
-- ==== Proof.KernelIdeal.R1.lean ====
/-
  The first statistics region (pallas_call 1): column sums of (A + b) and of its square, accumulated over ten row blocks in two scratch rows and written out at the last block.

  The body has three control cases over the grid: at the first point it zeroes the two scratch rows before adding the
  block's column sums; at the middle points it only adds; at the last point it adds and then copies the two scratch
  rows into the output windows' buffers. The scratch rows are carried from point to point by the invariant, at the
  running sums `acc1`; the output windows are idle (handed back untouched, not written back) everywhere but at the
  last point.
-/
import proofs.«163396_j33732673143025_1_alg».proof.Proof.Gen.KernelIdeal.Launch
import proofs.«163396_j33732673143025_1_alg».proof.Proof.Gen.KernelIdeal.Skeleton
import proofs.«163396_j33732673143025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WholeRead
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Whole-row loads and stores -/

/-- The two zero offsets of a rank-2 rectangle, as the constant function. -/
theorem zeros1 : (![0, 0] : Fin 2 → ℕ) = fun _ => 0 := by
  funext a; fin_cases a <;> rfl

/-- A load through the whole-shape rectangle of a whole memref held at the raw contents that read `X` reads `X`. -/
theorem readAt_unit_unread1 {κ : Kind} {sp : Space} {s : Shape} {e : EltTy} {m : Memref sig κ sp s e} (h : m.IsWhole)
    (X : s.Idx → Elt F e) {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread, View.ld_unit_zero ho inb]

/-- After a store through the whole-shape rectangle, last, the buffer reads the stored payload. -/
theorem read_writes_unit1 {κ : Kind} {sp : Space} {s : Shape} {e : EltTy} (v : View sig κ sp s e) (f : v.ty.Contents (Elt F))
    {off : Fin s.rank → ℕ} (ho : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon v f _ (fun y => ⟨_, List.mem_cons_self, View.mem_set_unit_zero ho inb y⟩),
    View.canon_cons_unit_zero ho inb w L]

/-! ## The body's branch conditions, decided over the grid -/

/-- The first conditional's condition (the point is the grid's first), from the grid coordinates. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val % 10 = 0 :=
  (by decide +kernel : ∀ t : Fin grid1.N, cond1_0 (grid1.coords t) ↔ t.val % 10 = 0)

/-- The second conditional's condition (the point is the grid's last). -/
abbrev cond1_1 (i : grid1.Coords) : Prop := k1_cond2 i = 1#1
theorem hcond1_1 : ∀ t : Fin cfg1.N, cond1_1 (grid1.coords t) ↔ t.val % 10 = 9 :=
  (by decide +kernel : ∀ t : Fin grid1.N, cond1_1 (grid1.coords t) ↔ t.val % 10 = 9)

/-- The input windows are never idle. -/
theorem live1_0 : ∀ t : Fin cfg1.N, cfg1.idle 0 (grid1.coords t) = false := by decide +kernel
theorem live1_1 : ∀ t : Fin cfg1.N, cfg1.idle 1 (grid1.coords t) = false := by decide +kernel
/-- The output windows are idle, and not written back, at every point but the last, where they are live. -/
theorem idle1_2 : ∀ t : Fin cfg1.N, ¬cond1_1 (grid1.coords t) → cfg1.idle 2 (grid1.coords t) = true := by decide +kernel
theorem idle1_3 : ∀ t : Fin cfg1.N, ¬cond1_1 (grid1.coords t) → cfg1.idle 3 (grid1.coords t) = true := by decide +kernel
theorem noFlush1_2 : ∀ t : Fin cfg1.N, ¬cond1_1 (grid1.coords t) → (cfg1.win 2).flush t = false := by decide +kernel
theorem noFlush1_3 : ∀ t : Fin cfg1.N, ¬cond1_1 (grid1.coords t) → (cfg1.win 3).flush t = false := by decide +kernel
theorem live1_2 : ∀ t : Fin cfg1.N, cond1_1 (grid1.coords t) → cfg1.idle 2 (grid1.coords t) = false := by decide +kernel
theorem live1_3 : ∀ t : Fin cfg1.N, cond1_1 (grid1.coords t) → cfg1.idle 3 (grid1.coords t) = false := by decide +kernel

/-! ## The kernel body on any whole memrefs, case by case -/

set_option maxHeartbeats 1000000 in
/-- FIRST POINT. The scratch rows at anything; the body zeroes them, adds the block's column sums, and leaves the
    output buffers as they were. -/
theorem run1_A (c : Dev nD) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond1_0 i) (hc1 : ¬cond1_1 i)
    (x0 : Vec F S10000x128 .f32) (x1 xi2 xi3 : Vec F S1x128 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k1_pay4 x0 x1 (k1_pay1 (F := F)))
            ∗ owns (c : Thread nD τ) arg6 fullShare (k1_pay5 x0 x1 (k1_pay2 (F := F)))) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg1.eq_unread hf0; obtain rfl := harg2.eq_unread hf1
  obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    rw [read_writes_unit1 (s := S1x128) _ _ zeros1, readAt_unit_unread1 harg1 _ zeros1, readAt_unit_unread1 harg2 _ zeros1,
      View.readCov_cons_toLoadRect]
  · iexists _; isplitr
    swap; · iexact HS1
    ipureintro
    sl_unfold_run_names
    rw [read_writes_unit1 (s := S1x128) _ _ zeros1, readAt_unit_unread1 harg1 _ zeros1, readAt_unit_unread1 harg2 _ zeros1,
      View.readCov_cons_toLoadRect]

set_option maxHeartbeats 1000000 in
/-- MIDDLE POINTS. The scratch rows at the running sums `xs0`, `xs1`; the body adds the block's column sums and
    leaves the output buffers as they were. -/
theorem run1_B (c : Dev nD) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : ¬cond1_1 i)
    (x0 : Vec F S10000x128 .f32) (x1 xi2 xi3 xs0 xs1 : Vec F S1x128 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k1_pay4 x0 x1 xs0)
            ∗ owns (c : Thread nD τ) arg6 fullShare (k1_pay5 x0 x1 xs1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    rw [read_writes_unit1 (s := S1x128) _ _ zeros1, readAt_unit_unread1 harg1 _ zeros1, readAt_unit_unread1 harg2 _ zeros1,
      readAt_unit_unread1 harg5 _ zeros1]
  · iexists _; isplitr
    swap; · iexact HS1
    ipureintro
    sl_unfold_run_names
    rw [read_writes_unit1 (s := S1x128) _ _ zeros1, readAt_unit_unread1 harg1 _ zeros1, readAt_unit_unread1 harg2 _ zeros1,
      readAt_unit_unread1 harg6 _ zeros1]

set_option maxHeartbeats 1000000 in
/-- LAST POINT. The scratch rows at the running sums; the body adds the block's column sums and copies the two rows
    into the output buffers, held at anything before. -/
theorem run1_C (c : Dev nD) (i : grid1.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond1_0 i) (hc1 : cond1_1 i)
    (x0 : Vec F S10000x128 .f32) (x1 xs0 xs1 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare (k1_pay4 x0 x1 xs0) ∗ owns (c : Thread nD τ) arg4 fullShare (k1_pay5 x0 x1 xs1)
            ∗ owns (c : Thread nD τ) arg5 fullShare (k1_pay4 x0 x1 xs0)
            ∗ owns (c : Thread nD τ) arg6 fullShare (k1_pay5 x0 x1 xs1)) -∗ K ⟨⟩))
      ⊢ wp frame (wpE (defs₀ (F := F)) Variants.none c none) E (cc1__stats_kernel i arg1 harg1 arg2 harg2 arg3 harg3 arg4 harg4 arg5 harg5 arg6 harg6) K := by
  simp only [cc1__stats_kernel_eq_skeleton]; unfold cc1__stats_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  obtain rfl := harg1.eq_unread hf0; obtain rfl := harg2.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [read_writes_unit1 (s := S1x128) _ _ zeros1, View.readCov_cons_toLoadRect, readAt_unit_unread1 harg1 _ zeros1,
      readAt_unit_unread1 harg2 _ zeros1, readAt_unit_unread1 harg5 _ zeros1]
  isplitl [H3]
  · iexists _; isplitr
    swap; · iexact H3
    ipureintro
    sl_unfold_run_names
    rw [read_writes_unit1 (s := S1x128) _ _ zeros1, View.readCov_cons_toLoadRect, readAt_unit_unread1 harg1 _ zeros1,
      readAt_unit_unread1 harg2 _ zeros1, readAt_unit_unread1 harg6 _ zeros1]
  isplitl [HS0]
  · iexists _; isplitr
    swap; · iexact HS0
    ipureintro
    sl_unfold_run_names
    rw [read_writes_unit1 (s := S1x128) _ _ zeros1, readAt_unit_unread1 harg1 _ zeros1, readAt_unit_unread1 harg2 _ zeros1,
      readAt_unit_unread1 harg5 _ zeros1]
  · iexists _; isplitr
    swap; · iexact HS1
    ipureintro
    sl_unfold_run_names
    rw [read_writes_unit1 (s := S1x128) _ _ zeros1, readAt_unit_unread1 harg1 _ zeros1, readAt_unit_unread1 harg2 _ zeros1,
      readAt_unit_unread1 harg6 _ zeros1]

/-! ## The staging memrefs at a point, the scratch rows, the windows' blocks -/

variable (V : (c : Dev nD) → (b : Ref sig .tc) → Buf (Elt F) ((c : Thread nD τ).loc b))

abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
/-- The two scratch rows: whole scoped buffers of the kernel's own. -/
abbrev scM1_0 : Memref sig .tc .vmem S1x128 .f32 := Memref.whole cc1_scratch0
abbrev scM1_1 : Memref sig .tc .vmem S1x128 .f32 := Memref.whole cc1_scratch1

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The running sums -/

/-- What the two scratch rows hold after the body at position `n`: at the first point the block's column sums added
    to the zero row, afterwards added to what the point before left. -/
def acc1 (c : Dev nD) : (n : ℕ) → n < cfg1.N → Vec F S1x128 .f32 × Vec F S1x128 .f32
  | 0, hn => (k1_pay4 (iblk1 V c 0 ⟨0, hn⟩) (iblk1 V c 1 ⟨0, hn⟩) (k1_pay1 (F := F)),
              k1_pay5 (iblk1 V c 0 ⟨0, hn⟩) (iblk1 V c 1 ⟨0, hn⟩) (k1_pay2 (F := F)))
  | n + 1, hn => (k1_pay4 (iblk1 V c 0 ⟨n + 1, hn⟩) (iblk1 V c 1 ⟨n + 1, hn⟩) (acc1 c n (Nat.lt_of_succ_lt hn)).1,
                  k1_pay5 (iblk1 V c 0 ⟨n + 1, hn⟩) (iblk1 V c 1 ⟨n + 1, hn⟩) (acc1 c n (Nat.lt_of_succ_lt hn)).2)

theorem acc1_zero (c : Dev nD) (t : Fin cfg1.N) (hz : t.val = 0) :
    acc1 V c t.val t.isLt = (k1_pay4 (iblk1 V c 0 t) (iblk1 V c 1 t) (k1_pay1 (F := F)),
      k1_pay5 (iblk1 V c 0 t) (iblk1 V c 1 t) (k1_pay2 (F := F))) := by
  obtain ⟨n, hn⟩ := t
  cases n with
  | zero => rfl
  | succ n => exact absurd hz (Nat.succ_ne_zero n)

theorem acc1_pos (c : Dev nD) (t : Fin cfg1.N) (hz : t.val ≠ 0) :
    acc1 V c t.val t.isLt = (k1_pay4 (iblk1 V c 0 t) (iblk1 V c 1 t) (acc1 V c (t.val - 1) (Nat.lt_of_le_of_lt (Nat.sub_le _ _) t.isLt)).1,
      k1_pay5 (iblk1 V c 0 t) (iblk1 V c 1 t) (acc1 V c (t.val - 1) (Nat.lt_of_le_of_lt (Nat.sub_le _ _) t.isLt)).2) := by
  obtain ⟨n, hn⟩ := t
  cases n with
  | zero => exact absurd rfl hz
  | succ n => rfl

/-! ## The invariant -/

/-- The scoped buffers that are neither staging buffers nor the two scratch rows, unopened. -/
abbrev rest1 (c : Dev nD) : sProp 𝕄 :=
  Pipeline.scopedRestBut (Ix := Unit) (Name := ℕ) (U := Pipeline.UD sig nD τ) (Lvl := ℕ) (Val := Elt F) spec1 c [cc1_scratch0, cc1_scratch1]

/-- The invariant before position `n`: before the first point the two scratch rows at anything, afterwards at the
    running sums the point before left; beside them the other scoped buffers and the generator register. -/
def Phi1 (c : Dev nD) : (n : ℕ) → n ≤ cfg1.N → sProp 𝕄
  | 0, _ => iprop(iprop((∃ d, owns (c : Thread nD τ) scM1_0 fullShare d) ∗ (∃ d, owns (c : Thread nD τ) scM1_1 fullShare d)) ∗ rest1 c ∗ (∃ r, prngReg c r))
  | n + 1, hn => iprop(iprop(owns (c : Thread nD τ) scM1_0 fullShare (acc1 V c n hn).1 ∗ owns (c : Thread nD τ) scM1_1 fullShare (acc1 V c n hn).2) ∗ rest1 c ∗ (∃ r, prngReg c r))

theorem Phi1_zero (c : Dev nD) (n : ℕ) (h : n ≤ cfg1.N) (hz : n = 0) :
    Phi1 V c n h = iprop(iprop((∃ d, owns (c : Thread nD τ) scM1_0 fullShare d) ∗ (∃ d, owns (c : Thread nD τ) scM1_1 fullShare d)) ∗ rest1 c ∗ (∃ r, prngReg c r)) := by
  subst hz; rfl

theorem Phi1_succ (c : Dev nD) (n : ℕ) (hn : n < cfg1.N) :
    Phi1 V c (n + 1) hn = iprop(iprop(owns (c : Thread nD τ) scM1_0 fullShare (acc1 V c n hn).1 ∗ owns (c : Thread nD τ) scM1_1 fullShare (acc1 V c n hn).2) ∗ rest1 c ∗ (∃ r, prngReg c r)) := rfl

theorem Phi1_pos (c : Dev nD) (n : ℕ) (h : n ≤ cfg1.N) (hz : n ≠ 0) :
    Phi1 V c n h = iprop(iprop(owns (c : Thread nD τ) scM1_0 fullShare (acc1 V c (n - 1) (by omega)).1 ∗ owns (c : Thread nD τ) scM1_1 fullShare (acc1 V c (n - 1) (by omega)).2) ∗ rest1 c ∗ (∃ r, prngReg c r)) := by
  cases n with
  | zero => exact absurd rfl hz
  | succ n => rfl

/-! ## The proof data -/

/-- Pipeline 1's proof data on core `c`, from the contents `V` its region is entered at. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (acc1 V c t.val t.isLt).1
    | ⟨3, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (acc1 V c t.val t.isLt).1 := by dsimp only [dat1]
theorem after1_3 (c : Dev nD) (t : Fin cfg1.N) : (dat1 V c).after 3 t = (acc1 V c t.val t.isLt).2 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which of the three cases the
    point is in; the invariant hands the body the scratch rows (at anything at the first point, at the running sums
    afterwards) and takes them back at this point's running sums; the output buffers are handed back untouched except
    at the last point, where they receive the sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  have hN : t.val < 10 := lt_of_lt_of_eq t.isLt (show cfg1.N = 10 from N_1)
  by_cases h1 : t.val % 10 = 9
  · have h0 : ¬ t.val % 10 = 0 := by omega
    have hz : t.val ≠ 0 := by omega
    rw [show (dat1 V c).leavesExact 2 t = owns (c : Thread nD τ) (ms1_2 t) fullShare ((dat1 V c).after 2 t) from by
      unfold Dat.leavesExact; rw [live1_2 t ((hcond1_1 t).mpr h1)], after1_2]
    rw [show (dat1 V c).leavesExact 3 t = owns (c : Thread nD τ) (ms1_3 t) fullShare ((dat1 V c).after 3 t) from by
      unfold Dat.leavesExact; rw [live1_3 t ((hcond1_1 t).mpr h1)], after1_3]
    rw [acc1_pos V c t hz]
    rw [Phi1_castSucc V c t, Phi1_pos V c _ _ hz]
    iintro ⟨⟨⟨HS0, HS1⟩, Hr, Hg⟩, Ho, ⟨%d0, H0⟩, ⟨%d1, H1⟩, ⟨%d2, H2⟩, ⟨%d3, H3⟩⟩
    iapply (run1_C c (grid1.coords t) _ _ _ _ _ _ _ _ _ _ _ _ (fun h => h0 ((hcond1_0 t).mp h)) ((hcond1_1 t).mpr h1)
      (iblk1 V c 0 t) (iblk1 V c 1 t) _ _ Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat1 V c) 2 t (idle1_2 t (fun h => h1 ((hcond1_1 t).mp h))) (noFlush1_2 t (fun h => h1 ((hcond1_1 t).mp h)))]
    rw [Dat.leavesExact_idle (dat1 V c) 3 t (idle1_3 t (fun h => h1 ((hcond1_1 t).mp h))) (noFlush1_3 t (fun h => h1 ((hcond1_1 t).mp h)))]
    by_cases h0 : t.val % 10 = 0
    · have hz : t.val = 0 := by omega
      rw [acc1_zero V c t hz]
      rw [Phi1_castSucc V c t, Phi1_zero V c _ _ hz]
      iintro ⟨⟨⟨HS0, HS1⟩, Hr, Hg⟩, Ho, ⟨%d0, H0⟩, ⟨%d1, H1⟩, ⟨%d2, H2⟩, ⟨%d3, H3⟩⟩
      iapply (run1_A c (grid1.coords t) _ _ _ _ _ _ _ _ _ _ _ _ ((hcond1_0 t).mpr h0) (fun h => h1 ((hcond1_1 t).mp h))
        (iblk1 V c 0 t) (iblk1 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexists _; iexact H2
      iexists _; iexact H3
    · have hz : t.val ≠ 0 := by omega
      rw [acc1_pos V c t hz]
      rw [Phi1_castSucc V c t, Phi1_pos V c _ _ hz]
      iintro ⟨⟨⟨HS0, HS1⟩, Hr, Hg⟩, Ho, ⟨%d0, H0⟩, ⟨%d1, H1⟩, ⟨%d2, H2⟩, ⟨%d3, H3⟩⟩
      iapply (run1_B c (grid1.coords t) _ _ _ _ _ _ _ _ _ _ _ _ (fun h => h0 ((hcond1_0 t).mp h)) (fun h => h1 ((hcond1_1 t).mp h))
        (iblk1 V c 0 t) (iblk1 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexists _; iexact H2
      iexists _; iexact H3

/-- The body obligation at every grid point. -/
theorem body_obligation1 (c : Dev nD) : BodyObligation (dat1 (F := F) V c) (defs₀ (F := F)) Variants.none () Set.univ := fun t => by
  rw [bigSep_W1, bigSep_W1]
  exact sound_body1 V c t

/-- The invariant at the first point, from the generator register and the scoped buffers no window stages. -/
theorem Phi_in1 (c : Dev nD) :
    (iprop((∃ r, prngReg c r) ∗ Pipeline.scopedRest (Ix := Unit) (Name := ℕ) (U := Pipeline.UD sig nD τ) (Lvl := ℕ) (Val := Elt F) spec1 c) : sProp 𝕄)
      ⊢ (dat1 V c).Φ 0 := by
  rw [show (dat1 V c).Φ 0 = Phi1 V c 0 (Nat.zero_le _) from rfl, Phi1_zero V c 0 _ rfl, scopedRest1_split]
  simp only [scM1_0, scM1_1, owns_whole]
  iintro ⟨Hg, ⟨HS0, HS1⟩, Hr⟩
  isplitl [HS0 HS1]
  · isplitl [HS0]; · iexact HS0
    iexact HS1
  isplitl [Hr]; · iexact Hr
  iexact Hg

/-- The invariant at the last point gives both back. -/
theorem Phi_out1 (c : Dev nD) :
    ((dat1 V c).Φ (Fin.last cfg1.N) : sProp 𝕄)
      ⊢ iprop((∃ r, prngReg c r) ∗ Pipeline.scopedRest (Ix := Unit) (Name := ℕ) (U := Pipeline.UD sig nD τ) (Lvl := ℕ) (Val := Elt F) spec1 c) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 10 := N_1; omega), scopedRest1_split]
  simp only [scM1_0, scM1_1, owns_whole]
  iintro ⟨⟨HS0, HS1⟩, Hr, Hg⟩
  isplitl [Hg]; · iexact Hg
  isplitl [HS0 HS1]
  · isplitl [HS0]; · iexists _; iexact HS0
    iexists _; iexact HS1
  iexact Hr

end Cert.KernelIdeal.Hand

end
-- ==== Proof.KernelIdeal.R2.lean ====
/-
  The first normalisation region (pallas_call 2): each row block normalised, scaled, shifted and clamped at zero.

  The region's grid has ten points, one per block of 10000 rows. At a point the body reads the row block of the
  array A and the five parameter rows (added row, mean, variance, scale, shift), forms
  max(((A + b) - mean) * rsqrt(var + eps) * g + beta, 0) entry by entry, and writes it over the whole output block.
  Nothing else of the core's state is read or written, so the region's invariant is the untouched remainder.
-/
import proofs.«163396_j33732673143025_1_alg».proof.Proof.Gen.KernelIdeal.Launch
import proofs.«163396_j33732673143025_1_alg».proof.Proof.Gen.KernelIdeal.Skeleton
import proofs.«163396_j33732673143025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## Blocks of the entry arrays -/

/-- The block of window `w` at grid point `t`, cut out of the array the region was entered with. -/
def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

/-- Input window 0: whenever the body starts, its buffer holds the window's block at that point. If the point
    fetched it, that is what a fetch delivers; if not, the block index is the previous point's and the body left
    the buffer alone, so it still holds the same block. -/
theorem before2_0_of {c : Dev nD} (dat : Dat τ (Elt F) Unit ℕ (Pipeline.UD sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl

/-- Input window 1: whenever the body starts, its buffer holds the window's block at that point. If the point
    fetched it, that is what a fetch delivers; if not, the block index is the previous point's and the body left
    the buffer alone, so it still holds the same block. -/
theorem before2_1_of {c : Dev nD} (dat : Dat τ (Elt F) Unit ℕ (Pipeline.UD sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  have hkeep : ∀ t, (cfg2.win 1).cut (cfg2.grid.coords t) (dat.after 1 t) = dat.blockOf 1 t := fun t => by
    rw [hafter]; unfold Dat.blockOf iblk2; rw [hA]; try rfl
  rw [dat.before_in_eq_fetched 1 rfl (fun _ => rfl) (fun _ _ _ => rfl) hkeep t d]
  unfold Dat.fetched Dat.blockOf iblk2; rw [hA]; try rfl

/-- Input window 2: whenever the body starts, its buffer holds the window's block at that point. If the point
    fetched it, that is what a fetch delivers; if not, the block index is the previous point's and the body left
    the buffer alone, so it still holds the same block. -/
theorem before2_2_of {c : Dev nD} (dat : Dat τ (Elt F) Unit ℕ (Pipeline.UD sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  have hkeep : ∀ t, (cfg2.win 2).cut (cfg2.grid.coords t) (dat.after 2 t) = dat.blockOf 2 t := fun t => by
    rw [hafter]; unfold Dat.blockOf iblk2; rw [hA]; try rfl
  rw [dat.before_in_eq_fetched 2 rfl (fun _ => rfl) (fun _ _ _ => rfl) hkeep t d]
  unfold Dat.fetched Dat.blockOf iblk2; rw [hA]; try rfl

/-- Input window 3: whenever the body starts, its buffer holds the window's block at that point. If the point
    fetched it, that is what a fetch delivers; if not, the block index is the previous point's and the body left
    the buffer alone, so it still holds the same block. -/
theorem before2_3_of {c : Dev nD} (dat : Dat τ (Elt F) Unit ℕ (Pipeline.UD sig nD τ) ℕ cfg2 c)
    (hA : dat.A 3 = V c (Pipeline.arrRef spec2 3)) (hafter : ∀ t, dat.after 3 t = iblk2 V c 3 t)
    (t : Fin cfg2.N) (d) : dat.before 3 t d = iblk2 V c 3 t := by
  have hkeep : ∀ t, (cfg2.win 3).cut (cfg2.grid.coords t) (dat.after 3 t) = dat.blockOf 3 t := fun t => by
    rw [hafter]; unfold Dat.blockOf iblk2; rw [hA]; try rfl
  rw [dat.before_in_eq_fetched 3 rfl (fun _ => rfl) (fun _ _ _ => rfl) hkeep t d]
  unfold Dat.fetched Dat.blockOf iblk2; rw [hA]; try rfl

/-- Input window 4: whenever the body starts, its buffer holds the window's block at that point. If the point
    fetched it, that is what a fetch delivers; if not, the block index is the previous point's and the body left
    the buffer alone, so it still holds the same block. -/
theorem before2_4_of {c : Dev nD} (dat : Dat τ (Elt F) Unit ℕ (Pipeline.UD sig nD τ) ℕ cfg2 c)
    (hA : dat.A 4 = V c (Pipeline.arrRef spec2 4)) (hafter : ∀ t, dat.after 4 t = iblk2 V c 4 t)
    (t : Fin cfg2.N) (d) : dat.before 4 t d = iblk2 V c 4 t := by
  have hkeep : ∀ t, (cfg2.win 4).cut (cfg2.grid.coords t) (dat.after 4 t) = dat.blockOf 4 t := fun t => by
    rw [hafter]; unfold Dat.blockOf iblk2; rw [hA]; try rfl
  rw [dat.before_in_eq_fetched 4 rfl (fun _ => rfl) (fun _ _ _ => rfl) hkeep t d]
  unfold Dat.fetched Dat.blockOf iblk2; rw [hA]; try rfl

/-- Input window 5: whenever the body starts, its buffer holds the window's block at that point. If the point
    fetched it, that is what a fetch delivers; if not, the block index is the previous point's and the body left
    the buffer alone, so it still holds the same block. -/
theorem before2_5_of {c : Dev nD} (dat : Dat τ (Elt F) Unit ℕ (Pipeline.UD sig nD τ) ℕ cfg2 c)
    (hA : dat.A 5 = V c (Pipeline.arrRef spec2 5)) (hafter : ∀ t, dat.after 5 t = iblk2 V c 5 t)
    (t : Fin cfg2.N) (d) : dat.before 5 t d = iblk2 V c 5 t := by
  have hkeep : ∀ t, (cfg2.win 5).cut (cfg2.grid.coords t) (dat.after 5 t) = dat.blockOf 5 t := fun t => by
    rw [hafter]; unfold Dat.blockOf iblk2; rw [hA]; try rfl
  rw [dat.before_in_eq_fetched 5 rfl (fun _ => rfl) (fun _ _ _ => rfl) hkeep t d]
  unfold Dat.fetched Dat.blockOf iblk2; rw [hA]; try rfl

/-! ## The body's reads and its one write -/

/-- The whole of a [10000,128] block, and the whole of a [1,128] row: the only rectangles the body touches. -/
abbrev r2_0 : Rect S10000x128 := Rect.unit (s := S10000x128) ![0, 0] S10000x128.size inb_S10000x128_S10000x128_0_0
abbrev r2_1 : Rect S1x128 := Rect.unit (s := S1x128) ![0, 0] S1x128.size inb_S1x128_S1x128_0_0

/-- The output buffer after the body, from what the six input buffers hold: the single store, over the whole block,
    of the normalised, scaled, shifted and clamped entries. The body reads the variance row (window 3) before the
    mean row (window 2); the payload takes them in the order they were read. -/
def out2_6 (x0 : Vec F S10000x128 .f32) (x1 x2 x3 x4 x5 : Vec F S1x128 .f32) : Vec F S10000x128 .f32 :=
  View.canon [⟨r2_0, k2_pay1 (View.ld x0 r2_0) (View.ld x1 r2_1) (View.ld x3 r2_1) (View.ld x2 r2_1)
    (View.ld x4 r2_1) (View.ld x5 r2_1)⟩]

/-- One store over the whole block reaches every entry of it. -/
theorem cover2_6 (p0 : Vec F S10000x128 .f32) (y : S10000x128.Idx) :
    ∃ pc ∈ ([⟨r2_0, p0⟩] : List (View.Piece (Elt F) S10000x128 .f32)), y ∈ pc.1.set :=
  View.cover_of_tiled [⟨r2_0, p0⟩] S10000x128.size (by rfl) y

/-! ## The body as a triple -/

set_option maxHeartbeats 1000000 in
/-- Run on whole buffers, the six inputs' at known contents and the output's at anything, the body ends with the
    inputs' contents as they were and the output's at `out2_6` of them. -/
theorem sound_kernel2 (c : Dev nD) (E : Set ℕ) (i : grid2.Coords)
    (arg1 : Memref sig .tc .vmem S10000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S10000x128 .f32) (harg7 : arg7.IsWhole)
    (x0 : Vec F S10000x128 .f32) (x1 x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__norm_kernel i arg1 harg1 arg2 harg2 arg3 harg3 arg4 harg4 arg5 harg5 arg6 harg6 arg7 harg7) K := by
  simp only [cc2__norm_kernel_eq_skeleton]; unfold cc2__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-! ## The region's proof data -/

/-- Pipeline 2's proof data on core `c`, from the contents `V` its region is entered at: after the body at point
    `t` every input buffer still holds its block and the output buffer holds `out2_6` of the six blocks. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by
  dsimp only [dat2]

/-- What the body finds in each input buffer. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is started with at point `t`: the invariant, the core's debt, and the seven current buffers. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it must hand back. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at point `t`: the input buffers hold their blocks, so the triple above applies; the invariant and the
    debt are neither read nor changed. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ (grid2.coords t) _ _ _ _ _ _ _ _ _ _ _ _ _ _
    (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation2 (c : Dev nD) : BodyObligation (dat2 (F := F) V c) (defs₀ (F := F)) Variants.none () Set.univ := fun t => by
  rw [bigSep_W2, bigSep_W2]
  exact sound_body2 V c t

/-! ## The invariant at the region's two ends -/

/-- The invariant at the first point, from the generator register and the scoped buffers no window stages. -/
theorem Phi_in2 (c : Dev nD) :
    (iprop((∃ r, prngReg c r) ∗ Pipeline.scopedRest (Ix := Unit) (Name := ℕ) (U := Pipeline.UD sig nD τ) (Lvl := ℕ) (Val := Elt F) spec2 c) : sProp 𝕄)
      ⊢ (dat2 V c).Φ 0 := by
  show _ ⊢ Pipeline.ΦA spec2 c
  unfold Pipeline.ΦA
  iintro ⟨Hr, Hs⟩
  isplitl [Hs]; · iexact Hs
  iexact Hr

/-- The invariant at the last point gives both back. -/
theorem Phi_out2 (c : Dev nD) :
    ((dat2 V c).Φ (Fin.last cfg2.N) : sProp 𝕄)
      ⊢ iprop((∃ r, prngReg c r) ∗ Pipeline.scopedRest (Ix := Unit) (Name := ℕ) (U := Pipeline.UD sig nD τ) (Lvl := ℕ) (Val := Elt F) spec2 c) := by
  show Pipeline.ΦA spec2 c ⊢ _
  unfold Pipeline.ΦA
  iintro ⟨Hs, Hr⟩
  isplitl [Hr]; · iexact Hr
  iexact Hs

end Cert.KernelIdeal.Hand

end
-- ==== Proof.KernelIdeal.R3.lean ====
/-
  The second matrix product's region (pallas_call 3): row blocks of the first layer's output times the whole weight W2.
  The body loads a row block of the left factor and the whole weight, multiplies them on the matrix unit into a zero
  accumulator, and stores the product block; nothing is kept between grid points. For any float instance.
-/
import proofs.«163396_j33732673143025_1_alg».proof.Proof.Gen.KernelIdeal.Launch
import proofs.«163396_j33732673143025_1_alg».proof.Proof.Gen.KernelIdeal.Skeleton
import proofs.«163396_j33732673143025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## The windows' blocks

Window 0 walks the left factor in row blocks, window 1 is the whole weight at every point, window 2 the product's
row blocks. -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The left factor's current staging buffer holds its row block at every point. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The weight's staging buffer holds the whole weight at every point: fetched at the first, its index never moves. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer whole -/

abbrev r3_0 : Rect S4000x128 := Rect.unit (s := S4000x128) ![0, 0] S4000x128.size inb_S4000x128_S4000x128_0_0
abbrev r3_1 : Rect S128x128 := Rect.unit (s := S128x128) ![0, 0] S128x128.size inb_S128x128_S128x128_0_0
abbrev r3_2 : Rect S4000x128 := Rect.unit (s := S4000x128) ![0, 0] S4000x128.size inb_S4000x128_S4000x128_0_0

/-- The product block the body leaves in the output window's buffer: its one store, of the block product. -/
def out3_2 (x0 : Vec F S4000x128 .f32) (x1 : Vec F S128x128 .f32) : Vec F S4000x128 .f32 :=
  View.canon [⟨r3_2, k3_pay1 (View.ld x0 r3_0) (View.ld x1 r3_1)⟩]

/-- The one store covers the buffer. -/
theorem cover3_2 (p0 : Vec F S4000x128 .f32) (y : S4000x128.Idx) :
    ∃ pc ∈ ([⟨r3_2, p0⟩] : List (View.Piece (Elt F) S4000x128 .f32)), y ∈ pc.1.set :=
  View.cover_of_tiled [⟨r3_2, p0⟩] S4000x128.size (by rfl) y

/-! ## The body's triple -/

set_option maxHeartbeats 1000000 in
/-- On whole staging buffers, the factors' at `x0`, `x1` and the product's at anything, the body runs to its return
    with the factors as they were and the product's buffer at the block product. -/
theorem sound_kernel3 (c : Dev nD) (E : Set ℕ) (i : grid3.Coords) (arg1 : Memref sig .tc .vmem S4000x128 .f32) (harg1 : arg1.IsWhole)
    (arg2 : Memref sig .tc .vmem S128x128 .f32) (harg2 : arg2.IsWhole) (arg3 : Memref sig .tc .vmem S4000x128 .f32) (harg3 : arg3.IsWhole)
    (x0 : Vec F S4000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- Pipeline 3's proof data on core `c`, from the contents `V` its region is entered at: after the body at point
    `t` each factor's buffer at its block and the product's at the block product; the invariant is the scoped buffers no
    window stages and the generator register, untouched; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the factors' buffers hold their blocks, so the triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ (grid3.coords t) _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation3 (c : Dev nD) : BodyObligation (dat3 (F := F) V c) (defs₀ (F := F)) Variants.none () Set.univ := fun t => by
  rw [bigSep_W3, bigSep_W3]
  exact sound_body3 V c t

/-- The invariant at the first point, from the generator register and the scoped buffers no window stages. -/
theorem Phi_in3 (c : Dev nD) :
    (iprop((∃ r, prngReg c r) ∗ Pipeline.scopedRest (Ix := Unit) (Name := ℕ) (U := Pipeline.UD sig nD τ) (Lvl := ℕ) (Val := Elt F) spec3 c) : sProp 𝕄)
      ⊢ (dat3 V c).Φ 0 := by
  rw [show (dat3 V c).Φ 0 = Pipeline.ΦA spec3 c from rfl]; unfold Pipeline.ΦA
  iintro ⟨Hp, Hr⟩
  isplitl [Hr]; · iexact Hr
  iexact Hp

/-- The invariant at the last point gives both back. -/
theorem Phi_out3 (c : Dev nD) :
    ((dat3 V c).Φ (Fin.last cfg3.N) : sProp 𝕄)
      ⊢ iprop((∃ r, prngReg c r) ∗ Pipeline.scopedRest (Ix := Unit) (Name := ℕ) (U := Pipeline.UD sig nD τ) (Lvl := ℕ) (Val := Elt F) spec3 c) := by
  rw [show (dat3 V c).Φ (Fin.last cfg3.N) = Pipeline.ΦA spec3 c from rfl]; unfold Pipeline.ΦA
  iintro ⟨Hr, Hp⟩
  isplitl [Hp]; · iexact Hp
  iexact Hr

end Cert.KernelIdeal.Hand

end
-- ==== Proof.KernelIdeal.R4.lean ====
/-
  The second statistics region (pallas_call 4): column sums of (A + b) and of its square, accumulated over ten row blocks in two scratch rows and written out at the last block.

  The body has three control cases over the grid: at the first point it zeroes the two scratch rows before adding the
  block's column sums; at the middle points it only adds; at the last point it adds and then copies the two scratch
  rows into the output windows' buffers. The scratch rows are carried from point to point by the invariant, at the
  running sums `acc4`; the output windows are idle (handed back untouched, not written back) everywhere but at the
  last point.
-/
import proofs.«163396_j33732673143025_1_alg».proof.Proof.Gen.KernelIdeal.Launch
import proofs.«163396_j33732673143025_1_alg».proof.Proof.Gen.KernelIdeal.Skeleton
import proofs.«163396_j33732673143025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.WholeRead
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Whole-row loads and stores -/

/-- The two zero offsets of a rank-2 rectangle, as the constant function. -/
theorem zeros4 : (![0, 0] : Fin 2 → ℕ) = fun _ => 0 := by
  funext a; fin_cases a <;> rfl

/-- A load through the whole-shape rectangle of a whole memref held at the raw contents that read `X` reads `X`. -/
theorem readAt_unit_unread4 {κ : Kind} {sp : Space} {s : Shape} {e : EltTy} {m : Memref sig κ sp s e} (h : m.IsWhole)
    (X : s.Idx → Elt F e) {off : Fin s.rank → ℕ} (ho : off = fun _ => 0) (inb : ∀ a, off a + s.size a ≤ s.size a) :
    View.readAt (Elt F) m.view (Rect.unit off s.size inb).toLoadRect (h.unread X) = X := by
  rw [View.readAt_eq_ld, h.read_unread, View.ld_unit_zero ho inb]

/-- After a store through the whole-shape rectangle, last, the buffer reads the stored payload. -/
theorem read_writes_unit4 {κ : Kind} {sp : Space} {s : Shape} {e : EltTy} (v : View sig κ sp s e) (f : v.ty.Contents (Elt F))
    {off : Fin s.rank → ℕ} (ho : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  rw [View.read_writes_eq_canon v f _ (fun y => ⟨_, List.mem_cons_self, View.mem_set_unit_zero ho inb y⟩),
    View.canon_cons_unit_zero ho inb w L]

/-! ## The body's branch conditions, decided over the grid -/

/-- The first conditional's condition (the point is the grid's first), from the grid coordinates. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val % 10 = 0 :=
  (by decide +kernel : ∀ t : Fin grid4.N, cond4_0 (grid4.coords t) ↔ t.val % 10 = 0)

/-- The second conditional's condition (the point is the grid's last). -/
abbrev cond4_1 (i : grid4.Coords) : Prop := k4_cond2 i = 1#1
theorem hcond4_1 : ∀ t : Fin cfg4.N, cond4_1 (grid4.coords t) ↔ t.val % 10 = 9 :=
  (by decide +kernel : ∀ t : Fin grid4.N, cond4_1 (grid4.coords t) ↔ t.val % 10 = 9)

/-- The input windows are never idle. -/
theorem live4_0 : ∀ t : Fin cfg4.N, cfg4.idle 0 (grid4.coords t) = false := by decide +kernel
theorem live4_1 : ∀ t : Fin cfg4.N, cfg4.idle 1 (grid4.coords t) = false := by decide +kernel
/-- The output windows are idle, and not written back, at every point but the last, where they are live. -/
theorem idle4_2 : ∀ t : Fin cfg4.N, ¬cond4_1 (grid4.coords t) → cfg4.idle 2 (grid4.coords t) = true := by decide +kernel
theorem idle4_3 : ∀ t : Fin cfg4.N, ¬cond4_1 (grid4.coords t) → cfg4.idle 3 (grid4.coords t) = true := by decide +kernel
theorem noFlush4_2 : ∀ t : Fin cfg4.N, ¬cond4_1 (grid4.coords t) → (cfg4.win 2).flush t = false := by decide +kernel
theorem noFlush4_3 : ∀ t : Fin cfg4.N, ¬cond4_1 (grid4.coords t) → (cfg4.win 3).flush t = false := by decide +kernel
theorem live4_2 : ∀ t : Fin cfg4.N, cond4_1 (grid4.coords t) → cfg4.idle 2 (grid4.coords t) = false := by decide +kernel
theorem live4_3 : ∀ t : Fin cfg4.N, cond4_1 (grid4.coords t) → cfg4.idle 3 (grid4.coords t) = false := by decide +kernel

/-! ## The kernel body on any whole memrefs, case by case -/

set_option maxHeartbeats 1000000 in
/-- FIRST POINT. The scratch rows at anything; the body zeroes them, adds the block's column sums, and leaves the
    output buffers as they were. -/
theorem run4_A (c : Dev nD) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : cond4_0 i) (hc1 : ¬cond4_1 i)
    (x0 : Vec F S10000x128 .f32) (x1 xi2 xi3 : Vec F S1x128 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k4_pay4 x0 x1 (k4_pay1 (F := F)))
            ∗ owns (c : Thread nD τ) arg6 fullShare (k4_pay5 x0 x1 (k4_pay2 (F := F)))) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
  obtain rfl := harg1.eq_unread hf0; obtain rfl := harg2.eq_unread hf1
  obtain rfl := harg3.eq_unread hf2; obtain rfl := harg4.eq_unread hf3
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    rw [read_writes_unit4 (s := S1x128) _ _ zeros4, readAt_unit_unread4 harg1 _ zeros4, readAt_unit_unread4 harg2 _ zeros4,
      View.readCov_cons_toLoadRect]
  · iexists _; isplitr
    swap; · iexact HS1
    ipureintro
    sl_unfold_run_names
    rw [read_writes_unit4 (s := S1x128) _ _ zeros4, readAt_unit_unread4 harg1 _ zeros4, readAt_unit_unread4 harg2 _ zeros4,
      View.readCov_cons_toLoadRect]

set_option maxHeartbeats 1000000 in
/-- MIDDLE POINTS. The scratch rows at the running sums `xs0`, `xs1`; the body adds the block's column sums and
    leaves the output buffers as they were. -/
theorem run4_B (c : Dev nD) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (hc1 : ¬cond4_1 i)
    (x0 : Vec F S10000x128 .f32) (x1 xi2 xi3 xs0 xs1 : Vec F S1x128 .f32) (E : Set ℕ) (K : PUnit → sProp 𝕄) :
    iprop(owns (c : Thread nD τ) arg1 fullShare x0 ∗ owns (c : Thread nD τ) arg2 fullShare x1
        ∗ owns (c : Thread nD τ) arg3 fullShare xi2 ∗ owns (c : Thread nD τ) arg4 fullShare xi3
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare xi2 ∗ owns (c : Thread nD τ) arg4 fullShare xi3
            ∗ owns (c : Thread nD τ) arg5 fullShare (k4_pay4 x0 x1 xs0)
            ∗ owns (c : Thread nD τ) arg6 fullShare (k4_pay5 x0 x1 xs1)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
  obtain rfl := harg1.eq_unread hf0; obtain rfl := harg2.eq_unread hf1
  obtain rfl := harg3.eq_unread hf2; obtain rfl := harg4.eq_unread hf3
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [HS0]
  · iexists _; isplitr
    swap; · iexact HS0
    ipureintro
    sl_unfold_run_names
    rw [read_writes_unit4 (s := S1x128) _ _ zeros4, readAt_unit_unread4 harg1 _ zeros4, readAt_unit_unread4 harg2 _ zeros4,
      readAt_unit_unread4 harg5 _ zeros4]
  · iexists _; isplitr
    swap; · iexact HS1
    ipureintro
    sl_unfold_run_names
    rw [read_writes_unit4 (s := S1x128) _ _ zeros4, readAt_unit_unread4 harg1 _ zeros4, readAt_unit_unread4 harg2 _ zeros4,
      readAt_unit_unread4 harg6 _ zeros4]

set_option maxHeartbeats 1000000 in
/-- LAST POINT. The scratch rows at the running sums; the body adds the block's column sums and copies the two rows
    into the output buffers, held at anything before. -/
theorem run4_C (c : Dev nD) (i : grid4.Coords)
    (arg1 : Memref sig .tc .vmem S10000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc0 : ¬cond4_0 i) (hc1 : cond4_1 i)
    (x0 : Vec F S10000x128 .f32) (x1 xs0 xs1 : Vec F S1x128 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ owns (c : Thread nD τ) arg5 fullShare xs0 ∗ owns (c : Thread nD τ) arg6 fullShare xs1
        ∗ (iprop(owns (c : Thread nD τ) arg1 fullShare x0 ∗ owns (c : Thread nD τ) arg2 fullShare x1
            ∗ owns (c : Thread nD τ) arg3 fullShare (k4_pay4 x0 x1 xs0) ∗ owns (c : Thread nD τ) arg4 fullShare (k4_pay5 x0 x1 xs1)
            ∗ owns (c : Thread nD τ) arg5 fullShare (k4_pay4 x0 x1 xs0)
            ∗ owns (c : Thread nD τ) arg6 fullShare (k4_pay5 x0 x1 xs1)) -∗ K ⟨⟩))
      ⊢ wp frame (wpE (defs₀ (F := F)) Variants.none c none) E (cc4__stats_kernel i arg1 harg1 arg2 harg2 arg3 harg3 arg4 harg4 arg5 harg5 arg6 harg6) K := by
  simp only [cc4__stats_kernel_eq_skeleton]; unfold cc4__stats_kernel_skel
  unfold owns
  iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
  obtain rfl := harg1.eq_unread hf0; obtain rfl := harg2.eq_unread hf1
  obtain rfl := harg5.eq_unread hfs0; obtain rfl := harg6.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    sl_unfold_run_names
    rw [read_writes_unit4 (s := S1x128) _ _ zeros4, View.readCov_cons_toLoadRect, readAt_unit_unread4 harg1 _ zeros4,
      readAt_unit_unread4 harg2 _ zeros4, readAt_unit_unread4 harg5 _ zeros4]
  isplitl [H3]
  · iexists _; isplitr
    swap; · iexact H3
    ipureintro
    sl_unfold_run_names
    rw [read_writes_unit4 (s := S1x128) _ _ zeros4, View.readCov_cons_toLoadRect, readAt_unit_unread4 harg1 _ zeros4,
      readAt_unit_unread4 harg2 _ zeros4, readAt_unit_unread4 harg6 _ zeros4]
  isplitl [HS0]
  · iexists _; isplitr
    swap; · iexact HS0
    ipureintro
    sl_unfold_run_names
    rw [read_writes_unit4 (s := S1x128) _ _ zeros4, readAt_unit_unread4 harg1 _ zeros4, readAt_unit_unread4 harg2 _ zeros4,
      readAt_unit_unread4 harg5 _ zeros4]
  · iexists _; isplitr
    swap; · iexact HS1
    ipureintro
    sl_unfold_run_names
    rw [read_writes_unit4 (s := S1x128) _ _ zeros4, readAt_unit_unread4 harg1 _ zeros4, readAt_unit_unread4 harg2 _ zeros4,
      readAt_unit_unread4 harg6 _ zeros4]

/-! ## The staging memrefs at a point, the scratch rows, the windows' blocks -/

variable (V : (c : Dev nD) → (b : Ref sig .tc) → Buf (Elt F) ((c : Thread nD τ).loc b))

abbrev ms4_0 (t : Fin cfg4.N) : Memref sig .tc .vmem S10000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x128 .f32 := win4_3.stage (cfg4.slots t 3)
abbrev hs4_3 (t : Fin cfg4.N) : (ms4_3 t).IsWhole := hstage4_3 ((cfg4.slots t 3).cast nbuf4_3)
/-- The two scratch rows: whole scoped buffers of the kernel's own. -/
abbrev scM4_0 : Memref sig .tc .vmem S1x128 .f32 := Memref.whole cc4_scratch0
abbrev scM4_1 : Memref sig .tc .vmem S1x128 .f32 := Memref.whole cc4_scratch1

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The running sums -/

/-- What the two scratch rows hold after the body at position `n`: at the first point the block's column sums added
    to the zero row, afterwards added to what the point before left. -/
def acc4 (c : Dev nD) : (n : ℕ) → n < cfg4.N → Vec F S1x128 .f32 × Vec F S1x128 .f32
  | 0, hn => (k4_pay4 (iblk4 V c 0 ⟨0, hn⟩) (iblk4 V c 1 ⟨0, hn⟩) (k4_pay1 (F := F)),
              k4_pay5 (iblk4 V c 0 ⟨0, hn⟩) (iblk4 V c 1 ⟨0, hn⟩) (k4_pay2 (F := F)))
  | n + 1, hn => (k4_pay4 (iblk4 V c 0 ⟨n + 1, hn⟩) (iblk4 V c 1 ⟨n + 1, hn⟩) (acc4 c n (Nat.lt_of_succ_lt hn)).1,
                  k4_pay5 (iblk4 V c 0 ⟨n + 1, hn⟩) (iblk4 V c 1 ⟨n + 1, hn⟩) (acc4 c n (Nat.lt_of_succ_lt hn)).2)

theorem acc4_zero (c : Dev nD) (t : Fin cfg4.N) (hz : t.val = 0) :
    acc4 V c t.val t.isLt = (k4_pay4 (iblk4 V c 0 t) (iblk4 V c 1 t) (k4_pay1 (F := F)),
      k4_pay5 (iblk4 V c 0 t) (iblk4 V c 1 t) (k4_pay2 (F := F))) := by
  obtain ⟨n, hn⟩ := t
  cases n with
  | zero => rfl
  | succ n => exact absurd hz (Nat.succ_ne_zero n)

theorem acc4_pos (c : Dev nD) (t : Fin cfg4.N) (hz : t.val ≠ 0) :
    acc4 V c t.val t.isLt = (k4_pay4 (iblk4 V c 0 t) (iblk4 V c 1 t) (acc4 V c (t.val - 1) (Nat.lt_of_le_of_lt (Nat.sub_le _ _) t.isLt)).1,
      k4_pay5 (iblk4 V c 0 t) (iblk4 V c 1 t) (acc4 V c (t.val - 1) (Nat.lt_of_le_of_lt (Nat.sub_le _ _) t.isLt)).2) := by
  obtain ⟨n, hn⟩ := t
  cases n with
  | zero => exact absurd rfl hz
  | succ n => rfl

/-! ## The invariant -/

/-- The scoped buffers that are neither staging buffers nor the two scratch rows, unopened. -/
abbrev rest4 (c : Dev nD) : sProp 𝕄 :=
  Pipeline.scopedRestBut (Ix := Unit) (Name := ℕ) (U := Pipeline.UD sig nD τ) (Lvl := ℕ) (Val := Elt F) spec4 c [cc4_scratch0, cc4_scratch1]

/-- The invariant before position `n`: before the first point the two scratch rows at anything, afterwards at the
    running sums the point before left; beside them the other scoped buffers and the generator register. -/
def Phi4 (c : Dev nD) : (n : ℕ) → n ≤ cfg4.N → sProp 𝕄
  | 0, _ => iprop(iprop((∃ d, owns (c : Thread nD τ) scM4_0 fullShare d) ∗ (∃ d, owns (c : Thread nD τ) scM4_1 fullShare d)) ∗ rest4 c ∗ (∃ r, prngReg c r))
  | n + 1, hn => iprop(iprop(owns (c : Thread nD τ) scM4_0 fullShare (acc4 V c n hn).1 ∗ owns (c : Thread nD τ) scM4_1 fullShare (acc4 V c n hn).2) ∗ rest4 c ∗ (∃ r, prngReg c r))

theorem Phi4_zero (c : Dev nD) (n : ℕ) (h : n ≤ cfg4.N) (hz : n = 0) :
    Phi4 V c n h = iprop(iprop((∃ d, owns (c : Thread nD τ) scM4_0 fullShare d) ∗ (∃ d, owns (c : Thread nD τ) scM4_1 fullShare d)) ∗ rest4 c ∗ (∃ r, prngReg c r)) := by
  subst hz; rfl

theorem Phi4_succ (c : Dev nD) (n : ℕ) (hn : n < cfg4.N) :
    Phi4 V c (n + 1) hn = iprop(iprop(owns (c : Thread nD τ) scM4_0 fullShare (acc4 V c n hn).1 ∗ owns (c : Thread nD τ) scM4_1 fullShare (acc4 V c n hn).2) ∗ rest4 c ∗ (∃ r, prngReg c r)) := rfl

theorem Phi4_pos (c : Dev nD) (n : ℕ) (h : n ≤ cfg4.N) (hz : n ≠ 0) :
    Phi4 V c n h = iprop(iprop(owns (c : Thread nD τ) scM4_0 fullShare (acc4 V c (n - 1) (by omega)).1 ∗ owns (c : Thread nD τ) scM4_1 fullShare (acc4 V c (n - 1) (by omega)).2) ∗ rest4 c ∗ (∃ r, prngReg c r)) := by
  cases n with
  | zero => exact absurd rfl hz
  | succ n => rfl

/-! ## The proof data -/

/-- Pipeline 4's proof data on core `c`, from the contents `V` its region is entered at. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => (acc4 V c t.val t.isLt).1
    | ⟨3, _⟩ => (acc4 V c t.val t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (acc4 V c t.val t.isLt).1 := by dsimp only [dat4]
theorem after4_3 (c : Dev nD) (t : Fin cfg4.N) : (dat4 V c).after 3 t = (acc4 V c t.val t.isLt).2 := by dsimp only [dat4]

/-- Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl)
    (fun t => by rw [after4_1]; unfold Dat.blockOf iblk4; rw [A_eq4]; try rfl) t d).trans
    (by unfold Dat.fetched Dat.blockOf iblk4; rw [A_eq4]; try rfl)

/-! ## The body obligation -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; the closed forms say which of the three cases the
    point is in; the invariant hands the body the scratch rows (at anything at the first point, at the running sums
    afterwards) and takes them back at this point's running sums; the output buffers are handed back untouched except
    at the last point, where they receive the sums. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).leavesExact 0 t = owns (c : Thread nD τ) (ms4_0 t) fullShare ((dat4 V c).after 0 t) from by
    unfold Dat.leavesExact; rw [live4_0 t], after4_0]
  rw [show (dat4 V c).leavesExact 1 t = owns (c : Thread nD τ) (ms4_1 t) fullShare ((dat4 V c).after 1 t) from by
    unfold Dat.leavesExact; rw [live4_1 t], after4_1]
  have hN : t.val < 10 := lt_of_lt_of_eq t.isLt (show cfg4.N = 10 from N_4)
  by_cases h1 : t.val % 10 = 9
  · have h0 : ¬ t.val % 10 = 0 := by omega
    have hz : t.val ≠ 0 := by omega
    rw [show (dat4 V c).leavesExact 2 t = owns (c : Thread nD τ) (ms4_2 t) fullShare ((dat4 V c).after 2 t) from by
      unfold Dat.leavesExact; rw [live4_2 t ((hcond4_1 t).mpr h1)], after4_2]
    rw [show (dat4 V c).leavesExact 3 t = owns (c : Thread nD τ) (ms4_3 t) fullShare ((dat4 V c).after 3 t) from by
      unfold Dat.leavesExact; rw [live4_3 t ((hcond4_1 t).mpr h1)], after4_3]
    rw [acc4_pos V c t hz]
    rw [Phi4_castSucc V c t, Phi4_pos V c _ _ hz]
    iintro ⟨⟨⟨HS0, HS1⟩, Hr, Hg⟩, Ho, ⟨%d0, H0⟩, ⟨%d1, H1⟩, ⟨%d2, H2⟩, ⟨%d3, H3⟩⟩
    iapply (run4_C c (grid4.coords t) _ _ _ _ _ _ _ _ _ _ _ _ (fun h => h0 ((hcond4_0 t).mp h)) ((hcond4_1 t).mpr h1)
      (iblk4 V c 0 t) (iblk4 V c 1 t) _ _ Set.univ _)
    isplitl [H0]; · iexact H0
    isplitl [H1]; · iexact H1
    isplitl [H2]; · iexists _; iexact H2
    isplitl [H3]; · iexists _; iexact H3
    isplitl [HS0]; · iexact HS0
    isplitl [HS1]; · iexact HS1
    iintro ⟨H0, H1, H2, H3, HS0, HS1⟩
    isplitl [HS0 HS1 Hr Hg]
    · isplitl [HS0 HS1]
      · isplitl [HS0]; · iexact HS0
        iexact HS1
      isplitl [Hr]; · iexact Hr
      iexact Hg
    isplitl [Ho]; · iexact Ho
    isplitl [H0]; · iexact H0
    isplitl [H1]; · iexact H1
    isplitl [H2]; · iexact H2
    iexact H3
  · rw [Dat.leavesExact_idle (dat4 V c) 2 t (idle4_2 t (fun h => h1 ((hcond4_1 t).mp h))) (noFlush4_2 t (fun h => h1 ((hcond4_1 t).mp h)))]
    rw [Dat.leavesExact_idle (dat4 V c) 3 t (idle4_3 t (fun h => h1 ((hcond4_1 t).mp h))) (noFlush4_3 t (fun h => h1 ((hcond4_1 t).mp h)))]
    by_cases h0 : t.val % 10 = 0
    · have hz : t.val = 0 := by omega
      rw [acc4_zero V c t hz]
      rw [Phi4_castSucc V c t, Phi4_zero V c _ _ hz]
      iintro ⟨⟨⟨HS0, HS1⟩, Hr, Hg⟩, Ho, ⟨%d0, H0⟩, ⟨%d1, H1⟩, ⟨%d2, H2⟩, ⟨%d3, H3⟩⟩
      iapply (run4_A c (grid4.coords t) _ _ _ _ _ _ _ _ _ _ _ _ ((hcond4_0 t).mpr h0) (fun h => h1 ((hcond4_1 t).mp h))
        (iblk4 V c 0 t) (iblk4 V c 1 t) _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexists _; iexact H2
      iexists _; iexact H3
    · have hz : t.val ≠ 0 := by omega
      rw [acc4_pos V c t hz]
      rw [Phi4_castSucc V c t, Phi4_pos V c _ _ hz]
      iintro ⟨⟨⟨HS0, HS1⟩, Hr, Hg⟩, Ho, ⟨%d0, H0⟩, ⟨%d1, H1⟩, ⟨%d2, H2⟩, ⟨%d3, H3⟩⟩
      iapply (run4_B c (grid4.coords t) _ _ _ _ _ _ _ _ _ _ _ _ (fun h => h0 ((hcond4_0 t).mp h)) (fun h => h1 ((hcond4_1 t).mp h))
        (iblk4 V c 0 t) (iblk4 V c 1 t) _ _ _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr Hg]
      · isplitl [HS0 HS1]
        · isplitl [HS0]; · iexact HS0
          iexact HS1
        isplitl [Hr]; · iexact Hr
        iexact Hg
      isplitl [Ho]; · iexact Ho
      isplitl [H0]; · iexact H0
      isplitl [H1]; · iexact H1
      isplitl [H2]; · iexists _; iexact H2
      iexists _; iexact H3

/-- The body obligation at every grid point. -/
theorem body_obligation4 (c : Dev nD) : BodyObligation (dat4 (F := F) V c) (defs₀ (F := F)) Variants.none () Set.univ := fun t => by
  rw [bigSep_W4, bigSep_W4]
  exact sound_body4 V c t

/-- The invariant at the first point, from the generator register and the scoped buffers no window stages. -/
theorem Phi_in4 (c : Dev nD) :
    (iprop((∃ r, prngReg c r) ∗ Pipeline.scopedRest (Ix := Unit) (Name := ℕ) (U := Pipeline.UD sig nD τ) (Lvl := ℕ) (Val := Elt F) spec4 c) : sProp 𝕄)
      ⊢ (dat4 V c).Φ 0 := by
  rw [show (dat4 V c).Φ 0 = Phi4 V c 0 (Nat.zero_le _) from rfl, Phi4_zero V c 0 _ rfl, scopedRest4_split]
  simp only [scM4_0, scM4_1, owns_whole]
  iintro ⟨Hg, ⟨HS0, HS1⟩, Hr⟩
  isplitl [HS0 HS1]
  · isplitl [HS0]; · iexact HS0
    iexact HS1
  isplitl [Hr]; · iexact Hr
  iexact Hg

/-- The invariant at the last point gives both back. -/
theorem Phi_out4 (c : Dev nD) :
    ((dat4 V c).Φ (Fin.last cfg4.N) : sProp 𝕄)
      ⊢ iprop((∃ r, prngReg c r) ∗ Pipeline.scopedRest (Ix := Unit) (Name := ℕ) (U := Pipeline.UD sig nD τ) (Lvl := ℕ) (Val := Elt F) spec4 c) := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 10 := N_4; omega), scopedRest4_split]
  simp only [scM4_0, scM4_1, owns_whole]
  iintro ⟨⟨HS0, HS1⟩, Hr, Hg⟩
  isplitl [Hg]; · iexact Hg
  isplitl [HS0 HS1]
  · isplitl [HS0]; · iexists _; iexact HS0
    iexists _; iexact HS1
  iexact Hr

end Cert.KernelIdeal.Hand

end
-- ==== Proof.KernelIdeal.R5.lean ====
/-
  The second normalisation region (pallas_call 5): each row block normalised, scaled, shifted and clamped at zero.

  The region's grid has ten points, one per block of 10000 rows. At a point the body reads the row block of the
  array A and the five parameter rows (added row, mean, variance, scale, shift), forms
  max(((A + b) - mean) * rsqrt(var + eps) * g + beta, 0) entry by entry, and writes it over the whole output block.
  Nothing else of the core's state is read or written, so the region's invariant is the untouched remainder.
-/
import proofs.«163396_j33732673143025_1_alg».proof.Proof.Gen.KernelIdeal.Launch
import proofs.«163396_j33732673143025_1_alg».proof.Proof.Gen.KernelIdeal.Skeleton
import proofs.«163396_j33732673143025_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-! ## Blocks of the entry arrays -/

/-- The block of window `w` at grid point `t`, cut out of the array the region was entered with. -/
def iblk5 (c : Dev nD) (w : Fin cfg5.W) (t : Fin cfg5.N) :
    ((cfg5.win w).xblock (cfg5.grid.coords t)).Idx → Elt F (cfg5.win w).elt :=
  ((cfg5.win w).blk t).view.read (Elt F) (V c (Pipeline.arrRef spec5 w))

/-- Input window 0: whenever the body starts, its buffer holds the window's block at that point. If the point
    fetched it, that is what a fetch delivers; if not, the block index is the previous point's and the body left
    the buffer alone, so it still holds the same block. -/
theorem before5_0_of {c : Dev nD} (dat : Dat τ (Elt F) Unit ℕ (Pipeline.UD sig nD τ) ℕ cfg5 c)
    (hA : dat.A 0 = V c (Pipeline.arrRef spec5 0)) (hafter : ∀ t, dat.after 0 t = iblk5 V c 0 t)
    (t : Fin cfg5.N) (d) : dat.before 0 t d = iblk5 V c 0 t := by
  have hkeep : ∀ t, (cfg5.win 0).cut (cfg5.grid.coords t) (dat.after 0 t) = dat.blockOf 0 t := fun t => by
    rw [hafter]; unfold Dat.blockOf iblk5; rw [hA]; try rfl
  rw [dat.before_in_eq_fetched 0 rfl (fun _ => rfl) (fun _ _ _ => rfl) hkeep t d]
  unfold Dat.fetched Dat.blockOf iblk5; rw [hA]; try rfl

/-- Input window 1: whenever the body starts, its buffer holds the window's block at that point. If the point
    fetched it, that is what a fetch delivers; if not, the block index is the previous point's and the body left
    the buffer alone, so it still holds the same block. -/
theorem before5_1_of {c : Dev nD} (dat : Dat τ (Elt F) Unit ℕ (Pipeline.UD sig nD τ) ℕ cfg5 c)
    (hA : dat.A 1 = V c (Pipeline.arrRef spec5 1)) (hafter : ∀ t, dat.after 1 t = iblk5 V c 1 t)
    (t : Fin cfg5.N) (d) : dat.before 1 t d = iblk5 V c 1 t := by
  have hkeep : ∀ t, (cfg5.win 1).cut (cfg5.grid.coords t) (dat.after 1 t) = dat.blockOf 1 t := fun t => by
    rw [hafter]; unfold Dat.blockOf iblk5; rw [hA]; try rfl
  rw [dat.before_in_eq_fetched 1 rfl (fun _ => rfl) (fun _ _ _ => rfl) hkeep t d]
  unfold Dat.fetched Dat.blockOf iblk5; rw [hA]; try rfl

/-- Input window 2: whenever the body starts, its buffer holds the window's block at that point. If the point
    fetched it, that is what a fetch delivers; if not, the block index is the previous point's and the body left
    the buffer alone, so it still holds the same block. -/
theorem before5_2_of {c : Dev nD} (dat : Dat τ (Elt F) Unit ℕ (Pipeline.UD sig nD τ) ℕ cfg5 c)
    (hA : dat.A 2 = V c (Pipeline.arrRef spec5 2)) (hafter : ∀ t, dat.after 2 t = iblk5 V c 2 t)
    (t : Fin cfg5.N) (d) : dat.before 2 t d = iblk5 V c 2 t := by
  have hkeep : ∀ t, (cfg5.win 2).cut (cfg5.grid.coords t) (dat.after 2 t) = dat.blockOf 2 t := fun t => by
    rw [hafter]; unfold Dat.blockOf iblk5; rw [hA]; try rfl
  rw [dat.before_in_eq_fetched 2 rfl (fun _ => rfl) (fun _ _ _ => rfl) hkeep t d]
  unfold Dat.fetched Dat.blockOf iblk5; rw [hA]; try rfl

/-- Input window 3: whenever the body starts, its buffer holds the window's block at that point. If the point
    fetched it, that is what a fetch delivers; if not, the block index is the previous point's and the body left
    the buffer alone, so it still holds the same block. -/
theorem before5_3_of {c : Dev nD} (dat : Dat τ (Elt F) Unit ℕ (Pipeline.UD sig nD τ) ℕ cfg5 c)
    (hA : dat.A 3 = V c (Pipeline.arrRef spec5 3)) (hafter : ∀ t, dat.after 3 t = iblk5 V c 3 t)
    (t : Fin cfg5.N) (d) : dat.before 3 t d = iblk5 V c 3 t := by
  have hkeep : ∀ t, (cfg5.win 3).cut (cfg5.grid.coords t) (dat.after 3 t) = dat.blockOf 3 t := fun t => by
    rw [hafter]; unfold Dat.blockOf iblk5; rw [hA]; try rfl
  rw [dat.before_in_eq_fetched 3 rfl (fun _ => rfl) (fun _ _ _ => rfl) hkeep t d]
  unfold Dat.fetched Dat.blockOf iblk5; rw [hA]; try rfl

/-- Input window 4: whenever the body starts, its buffer holds the window's block at that point. If the point
    fetched it, that is what a fetch delivers; if not, the block index is the previous point's and the body left
    the buffer alone, so it still holds the same block. -/
theorem before5_4_of {c : Dev nD} (dat : Dat τ (Elt F) Unit ℕ (Pipeline.UD sig nD τ) ℕ cfg5 c)
    (hA : dat.A 4 = V c (Pipeline.arrRef spec5 4)) (hafter : ∀ t, dat.after 4 t = iblk5 V c 4 t)
    (t : Fin cfg5.N) (d) : dat.before 4 t d = iblk5 V c 4 t := by
  have hkeep : ∀ t, (cfg5.win 4).cut (cfg5.grid.coords t) (dat.after 4 t) = dat.blockOf 4 t := fun t => by
    rw [hafter]; unfold Dat.blockOf iblk5; rw [hA]; try rfl
  rw [dat.before_in_eq_fetched 4 rfl (fun _ => rfl) (fun _ _ _ => rfl) hkeep t d]
  unfold Dat.fetched Dat.blockOf iblk5; rw [hA]; try rfl

/-- Input window 5: whenever the body starts, its buffer holds the window's block at that point. If the point
    fetched it, that is what a fetch delivers; if not, the block index is the previous point's and the body left
    the buffer alone, so it still holds the same block. -/
theorem before5_5_of {c : Dev nD} (dat : Dat τ (Elt F) Unit ℕ (Pipeline.UD sig nD τ) ℕ cfg5 c)
    (hA : dat.A 5 = V c (Pipeline.arrRef spec5 5)) (hafter : ∀ t, dat.after 5 t = iblk5 V c 5 t)
    (t : Fin cfg5.N) (d) : dat.before 5 t d = iblk5 V c 5 t := by
  have hkeep : ∀ t, (cfg5.win 5).cut (cfg5.grid.coords t) (dat.after 5 t) = dat.blockOf 5 t := fun t => by
    rw [hafter]; unfold Dat.blockOf iblk5; rw [hA]; try rfl
  rw [dat.before_in_eq_fetched 5 rfl (fun _ => rfl) (fun _ _ _ => rfl) hkeep t d]
  unfold Dat.fetched Dat.blockOf iblk5; rw [hA]; try rfl

/-! ## The body's reads and its one write -/

/-- The whole of a [10000,128] block, and the whole of a [1,128] row: the only rectangles the body touches. -/
abbrev r5_0 : Rect S10000x128 := Rect.unit (s := S10000x128) ![0, 0] S10000x128.size inb_S10000x128_S10000x128_0_0
abbrev r5_1 : Rect S1x128 := Rect.unit (s := S1x128) ![0, 0] S1x128.size inb_S1x128_S1x128_0_0

/-- The output buffer after the body, from what the six input buffers hold: the single store, over the whole block,
    of the normalised, scaled, shifted and clamped entries. The body reads the variance row (window 3) before the
    mean row (window 2); the payload takes them in the order they were read. -/
def out5_6 (x0 : Vec F S10000x128 .f32) (x1 x2 x3 x4 x5 : Vec F S1x128 .f32) : Vec F S10000x128 .f32 :=
  View.canon [⟨r5_0, k5_pay1 (View.ld x0 r5_0) (View.ld x1 r5_1) (View.ld x3 r5_1) (View.ld x2 r5_1)
    (View.ld x4 r5_1) (View.ld x5 r5_1)⟩]

/-- One store over the whole block reaches every entry of it. -/
theorem cover5_6 (p0 : Vec F S10000x128 .f32) (y : S10000x128.Idx) :
    ∃ pc ∈ ([⟨r5_0, p0⟩] : List (View.Piece (Elt F) S10000x128 .f32)), y ∈ pc.1.set :=
  View.cover_of_tiled [⟨r5_0, p0⟩] S10000x128.size (by rfl) y

/-! ## The body as a triple -/

set_option maxHeartbeats 1000000 in
/-- Run on whole buffers, the six inputs' at known contents and the output's at anything, the body ends with the
    inputs' contents as they were and the output's at `out5_6` of them. -/
theorem sound_kernel5 (c : Dev nD) (E : Set ℕ) (i : grid5.Coords)
    (arg1 : Memref sig .tc .vmem S10000x128 .f32) (harg1 : arg1.IsWhole)
    (arg2 : Memref sig .tc .vmem S1x128 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S1x128 .f32) (harg5 : arg5.IsWhole)
    (arg6 : Memref sig .tc .vmem S1x128 .f32) (harg6 : arg6.IsWhole)
    (arg7 : Memref sig .tc .vmem S10000x128 .f32) (harg7 : arg7.IsWhole)
    (x0 : Vec F S10000x128 .f32) (x1 x2 x3 x4 x5 : Vec F S1x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (out5_6 x0 x1 x2 x3 x4 x5)) -∗ K ⟨⟩))
      ⊢ wp frame (wpE (defs₀ (F := F)) Variants.none c none) E
          (cc5__norm_kernel i arg1 harg1 arg2 harg2 arg3 harg3 arg4 harg4 arg5 harg5 arg6 harg6 arg7 harg7) K := by
  simp only [cc5__norm_kernel_eq_skeleton]; unfold cc5__norm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover5_6 _)

/-! ## The region's proof data -/

/-- Pipeline 5's proof data on core `c`, from the contents `V` its region is entered at: after the body at point
    `t` every input buffer still holds its block and the output buffer holds `out5_6` of the six blocks. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => out5_6 (iblk5 V c 0 t) (iblk5 V c 1 t) (iblk5 V c 2 t) (iblk5 V c 3 t) (iblk5 V c 4 t) (iblk5 V c 5 t)
  Φ _ := Pipeline.ΦA spec5 c
  q _ := fullShare
  owed _ := 0

theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = iblk5 V c 5 t := by dsimp only [dat5]
theorem after5_6 (c : Dev nD) (t : Fin cfg5.N) : (dat5 V c).after 6 t
    = out5_6 (iblk5 V c 0 t) (iblk5 V c 1 t) (iblk5 V c 2 t) (iblk5 V c 3 t) (iblk5 V c 4 t) (iblk5 V c 5 t) := by
  dsimp only [dat5]

/-- What the body finds in each input buffer. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d
theorem before5_5 (c : Dev nD) (t : Fin cfg5.N) (d) : (dat5 V c).before 5 t d = iblk5 V c 5 t :=
  before5_5_of V (dat5 V c) (A_eq5 V c 5) (after5_5 V c) t d

/-! ## The body obligation -/

/-- What the body is started with at point `t`: the invariant, the core's debt, and the seven current buffers. -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d))
    ∗ (∃ d, owns (c : Thread nD τ) (st5_6 t) fullShare ((dat5 V c).before 6 t d)))

/-- What it must hand back. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t)
    ∗ owns (c : Thread nD τ) (st5_6 t) fullShare ((dat5 V c).after 6 t))

/-- The body at point `t`: the input buffers hold their blocks, so the triple above applies; the invariant and the
    debt are neither read nor changed. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4, before5_5]
  rw [show (dat5 V c).Φ t.succ = (dat5 V c).Φ t.castSucc from rfl,
    show (dat5 V c).owesAt () t.succ = (dat5 V c).owesAt () t.castSucc from rfl,
    after5_0, after5_1, after5_2, after5_3, after5_4, after5_5, after5_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel5 c Set.univ (grid5.coords t) _ _ _ _ _ _ _ _ _ _ _ _ _ _
    (iblk5 V c 0 t) (iblk5 V c 1 t) (iblk5 V c 2 t) (iblk5 V c 3 t) (iblk5 V c 4 t) (iblk5 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation5 (c : Dev nD) : BodyObligation (dat5 (F := F) V c) (defs₀ (F := F)) Variants.none () Set.univ := fun t => by
  rw [bigSep_W5, bigSep_W5]
  exact sound_body5 V c t

/-! ## The invariant at the region's two ends -/

/-- The invariant at the first point, from the generator register and the scoped buffers no window stages. -/
theorem Phi_in5 (c : Dev nD) :
    (iprop((∃ r, prngReg c r) ∗ Pipeline.scopedRest (Ix := Unit) (Name := ℕ) (U := Pipeline.UD sig nD τ) (Lvl := ℕ) (Val := Elt F) spec5 c) : sProp 𝕄)
      ⊢ (dat5 V c).Φ 0 := by
  show _ ⊢ Pipeline.ΦA spec5 c
  unfold Pipeline.ΦA
  iintro ⟨Hr, Hs⟩
  isplitl [Hs]; · iexact Hs
  iexact Hr

/-- The invariant at the last point gives both back. -/
theorem Phi_out5 (c : Dev nD) :
    ((dat5 V c).Φ (Fin.last cfg5.N) : sProp 𝕄)
      ⊢ iprop((∃ r, prngReg c r) ∗ Pipeline.scopedRest (Ix := Unit) (Name := ℕ) (U := Pipeline.UD sig nD τ) (Lvl := ℕ) (Val := Elt F) spec5 c) := by
  show Pipeline.ΦA spec5 c ⊢ _
  unfold Pipeline.ΦA
  iintro ⟨Hs, Hr⟩
  isplitl [Hr]; · iexact Hr
  iexact Hs

end Cert.KernelIdeal.Hand

end
-- ==== Proof.KernelIdeal.Run.lean ====
/-
  The whole program as a chain of segments: fifteen items of @main - nine stretches of host operations and the six
  kernel regions - run one after the other from the launch memory. Between two items every unscoped buffer of a core is
  held at named contents: a stretch applies its operations to them, a region replaces its arrays by what its
  write-backs leave and keeps every other buffer. The run ends with every unscoped buffer at the last boundary's
  contents; the arguments' part of that is the frame claim, the result's part the value. For any float instance.
-/
import proofs.«163396_j33732673143025_1_alg».proof.Proof.KernelIdeal.R0
import proofs.«163396_j33732673143025_1_alg».proof.Proof.KernelIdeal.R1
import proofs.«163396_j33732673143025_1_alg».proof.Proof.KernelIdeal.R2
import proofs.«163396_j33732673143025_1_alg».proof.Proof.KernelIdeal.R3
import proofs.«163396_j33732673143025_1_alg».proof.Proof.KernelIdeal.R4
import proofs.«163396_j33732673143025_1_alg».proof.Proof.KernelIdeal.R5
import proofs.«163396_j33732673143025_1_alg».proof.Proof.Gen.KernelIdeal.Regions
import Idealize.ShloMosaic.Lib.Pipeline.Regions
import Idealize.ShloMosaic.Lib.Pipeline.RegionsLoop
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffer contents at each boundary -/

/-- Core `c`'s unscoped buffers at launch. -/
abbrev W0 : Dev nD → Valuation τ sig (Elt F) := fun c b => m (c, b)
abbrev V0 : (c : Dev nD) → (b : Ref sig .tc) → Buf (Elt F) ((c : Thread nD τ).loc b) := fun c b => W0 m c b
/-- After the host operations `hostOps0`. -/
def W1 (c : Dev nD) : Valuation τ sig (Elt F) := StableHlo.after hostOps0 (W0 m c)
abbrev V1 : (c : Dev nD) → (b : Ref sig .tc) → Buf (Elt F) ((c : Thread nD τ).loc b) := fun c b => W1 m c b
/-- After region 0: its arrays at what its write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the host operations `hostOps1`. -/
def W3 (c : Dev nD) : Valuation τ sig (Elt F) := StableHlo.after hostOps1 (W2 m c)
abbrev V3 : (c : Dev nD) → (b : Ref sig .tc) → Buf (Elt F) ((c : Thread nD τ).loc b) := fun c b => W3 m c b
/-- After the host operations `hostOps1_1`. -/
def W4 (c : Dev nD) : Valuation τ sig (Elt F) := StableHlo.after hostOps1_1 (W3 m c)
abbrev V4 : (c : Dev nD) → (b : Ref sig .tc) → Buf (Elt F) ((c : Thread nD τ).loc b) := fun c b => W4 m c b
/-- After the host operations `hostOps1_2`. -/
def W5 (c : Dev nD) : Valuation τ sig (Elt F) := StableHlo.after hostOps1_2 (W4 m c)
abbrev V5 : (c : Dev nD) → (b : Ref sig .tc) → Buf (Elt F) ((c : Thread nD τ).loc b) := fun c b => W5 m c b
/-- After region 1: its arrays at what its write-backs leave, every other buffer as entered. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the host operations `hostOps2`. -/
def W7 (c : Dev nD) : Valuation τ sig (Elt F) := StableHlo.after hostOps2 (W6 m c)
abbrev V7 : (c : Dev nD) → (b : Ref sig .tc) → Buf (Elt F) ((c : Thread nD τ).loc b) := fun c b => W7 m c b
/-- After region 2: its arrays at what its write-backs leave, every other buffer as entered. -/
def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
theorem hF2 (c : Dev nD) (w : Fin cfg2.W) : (dat2 (V7 m) c).arrAt w cfg2.N = V8 m c (Pipeline.arrRef spec2 w) :=
  (W8_arr m c w).symm
theorem hrest2 (c : Dev nD) : ∀ b, b ∉ Finset.univ.image (Pipeline.arrRef spec2) → V8 m c b = V7 m c b :=
  fun b hb => W8_of_ne m c b fun w e => hb (Finset.mem_image.mpr ⟨w, Finset.mem_univ _, e⟩)
/-- After region 3: its arrays at what its write-backs leave, every other buffer as entered. -/
def W9 (c : Dev nD) : Valuation τ sig (Elt F) :=
  Pipeline.withArrays spec3 c (W8 m c) fun w => (dat3 (V8 m) c).arrAt w cfg3.N
theorem W9_arr (c : Dev nD) (w : Fin cfg3.W) :
    W9 m c (Proc.devRef .tc (Pipeline.arrRef spec3 w)) = (dat3 (V8 m) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m c (Proc.devRef .tc b) = W8 m c (Proc.devRef .tc b) := by
  unfold W9; exact Pipeline.withArrays_of_ne spec3 c _ _ b hb
abbrev V9 : (c : Dev nD) → (b : Ref sig .tc) → Buf (Elt F) ((c : Thread nD τ).loc b) := fun c b => W9 m c b
theorem hF3 (c : Dev nD) (w : Fin cfg3.W) : (dat3 (V8 m) c).arrAt w cfg3.N = V9 m c (Pipeline.arrRef spec3 w) :=
  (W9_arr m c w).symm
theorem hrest3 (c : Dev nD) : ∀ b, b ∉ Finset.univ.image (Pipeline.arrRef spec3) → V9 m c b = V8 m c b :=
  fun b hb => W9_of_ne m c b fun w e => hb (Finset.mem_image.mpr ⟨w, Finset.mem_univ _, e⟩)
/-- After the host operations `hostOps4`. -/
def W10 (c : Dev nD) : Valuation τ sig (Elt F) := StableHlo.after hostOps4 (W9 m c)
abbrev V10 : (c : Dev nD) → (b : Ref sig .tc) → Buf (Elt F) ((c : Thread nD τ).loc b) := fun c b => W10 m c b
/-- After the host operations `hostOps4_1`. -/
def W11 (c : Dev nD) : Valuation τ sig (Elt F) := StableHlo.after hostOps4_1 (W10 m c)
abbrev V11 : (c : Dev nD) → (b : Ref sig .tc) → Buf (Elt F) ((c : Thread nD τ).loc b) := fun c b => W11 m c b
/-- After the host operations `hostOps4_2`. -/
def W12 (c : Dev nD) : Valuation τ sig (Elt F) := StableHlo.after hostOps4_2 (W11 m c)
abbrev V12 : (c : Dev nD) → (b : Ref sig .tc) → Buf (Elt F) ((c : Thread nD τ).loc b) := fun c b => W12 m c b
/-- After region 4: its arrays at what its write-backs leave, every other buffer as entered. -/
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev V13 : (c : Dev nD) → (b : Ref sig .tc) → Buf (Elt F) ((c : Thread nD τ).loc b) := fun c b => W13 m c b
theorem hF4 (c : Dev nD) (w : Fin cfg4.W) : (dat4 (V12 m) c).arrAt w cfg4.N = V13 m c (Pipeline.arrRef spec4 w) :=
  (W13_arr m c w).symm
theorem hrest4 (c : Dev nD) : ∀ b, b ∉ Finset.univ.image (Pipeline.arrRef spec4) → V13 m c b = V12 m c b :=
  fun b hb => W13_of_ne m c b fun w e => hb (Finset.mem_image.mpr ⟨w, Finset.mem_univ _, e⟩)
/-- After the host operations `hostOps5`. -/
def W14 (c : Dev nD) : Valuation τ sig (Elt F) := StableHlo.after hostOps5 (W13 m c)
abbrev V14 : (c : Dev nD) → (b : Ref sig .tc) → Buf (Elt F) ((c : Thread nD τ).loc b) := fun c b => W14 m c b
/-- After region 5: its arrays at what its write-backs leave, every other buffer as entered. -/
def W15 (c : Dev nD) : Valuation τ sig (Elt F) :=
  Pipeline.withArrays spec5 c (W14 m c) fun w => (dat5 (V14 m) c).arrAt w cfg5.N
theorem W15_arr (c : Dev nD) (w : Fin cfg5.W) :
    W15 m c (Proc.devRef .tc (Pipeline.arrRef spec5 w)) = (dat5 (V14 m) c).arrAt w cfg5.N := by
  unfold W15; exact Pipeline.withArrays_arr spec5 launch5.win.arr_inj c _ _ w
theorem W15_of_ne (c : Dev nD) (b : Ref sig .tc) (hb : ∀ w, Pipeline.arrRef spec5 w ≠ b) :
    W15 m c (Proc.devRef .tc b) = W14 m c (Proc.devRef .tc b) := by
  unfold W15; exact Pipeline.withArrays_of_ne spec5 c _ _ b hb
abbrev V15 : (c : Dev nD) → (b : Ref sig .tc) → Buf (Elt F) ((c : Thread nD τ).loc b) := fun c b => W15 m c b
theorem hF5 (c : Dev nD) (w : Fin cfg5.W) : (dat5 (V14 m) c).arrAt w cfg5.N = V15 m c (Pipeline.arrRef spec5 w) :=
  (W15_arr m c w).symm
theorem hrest5 (c : Dev nD) : ∀ b, b ∉ Finset.univ.image (Pipeline.arrRef spec5) → V15 m c b = V14 m c b :=
  fun b hb => W15_of_ne m c b fun w e => hb (Finset.mem_image.mpr ⟨w, Finset.mem_univ _, e⟩)

/-! ## The proof data family and the thread state -/

/-- No pipeline has a prefetched table. -/
abbrev adm : (p : Fin 6) → (pcfgs (F := F) p).Adm := fun p => (cfgs p).toPCfg_adm
/-- Every pipeline's proof data, each at its region's entry contents. -/
def pdats : (p : Fin 6) → (c : Dev nD) → Dat τ (Elt F) Unit ℕ (Pipeline.UD sig nD τ) ℕ (Pipeline.pin (pcfgs (F := F)) adm p) c
  | ⟨0, _⟩ => fun c => dat0 (V1 m) c
  | ⟨1, _⟩ => fun c => dat1 (V5 m) c
  | ⟨2, _⟩ => fun c => dat2 (V7 m) c
  | ⟨3, _⟩ => fun c => dat3 (V8 m) c
  | ⟨4, _⟩ => fun c => dat4 (V12 m) c
  | ⟨5, _⟩ => fun c => dat5 (V14 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W15 m c) ∗ ∃ r, prngReg c r)

/-! ## The regions as segments -/

set_option backward.isDefEq.respectTransparency.types false in
/-- Region 0 over the thread state: entered with every unscoped buffer at `W1`, left with them at `W2`. Its arrays
    are split out of the unscoped buffers and put back at the exit contents; the generator register goes into the
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (V1 m) c).Φ 0 from rfl]
    iintro ⟨Hp, -, Hr⟩
    iapply (Phi_in0 (V1 m) c)
    isplitl [Hp]; · iexact Hp
    iexact Hr
  hout c := by
    rw [Pipeline.ownSems0_none, show (pdats m 0 c).Φ (Fin.last _) = (dat0 (V1 m) c).Φ (Fin.last cfg0.N) from rfl]
    iintro HΦ
    ihave H := (Phi_out0 (V1 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W5`, left with them at `W6`. Its arrays
    are split out of the unscoped buffers and put back at the exit contents; the generator register goes into the
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V5 m) c).Φ 0 from rfl]
    iintro ⟨Hp, -, Hr⟩
    iapply (Phi_in1 (V5 m) c)
    isplitl [Hp]; · iexact Hp
    iexact Hr
  hout c := by
    rw [Pipeline.ownSems0_none, show (pdats m 1 c).Φ (Fin.last _) = (dat1 (V5 m) c).Φ (Fin.last cfg1.N) from rfl]
    iintro HΦ
    ihave H := (Phi_out1 (V5 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W7`, left with them at `W8`. Its arrays
    are split out of the unscoped buffers and put back at the exit contents; the generator register goes into the
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V7 m) c).Φ 0 from rfl]
    iintro ⟨Hp, -, Hr⟩
    iapply (Phi_in2 (V7 m) c)
    isplitl [Hp]; · iexact Hp
    iexact Hr
  hout c := by
    rw [Pipeline.ownSems0_none, show (pdats m 2 c).Φ (Fin.last _) = (dat2 (V7 m) c).Φ (Fin.last cfg2.N) from rfl]
    iintro HΦ
    ihave H := (Phi_out2 (V7 m) c) $$ HΦ
    icases H with ⟨Hp, Hr⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W8`, left with them at `W9`. Its arrays
    are split out of the unscoped buffers and put back at the exit contents; the generator register goes into the
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V8 m) c).loose
  hwaits := Pipeline.hwaits_of_owed_zero _ _ _ _ L lv 3 fun _ _ => rfl
  pre c := iprop(StableHlo.held (c : Thread nD τ) (Pipeline.ucRefs τ sig) (W8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (V8 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (V8 m) c).Φ 0 from rfl]
    iintro ⟨Hp, -, Hr⟩
    iapply (Phi_in3 (V8 m) c)
    isplitl [Hp]; · iexact Hp
    iexact Hr
  hout c := by
    rw [Pipeline.ownSems0_none, show (pdats m 3 c).Φ (Fin.last _) = (dat3 (V8 m) c).Φ (Fin.last cfg3.N) from rfl]
    iintro HΦ
    ihave H := (Phi_out3 (V8 m) c) $$ HΦ
    icases H with ⟨Hp, Hr⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (V8 m c) (V9 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered with every unscoped buffer at `W12`, left with them at `W13`. Its arrays
    are split out of the unscoped buffers and put back at the exit contents; the generator register goes into the
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (V12 m) c).loose
  hwaits := Pipeline.hwaits_of_owed_zero _ _ _ _ L lv 4 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (V12 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (V12 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (V12 m) c).Φ 0 from rfl]
    iintro ⟨Hp, -, Hr⟩
    iapply (Phi_in4 (V12 m) c)
    isplitl [Hp]; · iexact Hp
    iexact Hr
  hout c := by
    rw [Pipeline.ownSems0_none, show (pdats m 4 c).Φ (Fin.last _) = (dat4 (V12 m) c).Φ (Fin.last cfg4.N) from rfl]
    iintro HΦ
    ihave H := (Phi_out4 (V12 m) c) $$ HΦ
    icases H with ⟨Hp, Hr⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (V12 m c) (V13 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered with every unscoped buffer at `W14`, left with them at `W15`. Its arrays
    are split out of the unscoped buffers and put back at the exit contents; the generator register goes into the
    invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (V14 m) c).loose
  hwaits := Pipeline.hwaits_of_owed_zero _ _ _ _ L lv 5 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (V14 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (V14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (V14 m) c).Φ 0 from rfl]
    iintro ⟨Hp, -, Hr⟩
    iapply (Phi_in5 (V14 m) c)
    isplitl [Hp]; · iexact Hp
    iexact Hr
  hout c := by
    rw [Pipeline.ownSems0_none, show (pdats m 5 c).Φ (Fin.last _) = (dat5 (V14 m) c).Φ (Fin.last cfg5.N) from rfl]
    iintro HΦ
    ihave H := (Phi_out5 (V14 m) c) $$ HΦ
    icases H with ⟨Hp, Hr⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (V14 m c) (V15 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .host (hseg hostOps1_1 hostOps1_1_sub hostOps1_1_fresh (W3 m)),
    .host (hseg hostOps1_2 hostOps1_2_sub hostOps1_2_fresh (W4 m)),
    .region (reg1 m),
    .host (hseg hostOps2 hostOps2_sub hostOps2_fresh (W6 m)),
    .region (reg2 m),
    .region (reg3 m),
    .host (hseg hostOps4 hostOps4_sub hostOps4_fresh (W9 m)),
    .host (hseg hostOps4_1 hostOps4_1_sub hostOps4_1_fresh (W10 m)),
    .host (hseg hostOps4_2 hostOps4_2_sub hostOps4_2_fresh (W11 m)),
    .region (reg4 m),
    .host (hseg hostOps5 hostOps5_sub hostOps5_fresh (W13 m)),
    .region (reg5 m) ]

theorem main_run (c : Dev nD) : main (F := F) c = Pipeline.Seg.run (segs m) := (main_chain c).trans (by chain_rfl)

set_option backward.isDefEq.respectTransparency.types false in
/-- From any memory with zero counters every weakly fair execution of @main on the TensorCores terminates, nothing
    faulting, and every final state has each unscoped buffer of each core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W15 m c) ∗ R c) : sProp 𝕄)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m c b)
    (hfin := fun c s' => by
      iintro ⟨⟨Hh, -⟩, HSI⟩
      unfold StableHlo.held
      imodintro
      iapply (pointsTo_read_all (Pipeline.ucRefs τ sig) (fun b => (((c : Thread nD τ)).1, b)) (W15 m c) s')
      isplitl [Hh] <;> iassumption)
    (hQ := fun s h c => h c)

end Cert.KernelIdeal.Hand

end
-- ==== Proof.KernelIdeal.Final.lean ====
/-
  What the run leaves where the claims look: every argument array ends as launched - no stretch of host operations
  writes one, and a region touches one only as an input window, which it leaves as entered -, and the result buffer
  ends at the last boundary's contents. For any float instance.
-/
import proofs.«163396_j33732673143025_1_alg».proof.Proof.KernelIdeal.Run

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-! ## A stretch of host operations leaves what it does not write -/

theorem W1_keep (c : Dev nD) (r : Ref sig .tc) (h : r ∉ hostOps0_W) :
    W1 m c (Proc.devRef .tc r) = W0 m c (Proc.devRef .tc r) := by
  unfold W1; exact StableHlo.after_of_writes_sub hostOps0 _ hostOps0_writes h
theorem W3_keep (c : Dev nD) (r : Ref sig .tc) (h : r ∉ hostOps1_W) :
    W3 m c (Proc.devRef .tc r) = W2 m c (Proc.devRef .tc r) := by
  unfold W3; exact StableHlo.after_of_writes_sub hostOps1 _ hostOps1_writes h
theorem W4_keep (c : Dev nD) (r : Ref sig .tc) (h : r ∉ hostOps1_1_W) :
    W4 m c (Proc.devRef .tc r) = W3 m c (Proc.devRef .tc r) := by
  unfold W4; exact StableHlo.after_of_writes_sub hostOps1_1 _ hostOps1_1_writes h
theorem W5_keep (c : Dev nD) (r : Ref sig .tc) (h : r ∉ hostOps1_2_W) :
    W5 m c (Proc.devRef .tc r) = W4 m c (Proc.devRef .tc r) := by
  unfold W5; exact StableHlo.after_of_writes_sub hostOps1_2 _ hostOps1_2_writes h
theorem W7_keep (c : Dev nD) (r : Ref sig .tc) (h : r ∉ hostOps2_W) :
    W7 m c (Proc.devRef .tc r) = W6 m c (Proc.devRef .tc r) := by
  unfold W7; exact StableHlo.after_of_writes_sub hostOps2 _ hostOps2_writes h
theorem W10_keep (c : Dev nD) (r : Ref sig .tc) (h : r ∉ hostOps4_W) :
    W10 m c (Proc.devRef .tc r) = W9 m c (Proc.devRef .tc r) := by
  unfold W10; exact StableHlo.after_of_writes_sub hostOps4 _ hostOps4_writes h
theorem W11_keep (c : Dev nD) (r : Ref sig .tc) (h : r ∉ hostOps4_1_W) :
    W11 m c (Proc.devRef .tc r) = W10 m c (Proc.devRef .tc r) := by
  unfold W11; exact StableHlo.after_of_writes_sub hostOps4_1 _ hostOps4_1_writes h
theorem W12_keep (c : Dev nD) (r : Ref sig .tc) (h : r ∉ hostOps4_2_W) :
    W12 m c (Proc.devRef .tc r) = W11 m c (Proc.devRef .tc r) := by
  unfold W12; exact StableHlo.after_of_writes_sub hostOps4_2 _ hostOps4_2_writes h
theorem W14_keep (c : Dev nD) (r : Ref sig .tc) (h : r ∉ hostOps5_W) :
    W14 m c (Proc.devRef .tc r) = W13 m c (Proc.devRef .tc r) := by
  unfold W14; exact StableHlo.after_of_writes_sub hostOps5 _ hostOps5_writes h

/-! ## The arguments end as launched -/

/-- `main_arg0` reaches the end as launched: no stretch writes it, and a region reads it at most through an input window. -/
theorem W15_main_arg0 (c : Dev nD) : W15 m c (Proc.devRef .tc main_arg0) = m ((c : Thread nD τ).loc main_arg0) :=
  (W15_of_ne m c main_arg0 (by decide)).trans <|
  (W14_keep m c main_arg0 (by decide)).trans <|
  (W13_of_ne m c main_arg0 (by decide)).trans <|
  (W12_keep m c main_arg0 (by decide)).trans <|
  (W11_keep m c main_arg0 (by decide)).trans <|
  (W10_keep m c main_arg0 (by decide)).trans <|
  (W9_of_ne m c main_arg0 (by decide)).trans <|
  (W8_of_ne m c main_arg0 (by decide)).trans <|
  (W7_keep m c main_arg0 (by decide)).trans <|
  (W6_of_ne m c main_arg0 (by decide)).trans <|
  (W5_keep m c main_arg0 (by decide)).trans <|
  (W4_keep m c main_arg0 (by decide)).trans <|
  (W3_keep m c main_arg0 (by decide)).trans <|
  ((W2_arr m c 0).trans (((dat0 (V1 m) c).arrAt_in 0 rfl _).trans (A_eq0 (V1 m) c 0))).trans <|
  (W1_keep m c main_arg0 (by decide))
/-- `main_arg1` reaches the end as launched: no stretch writes it, and a region reads it at most through an input window. -/
theorem W15_main_arg1 (c : Dev nD) : W15 m c (Proc.devRef .tc main_arg1) = m ((c : Thread nD τ).loc main_arg1) :=
  (W15_of_ne m c main_arg1 (by decide)).trans <|
  (W14_keep m c main_arg1 (by decide)).trans <|
  (W13_of_ne m c main_arg1 (by decide)).trans <|
  (W12_keep m c main_arg1 (by decide)).trans <|
  (W11_keep m c main_arg1 (by decide)).trans <|
  (W10_keep m c main_arg1 (by decide)).trans <|
  (W9_of_ne m c main_arg1 (by decide)).trans <|
  (W8_of_ne m c main_arg1 (by decide)).trans <|
  (W7_keep m c main_arg1 (by decide)).trans <|
  (W6_of_ne m c main_arg1 (by decide)).trans <|
  (W5_keep m c main_arg1 (by decide)).trans <|
  (W4_keep m c main_arg1 (by decide)).trans <|
  (W3_keep m c main_arg1 (by decide)).trans <|
  (W2_of_ne m c main_arg1 (by decide)).trans <|
  (W1_keep m c main_arg1 (by decide))
/-- `main_arg2` reaches the end as launched: no stretch writes it, and a region reads it at most through an input window. -/
theorem W15_main_arg2 (c : Dev nD) : W15 m c (Proc.devRef .tc main_arg2) = m ((c : Thread nD τ).loc main_arg2) :=
  (W15_of_ne m c main_arg2 (by decide)).trans <|
  (W14_keep m c main_arg2 (by decide)).trans <|
  (W13_of_ne m c main_arg2 (by decide)).trans <|
  (W12_keep m c main_arg2 (by decide)).trans <|
  (W11_keep m c main_arg2 (by decide)).trans <|
  (W10_keep m c main_arg2 (by decide)).trans <|
  (W9_of_ne m c main_arg2 (by decide)).trans <|
  (W8_of_ne m c main_arg2 (by decide)).trans <|
  (W7_keep m c main_arg2 (by decide)).trans <|
  (W6_of_ne m c main_arg2 (by decide)).trans <|
  (W5_keep m c main_arg2 (by decide)).trans <|
  (W4_keep m c main_arg2 (by decide)).trans <|
  (W3_keep m c main_arg2 (by decide)).trans <|
  (W2_of_ne m c main_arg2 (by decide)).trans <|
  (W1_keep m c main_arg2 (by decide))
/-- `main_arg3` reaches the end as launched: no stretch writes it, and a region reads it at most through an input window. -/
theorem W15_main_arg3 (c : Dev nD) : W15 m c (Proc.devRef .tc main_arg3) = m ((c : Thread nD τ).loc main_arg3) :=
  (W15_of_ne m c main_arg3 (by decide)).trans <|
  (W14_keep m c main_arg3 (by decide)).trans <|
  (W13_of_ne m c main_arg3 (by decide)).trans <|
  (W12_keep m c main_arg3 (by decide)).trans <|
  (W11_keep m c main_arg3 (by decide)).trans <|
  (W10_keep m c main_arg3 (by decide)).trans <|
  (W9_of_ne m c main_arg3 (by decide)).trans <|
  (W8_of_ne m c main_arg3 (by decide)).trans <|
  (W7_keep m c main_arg3 (by decide)).trans <|
  (W6_of_ne m c main_arg3 (by decide)).trans <|
  (W5_keep m c main_arg3 (by decide)).trans <|
  (W4_keep m c main_arg3 (by decide)).trans <|
  (W3_keep m c main_arg3 (by decide)).trans <|
  ((W2_arr m c 1).trans (((dat0 (V1 m) c).arrAt_in 1 rfl _).trans (A_eq0 (V1 m) c 1))).trans <|
  (W1_keep m c main_arg3 (by decide))
/-- `main_arg4` reaches the end as launched: no stretch writes it, and a region reads it at most through an input window. -/
theorem W15_main_arg4 (c : Dev nD) : W15 m c (Proc.devRef .tc main_arg4) = m ((c : Thread nD τ).loc main_arg4) :=
  (W15_of_ne m c main_arg4 (by decide)).trans <|
  (W14_keep m c main_arg4 (by decide)).trans <|
  (W13_of_ne m c main_arg4 (by decide)).trans <|
  (W12_keep m c main_arg4 (by decide)).trans <|
  (W11_keep m c main_arg4 (by decide)).trans <|
  (W10_keep m c main_arg4 (by decide)).trans <|
  (W9_of_ne m c main_arg4 (by decide)).trans <|
  (W8_of_ne m c main_arg4 (by decide)).trans <|
  (W7_keep m c main_arg4 (by decide)).trans <|
  (W6_of_ne m c main_arg4 (by decide)).trans <|
  (W5_keep m c main_arg4 (by decide)).trans <|
  (W4_keep m c main_arg4 (by decide)).trans <|
  (W3_keep m c main_arg4 (by decide)).trans <|
  (W2_of_ne m c main_arg4 (by decide)).trans <|
  (W1_keep m c main_arg4 (by decide))
/-- `main_arg5` reaches the end as launched: no stretch writes it, and a region reads it at most through an input window. -/
theorem W15_main_arg5 (c : Dev nD) : W15 m c (Proc.devRef .tc main_arg5) = m ((c : Thread nD τ).loc main_arg5) :=
  (W15_of_ne m c main_arg5 (by decide)).trans <|
  (W14_keep m c main_arg5 (by decide)).trans <|
  (W13_of_ne m c main_arg5 (by decide)).trans <|
  (W12_keep m c main_arg5 (by decide)).trans <|
  (W11_keep m c main_arg5 (by decide)).trans <|
  (W10_keep m c main_arg5 (by decide)).trans <|
  (W9_of_ne m c main_arg5 (by decide)).trans <|
  (W8_of_ne m c main_arg5 (by decide)).trans <|
  (W7_keep m c main_arg5 (by decide)).trans <|
  (W6_of_ne m c main_arg5 (by decide)).trans <|
  (W5_keep m c main_arg5 (by decide)).trans <|
  (W4_keep m c main_arg5 (by decide)).trans <|
  (W3_keep m c main_arg5 (by decide)).trans <|
  (W2_of_ne m c main_arg5 (by decide)).trans <|
  (W1_keep m c main_arg5 (by decide))
/-- `main_arg6` reaches the end as launched: no stretch writes it, and a region reads it at most through an input window. -/
theorem W15_main_arg6 (c : Dev nD) : W15 m c (Proc.devRef .tc main_arg6) = m ((c : Thread nD τ).loc main_arg6) :=
  (W15_of_ne m c main_arg6 (by decide)).trans <|
  (W14_keep m c main_arg6 (by decide)).trans <|
  (W13_of_ne m c main_arg6 (by decide)).trans <|
  (W12_keep m c main_arg6 (by decide)).trans <|
  (W11_keep m c main_arg6 (by decide)).trans <|
  (W10_keep m c main_arg6 (by decide)).trans <|
  (W9_of_ne m c main_arg6 (by decide)).trans <|
  (W8_of_ne m c main_arg6 (by decide)).trans <|
  (W7_keep m c main_arg6 (by decide)).trans <|
  (W6_of_ne m c main_arg6 (by decide)).trans <|
  (W5_keep m c main_arg6 (by decide)).trans <|
  (W4_keep m c main_arg6 (by decide)).trans <|
  (W3_keep m c main_arg6 (by decide)).trans <|
  (W2_of_ne m c main_arg6 (by decide)).trans <|
  (W1_keep m c main_arg6 (by decide))
/-- `main_arg7` reaches the end as launched: no stretch writes it, and a region reads it at most through an input window. -/
theorem W15_main_arg7 (c : Dev nD) : W15 m c (Proc.devRef .tc main_arg7) = m ((c : Thread nD τ).loc main_arg7) :=
  (W15_of_ne m c main_arg7 (by decide)).trans <|
  (W14_keep m c main_arg7 (by decide)).trans <|
  (W13_of_ne m c main_arg7 (by decide)).trans <|
  (W12_keep m c main_arg7 (by decide)).trans <|
  (W11_keep m c main_arg7 (by decide)).trans <|
  (W10_keep m c main_arg7 (by decide)).trans <|
  ((W9_arr m c 1).trans (((dat3 (V8 m) c).arrAt_in 1 rfl _).trans (A_eq3 (V8 m) c 1))).trans <|
  (W8_of_ne m c main_arg7 (by decide)).trans <|
  (W7_keep m c main_arg7 (by decide)).trans <|
  (W6_of_ne m c main_arg7 (by decide)).trans <|
  (W5_keep m c main_arg7 (by decide)).trans <|
  (W4_keep m c main_arg7 (by decide)).trans <|
  (W3_keep m c main_arg7 (by decide)).trans <|
  (W2_of_ne m c main_arg7 (by decide)).trans <|
  (W1_keep m c main_arg7 (by decide))
/-- `main_arg8` reaches the end as launched: no stretch writes it, and a region reads it at most through an input window. -/
theorem W15_main_arg8 (c : Dev nD) : W15 m c (Proc.devRef .tc main_arg8) = m ((c : Thread nD τ).loc main_arg8) :=
  (W15_of_ne m c main_arg8 (by decide)).trans <|
  (W14_keep m c main_arg8 (by decide)).trans <|
  (W13_of_ne m c main_arg8 (by decide)).trans <|
  (W12_keep m c main_arg8 (by decide)).trans <|
  (W11_keep m c main_arg8 (by decide)).trans <|
  (W10_keep m c main_arg8 (by decide)).trans <|
  (W9_of_ne m c main_arg8 (by decide)).trans <|
  (W8_of_ne m c main_arg8 (by decide)).trans <|
  (W7_keep m c main_arg8 (by decide)).trans <|
  (W6_of_ne m c main_arg8 (by decide)).trans <|
  (W5_keep m c main_arg8 (by decide)).trans <|
  (W4_keep m c main_arg8 (by decide)).trans <|
  (W3_keep m c main_arg8 (by decide)).trans <|
  (W2_of_ne m c main_arg8 (by decide)).trans <|
  (W1_keep m c main_arg8 (by decide))
/-- `main_arg9` reaches the end as launched: no stretch writes it, and a region reads it at most through an input window. -/
theorem W15_main_arg9 (c : Dev nD) : W15 m c (Proc.devRef .tc main_arg9) = m ((c : Thread nD τ).loc main_arg9) :=
  (W15_of_ne m c main_arg9 (by decide)).trans <|
  (W14_keep m c main_arg9 (by decide)).trans <|
  (W13_of_ne m c main_arg9 (by decide)).trans <|
  (W12_keep m c main_arg9 (by decide)).trans <|
  (W11_keep m c main_arg9 (by decide)).trans <|
  (W10_keep m c main_arg9 (by decide)).trans <|
  (W9_of_ne m c main_arg9 (by decide)).trans <|
  (W8_of_ne m c main_arg9 (by decide)).trans <|
  (W7_keep m c main_arg9 (by decide)).trans <|
  (W6_of_ne m c main_arg9 (by decide)).trans <|
  (W5_keep m c main_arg9 (by decide)).trans <|
  (W4_keep m c main_arg9 (by decide)).trans <|
  (W3_keep m c main_arg9 (by decide)).trans <|
  (W2_of_ne m c main_arg9 (by decide)).trans <|
  (W1_keep m c main_arg9 (by decide))
/-- `main_arg10` reaches the end as launched: no stretch writes it, and a region reads it at most through an input window. -/
theorem W15_main_arg10 (c : Dev nD) : W15 m c (Proc.devRef .tc main_arg10) = m ((c : Thread nD τ).loc main_arg10) :=
  (W15_of_ne m c main_arg10 (by decide)).trans <|
  (W14_keep m c main_arg10 (by decide)).trans <|
  (W13_of_ne m c main_arg10 (by decide)).trans <|
  (W12_keep m c main_arg10 (by decide)).trans <|
  (W11_keep m c main_arg10 (by decide)).trans <|
  (W10_keep m c main_arg10 (by decide)).trans <|
  (W9_of_ne m c main_arg10 (by decide)).trans <|
  (W8_of_ne m c main_arg10 (by decide)).trans <|
  (W7_keep m c main_arg10 (by decide)).trans <|
  (W6_of_ne m c main_arg10 (by decide)).trans <|
  (W5_keep m c main_arg10 (by decide)).trans <|
  (W4_keep m c main_arg10 (by decide)).trans <|
  (W3_keep m c main_arg10 (by decide)).trans <|
  (W2_of_ne m c main_arg10 (by decide)).trans <|
  (W1_keep m c main_arg10 (by decide))

/-! ## The frame, and the run with the result named -/

/-- Every weakly fair execution of @main terminates, nothing faulting, with every argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨(h c _ (mem_uc main_arg0 (by decide))).trans (W15_main_arg0 m c),
     (h c _ (mem_uc main_arg1 (by decide))).trans (W15_main_arg1 m c),
     (h c _ (mem_uc main_arg2 (by decide))).trans (W15_main_arg2 m c),
     (h c _ (mem_uc main_arg3 (by decide))).trans (W15_main_arg3 m c),
     (h c _ (mem_uc main_arg4 (by decide))).trans (W15_main_arg4 m c),
     (h c _ (mem_uc main_arg5 (by decide))).trans (W15_main_arg5 m c),
     (h c _ (mem_uc main_arg6 (by decide))).trans (W15_main_arg6 m c),
     (h c _ (mem_uc main_arg7 (by decide))).trans (W15_main_arg7 m c),
     (h c _ (mem_uc main_arg8 (by decide))).trans (W15_main_arg8 m c),
     (h c _ (mem_uc main_arg9 (by decide))).trans (W15_main_arg9 m c),
     (h c _ (mem_uc main_arg10 (by decide))).trans (W15_main_arg10 m c)⟩) (run_all m ρ)

/-- The same run, with the result buffer at the last boundary's contents. -/
theorem run_result : θ_run defs (onTc (τ := τ) (main (F := F))) ⟨m, fun _ => 0, ρ⟩ (fun r => ∀ c : Dev nD,
      r.2.mem ((c.tc : Thread nD τ).loc main_v51) = W15 m c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun s h c =>
    ⟨h c _ (mem_uc main_v51 (by decide)),
     (h c _ (mem_uc main_arg0 (by decide))).trans (W15_main_arg0 m c),
     (h c _ (mem_uc main_arg1 (by decide))).trans (W15_main_arg1 m c),
     (h c _ (mem_uc main_arg2 (by decide))).trans (W15_main_arg2 m c),
     (h c _ (mem_uc main_arg3 (by decide))).trans (W15_main_arg3 m c),
     (h c _ (mem_uc main_arg4 (by decide))).trans (W15_main_arg4 m c),
     (h c _ (mem_uc main_arg5 (by decide))).trans (W15_main_arg5 m c),
     (h c _ (mem_uc main_arg6 (by decide))).trans (W15_main_arg6 m c),
     (h c _ (mem_uc main_arg7 (by decide))).trans (W15_main_arg7 m c),
     (h c _ (mem_uc main_arg8 (by decide))).trans (W15_main_arg8 m c),
     (h c _ (mem_uc main_arg9 (by decide))).trans (W15_main_arg9 m c),
     (h c _ (mem_uc main_arg10 (by decide))).trans (W15_main_arg10 m c)⟩) (run_all m ρ)

end Cert.KernelIdeal.Hand

end
-- ==== Proof.Spec.lean ====
/-
  What the three kernel bodies of the two-layer graph encoder compute, as whole-array functions over the extended
  reals (the instance at which a float is an exact extended real and every operation the textbook one):

  * `mm256` / `mm128`: a row-blocked matrix product x·W, entry (i, j) the sum over k of x[i,k]·W[k,j];
  * `colSum` / `colSq`: per column j the sum over all 100000 rows i of (A[i,j] + b[j]), and of its square — what
    the statistics kernel's two accumulators hold after the last row block;
  * `normRelu`: max(((A[i,j] + b[j]) − mean[j]) · rsqrt(var[j] + ε) · g[j] + β[j], 0), ε the f32 word of 1e-5.

  Rows b, mean, var, g, β are [1,128] arrays (the kernels' operands). Nothing here mentions a program.
-/
import Idealize.ShloMosaic.PureOps.Ideal
import Idealize.ShloMosaic.Lib.ValueIdx

noncomputable section

open scoped BigOperators

namespace Cert.Spec

open Idealize.ShloMosaic Idealize.ShloMosaic.ValueIdx

/-- The shapes, as the printed programs spell them. -/
abbrev S100000x256 : Shape := ⟨2, ![100000, 256]⟩
abbrev S100000x128 : Shape := ⟨2, ![100000, 128]⟩
abbrev S256x128 : Shape := ⟨2, ![256, 128]⟩
abbrev S128x128 : Shape := ⟨2, ![128, 128]⟩
abbrev S1x128 : Shape := ⟨2, ![1, 128]⟩

/-- The f32 word of 1e-5 the normalisation adds under the inverse square root, and the zero word of the final maximum. -/
abbrev epsW : EReal := Ideal.ofBits .f32 0x3727C5AC#32
abbrev zeroW : EReal := Ideal.ofBits .f32 0x00000000#32

/-- x·W for x : [100000,256], W : [256,128]. -/
def mm256 (x : FVec Ideal S100000x256 .f32) (W : FVec Ideal S256x128 .f32) : FVec Ideal S100000x128 .f32 :=
  fun i => ∑ k : Fin 256, x (ix2 (i 0) k) * W (ix2 k (i 1))

/-- h·W for h : [100000,128], W : [128,128]. -/
def mm128 (x : FVec Ideal S100000x128 .f32) (W : FVec Ideal S128x128 .f32) : FVec Ideal S100000x128 .f32 :=
  fun i => ∑ k : Fin 128, x (ix2 (i 0) k) * W (ix2 k (i 1))

/-- Column sums of A + b. -/
def colSum (A : FVec Ideal S100000x128 .f32) (b : FVec Ideal S1x128 .f32) : FVec Ideal S1x128 .f32 :=
  fun j => ∑ i : Fin 100000, (A (ix2 i (j 1)) + b (ix2 0 (j 1)))

/-- Column sums of (A + b)². -/
def colSq (A : FVec Ideal S100000x128 .f32) (b : FVec Ideal S1x128 .f32) : FVec Ideal S1x128 .f32 :=
  fun j => ∑ i : Fin 100000, (A (ix2 i (j 1)) + b (ix2 0 (j 1))) * (A (ix2 i (j 1)) + b (ix2 0 (j 1)))

/-- Normalise, scale, shift, clamp at zero. -/
def normRelu (A : FVec Ideal S100000x128 .f32) (b mean var g be : FVec Ideal S1x128 .f32) : FVec Ideal S100000x128 .f32 :=
  fun i => max ((((A i + b (ix2 0 (i 1))) - mean (ix2 0 (i 1))) * Ideal.rsqrt (var (ix2 0 (i 1)) + epsW)) * g (ix2 0 (i 1))
    + be (ix2 0 (i 1))) zeroW

end Cert.Spec

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«163396_j33732673143025_1_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.KernelIdeal.R0Value.lean ====
/-
  What region 0's output array(s) hold after the region, as one whole-array function of the arrays it was entered with
  (at the instance where a float is an exact extended real).

  At every point the body stores into the product's buffer the block product of the left factor's row block with the
  whole weight; over the extended reals a narrowing of a float is the identity and a product into the zero block is,
  at (r, q), the sum over k of left(r, k) · right(k, q). Row r of block t of the left factor and of the product is
  row 4000·t + r of its array, so what point t writes back is block t of x·W, and the 25 blocks cover the rows.
-/
import proofs.«163396_j33732673143025_1_alg».proof.Proof.KernelIdeal.R0
import proofs.«163396_j33732673143025_1_alg».proof.Proof.Spec
import proofs.«163396_j33732673143025_1_alg».proof.Proof.LibRowReads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem zeros_mm0 : (![0, 0] : Fin 2 → ℕ) = fun _ => 0 := funext fun a => by fin_cases a <;> rfl

/-- The two factor arrays as the region finds them, as functions into the extended reals. -/
abbrev X0 (c : Dev nD) : Cert.Spec.S100000x256.Idx → EReal := V c main_arg0
abbrev wgt0 (c : Dev nD) : Cert.Spec.S256x128.Idx → EReal := V c main_arg3

/-- The body's payload at (r, q): row r of the left block against column q of the weight. -/
theorem pay_mm0 (x0 : Vec Ideal S4000x256 .f32) (x1 : Vec Ideal S256x128 .f32) (r : Fin 4000) (q : Fin 128) :
    (k0_pay1 x0 x1 (ix2 r q) : EReal) = ∑ p : Fin 256, (x0 (ix2 r p) : EReal) * x1 (ix2 p q) := by
  unfold k0_pay1
  exact Cert.Lib.matmul_zero_at dot_S4000x256_S256x128_S4000x128_1_0_0_1_n_n rfl rfl rfl rfl rfl rfl none _ _ r q

/-- The printed index maps, decided over the grid: the left factor and the product walk the row blocks, the weight
    stays. -/
theorem idx_mm0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row r of block t of the left factor is row 4000·t + r of the array. -/
theorem iblk0_0_at (c : Dev nD) (t : Fin cfg0.N) (x0 : Vec Ideal S4000x256 .f32) (h0 : x0 = iblk0 V c 0 t)
    (r : Fin 4000) (p : Fin 256) (h : 4000 * t.val + r.val < 100000) :
    (x0 (ix2 r p) : EReal) = X0 V c (ix2 (⟨4000 * t.val + r.val, h⟩ : Fin 100000) p) := by
  subst h0
  obtain ⟨e0, e1, e2, e3, e4, e5⟩ := idx_mm0 t
  unfold iblk0
  rw [View.read_apply]
  show (V c main_arg0 _ : EReal) = V c main_arg0 _
  congr 1
  funext a
  apply Fin.ext
  match a with
  | ⟨0, _⟩ => show win0_0.index t (0 : Fin 2) * 4000 + 1 * r.val = 4000 * t.val + r.val; rw [e0]; omega
  | ⟨1, _⟩ => show win0_0.index t (1 : Fin 2) * 256 + 1 * p.val = p.val; rw [e1]; omega

/-- The weight's block is the weight. -/
theorem iblk0_1_at (c : Dev nD) (t : Fin cfg0.N) (x1 : Vec Ideal S256x128 .f32) (h1 : x1 = iblk0 V c 1 t)
    (p : Fin 256) (q : Fin 128) :
    (x1 (ix2 p q) : EReal) = wgt0 V c (ix2 p q) := by
  subst h1
  obtain ⟨e0, e1, e2, e3, e4, e5⟩ := idx_mm0 t
  unfold iblk0
  rw [View.read_apply]
  show (V c main_arg3 _ : EReal) = V c main_arg3 _
  congr 1
  funext a
  apply Fin.ext
  match a with
  | ⟨0, _⟩ => show win0_1.index t (0 : Fin 2) * 256 + 1 * p.val = p.val; rw [e2]; omega
  | ⟨1, _⟩ => show win0_1.index t (1 : Fin 2) * 128 + 1 * q.val = q.val; rw [e3]; omega

/-- Entry (r, q) of the product's block t sits at (4000·t + r, q) of the product's array. -/
theorem emb_mm0 (t : Fin cfg0.N) (r : Fin 4000) (q : Fin 128) (h : 4000 * t.val + r.val < 100000) :
    ((cfg0.win 2).blk t).view.emb (ix2 r q) = (ix2 (⟨4000 * t.val + r.val, h⟩ : Fin 100000) q : S100000x128.Idx) := by
  obtain ⟨e0, e1, e2, e3, e4, e5⟩ := idx_mm0 t
  funext a
  apply Fin.ext
  match a with
  | ⟨0, _⟩ => show win0_2.index t (0 : Fin 2) * 4000 + 1 * r.val = 4000 * t.val + r.val; rw [e4]; omega
  | ⟨1, _⟩ => show win0_2.index t (1 : Fin 2) * 128 + 1 * q.val = q.val; rw [e5]; omega

/-- What point t writes back is block t of the whole product. -/
theorem flushed_mm0 (c : Dev nD) (t : Fin cfg0.N) :
    (dat0 (F := Ideal) V c).flushed 2 t
      = ((cfg0.win 2).blk t).view.read (Elt Ideal) (Cert.Spec.mm256 (V c main_arg0) (V c main_arg3) : Buf (Elt Ideal) ((c : Thread nD τ).loc main_v4)) := by
  have hN : t.val < 25 := lt_of_lt_of_eq t.isLt (show cfg0.N = 25 from N_0)
  show (cfg0.win 2).cut (grid0.coords t) ((dat0 (F := Ideal) V c).after 2 t) = _
  rw [after0_2]
  unfold out0_2
  rw [View.canon_unit_zero zeros_mm0]
  simp only [View.ld_unit_zero (S := S4000x256) zeros_mm0, View.ld_unit_zero (S := S256x128) zeros_mm0]
  funext j
  obtain ⟨r, q, rfl⟩ : ∃ (r : Fin 4000) (q : Fin 128), j = ix2 r q := ⟨j 0, j 1, eq_ix2 j⟩
  have h : 4000 * t.val + r.val < 100000 := by have := r.isLt; omega
  show (k0_pay1 (iblk0 V c 0 t) (iblk0 V c 1 t) (ix2 r q) : EReal)
    = Cert.Spec.mm256 (V c main_arg0) (V c main_arg3) (((cfg0.win 2).blk t).view.emb (ix2 r q))
  rw [emb_mm0 t r q h, pay_mm0]
  show _ = ∑ k : Fin 256, X0 V c (ix2 (⟨4000 * t.val + r.val, h⟩ : Fin 100000) k) * wgt0 V c (ix2 k q)
  exact Finset.sum_congr rfl fun p _ => by rw [iblk0_0_at V c t _ rfl r p h, iblk0_1_at V c t _ rfl p q]

/-- An index of the product's array is in point t's block iff each coordinate is in the block's range on its axis. -/
theorem mem_blk_mm0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v4).slice (win0_2.rect t)).set ↔ _
  rw [View.set_slice_whole, Rect.mem_set_unit]
  exact Iff.rfl

/-- Row i is in the block of point i / 4000. -/
theorem cover_mm0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 25 := N_0
  obtain ⟨t, ht⟩ : ∃ t : Fin cfg0.N, t.val = (i 0).val / 4000 := ⟨⟨(i 0).val / 4000, by rw [hN]; omega⟩, rfl⟩
  obtain ⟨e0, e1, e2, e3, e4, e5⟩ := idx_mm0 t
  refine ⟨t, flush0_2 t, ?_⟩
  rw [mem_blk_mm0]
  intro a
  match a with
  | ⟨0, _⟩ => show win0_2.index t (0 : Fin 2) * 4000 ≤ (i 0).val ∧ (i 0).val < win0_2.index t (0 : Fin 2) * 4000 + 4000; rw [e4, ht]; omega
  | ⟨1, _⟩ => show win0_2.index t (1 : Fin 2) * 128 ≤ (i 1).val ∧ (i 1).val < win0_2.index t (1 : Fin 2) * 128 + 128; rw [e5]; omega

/-- The product's array after the region: entry (i, j) is the sum over k of x[i,k]·W1[k,j]. -/
theorem out0_closed (c : Dev nD) :
    ((dat0 (F := Ideal) V c).arrAt 2 cfg0.N : S100000x128.Idx → EReal) = Cert.Spec.mm256 (V c main_arg0) (V c main_arg3) :=
  (dat0 (F := Ideal) V c).arrAt_eq_of_cover 2 _ (fun t _ => flushed_mm0 V c t) cover_mm0

end Cert.KernelIdeal.Hand

end
-- ==== Proof.LibLaneSums.lean ====
/-
  Lane sums of a matrix read at an element, on the extended reals: a `vector.multi_reduction <add>` of an M-by-N
  matrix along its columns (axis 1) is, at row r, the sum over the N entries of row r; along its rows (axis 0) it is,
  at column k, the sum over the M entries of column k. Also the square root of a vector at an element.
-/
import Idealize.ShloMosaic.PureOps.Ideal.Laws
import Idealize.ShloMosaic.Lib.ValueIdx

noncomputable section

open scoped BigOperators

namespace Cert.Lib

open Idealize.ShloMosaic Idealize.ShloMosaic.ValueIdx

variable {φ : FTy}

/-- Summing each row: at row `r`, the sum of that row's entries. -/
theorem rowSum_apply {M N : Nat} (src : FVec Ideal ⟨2, ![M, N]⟩ φ) (acc : BitVec φ.bits)
    (h : Shape.Reduces ⟨2, ![M, N]⟩ [1] ⟨1, ![M]⟩) (hφ : FKind.Formats φ) (hacc : acc = FKind.add.neutral φ hφ) (r : Fin M) :
    multiReduction .add [1] ⟨1, ![M]⟩ src acc h hφ hacc (ix1 r) = ∑ k : Fin N, src (ix2 r k) :=
  (Ideal.multiReduction_add_single src acc h hφ hacc (ix1 r)).trans
    (Finset.sum_congr rfl fun k _ => congrArg src (funext fun a => Fin.ext (by
      match a with
      | ⟨0, _⟩ => rfl
      | ⟨1, _⟩ => rfl)))

/-- Summing each column: at column `k`, the sum of that column's entries. -/
theorem colSum_apply {M N : Nat} (src : FVec Ideal ⟨2, ![M, N]⟩ φ) (acc : BitVec φ.bits)
    (h : Shape.Reduces ⟨2, ![M, N]⟩ [0] ⟨1, ![N]⟩) (hφ : FKind.Formats φ) (hacc : acc = FKind.add.neutral φ hφ) (k : Fin N) :
    multiReduction .add [0] ⟨1, ![N]⟩ src acc h hφ hacc (ix1 k) = ∑ r : Fin M, src (ix2 r k) :=
  (Ideal.multiReduction_add_single src acc h hφ hacc (ix1 k)).trans
    (Finset.sum_congr rfl fun r _ => congrArg src (funext fun a => Fin.ext (by
      match a with
      | ⟨0, _⟩ => rfl
      | ⟨1, _⟩ => rfl)))

/-- The square root of a vector, at an element. -/
theorem sqrt_apply {s : Shape} (a : FVec Ideal s φ) (i : s.Idx) : sqrt a i = Ideal.sqrt (a i) := rfl

end Cert.Lib

end
-- ==== Proof.LibTiles.lean ====
/-
  Sums over a contraction axis cut into tiles, and padded with zeros.

  A sum over 0 ≤ d < T·K is the sum, tile by tile, of the tiles' sums; and a sum over 0 ≤ d < n + p whose terms vanish
  from n on is the sum over 0 ≤ d < n.  Both hold in any commutative monoid: only the order and grouping of the terms
  changes, and zeros are dropped.
-/
import Mathlib.Algebra.BigOperators.Intervals
import Mathlib.Algebra.BigOperators.Fin

namespace Cert.Tiles

open Finset

variable {M : Type*} [AddCommMonoid M]

/-- Tile by tile: Σ_{k<K} Σ_{j<T} f (T·k + j) = Σ_{d<T·K} f d. -/
theorem sum_tiles (T : ℕ) (f : ℕ → M) : ∀ K : ℕ, ∑ k ∈ range K, ∑ j ∈ range T, f (T * k + j) = ∑ d ∈ range (T * K), f d
  | 0 => by simp
  | K + 1 => by rw [sum_range_succ, sum_tiles T f K, Nat.mul_succ, sum_range_add]

/-- The same with each tile summed over `Fin T`. -/
theorem sum_tiles_fin (T : ℕ) (f : ℕ → M) (K : ℕ) :
    ∑ k ∈ range K, ∑ j : Fin T, f (T * k + j.val) = ∑ d ∈ range (T * K), f d := by
  rw [← sum_tiles T f K]
  exact sum_congr rfl fun k _ => Fin.sum_univ_eq_sum_range (fun j => f (T * k + j)) T

/-- Terms that vanish from `n` on may be dropped. -/
theorem sum_drop_zeros (n p : ℕ) (f : ℕ → M) (hz : ∀ d, n ≤ d → f d = 0) :
    ∑ d ∈ range (n + p), f d = ∑ d ∈ range n, f d := by
  rw [sum_range_add, sum_eq_zero (fun d _ => hz (n + d) (Nat.le_add_right _ _)), add_zero]

/-- A sum over `range n` of a function given on `Fin n` (extended by zero) is the sum over `Fin n`. -/
theorem sum_range_dite (n : ℕ) (g : Fin n → M) :
    ∑ d ∈ range n, (if h : d < n then g ⟨d, h⟩ else 0) = ∑ d : Fin n, g d := by
  rw [← Fin.sum_univ_eq_sum_range (fun d => if h : d < n then g ⟨d, h⟩ else 0) n]
  exact sum_congr rfl fun d _ => by rw [dif_pos d.isLt]

end Cert.Tiles
-- ==== Proof.KernelIdeal.R1Value.lean ====
/-
  What region 1's output array(s) hold after the region, as one whole-array function of the arrays it was entered with
  (at the instance where a float is an exact extended real).

  Over the extended reals addition is associative and commutative with 0 neutral, so the ten block sums accumulated one
  after the other, starting from the zero row, are the sum over all 100000 rows: per column k the running sum after
  point n is the sum over the first 10000·(n+1) rows of A(i,k) + b(k) (resp. of its square), and a sum over
  Fin 100000 is ten consecutive sums over Fin 10000. The one write-back, at the last point, writes the whole [1,128]
  output array.
-/
import proofs.«163396_j33732673143025_1_alg».proof.Proof.KernelIdeal.R1
import proofs.«163396_j33732673143025_1_alg».proof.Proof.Spec
import proofs.«163396_j33732673143025_1_alg».proof.Proof.LibLaneSums
import proofs.«163396_j33732673143025_1_alg».proof.Proof.LibTiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-! ## The body's arithmetic at an element -/

/-- A + b on a block: at (r, k), the block's entry plus the bias row's entry k. -/
theorem pay3_at1 (x0 : Vec Ideal S10000x128 .f32) (x1 : Vec Ideal S1x128 .f32) (r : Fin 10000) (k : Fin 128) :
    (k1_pay3 x0 x1 (ix2 r k) : EReal) = x0 (ix2 r k) + x1 (ix2 (0 : Fin 1) k) := by
  unfold k1_pay3
  show (shapeCast S10000x128 x0 _ (ix2 r k) : EReal) + broadcastTo S10000x128 (shapeCast S1x128 x1 _) _ (ix2 r k) = _
  rw [shapeCast_self, shapeCast_self, broadcastTo_1b_ab_apply]

/-- The sum row increased by a block: at column k, the row's entry plus the block's column sum of A + b. -/
theorem pay4_at1 (x0 : Vec Ideal S10000x128 .f32) (x1 xs : Vec Ideal S1x128 .f32) (k : Fin 128) :
    (k1_pay4 x0 x1 xs (ix2 (0 : Fin 1) k) : EReal) = xs (ix2 (0 : Fin 1) k) + ∑ r : Fin 10000, (x0 (ix2 r k) + x1 (ix2 (0 : Fin 1) k)) := by
  unfold k1_pay4
  show (shapeCast S1x128 (addf xs (shapeCast S1x128 (multiReduction .add [0] S128 (k1_pay3 x0 x1) 0x00000000#32 _ _ _) _)) _ (ix2 (0 : Fin 1) k) : EReal) = _
  rw [shapeCast_self]
  show (xs (ix2 (0 : Fin 1) k) : EReal) + shapeCast S1x128 (multiReduction .add [0] S128 (k1_pay3 x0 x1) 0x00000000#32 _ _ _) _ (ix2 (0 : Fin 1) k) = _
  rw [shapeCast_a_1a_apply]
  exact congrArg (fun z : EReal => (xs (ix2 (0 : Fin 1) k) : EReal) + z)
    ((Cert.Lib.colSum_apply (k1_pay3 x0 x1) _ _ _ _ k).trans (Finset.sum_congr rfl fun r _ => pay3_at1 x0 x1 r k))

/-- The square-sum row increased by a block: at column k, the row's entry plus the block's column sum of (A + b)². -/
theorem pay5_at1 (x0 : Vec Ideal S10000x128 .f32) (x1 xs : Vec Ideal S1x128 .f32) (k : Fin 128) :
    (k1_pay5 x0 x1 xs (ix2 (0 : Fin 1) k) : EReal)
      = xs (ix2 (0 : Fin 1) k) + ∑ r : Fin 10000, (x0 (ix2 r k) + x1 (ix2 (0 : Fin 1) k)) * (x0 (ix2 r k) + x1 (ix2 (0 : Fin 1) k)) := by
  unfold k1_pay5
  show (shapeCast S1x128 (addf xs (shapeCast S1x128 (multiReduction .add [0] S128 (mulf (k1_pay3 x0 x1) (k1_pay3 x0 x1)) 0x00000000#32 _ _ _) _)) _ (ix2 (0 : Fin 1) k) : EReal) = _
  rw [shapeCast_self]
  show (xs (ix2 (0 : Fin 1) k) : EReal) + shapeCast S1x128 (multiReduction .add [0] S128 (mulf (k1_pay3 x0 x1) (k1_pay3 x0 x1)) 0x00000000#32 _ _ _) _ (ix2 (0 : Fin 1) k) = _
  rw [shapeCast_a_1a_apply]
  refine congrArg (fun z : EReal => (xs (ix2 (0 : Fin 1) k) : EReal) + z)
    ((Cert.Lib.colSum_apply (mulf (k1_pay3 x0 x1) (k1_pay3 x0 x1)) _ _ _ _ k).trans (Finset.sum_congr rfl fun r _ => ?_))
  show (k1_pay3 x0 x1 (ix2 r k) : EReal) * k1_pay3 x0 x1 (ix2 r k) = _
  rw [pay3_at1]

/-- The zero rows the first point stores. -/
theorem pay1_at1 (j : S1x128.Idx) : (k1_pay1 (F := Ideal) j : EReal) = 0 := by
  unfold k1_pay1
  show (Ideal.ofBits .f32 0x00000000#32 : EReal) = 0
  exact Ideal.ofBits_zero_f32
theorem pay2_at1 (j : S1x128.Idx) : (k1_pay2 (F := Ideal) j : EReal) = 0 := by
  unfold k1_pay2
  show (Ideal.ofBits .f32 0x00000000#32 : EReal) = 0
  exact Ideal.ofBits_zero_f32

/-! ## The windows' blocks at an element -/

theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = 0 ∧ win1_1.index t 1 = 0 :=
  (by decide +kernel : ∀ t : Fin grid1.N, win1_1.index t 0 = 0 ∧ win1_1.index t 1 = 0)

/-- The two operand arrays as the region finds them, as functions into the extended reals. -/
abbrev A1 (c : Dev nD) : Cert.Spec.S100000x128.Idx → EReal := V c main_v11
abbrev B1 (c : Dev nD) : Cert.Spec.S1x128.Idx → EReal := V c main_v12

/-- Row r of block t of A is row 10000·t + r of A. -/
theorem iblk1_0_at (c : Dev nD) (t : Fin cfg1.N) (x0 : Vec Ideal S10000x128 .f32) (h0 : x0 = iblk1 V c 0 t)
    (r : Fin 10000) (k : Fin 128) (h : 10000 * t.val + r.val < 100000) :
    (x0 (ix2 r k) : EReal) = A1 V c (ix2 (⟨10000 * t.val + r.val, h⟩ : Fin 100000) k) := by
  subst h0
  unfold iblk1
  rw [View.read_apply]
  show (V c main_v11 _ : EReal) = V c main_v11 _
  congr 1
  funext a
  apply Fin.ext
  match a with
  | ⟨0, _⟩ => show win1_0.index t 0 * 10000 + 1 * r.val = 10000 * t.val + r.val; rw [(index1_0 t).1]; omega
  | ⟨1, _⟩ => show win1_0.index t 1 * 128 + 1 * k.val = k.val; rw [(index1_0 t).2]; omega

/-- The bias row's block is the bias row. -/
theorem iblk1_1_at (c : Dev nD) (t : Fin cfg1.N) (x1 : Vec Ideal S1x128 .f32) (h1 : x1 = iblk1 V c 1 t) (k : Fin 128) :
    (x1 (ix2 (0 : Fin 1) k) : EReal) = B1 V c (ix2 (0 : Fin 1) k) := by
  subst h1
  unfold iblk1
  rw [View.read_apply]
  show (V c main_v12 _ : EReal) = V c main_v12 _
  congr 1
  funext a
  apply Fin.ext
  match a with
  | ⟨0, _⟩ => show win1_1.index t 0 * 1 + 1 * 0 = 0; rw [(index1_1 t).1]
  | ⟨1, _⟩ => show win1_1.index t 1 * 128 + 1 * k.val = k.val; rw [(index1_1 t).2]; omega

/-! ## The running sums in closed form -/

/-- Row d's term of column k of A + b (zero from row 100000 on), -/
def term1 (c : Dev nD) (k : Fin 128) (d : ℕ) : EReal :=
  if h : d < 100000 then A1 V c (ix2 (⟨d, h⟩ : Fin 100000) k) + B1 V c (ix2 (0 : Fin 1) k) else 0
/-- and of its square. -/
def termSq1 (c : Dev nD) (k : Fin 128) (d : ℕ) : EReal :=
  if h : d < 100000 then (A1 V c (ix2 (⟨d, h⟩ : Fin 100000) k) + B1 V c (ix2 (0 : Fin 1) k))
    * (A1 V c (ix2 (⟨d, h⟩ : Fin 100000) k) + B1 V c (ix2 (0 : Fin 1) k)) else 0

/-- A block's column sum of A + b is the sum of the terms of its 10000 rows. -/
theorem blockSum1 (c : Dev nD) (t : Fin cfg1.N) (k : Fin 128) (x0 : Vec Ideal S10000x128 .f32) (x1 : Vec Ideal S1x128 .f32)
    (h0 : x0 = iblk1 V c 0 t) (h1 : x1 = iblk1 V c 1 t) :
    (∑ r : Fin 10000, ((x0 (ix2 r k) : EReal) + x1 (ix2 (0 : Fin 1) k)))
      = ∑ r : Fin 10000, term1 V c k (10000 * t.val + r.val) := by
  have hN : t.val < 10 := lt_of_lt_of_eq t.isLt (show cfg1.N = 10 from N_1)
  refine Finset.sum_congr rfl fun r _ => ?_
  have h : 10000 * t.val + r.val < 100000 := by have := r.isLt; omega
  rw [iblk1_0_at V c t x0 h0 r k h, iblk1_1_at V c t x1 h1 k]
  unfold term1; rw [dif_pos h]

theorem blockSumSq1 (c : Dev nD) (t : Fin cfg1.N) (k : Fin 128) (x0 : Vec Ideal S10000x128 .f32) (x1 : Vec Ideal S1x128 .f32)
    (h0 : x0 = iblk1 V c 0 t) (h1 : x1 = iblk1 V c 1 t) :
    (∑ r : Fin 10000, ((x0 (ix2 r k) : EReal) + x1 (ix2 (0 : Fin 1) k)) * ((x0 (ix2 r k) : EReal) + x1 (ix2 (0 : Fin 1) k)))
      = ∑ r : Fin 10000, termSq1 V c k (10000 * t.val + r.val) := by
  have hN : t.val < 10 := lt_of_lt_of_eq t.isLt (show cfg1.N = 10 from N_1)
  refine Finset.sum_congr rfl fun r _ => ?_
  have h : 10000 * t.val + r.val < 100000 := by have := r.isLt; omega
  rw [iblk1_0_at V c t x0 h0 r k h, iblk1_1_at V c t x1 h1 k]
  unfold termSq1; rw [dif_pos h]

/-- The running sums after point n, per column: the terms of the first n + 1 blocks. -/
theorem acc1_eq (c : Dev nD) (k : Fin 128) : ∀ (n : ℕ) (hn : n < cfg1.N),
    (((acc1 V c n hn).1 (ix2 (0 : Fin 1) k) : EReal) = ∑ p ∈ Finset.range (n + 1), ∑ r : Fin 10000, term1 V c k (10000 * p + r.val))
    ∧ (((acc1 V c n hn).2 (ix2 (0 : Fin 1) k) : EReal) = ∑ p ∈ Finset.range (n + 1), ∑ r : Fin 10000, termSq1 V c k (10000 * p + r.val))
  | 0, hn => by
    constructor
    · show (k1_pay4 (iblk1 V c 0 ⟨0, hn⟩) (iblk1 V c 1 ⟨0, hn⟩) (k1_pay1 (F := Ideal)) (ix2 (0 : Fin 1) k) : EReal) = _
      rw [pay4_at1, pay1_at1, zero_add, blockSum1 V c ⟨0, hn⟩ k _ _ rfl rfl, Finset.sum_range_one]
    · show (k1_pay5 (iblk1 V c 0 ⟨0, hn⟩) (iblk1 V c 1 ⟨0, hn⟩) (k1_pay2 (F := Ideal)) (ix2 (0 : Fin 1) k) : EReal) = _
      rw [pay5_at1, pay2_at1, zero_add, blockSumSq1 V c ⟨0, hn⟩ k _ _ rfl rfl, Finset.sum_range_one]
  | n + 1, hn => by
    obtain ⟨ih1, ih2⟩ := acc1_eq c k n (Nat.lt_of_succ_lt hn)
    constructor
    · show (k1_pay4 (iblk1 V c 0 ⟨n + 1, hn⟩) (iblk1 V c 1 ⟨n + 1, hn⟩) (acc1 V c n (Nat.lt_of_succ_lt hn)).1 (ix2 (0 : Fin 1) k) : EReal) = _
      rw [pay4_at1, ih1, blockSum1 V c ⟨n + 1, hn⟩ k _ _ rfl rfl, Finset.sum_range_succ _ (n + 1)]
    · show (k1_pay5 (iblk1 V c 0 ⟨n + 1, hn⟩) (iblk1 V c 1 ⟨n + 1, hn⟩) (acc1 V c n (Nat.lt_of_succ_lt hn)).2 (ix2 (0 : Fin 1) k) : EReal) = _
      rw [pay5_at1, ih2, blockSumSq1 V c ⟨n + 1, hn⟩ k _ _ rfl rfl, Finset.sum_range_succ _ (n + 1)]

/-- Ten consecutive sums over 10000 rows are the sum over the 100000 rows. -/
theorem tiles1 (f : ℕ → EReal) (g : Fin 100000 → EReal) (hf : ∀ d, f d = if h : d < 100000 then g ⟨d, h⟩ else 0) :
    ∑ p ∈ Finset.range (9 + 1), ∑ r : Fin 10000, f (10000 * p + r.val) = ∑ i : Fin 100000, g i := by
  rw [Cert.Tiles.sum_tiles_fin 10000 f (9 + 1), show 10000 * (9 + 1) = 100000 from by norm_num, ← Cert.Tiles.sum_range_dite 100000 g]
  exact Finset.sum_congr rfl fun d _ => hf d

theorem lastPt1 : 9 < cfg1.N := by rw [show cfg1.N = 10 from N_1]; decide

/-- After the last point the first scratch row holds the column sums of A + b, -/
theorem acc1_last_fst (c : Dev nD) :
    ((acc1 V c 9 lastPt1).1 : S1x128.Idx → EReal) = Cert.Spec.colSum (V c main_v11) (V c main_v12) := by
  funext j
  obtain ⟨k, rfl⟩ : ∃ k : Fin 128, j = ix2 (0 : Fin 1) k :=
    ⟨j 1, (eq_ix2 j).trans (by
      have h0 : (j 0 : ℕ) < 1 := (j 0).isLt
      congr 1
      exact Fin.ext (by show (j 0 : ℕ) = 0; omega))⟩
  rw [((acc1_eq V c k 9 lastPt1).1)]
  exact tiles1 (term1 V c k) (fun i => A1 V c (ix2 i k) + B1 V c (ix2 (0 : Fin 1) k)) (fun d => rfl)

/-- and the second those of (A + b)². -/
theorem acc1_last_snd (c : Dev nD) :
    ((acc1 V c 9 lastPt1).2 : S1x128.Idx → EReal) = Cert.Spec.colSq (V c main_v11) (V c main_v12) := by
  funext j
  obtain ⟨k, rfl⟩ : ∃ k : Fin 128, j = ix2 (0 : Fin 1) k :=
    ⟨j 1, (eq_ix2 j).trans (by
      have h0 : (j 0 : ℕ) < 1 := (j 0).isLt
      congr 1
      exact Fin.ext (by show (j 0 : ℕ) = 0; omega))⟩
  rw [((acc1_eq V c k 9 lastPt1).2)]
  exact tiles1 (termSq1 V c k) (fun i => (A1 V c (ix2 i k) + B1 V c (ix2 (0 : Fin 1) k)) * (A1 V c (ix2 i k) + B1 V c (ix2 (0 : Fin 1) k))) (fun d => rfl)

/-! ## The output arrays -/

theorem zoff1_2 : (fun a => win1_2.index t1_9 a * main_v13_0.ty.shape.size a) = fun _ => 0 := funext fun a => by fin_cases a <;> decide
theorem zoff1_3 : (fun a => win1_3.index t1_9 a * main_v13_1.ty.shape.size a) = fun _ => 0 := funext fun a => by fin_cases a <;> decide

/-- The one write-back of the first output, at the last point, writes the column sums: block (0, 0) of the [1,128]
    array read through zero offsets is the array. -/
theorem flushed1_2 (c : Dev nD) (t : Fin cfg1.N) (hf : (cfg1.win 2).flush t = true) :
    (dat1 (F := Ideal) V c).flushed 2 t
      = ((cfg1.win 2).blk t).view.read (Elt Ideal) (Cert.Spec.colSum (V c main_v11) (V c main_v12) : Buf (Elt Ideal) ((c : Thread nD τ).loc main_v13_0)) := by
  have hN : cfg1.N = 10 := N_1
  have h9 : t.val = 9 := by have := (flush1_2 t).mp hf; have := t.isLt; omega
  obtain rfl : t = t1_9 := Fin.ext h9
  show (cfg1.win 2).cut (grid1.coords t1_9) ((dat1 (F := Ideal) V c).after 2 t1_9) = _
  rw [after1_2]
  show ((acc1 V c 9 lastPt1).1 : S1x128.Idx → EReal) = _
  rw [acc1_last_fst]
  exact (Memref.read_access_unit_zero (Elt Ideal) main_v13_0 zoff1_2 (fun a => by rw [congrFun zoff1_2 a]; simp) _).symm

theorem flushed1_3 (c : Dev nD) (t : Fin cfg1.N) (hf : (cfg1.win 3).flush t = true) :
    (dat1 (F := Ideal) V c).flushed 3 t
      = ((cfg1.win 3).blk t).view.read (Elt Ideal) (Cert.Spec.colSq (V c main_v11) (V c main_v12) : Buf (Elt Ideal) ((c : Thread nD τ).loc main_v13_1)) := by
  have hN : cfg1.N = 10 := N_1
  have h9 : t.val = 9 := by have := (flush1_3 t).mp hf; have := t.isLt; omega
  obtain rfl : t = t1_9 := Fin.ext h9
  show (cfg1.win 3).cut (grid1.coords t1_9) ((dat1 (F := Ideal) V c).after 3 t1_9) = _
  rw [after1_3]
  show ((acc1 V c 9 lastPt1).2 : S1x128.Idx → EReal) = _
  rw [acc1_last_snd]
  exact (Memref.read_access_unit_zero (Elt Ideal) main_v13_1 zoff1_3 (fun a => by rw [congrFun zoff1_3 a]; simp) _).symm

/-- The first output after the region: per column, the sum over all rows of A + b. -/
theorem sum1_closed (c : Dev nD) :
    ((dat1 (F := Ideal) V c).arrAt 2 cfg1.N : S1x128.Idx → EReal) = Cert.Spec.colSum (V c main_v11) (V c main_v12) :=
  (dat1 (F := Ideal) V c).arrAt_eq_of_cover 2 _ (flushed1_2 V c) fun i =>
    ⟨t1_9, (flush1_2 t1_9).mpr rfl, by
      show i ∈ ((View.whole main_v13_0).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- The second output after the region: per column, the sum over all rows of (A + b)². -/
theorem sq1_closed (c : Dev nD) :
    ((dat1 (F := Ideal) V c).arrAt 3 cfg1.N : S1x128.Idx → EReal) = Cert.Spec.colSq (V c main_v11) (V c main_v12) :=
  (dat1 (F := Ideal) V c).arrAt_eq_of_cover 3 _ (flushed1_3 V c) fun i =>
    ⟨t1_9, (flush1_3 t1_9).mpr rfl, by
      show i ∈ ((View.whole main_v13_1).slice (win1_3.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_9 0 * win1_3.size 0 ≤ (i 0 : Nat) ∧ (i 0 : Nat) < win1_3.index t1_9 0 * win1_3.size 0 + win1_3.xsize (grid1.coords t1_9) 0
                  rw [show win1_3.index t1_9 0 * win1_3.size 0 = 0 from by decide +kernel, show win1_3.xsize (grid1.coords t1_9) 0 = 1 from by decide +kernel]; omega
      | ⟨1, _⟩ => show win1_3.index t1_9 1 * win1_3.size 1 ≤ (i 1 : Nat) ∧ (i 1 : Nat) < win1_3.index t1_9 1 * win1_3.size 1 + win1_3.xsize (grid1.coords t1_9) 1
                  rw [show win1_3.index t1_9 1 * win1_3.size 1 = 0 from by decide +kernel, show win1_3.xsize (grid1.coords t1_9) 1 = 128 from by decide +kernel]; omega⟩

end Cert.KernelIdeal.Hand

end
-- ==== Proof.KernelIdeal.R2Value.lean ====
/-
  What region 2's output array holds after the region, as one whole-array function of the arrays it was entered with
  (at the instance where a float is an exact extended real).

  Point t of the grid writes rows 10000·t … 10000·t + 9999 of the output. What it writes at row p of its block and
  column q is max(((A + b) − mean) · rsqrt(var + ε) · g + β, 0) read at row 10000·t + p of A and at column q of the five
  parameter rows; every row of the output lies in exactly the block of point ⌊row / 10000⌋. So the output array is the
  normalised, scaled, shifted and clamped array entry by entry.
-/
import proofs.«163396_j33732673143025_1_alg».proof.Proof.KernelIdeal.R2
import proofs.«163396_j33732673143025_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's result at an entry -/

/-- Entry (p, q) of what the body stores, from the entries of the six loaded blocks: the row block at (p, q), each
    parameter row at column q. The variance row is the third argument and the mean row the fourth. -/
theorem norm2_pay_apply (x0 : Vec Ideal S10000x128 .f32) (xb xv xm xg xs : Vec Ideal S1x128 .f32)
    (p : Fin 10000) (q : Fin 128) :
    k2_pay1 (F := Ideal) x0 xb xv xm xg xs (ix2 p q)
      = max ((((x0 (ix2 p q) + xb (ix2 0 q)) - xm (ix2 0 q)) * Ideal.rsqrt (xv (ix2 0 q) + Cert.Spec.epsW)) * xg (ix2 0 q)
          + xs (ix2 0 q)) Cert.Spec.zeroW := by
  unfold k2_pay1
  simp only [shapeCast_self]
  rw [maximumf_apply, addf_apply, mulf_apply, mulf_apply, subf_apply, addf_apply]
  simp only [broadcastTo_1b_ab_apply, broadcast_apply]
  rfl

/-! ## Where the blocks sit -/

theorem norm2_zero_off : (![0, 0] : Fin 2 → Nat) = fun _ => 0 := funext fun a => by fin_cases a <;> rfl

/-- The block indices over the grid: the row-block windows (input 0, output 6) are at block (t, 0) at point t, a
    parameter row's window always at block (0, 0). Decided once for the ten points, one statement per parameter row. -/

theorem norm2_index1 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_1.index t (0 : Fin 2) = 0 ∧ win2_1.index t (1 : Fin 2) = 0 :=
  (by decide +kernel : ∀ t : Fin grid2.N, _)

theorem norm2_index2 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_2.index t (0 : Fin 2) = 0 ∧ win2_2.index t (1 : Fin 2) = 0 :=
  (by decide +kernel : ∀ t : Fin grid2.N, _)

theorem norm2_index3 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_3.index t (0 : Fin 2) = 0 ∧ win2_3.index t (1 : Fin 2) = 0 :=
  (by decide +kernel : ∀ t : Fin grid2.N, _)

theorem norm2_index4 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_4.index t (0 : Fin 2) = 0 ∧ win2_4.index t (1 : Fin 2) = 0 :=
  (by decide +kernel : ∀ t : Fin grid2.N, _)

theorem norm2_index5 : ∀ t : Fin cfg2.N,
    win2_0.index t (0 : Fin 2) = t.val ∧ win2_0.index t (1 : Fin 2) = 0
    ∧ win2_6.index t (0 : Fin 2) = t.val ∧ win2_6.index t (1 : Fin 2) = 0
    ∧ win2_5.index t (0 : Fin 2) = 0 ∧ win2_5.index t (1 : Fin 2) = 0 :=
  (by decide +kernel : ∀ t : Fin grid2.N, _)

variable (V : (c : Dev nD) → (b : Ref sig .tc) → Buf (Elt Ideal) ((c : Thread nD τ).loc b))

/-- The row block of A at point t: its entry (x₀, x₁) is A's entry (10000·t + x₀, x₁). -/
theorem norm2_rows (c : Dev nD) (t : Fin cfg2.N) (x : S10000x128.Idx) (k : S100000x128.Idx)
    (hk0 : (k 0).val = t.val * 10000 + (x 0).val) (hk1 : (k 1).val = (x 1).val) :
    (iblk2 V c 0 t : Vec Ideal S10000x128 .f32) x = (V c main_v11 : S100000x128.Idx → EReal) k := by
  obtain ⟨e0, e1, -, -, -, -⟩ := norm2_index1 t
  unfold iblk2
  rw [View.read_apply]
  show V c main_v11 _ = V c main_v11 k
  congr 1
  funext a; apply Fin.ext
  match a with
  | ⟨0, _⟩ => show win2_0.index t (0 : Fin 2) * 10000 + 1 * (x 0).val = (k 0).val; rw [e0, hk0]; omega
  | ⟨1, _⟩ => show win2_0.index t (1 : Fin 2) * 128 + 1 * (x 1).val = (k 1).val; rw [e1, hk1]; omega

/-- The added row's window has one block, the whole row: its block at any point is the entry array itself. -/
theorem norm2_row1 (c : Dev nD) (t : Fin cfg2.N) :
    (iblk2 V c 1 t : Vec Ideal S1x128 .f32) = (V c main_v22 : S1x128.Idx → EReal) := by
  obtain ⟨-, -, -, -, e0, e1⟩ := norm2_index1 t
  funext x
  unfold iblk2
  rw [View.read_apply]
  show V c main_v22 _ = V c main_v22 x
  congr 1
  funext a; apply Fin.ext
  match a with
  | ⟨0, _⟩ => show win2_1.index t (0 : Fin 2) * 1 + 1 * (x 0).val = (x 0).val; rw [e0]; omega
  | ⟨1, _⟩ => show win2_1.index t (1 : Fin 2) * 128 + 1 * (x 1).val = (x 1).val; rw [e1]; omega

/-- The mean row's window has one block, the whole row: its block at any point is the entry array itself. -/
theorem norm2_row2 (c : Dev nD) (t : Fin cfg2.N) :
    (iblk2 V c 2 t : Vec Ideal S1x128 .f32) = (V c main_v23 : S1x128.Idx → EReal) := by
  obtain ⟨-, -, -, -, e0, e1⟩ := norm2_index2 t
  funext x
  unfold iblk2
  rw [View.read_apply]
  show V c main_v23 _ = V c main_v23 x
  congr 1
  funext a; apply Fin.ext
  match a with
  | ⟨0, _⟩ => show win2_2.index t (0 : Fin 2) * 1 + 1 * (x 0).val = (x 0).val; rw [e0]; omega
  | ⟨1, _⟩ => show win2_2.index t (1 : Fin 2) * 128 + 1 * (x 1).val = (x 1).val; rw [e1]; omega

/-- The variance row's window has one block, the whole row: its block at any point is the entry array itself. -/
theorem norm2_row3 (c : Dev nD) (t : Fin cfg2.N) :
    (iblk2 V c 3 t : Vec Ideal S1x128 .f32) = (V c main_v24 : S1x128.Idx → EReal) := by
  obtain ⟨-, -, -, -, e0, e1⟩ := norm2_index3 t
  funext x
  unfold iblk2
  rw [View.read_apply]
  show V c main_v24 _ = V c main_v24 x
  congr 1
  funext a; apply Fin.ext
  match a with
  | ⟨0, _⟩ => show win2_3.index t (0 : Fin 2) * 1 + 1 * (x 0).val = (x 0).val; rw [e0]; omega
  | ⟨1, _⟩ => show win2_3.index t (1 : Fin 2) * 128 + 1 * (x 1).val = (x 1).val; rw [e1]; omega

/-- The scale row's window has one block, the whole row: its block at any point is the entry array itself. -/
theorem norm2_row4 (c : Dev nD) (t : Fin cfg2.N) :
    (iblk2 V c 4 t : Vec Ideal S1x128 .f32) = (V c main_v25 : S1x128.Idx → EReal) := by
  obtain ⟨-, -, -, -, e0, e1⟩ := norm2_index4 t
  funext x
  unfold iblk2
  rw [View.read_apply]
  show V c main_v25 _ = V c main_v25 x
  congr 1
  funext a; apply Fin.ext
  match a with
  | ⟨0, _⟩ => show win2_4.index t (0 : Fin 2) * 1 + 1 * (x 0).val = (x 0).val; rw [e0]; omega
  | ⟨1, _⟩ => show win2_4.index t (1 : Fin 2) * 128 + 1 * (x 1).val = (x 1).val; rw [e1]; omega

/-- The shift row's window has one block, the whole row: its block at any point is the entry array itself. -/
theorem norm2_row5 (c : Dev nD) (t : Fin cfg2.N) :
    (iblk2 V c 5 t : Vec Ideal S1x128 .f32) = (V c main_v26 : S1x128.Idx → EReal) := by
  obtain ⟨-, -, -, -, e0, e1⟩ := norm2_index5 t
  funext x
  unfold iblk2
  rw [View.read_apply]
  show V c main_v26 _ = V c main_v26 x
  congr 1
  funext a; apply Fin.ext
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-! ## What a point writes back -/

/-- The body's result at point t, entry (p, q), is the specification's entry (r, q) for the array row r = 10000·t + p. -/
theorem norm2_entry (c : Dev nD) (t : Fin cfg2.N) (p : Fin 10000) (q : Fin 128) (r : Fin 100000)
    (hr : r.val = t.val * 10000 + p.val) :
    k2_pay1 (F := Ideal) (iblk2 V c 0 t) (iblk2 V c 1 t) (iblk2 V c 3 t) (iblk2 V c 2 t) (iblk2 V c 4 t) (iblk2 V c 5 t) (ix2 p q)
      = Cert.Spec.normRelu (V c main_v11) (V c main_v22) (V c main_v23) (V c main_v24) (V c main_v25) (V c main_v26) (ix2 r q) := by
  refine (norm2_pay_apply _ _ _ _ _ _ p q).trans ?_
  rw [norm2_rows V c t (ix2 p q) (ix2 r q) hr rfl, norm2_row1, norm2_row2, norm2_row3, norm2_row4, norm2_row5]
  rfl

/-- The same for any entry of the block and any entry of the array whose coordinates are so related. -/
theorem norm2_entry' (c : Dev nD) (t : Fin cfg2.N) (j : S10000x128.Idx) (i : S100000x128.Idx)
    (hi0 : (i 0).val = t.val * 10000 + (j 0).val) (hi1 : (i 1).val = (j 1).val) :
    k2_pay1 (F := Ideal) (iblk2 V c 0 t) (iblk2 V c 1 t) (iblk2 V c 3 t) (iblk2 V c 2 t) (iblk2 V c 4 t) (iblk2 V c 5 t) j
      = Cert.Spec.normRelu (V c main_v11) (V c main_v22) (V c main_v23) (V c main_v24) (V c main_v25) (V c main_v26) i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  exact norm2_entry V c t p q' r hi0

/-- What point t writes back to the output array is block t of the specification's array. -/
theorem norm2_flushed (c : Dev nD) (t : Fin cfg2.N) :
    (dat2 (F := Ideal) V c).flushed 6 t = ((cfg2.win 6).blk t).view.read (Elt Ideal)
      (Cert.Spec.normRelu (V c main_v11) (V c main_v22) (V c main_v23) (V c main_v24) (V c main_v25) (V c main_v26)) := by
  show (cfg2.win 6).cut (grid2.coords t) ((dat2 V c).after 6 t) = _
  rw [after2_6]
  unfold out2_6
  rw [View.canon_unit_zero norm2_zero_off]
  simp only [View.ld_unit_zero (S := S10000x128) norm2_zero_off, View.ld_unit_zero (S := S1x128) norm2_zero_off]
  obtain ⟨-, -, e0, e1, -, -⟩ := norm2_index1 t
  funext j
  refine norm2_entry' V c t j (((cfg2.win 6).blk t).view.emb j) ?_ ?_
  · show win2_6.index t (0 : Fin 2) * 10000 + 1 * (j 0).val = t.val * 10000 + (j 0).val; rw [e0]; omega
  · show win2_6.index t (1 : Fin 2) * 128 + 1 * (j 1).val = (j 1).val; rw [e1]; omega

/-! ## The blocks cover the array -/

/-- An entry of the array is in point t's block exactly when each coordinate is in the block's range. -/
theorem norm2_mem_blk (t : Fin cfg2.N) (i : S100000x128.Idx) :
    i ∈ ((cfg2.win 6).blk t).view.set ↔ ∀ a : Fin 2, win2_6.index t a * S10000x128.size a ≤ (i a).val
      ∧ (i a).val < win2_6.index t a * S10000x128.size a + S10000x128.size a := by
  show i ∈ ((View.whole main_v27).slice (win2_6.rect t)).set ↔ _
  rw [View.set_slice_whole, Rect.mem_set_unit]
  exact Iff.rfl

/-- Row r of the array is written by point ⌊r / 10000⌋. -/
theorem norm2_cover (i : S100000x128.Idx) :
    ∃ t : Fin cfg2.N, (cfg2.win 6).flush t = true ∧ i ∈ ((cfg2.win 6).blk t).view.set := by
  have hN : grid2.N = 10 := N_2
  have h0 : (i 0).val < 100000 := (i 0).isLt
  have h1 : (i 1).val < 128 := (i 1).isLt
  have ht : (i 0).val / 10000 < grid2.N := by rw [hN]; omega
  refine ⟨⟨(i 0).val / 10000, ht⟩, flush2_6 _, ?_⟩
  rw [norm2_mem_blk]
  obtain ⟨-, -, e0, e1, -, -⟩ := norm2_index1 ⟨(i 0).val / 10000, ht⟩
  intro a
  match a with
  | ⟨0, _⟩ =>
    show win2_6.index ⟨(i 0).val / 10000, ht⟩ (0 : Fin 2) * 10000 ≤ (i 0).val
      ∧ (i 0).val < win2_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win2_6.index ⟨(i 0).val / 10000, ht⟩ (1 : Fin 2) * 128 ≤ (i 1).val
      ∧ (i 1).val < win2_6.index ⟨(i 0).val / 10000, ht⟩ (1 : Fin 2) * 128 + 128
    rw [e1]; omega

/-! ## The array after the region -/

/-- The output after the region: every entry normalised, scaled, shifted and clamped at zero. -/
theorem out2_closed (c : Dev nD) :
    ((dat2 (F := Ideal) V c).arrAt 6 cfg2.N : S100000x128.Idx → EReal)
      = Cert.Spec.normRelu (V c main_v11) (V c main_v22) (V c main_v23) (V c main_v24) (V c main_v25) (V c main_v26) :=
  (dat2 (F := Ideal) V c).arrAt_eq_of_cover 6
    (Cert.Spec.normRelu (V c main_v11) (V c main_v22) (V c main_v23) (V c main_v24) (V c main_v25) (V c main_v26))
    (fun t _ => norm2_flushed V c t) norm2_cover

end Cert.KernelIdeal.Hand

end
-- ==== Proof.KernelIdeal.R3Value.lean ====
/-
  What region 3's output array(s) hold after the region, as one whole-array function of the arrays it was entered with
  (at the instance where a float is an exact extended real).

  At every point the body stores into the product's buffer the block product of the left factor's row block with the
  whole weight; over the extended reals a narrowing of a float is the identity and a product into the zero block is,
  at (r, q), the sum over k of left(r, k) · right(k, q). Row r of block t of the left factor and of the product is
  row 4000·t + r of its array, so what point t writes back is block t of h·W, and the 25 blocks cover the rows.
-/
import proofs.«163396_j33732673143025_1_alg».proof.Proof.KernelIdeal.R3
import proofs.«163396_j33732673143025_1_alg».proof.Proof.Spec
import proofs.«163396_j33732673143025_1_alg».proof.Proof.LibRowReads
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

theorem zeros_mm3 : (![0, 0] : Fin 2 → ℕ) = fun _ => 0 := funext fun a => by fin_cases a <;> rfl

/-- The two factor arrays as the region finds them, as functions into the extended reals. -/
abbrev X3 (c : Dev nD) : Cert.Spec.S100000x128.Idx → EReal := V c main_v27
abbrev wgt3 (c : Dev nD) : Cert.Spec.S128x128.Idx → EReal := V c main_arg7

/-- The body's payload at (r, q): row r of the left block against column q of the weight. -/
theorem pay_mm3 (x0 : Vec Ideal S4000x128 .f32) (x1 : Vec Ideal S128x128 .f32) (r : Fin 4000) (q : Fin 128) :
    (k3_pay1 x0 x1 (ix2 r q) : EReal) = ∑ p : Fin 128, (x0 (ix2 r p) : EReal) * x1 (ix2 p q) := by
  unfold k3_pay1
  refine (Cert.Lib.matmul_zero_at dot_S4000x128_S128x128_S4000x128_1_0_0_1_n_n rfl rfl rfl rfl rfl rfl none _ _ r q).trans ?_
  refine Finset.sum_congr rfl fun p _ => ?_
  show (shapeCast S4000x128 x0 _ (ix2 r p) : EReal) * x1 (ix2 p q) = _
  rw [shapeCast_self]

/-- The printed index maps, decided over the grid: the left factor and the product walk the row blocks, the weight
    stays. -/
theorem idx_mm3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row r of block t of the left factor is row 4000·t + r of the array. -/
theorem iblk3_0_at (c : Dev nD) (t : Fin cfg3.N) (x0 : Vec Ideal S4000x128 .f32) (h0 : x0 = iblk3 V c 0 t)
    (r : Fin 4000) (p : Fin 128) (h : 4000 * t.val + r.val < 100000) :
    (x0 (ix2 r p) : EReal) = X3 V c (ix2 (⟨4000 * t.val + r.val, h⟩ : Fin 100000) p) := by
  subst h0
  obtain ⟨e0, e1, e2, e3, e4, e5⟩ := idx_mm3 t
  unfold iblk3
  rw [View.read_apply]
  show (V c main_v27 _ : EReal) = V c main_v27 _
  congr 1
  funext a
  apply Fin.ext
  match a with
  | ⟨0, _⟩ => show win3_0.index t (0 : Fin 2) * 4000 + 1 * r.val = 4000 * t.val + r.val; rw [e0]; omega
  | ⟨1, _⟩ => show win3_0.index t (1 : Fin 2) * 128 + 1 * p.val = p.val; rw [e1]; omega

/-- The weight's block is the weight. -/
theorem iblk3_1_at (c : Dev nD) (t : Fin cfg3.N) (x1 : Vec Ideal S128x128 .f32) (h1 : x1 = iblk3 V c 1 t)
    (p : Fin 128) (q : Fin 128) :
    (x1 (ix2 p q) : EReal) = wgt3 V c (ix2 p q) := by
  subst h1
  obtain ⟨e0, e1, e2, e3, e4, e5⟩ := idx_mm3 t
  unfold iblk3
  rw [View.read_apply]
  show (V c main_arg7 _ : EReal) = V c main_arg7 _
  congr 1
  funext a
  apply Fin.ext
  match a with
  | ⟨0, _⟩ => show win3_1.index t (0 : Fin 2) * 128 + 1 * p.val = p.val; rw [e2]; omega
  | ⟨1, _⟩ => show win3_1.index t (1 : Fin 2) * 128 + 1 * q.val = q.val; rw [e3]; omega

/-- Entry (r, q) of the product's block t sits at (4000·t + r, q) of the product's array. -/
theorem emb_mm3 (t : Fin cfg3.N) (r : Fin 4000) (q : Fin 128) (h : 4000 * t.val + r.val < 100000) :
    ((cfg3.win 2).blk t).view.emb (ix2 r q) = (ix2 (⟨4000 * t.val + r.val, h⟩ : Fin 100000) q : S100000x128.Idx) := by
  obtain ⟨e0, e1, e2, e3, e4, e5⟩ := idx_mm3 t
  funext a
  apply Fin.ext
  match a with
  | ⟨0, _⟩ => show win3_2.index t (0 : Fin 2) * 4000 + 1 * r.val = 4000 * t.val + r.val; rw [e4]; omega
  | ⟨1, _⟩ => show win3_2.index t (1 : Fin 2) * 128 + 1 * q.val = q.val; rw [e5]; omega

/-- What point t writes back is block t of the whole product. -/
theorem flushed_mm3 (c : Dev nD) (t : Fin cfg3.N) :
    (dat3 (F := Ideal) V c).flushed 2 t
      = ((cfg3.win 2).blk t).view.read (Elt Ideal) (Cert.Spec.mm128 (V c main_v27) (V c main_arg7) : Buf (Elt Ideal) ((c : Thread nD τ).loc main_v28)) := by
  have hN : t.val < 25 := lt_of_lt_of_eq t.isLt (show cfg3.N = 25 from N_3)
  show (cfg3.win 2).cut (grid3.coords t) ((dat3 (F := Ideal) V c).after 2 t) = _
  rw [after3_2]
  unfold out3_2
  rw [View.canon_unit_zero zeros_mm3]
  simp only [View.ld_unit_zero (S := S4000x128) zeros_mm3, View.ld_unit_zero (S := S128x128) zeros_mm3]
  funext j
  obtain ⟨r, q, rfl⟩ : ∃ (r : Fin 4000) (q : Fin 128), j = ix2 r q := ⟨j 0, j 1, eq_ix2 j⟩
  have h : 4000 * t.val + r.val < 100000 := by have := r.isLt; omega
  show (k3_pay1 (iblk3 V c 0 t) (iblk3 V c 1 t) (ix2 r q) : EReal)
    = Cert.Spec.mm128 (V c main_v27) (V c main_arg7) (((cfg3.win 2).blk t).view.emb (ix2 r q))
  rw [emb_mm3 t r q h, pay_mm3]
  show _ = ∑ k : Fin 128, X3 V c (ix2 (⟨4000 * t.val + r.val, h⟩ : Fin 100000) k) * wgt3 V c (ix2 k q)
  exact Finset.sum_congr rfl fun p _ => by rw [iblk3_0_at V c t _ rfl r p h, iblk3_1_at V c t _ rfl p q]

/-- An index of the product's array is in point t's block iff each coordinate is in the block's range on its axis. -/
theorem mem_blk_mm3 (t : Fin cfg3.N) (i : S100000x128.Idx) :
    i ∈ ((cfg3.win 2).blk t).view.set ↔ ∀ a : Fin 2, win3_2.index t a * S4000x128.size a ≤ (i a).val ∧ (i a).val < win3_2.index t a * S4000x128.size a + S4000x128.size a := by
  show i ∈ ((View.whole main_v28).slice (win3_2.rect t)).set ↔ _
  rw [View.set_slice_whole, Rect.mem_set_unit]
  exact Iff.rfl

/-- Row i is in the block of point i / 4000. -/
theorem cover_mm3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 25 := N_3
  obtain ⟨t, ht⟩ : ∃ t : Fin cfg3.N, t.val = (i 0).val / 4000 := ⟨⟨(i 0).val / 4000, by rw [hN]; omega⟩, rfl⟩
  obtain ⟨e0, e1, e2, e3, e4, e5⟩ := idx_mm3 t
  refine ⟨t, flush3_2 t, ?_⟩
  rw [mem_blk_mm3]
  intro a
  match a with
  | ⟨0, _⟩ => show win3_2.index t (0 : Fin 2) * 4000 ≤ (i 0).val ∧ (i 0).val < win3_2.index t (0 : Fin 2) * 4000 + 4000; rw [e4, ht]; omega
  | ⟨1, _⟩ => show win3_2.index t (1 : Fin 2) * 128 ≤ (i 1).val ∧ (i 1).val < win3_2.index t (1 : Fin 2) * 128 + 128; rw [e5]; omega

/-- The product's array after the region: entry (i, j) is the sum over k of h[i,k]·W2[k,j]. -/
theorem out3_closed (c : Dev nD) :
    ((dat3 (F := Ideal) V c).arrAt 2 cfg3.N : S100000x128.Idx → EReal) = Cert.Spec.mm128 (V c main_v27) (V c main_arg7) :=
  (dat3 (F := Ideal) V c).arrAt_eq_of_cover 2 _ (fun t _ => flushed_mm3 V c t) cover_mm3

end Cert.KernelIdeal.Hand

end
-- ==== Proof.KernelIdeal.R4Value.lean ====
/-
  What region 4's output array(s) hold after the region, as one whole-array function of the arrays it was entered with
  (at the instance where a float is an exact extended real).

  Over the extended reals addition is associative and commutative with 0 neutral, so the ten block sums accumulated one
  after the other, starting from the zero row, are the sum over all 100000 rows: per column k the running sum after
  point n is the sum over the first 10000·(n+1) rows of A(i,k) + b(k) (resp. of its square), and a sum over
  Fin 100000 is ten consecutive sums over Fin 10000. The one write-back, at the last point, writes the whole [1,128]
  output array.
-/
import proofs.«163396_j33732673143025_1_alg».proof.Proof.KernelIdeal.R4
import proofs.«163396_j33732673143025_1_alg».proof.Proof.Spec
import proofs.«163396_j33732673143025_1_alg».proof.Proof.LibLaneSums
import proofs.«163396_j33732673143025_1_alg».proof.Proof.LibTiles
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

variable (V : (c : Dev nD) → (b : Ref sig .tc) → Buf (Elt Ideal) ((c : Thread nD τ).loc b))

/-! ## The body's arithmetic at an element -/

/-- A + b on a block: at (r, k), the block's entry plus the bias row's entry k. -/
theorem pay3_at4 (x0 : Vec Ideal S10000x128 .f32) (x1 : Vec Ideal S1x128 .f32) (r : Fin 10000) (k : Fin 128) :
    (k4_pay3 x0 x1 (ix2 r k) : EReal) = x0 (ix2 r k) + x1 (ix2 (0 : Fin 1) k) := by
  unfold k4_pay3
  show (shapeCast S10000x128 x0 _ (ix2 r k) : EReal) + broadcastTo S10000x128 (shapeCast S1x128 x1 _) _ (ix2 r k) = _
  rw [shapeCast_self, shapeCast_self, broadcastTo_1b_ab_apply]

/-- The sum row increased by a block: at column k, the row's entry plus the block's column sum of A + b. -/
theorem pay4_at4 (x0 : Vec Ideal S10000x128 .f32) (x1 xs : Vec Ideal S1x128 .f32) (k : Fin 128) :
    (k4_pay4 x0 x1 xs (ix2 (0 : Fin 1) k) : EReal) = xs (ix2 (0 : Fin 1) k) + ∑ r : Fin 10000, (x0 (ix2 r k) + x1 (ix2 (0 : Fin 1) k)) := by
  unfold k4_pay4
  show (shapeCast S1x128 (addf xs (shapeCast S1x128 (multiReduction .add [0] S128 (k4_pay3 x0 x1) 0x00000000#32 _ _ _) _)) _ (ix2 (0 : Fin 1) k) : EReal) = _
  rw [shapeCast_self]
  show (xs (ix2 (0 : Fin 1) k) : EReal) + shapeCast S1x128 (multiReduction .add [0] S128 (k4_pay3 x0 x1) 0x00000000#32 _ _ _) _ (ix2 (0 : Fin 1) k) = _
  rw [shapeCast_a_1a_apply]
  exact congrArg (fun z : EReal => (xs (ix2 (0 : Fin 1) k) : EReal) + z)
    ((Cert.Lib.colSum_apply (k4_pay3 x0 x1) _ _ _ _ k).trans (Finset.sum_congr rfl fun r _ => pay3_at4 x0 x1 r k))

/-- The square-sum row increased by a block: at column k, the row's entry plus the block's column sum of (A + b)². -/
theorem pay5_at4 (x0 : Vec Ideal S10000x128 .f32) (x1 xs : Vec Ideal S1x128 .f32) (k : Fin 128) :
    (k4_pay5 x0 x1 xs (ix2 (0 : Fin 1) k) : EReal)
      = xs (ix2 (0 : Fin 1) k) + ∑ r : Fin 10000, (x0 (ix2 r k) + x1 (ix2 (0 : Fin 1) k)) * (x0 (ix2 r k) + x1 (ix2 (0 : Fin 1) k)) := by
  unfold k4_pay5
  show (shapeCast S1x128 (addf xs (shapeCast S1x128 (multiReduction .add [0] S128 (mulf (k4_pay3 x0 x1) (k4_pay3 x0 x1)) 0x00000000#32 _ _ _) _)) _ (ix2 (0 : Fin 1) k) : EReal) = _
  rw [shapeCast_self]
  show (xs (ix2 (0 : Fin 1) k) : EReal) + shapeCast S1x128 (multiReduction .add [0] S128 (mulf (k4_pay3 x0 x1) (k4_pay3 x0 x1)) 0x00000000#32 _ _ _) _ (ix2 (0 : Fin 1) k) = _
  rw [shapeCast_a_1a_apply]
  refine congrArg (fun z : EReal => (xs (ix2 (0 : Fin 1) k) : EReal) + z)
    ((Cert.Lib.colSum_apply (mulf (k4_pay3 x0 x1) (k4_pay3 x0 x1)) _ _ _ _ k).trans (Finset.sum_congr rfl fun r _ => ?_))
  show (k4_pay3 x0 x1 (ix2 r k) : EReal) * k4_pay3 x0 x1 (ix2 r k) = _
  rw [pay3_at4]

/-- The zero rows the first point stores. -/
theorem pay1_at4 (j : S1x128.Idx) : (k4_pay1 (F := Ideal) j : EReal) = 0 := by
  unfold k4_pay1
  show (Ideal.ofBits .f32 0x00000000#32 : EReal) = 0
  exact Ideal.ofBits_zero_f32
theorem pay2_at4 (j : S1x128.Idx) : (k4_pay2 (F := Ideal) j : EReal) = 0 := by
  unfold k4_pay2
  show (Ideal.ofBits .f32 0x00000000#32 : EReal) = 0
  exact Ideal.ofBits_zero_f32

/-! ## The windows' blocks at an element -/

theorem index4_0 : ∀ t : Fin cfg4.N, win4_0.index t 0 = t.val ∧ win4_0.index t 1 = 0 :=
  (by decide +kernel : ∀ t : Fin grid4.N, win4_0.index t 0 = t.val ∧ win4_0.index t 1 = 0)
theorem index4_1 : ∀ t : Fin cfg4.N, win4_1.index t 0 = 0 ∧ win4_1.index t 1 = 0 :=
  (by decide +kernel : ∀ t : Fin grid4.N, win4_1.index t 0 = 0 ∧ win4_1.index t 1 = 0)

/-- The two operand arrays as the region finds them, as functions into the extended reals. -/
abbrev A4 (c : Dev nD) : Cert.Spec.S100000x128.Idx → EReal := V c main_v35
abbrev B4 (c : Dev nD) : Cert.Spec.S1x128.Idx → EReal := V c main_v36

/-- Row r of block t of A is row 10000·t + r of A. -/
theorem iblk4_0_at (c : Dev nD) (t : Fin cfg4.N) (x0 : Vec Ideal S10000x128 .f32) (h0 : x0 = iblk4 V c 0 t)
    (r : Fin 10000) (k : Fin 128) (h : 10000 * t.val + r.val < 100000) :
    (x0 (ix2 r k) : EReal) = A4 V c (ix2 (⟨10000 * t.val + r.val, h⟩ : Fin 100000) k) := by
  subst h0
  unfold iblk4
  rw [View.read_apply]
  show (V c main_v35 _ : EReal) = V c main_v35 _
  congr 1
  funext a
  apply Fin.ext
  match a with
  | ⟨0, _⟩ => show win4_0.index t 0 * 10000 + 1 * r.val = 10000 * t.val + r.val; rw [(index4_0 t).1]; omega
  | ⟨1, _⟩ => show win4_0.index t 1 * 128 + 1 * k.val = k.val; rw [(index4_0 t).2]; omega

/-- The bias row's block is the bias row. -/
theorem iblk4_1_at (c : Dev nD) (t : Fin cfg4.N) (x1 : Vec Ideal S1x128 .f32) (h1 : x1 = iblk4 V c 1 t) (k : Fin 128) :
    (x1 (ix2 (0 : Fin 1) k) : EReal) = B4 V c (ix2 (0 : Fin 1) k) := by
  subst h1
  unfold iblk4
  rw [View.read_apply]
  show (V c main_v36 _ : EReal) = V c main_v36 _
  congr 1
  funext a
  apply Fin.ext
  match a with
  | ⟨0, _⟩ => show win4_1.index t 0 * 1 + 1 * 0 = 0; rw [(index4_1 t).1]
  | ⟨1, _⟩ => show win4_1.index t 1 * 128 + 1 * k.val = k.val; rw [(index4_1 t).2]; omega

/-! ## The running sums in closed form -/

/-- Row d's term of column k of A + b (zero from row 100000 on), -/
def term4 (c : Dev nD) (k : Fin 128) (d : ℕ) : EReal :=
  if h : d < 100000 then A4 V c (ix2 (⟨d, h⟩ : Fin 100000) k) + B4 V c (ix2 (0 : Fin 1) k) else 0
/-- and of its square. -/
def termSq4 (c : Dev nD) (k : Fin 128) (d : ℕ) : EReal :=
  if h : d < 100000 then (A4 V c (ix2 (⟨d, h⟩ : Fin 100000) k) + B4 V c (ix2 (0 : Fin 1) k))
    * (A4 V c (ix2 (⟨d, h⟩ : Fin 100000) k) + B4 V c (ix2 (0 : Fin 1) k)) else 0

/-- A block's column sum of A + b is the sum of the terms of its 10000 rows. -/
theorem blockSum4 (c : Dev nD) (t : Fin cfg4.N) (k : Fin 128) (x0 : Vec Ideal S10000x128 .f32) (x1 : Vec Ideal S1x128 .f32)
    (h0 : x0 = iblk4 V c 0 t) (h1 : x1 = iblk4 V c 1 t) :
    (∑ r : Fin 10000, ((x0 (ix2 r k) : EReal) + x1 (ix2 (0 : Fin 1) k)))
      = ∑ r : Fin 10000, term4 V c k (10000 * t.val + r.val) := by
  have hN : t.val < 10 := lt_of_lt_of_eq t.isLt (show cfg4.N = 10 from N_4)
  refine Finset.sum_congr rfl fun r _ => ?_
  have h : 10000 * t.val + r.val < 100000 := by have := r.isLt; omega
  rw [iblk4_0_at V c t x0 h0 r k h, iblk4_1_at V c t x1 h1 k]
  unfold term4; rw [dif_pos h]

theorem blockSumSq4 (c : Dev nD) (t : Fin cfg4.N) (k : Fin 128) (x0 : Vec Ideal S10000x128 .f32) (x1 : Vec Ideal S1x128 .f32)
    (h0 : x0 = iblk4 V c 0 t) (h1 : x1 = iblk4 V c 1 t) :
    (∑ r : Fin 10000, ((x0 (ix2 r k) : EReal) + x1 (ix2 (0 : Fin 1) k)) * ((x0 (ix2 r k) : EReal) + x1 (ix2 (0 : Fin 1) k)))
      = ∑ r : Fin 10000, termSq4 V c k (10000 * t.val + r.val) := by
  have hN : t.val < 10 := lt_of_lt_of_eq t.isLt (show cfg4.N = 10 from N_4)
  refine Finset.sum_congr rfl fun r _ => ?_
  have h : 10000 * t.val + r.val < 100000 := by have := r.isLt; omega
  rw [iblk4_0_at V c t x0 h0 r k h, iblk4_1_at V c t x1 h1 k]
  unfold termSq4; rw [dif_pos h]

/-- The running sums after point n, per column: the terms of the first n + 1 blocks. -/
theorem acc4_eq (c : Dev nD) (k : Fin 128) : ∀ (n : ℕ) (hn : n < cfg4.N),
    (((acc4 V c n hn).1 (ix2 (0 : Fin 1) k) : EReal) = ∑ p ∈ Finset.range (n + 1), ∑ r : Fin 10000, term4 V c k (10000 * p + r.val))
    ∧ (((acc4 V c n hn).2 (ix2 (0 : Fin 1) k) : EReal) = ∑ p ∈ Finset.range (n + 1), ∑ r : Fin 10000, termSq4 V c k (10000 * p + r.val))
  | 0, hn => by
    constructor
    · show (k4_pay4 (iblk4 V c 0 ⟨0, hn⟩) (iblk4 V c 1 ⟨0, hn⟩) (k4_pay1 (F := Ideal)) (ix2 (0 : Fin 1) k) : EReal) = _
      rw [pay4_at4, pay1_at4, zero_add, blockSum4 V c ⟨0, hn⟩ k _ _ rfl rfl, Finset.sum_range_one]
    · show (k4_pay5 (iblk4 V c 0 ⟨0, hn⟩) (iblk4 V c 1 ⟨0, hn⟩) (k4_pay2 (F := Ideal)) (ix2 (0 : Fin 1) k) : EReal) = _
      rw [pay5_at4, pay2_at4, zero_add, blockSumSq4 V c ⟨0, hn⟩ k _ _ rfl rfl, Finset.sum_range_one]
  | n + 1, hn => by
    obtain ⟨ih1, ih2⟩ := acc4_eq c k n (Nat.lt_of_succ_lt hn)
    constructor
    · show (k4_pay4 (iblk4 V c 0 ⟨n + 1, hn⟩) (iblk4 V c 1 ⟨n + 1, hn⟩) (acc4 V c n (Nat.lt_of_succ_lt hn)).1 (ix2 (0 : Fin 1) k) : EReal) = _
      rw [pay4_at4, ih1, blockSum4 V c ⟨n + 1, hn⟩ k _ _ rfl rfl, Finset.sum_range_succ _ (n + 1)]
    · show (k4_pay5 (iblk4 V c 0 ⟨n + 1, hn⟩) (iblk4 V c 1 ⟨n + 1, hn⟩) (acc4 V c n (Nat.lt_of_succ_lt hn)).2 (ix2 (0 : Fin 1) k) : EReal) = _
      rw [pay5_at4, ih2, blockSumSq4 V c ⟨n + 1, hn⟩ k _ _ rfl rfl, Finset.sum_range_succ _ (n + 1)]

/-- Ten consecutive sums over 10000 rows are the sum over the 100000 rows. -/
theorem tiles4 (f : ℕ → EReal) (g : Fin 100000 → EReal) (hf : ∀ d, f d = if h : d < 100000 then g ⟨d, h⟩ else 0) :
    ∑ p ∈ Finset.range (9 + 1), ∑ r : Fin 10000, f (10000 * p + r.val) = ∑ i : Fin 100000, g i := by
  rw [Cert.Tiles.sum_tiles_fin 10000 f (9 + 1), show 10000 * (9 + 1) = 100000 from by norm_num, ← Cert.Tiles.sum_range_dite 100000 g]
  exact Finset.sum_congr rfl fun d _ => hf d

theorem lastPt4 : 9 < cfg4.N := by rw [show cfg4.N = 10 from N_4]; decide

/-- After the last point the first scratch row holds the column sums of A + b, -/
theorem acc4_last_fst (c : Dev nD) :
    ((acc4 V c 9 lastPt4).1 : S1x128.Idx → EReal) = Cert.Spec.colSum (V c main_v35) (V c main_v36) := by
  funext j
  obtain ⟨k, rfl⟩ : ∃ k : Fin 128, j = ix2 (0 : Fin 1) k :=
    ⟨j 1, (eq_ix2 j).trans (by
      have h0 : (j 0 : ℕ) < 1 := (j 0).isLt
      congr 1
      exact Fin.ext (by show (j 0 : ℕ) = 0; omega))⟩
  rw [((acc4_eq V c k 9 lastPt4).1)]
  exact tiles4 (term4 V c k) (fun i => A4 V c (ix2 i k) + B4 V c (ix2 (0 : Fin 1) k)) (fun d => rfl)

/-- and the second those of (A + b)². -/
theorem acc4_last_snd (c : Dev nD) :
    ((acc4 V c 9 lastPt4).2 : S1x128.Idx → EReal) = Cert.Spec.colSq (V c main_v35) (V c main_v36) := by
  funext j
  obtain ⟨k, rfl⟩ : ∃ k : Fin 128, j = ix2 (0 : Fin 1) k :=
    ⟨j 1, (eq_ix2 j).trans (by
      have h0 : (j 0 : ℕ) < 1 := (j 0).isLt
      congr 1
      exact Fin.ext (by show (j 0 : ℕ) = 0; omega))⟩
  rw [((acc4_eq V c k 9 lastPt4).2)]
  exact tiles4 (termSq4 V c k) (fun i => (A4 V c (ix2 i k) + B4 V c (ix2 (0 : Fin 1) k)) * (A4 V c (ix2 i k) + B4 V c (ix2 (0 : Fin 1) k))) (fun d => rfl)

/-! ## The output arrays -/

theorem zoff4_2 : (fun a => win4_2.index t4_9 a * main_v37_0.ty.shape.size a) = fun _ => 0 := funext fun a => by fin_cases a <;> decide
theorem zoff4_3 : (fun a => win4_3.index t4_9 a * main_v37_1.ty.shape.size a) = fun _ => 0 := funext fun a => by fin_cases a <;> decide

/-- The one write-back of the first output, at the last point, writes the column sums: block (0, 0) of the [1,128]
    array read through zero offsets is the array. -/
theorem flushed4_2 (c : Dev nD) (t : Fin cfg4.N) (hf : (cfg4.win 2).flush t = true) :
    (dat4 (F := Ideal) V c).flushed 2 t
      = ((cfg4.win 2).blk t).view.read (Elt Ideal) (Cert.Spec.colSum (V c main_v35) (V c main_v36) : Buf (Elt Ideal) ((c : Thread nD τ).loc main_v37_0)) := by
  have hN : cfg4.N = 10 := N_4
  have h9 : t.val = 9 := by have := (flush4_2 t).mp hf; have := t.isLt; omega
  obtain rfl : t = t4_9 := Fin.ext h9
  show (cfg4.win 2).cut (grid4.coords t4_9) ((dat4 (F := Ideal) V c).after 2 t4_9) = _
  rw [after4_2]
  show ((acc4 V c 9 lastPt4).1 : S1x128.Idx → EReal) = _
  rw [acc4_last_fst]
  exact (Memref.read_access_unit_zero (Elt Ideal) main_v37_0 zoff4_2 (fun a => by rw [congrFun zoff4_2 a]; simp) _).symm

theorem flushed4_3 (c : Dev nD) (t : Fin cfg4.N) (hf : (cfg4.win 3).flush t = true) :
    (dat4 (F := Ideal) V c).flushed 3 t
      = ((cfg4.win 3).blk t).view.read (Elt Ideal) (Cert.Spec.colSq (V c main_v35) (V c main_v36) : Buf (Elt Ideal) ((c : Thread nD τ).loc main_v37_1)) := by
  have hN : cfg4.N = 10 := N_4
  have h9 : t.val = 9 := by have := (flush4_3 t).mp hf; have := t.isLt; omega
  obtain rfl : t = t4_9 := Fin.ext h9
  show (cfg4.win 3).cut (grid4.coords t4_9) ((dat4 (F := Ideal) V c).after 3 t4_9) = _
  rw [after4_3]
  show ((acc4 V c 9 lastPt4).2 : S1x128.Idx → EReal) = _
  rw [acc4_last_snd]
  exact (Memref.read_access_unit_zero (Elt Ideal) main_v37_1 zoff4_3 (fun a => by rw [congrFun zoff4_3 a]; simp) _).symm

/-- The first output after the region: per column, the sum over all rows of A + b. -/
theorem sum4_closed (c : Dev nD) :
    ((dat4 (F := Ideal) V c).arrAt 2 cfg4.N : S1x128.Idx → EReal) = Cert.Spec.colSum (V c main_v35) (V c main_v36) :=
  (dat4 (F := Ideal) V c).arrAt_eq_of_cover 2 _ (flushed4_2 V c) fun i =>
    ⟨t4_9, (flush4_2 t4_9).mpr rfl, by
      show i ∈ ((View.whole main_v37_0).slice (win4_2.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_2.index t4_9 0 * win4_2.size 0 ≤ (i 0 : Nat) ∧ (i 0 : Nat) < win4_2.index t4_9 0 * win4_2.size 0 + win4_2.xsize (grid4.coords t4_9) 0
                  rw [show win4_2.index t4_9 0 * win4_2.size 0 = 0 from by decide +kernel, show win4_2.xsize (grid4.coords t4_9) 0 = 1 from by decide +kernel]; omega
      | ⟨1, _⟩ => show win4_2.index t4_9 1 * win4_2.size 1 ≤ (i 1 : Nat) ∧ (i 1 : Nat) < win4_2.index t4_9 1 * win4_2.size 1 + win4_2.xsize (grid4.coords t4_9) 1
                  rw [show win4_2.index t4_9 1 * win4_2.size 1 = 0 from by decide +kernel, show win4_2.xsize (grid4.coords t4_9) 1 = 128 from by decide +kernel]; omega⟩

/-- The second output after the region: per column, the sum over all rows of (A + b)². -/
theorem sq4_closed (c : Dev nD) :
    ((dat4 (F := Ideal) V c).arrAt 3 cfg4.N : S1x128.Idx → EReal) = Cert.Spec.colSq (V c main_v35) (V c main_v36) :=
  (dat4 (F := Ideal) V c).arrAt_eq_of_cover 3 _ (flushed4_3 V c) fun i =>
    ⟨t4_9, (flush4_3 t4_9).mpr rfl, by
      show i ∈ ((View.whole main_v37_1).slice (win4_3.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_3.index t4_9 0 * win4_3.size 0 ≤ (i 0 : Nat) ∧ (i 0 : Nat) < win4_3.index t4_9 0 * win4_3.size 0 + win4_3.xsize (grid4.coords t4_9) 0
                  rw [show win4_3.index t4_9 0 * win4_3.size 0 = 0 from by decide +kernel, show win4_3.xsize (grid4.coords t4_9) 0 = 1 from by decide +kernel]; omega
      | ⟨1, _⟩ => show win4_3.index t4_9 1 * win4_3.size 1 ≤ (i 1 : Nat) ∧ (i 1 : Nat) < win4_3.index t4_9 1 * win4_3.size 1 + win4_3.xsize (grid4.coords t4_9) 1
                  rw [show win4_3.index t4_9 1 * win4_3.size 1 = 0 from by decide +kernel, show win4_3.xsize (grid4.coords t4_9) 1 = 128 from by decide +kernel]; omega⟩

end Cert.KernelIdeal.Hand

end
-- ==== Proof.KernelIdeal.R5Value.lean ====
/-
  What region 5's output array holds after the region, as one whole-array function of the arrays it was entered with
  (at the instance where a float is an exact extended real).

  Point t of the grid writes rows 10000·t … 10000·t + 9999 of the output. What it writes at row p of its block and
  column q is max(((A + b) − mean) · rsqrt(var + ε) · g + β, 0) read at row 10000·t + p of A and at column q of the five
  parameter rows; every row of the output lies in exactly the block of point ⌊row / 10000⌋. So the output array is the
  normalised, scaled, shifted and clamped array entry by entry.
-/
import proofs.«163396_j33732673143025_1_alg».proof.Proof.KernelIdeal.R5
import proofs.«163396_j33732673143025_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

/-! ## The body's result at an entry -/

/-- Entry (p, q) of what the body stores, from the entries of the six loaded blocks: the row block at (p, q), each
    parameter row at column q. The variance row is the third argument and the mean row the fourth. -/
theorem norm5_pay_apply (x0 : Vec Ideal S10000x128 .f32) (xb xv xm xg xs : Vec Ideal S1x128 .f32)
    (p : Fin 10000) (q : Fin 128) :
    k5_pay1 (F := Ideal) x0 xb xv xm xg xs (ix2 p q)
      = max ((((x0 (ix2 p q) + xb (ix2 0 q)) - xm (ix2 0 q)) * Ideal.rsqrt (xv (ix2 0 q) + Cert.Spec.epsW)) * xg (ix2 0 q)
          + xs (ix2 0 q)) Cert.Spec.zeroW := by
  unfold k5_pay1
  simp only [shapeCast_self]
  rw [maximumf_apply, addf_apply, mulf_apply, mulf_apply, subf_apply, addf_apply]
  simp only [broadcastTo_1b_ab_apply, broadcast_apply]
  rfl

/-! ## Where the blocks sit -/

theorem norm5_zero_off : (![0, 0] : Fin 2 → Nat) = fun _ => 0 := funext fun a => by fin_cases a <;> rfl

/-- The block indices over the grid: the row-block windows (input 0, output 6) are at block (t, 0) at point t, a
    parameter row's window always at block (0, 0). Decided once for the ten points, one statement per parameter row. -/

theorem norm5_index1 : ∀ t : Fin cfg5.N,
    win5_0.index t (0 : Fin 2) = t.val ∧ win5_0.index t (1 : Fin 2) = 0
    ∧ win5_6.index t (0 : Fin 2) = t.val ∧ win5_6.index t (1 : Fin 2) = 0
    ∧ win5_1.index t (0 : Fin 2) = 0 ∧ win5_1.index t (1 : Fin 2) = 0 :=
  (by decide +kernel : ∀ t : Fin grid5.N, _)

theorem norm5_index2 : ∀ t : Fin cfg5.N,
    win5_0.index t (0 : Fin 2) = t.val ∧ win5_0.index t (1 : Fin 2) = 0
    ∧ win5_6.index t (0 : Fin 2) = t.val ∧ win5_6.index t (1 : Fin 2) = 0
    ∧ win5_2.index t (0 : Fin 2) = 0 ∧ win5_2.index t (1 : Fin 2) = 0 :=
  (by decide +kernel : ∀ t : Fin grid5.N, _)

theorem norm5_index3 : ∀ t : Fin cfg5.N,
    win5_0.index t (0 : Fin 2) = t.val ∧ win5_0.index t (1 : Fin 2) = 0
    ∧ win5_6.index t (0 : Fin 2) = t.val ∧ win5_6.index t (1 : Fin 2) = 0
    ∧ win5_3.index t (0 : Fin 2) = 0 ∧ win5_3.index t (1 : Fin 2) = 0 :=
  (by decide +kernel : ∀ t : Fin grid5.N, _)

theorem norm5_index4 : ∀ t : Fin cfg5.N,
    win5_0.index t (0 : Fin 2) = t.val ∧ win5_0.index t (1 : Fin 2) = 0
    ∧ win5_6.index t (0 : Fin 2) = t.val ∧ win5_6.index t (1 : Fin 2) = 0
    ∧ win5_4.index t (0 : Fin 2) = 0 ∧ win5_4.index t (1 : Fin 2) = 0 :=
  (by decide +kernel : ∀ t : Fin grid5.N, _)

theorem norm5_index5 : ∀ t : Fin cfg5.N,
    win5_0.index t (0 : Fin 2) = t.val ∧ win5_0.index t (1 : Fin 2) = 0
    ∧ win5_6.index t (0 : Fin 2) = t.val ∧ win5_6.index t (1 : Fin 2) = 0
    ∧ win5_5.index t (0 : Fin 2) = 0 ∧ win5_5.index t (1 : Fin 2) = 0 :=
  (by decide +kernel : ∀ t : Fin grid5.N, _)

variable (V : (c : Dev nD) → (b : Ref sig .tc) → Buf (Elt Ideal) ((c : Thread nD τ).loc b))

/-- The row block of A at point t: its entry (x₀, x₁) is A's entry (10000·t + x₀, x₁). -/
theorem norm5_rows (c : Dev nD) (t : Fin cfg5.N) (x : S10000x128.Idx) (k : S100000x128.Idx)
    (hk0 : (k 0).val = t.val * 10000 + (x 0).val) (hk1 : (k 1).val = (x 1).val) :
    (iblk5 V c 0 t : Vec Ideal S10000x128 .f32) x = (V c main_v35 : S100000x128.Idx → EReal) k := by
  obtain ⟨e0, e1, -, -, -, -⟩ := norm5_index1 t
  unfold iblk5
  rw [View.read_apply]
  show V c main_v35 _ = V c main_v35 k
  congr 1
  funext a; apply Fin.ext
  match a with
  | ⟨0, _⟩ => show win5_0.index t (0 : Fin 2) * 10000 + 1 * (x 0).val = (k 0).val; rw [e0, hk0]; omega
  | ⟨1, _⟩ => show win5_0.index t (1 : Fin 2) * 128 + 1 * (x 1).val = (k 1).val; rw [e1, hk1]; omega

/-- The added row's window has one block, the whole row: its block at any point is the entry array itself. -/
theorem norm5_row1 (c : Dev nD) (t : Fin cfg5.N) :
    (iblk5 V c 1 t : Vec Ideal S1x128 .f32) = (V c main_v46 : S1x128.Idx → EReal) := by
  obtain ⟨-, -, -, -, e0, e1⟩ := norm5_index1 t
  funext x
  unfold iblk5
  rw [View.read_apply]
  show V c main_v46 _ = V c main_v46 x
  congr 1
  funext a; apply Fin.ext
  match a with
  | ⟨0, _⟩ => show win5_1.index t (0 : Fin 2) * 1 + 1 * (x 0).val = (x 0).val; rw [e0]; omega
  | ⟨1, _⟩ => show win5_1.index t (1 : Fin 2) * 128 + 1 * (x 1).val = (x 1).val; rw [e1]; omega

/-- The mean row's window has one block, the whole row: its block at any point is the entry array itself. -/
theorem norm5_row2 (c : Dev nD) (t : Fin cfg5.N) :
    (iblk5 V c 2 t : Vec Ideal S1x128 .f32) = (V c main_v47 : S1x128.Idx → EReal) := by
  obtain ⟨-, -, -, -, e0, e1⟩ := norm5_index2 t
  funext x
  unfold iblk5
  rw [View.read_apply]
  show V c main_v47 _ = V c main_v47 x
  congr 1
  funext a; apply Fin.ext
  match a with
  | ⟨0, _⟩ => show win5_2.index t (0 : Fin 2) * 1 + 1 * (x 0).val = (x 0).val; rw [e0]; omega
  | ⟨1, _⟩ => show win5_2.index t (1 : Fin 2) * 128 + 1 * (x 1).val = (x 1).val; rw [e1]; omega

/-- The variance row's window has one block, the whole row: its block at any point is the entry array itself. -/
theorem norm5_row3 (c : Dev nD) (t : Fin cfg5.N) :
    (iblk5 V c 3 t : Vec Ideal S1x128 .f32) = (V c main_v48 : S1x128.Idx → EReal) := by
  obtain ⟨-, -, -, -, e0, e1⟩ := norm5_index3 t
  funext x
  unfold iblk5
  rw [View.read_apply]
  show V c main_v48 _ = V c main_v48 x
  congr 1
  funext a; apply Fin.ext
  match a with
  | ⟨0, _⟩ => show win5_3.index t (0 : Fin 2) * 1 + 1 * (x 0).val = (x 0).val; rw [e0]; omega
  | ⟨1, _⟩ => show win5_3.index t (1 : Fin 2) * 128 + 1 * (x 1).val = (x 1).val; rw [e1]; omega

/-- The scale row's window has one block, the whole row: its block at any point is the entry array itself. -/
theorem norm5_row4 (c : Dev nD) (t : Fin cfg5.N) :
    (iblk5 V c 4 t : Vec Ideal S1x128 .f32) = (V c main_v49 : S1x128.Idx → EReal) := by
  obtain ⟨-, -, -, -, e0, e1⟩ := norm5_index4 t
  funext x
  unfold iblk5
  rw [View.read_apply]
  show V c main_v49 _ = V c main_v49 x
  congr 1
  funext a; apply Fin.ext
  match a with
  | ⟨0, _⟩ => show win5_4.index t (0 : Fin 2) * 1 + 1 * (x 0).val = (x 0).val; rw [e0]; omega
  | ⟨1, _⟩ => show win5_4.index t (1 : Fin 2) * 128 + 1 * (x 1).val = (x 1).val; rw [e1]; omega

/-- The shift row's window has one block, the whole row: its block at any point is the entry array itself. -/
theorem norm5_row5 (c : Dev nD) (t : Fin cfg5.N) :
    (iblk5 V c 5 t : Vec Ideal S1x128 .f32) = (V c main_v50 : S1x128.Idx → EReal) := by
  obtain ⟨-, -, -, -, e0, e1⟩ := norm5_index5 t
  funext x
  unfold iblk5
  rw [View.read_apply]
  show V c main_v50 _ = V c main_v50 x
  congr 1
  funext a; apply Fin.ext
  match a with
  | ⟨0, _⟩ => show win5_5.index t (0 : Fin 2) * 1 + 1 * (x 0).val = (x 0).val; rw [e0]; omega
  | ⟨1, _⟩ => show win5_5.index t (1 : Fin 2) * 128 + 1 * (x 1).val = (x 1).val; rw [e1]; omega

/-! ## What a point writes back -/

/-- The body's result at point t, entry (p, q), is the specification's entry (r, q) for the array row r = 10000·t + p. -/
theorem norm5_entry (c : Dev nD) (t : Fin cfg5.N) (p : Fin 10000) (q : Fin 128) (r : Fin 100000)
    (hr : r.val = t.val * 10000 + p.val) :
    k5_pay1 (F := Ideal) (iblk5 V c 0 t) (iblk5 V c 1 t) (iblk5 V c 3 t) (iblk5 V c 2 t) (iblk5 V c 4 t) (iblk5 V c 5 t) (ix2 p q)
      = Cert.Spec.normRelu (V c main_v35) (V c main_v46) (V c main_v47) (V c main_v48) (V c main_v49) (V c main_v50) (ix2 r q) := by
  refine (norm5_pay_apply _ _ _ _ _ _ p q).trans ?_
  rw [norm5_rows V c t (ix2 p q) (ix2 r q) hr rfl, norm5_row1, norm5_row2, norm5_row3, norm5_row4, norm5_row5]
  rfl

/-- The same for any entry of the block and any entry of the array whose coordinates are so related. -/
theorem norm5_entry' (c : Dev nD) (t : Fin cfg5.N) (j : S10000x128.Idx) (i : S100000x128.Idx)
    (hi0 : (i 0).val = t.val * 10000 + (j 0).val) (hi1 : (i 1).val = (j 1).val) :
    k5_pay1 (F := Ideal) (iblk5 V c 0 t) (iblk5 V c 1 t) (iblk5 V c 3 t) (iblk5 V c 2 t) (iblk5 V c 4 t) (iblk5 V c 5 t) j
      = Cert.Spec.normRelu (V c main_v35) (V c main_v46) (V c main_v47) (V c main_v48) (V c main_v49) (V c main_v50) i := by
  obtain ⟨p, q, rfl⟩ : ∃ (p : Fin 10000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  exact norm5_entry V c t p q' r hi0

/-- What point t writes back to the output array is block t of the specification's array. -/
theorem norm5_flushed (c : Dev nD) (t : Fin cfg5.N) :
    (dat5 (F := Ideal) V c).flushed 6 t = ((cfg5.win 6).blk t).view.read (Elt Ideal)
      (Cert.Spec.normRelu (V c main_v35) (V c main_v46) (V c main_v47) (V c main_v48) (V c main_v49) (V c main_v50)) := by
  show (cfg5.win 6).cut (grid5.coords t) ((dat5 V c).after 6 t) = _
  rw [after5_6]
  unfold out5_6
  rw [View.canon_unit_zero norm5_zero_off]
  simp only [View.ld_unit_zero (S := S10000x128) norm5_zero_off, View.ld_unit_zero (S := S1x128) norm5_zero_off]
  obtain ⟨-, -, e0, e1, -, -⟩ := norm5_index1 t
  funext j
  refine norm5_entry' V c t j (((cfg5.win 6).blk t).view.emb j) ?_ ?_
  · show win5_6.index t (0 : Fin 2) * 10000 + 1 * (j 0).val = t.val * 10000 + (j 0).val; rw [e0]; omega
  · show win5_6.index t (1 : Fin 2) * 128 + 1 * (j 1).val = (j 1).val; rw [e1]; omega

/-! ## The blocks cover the array -/

/-- An entry of the array is in point t's block exactly when each coordinate is in the block's range. -/
theorem norm5_mem_blk (t : Fin cfg5.N) (i : S100000x128.Idx) :
    i ∈ ((cfg5.win 6).blk t).view.set ↔ ∀ a : Fin 2, win5_6.index t a * S10000x128.size a ≤ (i a).val
      ∧ (i a).val < win5_6.index t a * S10000x128.size a + S10000x128.size a := by
  show i ∈ ((View.whole main_v51).slice (win5_6.rect t)).set ↔ _
  rw [View.set_slice_whole, Rect.mem_set_unit]
  exact Iff.rfl

/-- Row r of the array is written by point ⌊r / 10000⌋. -/
theorem norm5_cover (i : S100000x128.Idx) :
    ∃ t : Fin cfg5.N, (cfg5.win 6).flush t = true ∧ i ∈ ((cfg5.win 6).blk t).view.set := by
  have hN : grid5.N = 10 := N_5
  have h0 : (i 0).val < 100000 := (i 0).isLt
  have h1 : (i 1).val < 128 := (i 1).isLt
  have ht : (i 0).val / 10000 < grid5.N := by rw [hN]; omega
  refine ⟨⟨(i 0).val / 10000, ht⟩, flush5_6 _, ?_⟩
  rw [norm5_mem_blk]
  obtain ⟨-, -, e0, e1, -, -⟩ := norm5_index1 ⟨(i 0).val / 10000, ht⟩
  intro a
  match a with
  | ⟨0, _⟩ =>
    show win5_6.index ⟨(i 0).val / 10000, ht⟩ (0 : Fin 2) * 10000 ≤ (i 0).val
      ∧ (i 0).val < win5_6.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win5_6.index ⟨(i 0).val / 10000, ht⟩ (1 : Fin 2) * 128 ≤ (i 1).val
      ∧ (i 1).val < win5_6.index ⟨(i 0).val / 10000, ht⟩ (1 : Fin 2) * 128 + 128
    rw [e1]; omega

/-! ## The array after the region -/

/-- The output after the region: every entry normalised, scaled, shifted and clamped at zero. -/
theorem out5_closed (c : Dev nD) :
    ((dat5 (F := Ideal) V c).arrAt 6 cfg5.N : S100000x128.Idx → EReal)
      = Cert.Spec.normRelu (V c main_v35) (V c main_v46) (V c main_v47) (V c main_v48) (V c main_v49) (V c main_v50) :=
  (dat5 (F := Ideal) V c).arrAt_eq_of_cover 6
    (Cert.Spec.normRelu (V c main_v35) (V c main_v46) (V c main_v47) (V c main_v48) (V c main_v49) (V c main_v50))
    (fun t _ => norm5_flushed V c t) norm5_cover

end Cert.KernelIdeal.Hand

end
-- ==== Proof.LibGcnAlgebra.lean ====
/-
  THE ALGEBRA OF ONE GRAPH-CONVOLUTION LAYER, OVER THE EXTENDED REALS.

  A layer aggregates the node features h over the edges that land on a node, with an edge weight w and a
  self-loop weight sn, and multiplies by a dense weight matrix W.  Aggregating first and multiplying afterwards
  gives the same number as multiplying first and aggregating afterwards: over the reals this is distributivity and
  an exchange of two finite sums.  Over the extended reals multiplication does not distribute over addition at
  the infinities, so the identity is proved for entries that are real numbers: every entry is replaced by the real
  number it is, both sides become the image of one real expression, and the identity is the real one.
-/
import Mathlib.Data.EReal.Operations
import Mathlib.Algebra.BigOperators.Ring.Finset
import Mathlib.Algebra.BigOperators.Group.Finset.Basic
import Mathlib.Algebra.BigOperators.Group.Finset.Sigma

noncomputable section

open scoped BigOperators

namespace Cert.Lib

/-! ### Extended reals that are real numbers -/

/-- An extended real is real when it is the image of a real number (neither of the two infinities). -/
def IsReal (x : EReal) : Prop := ∃ r : ℝ, x = (r : EReal)

namespace IsReal

/-- The image of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A sum of two reals is real. -/
theorem add {x y : EReal} (hx : IsReal x) (hy : IsReal y) : IsReal (x + y) := by
  obtain ⟨a, rfl⟩ := hx
  obtain ⟨b, rfl⟩ := hy
  exact ⟨a + b, (EReal.coe_add a b).symm⟩

/-- A product of two reals is real. -/
theorem mul {x y : EReal} (hx : IsReal x) (hy : IsReal y) : IsReal (x * y) := by
  obtain ⟨a, rfl⟩ := hx
  obtain ⟨b, rfl⟩ := hy
  exact ⟨a * b, (EReal.coe_mul a b).symm⟩

/-- The opposite of a real is real. -/
theorem neg {x : EReal} (hx : IsReal x) : IsReal (-x) := by
  obtain ⟨a, rfl⟩ := hx
  exact ⟨-a, (EReal.coe_neg a).symm⟩

/-- A difference of two reals is real. -/
theorem sub {x y : EReal} (hx : IsReal x) (hy : IsReal y) : IsReal (x - y) := by
  obtain ⟨a, rfl⟩ := hx
  obtain ⟨b, rfl⟩ := hy
  exact ⟨a - b, (EReal.coe_sub a b).symm⟩

/-- The larger of two reals is real: the embedding of the reals is monotone, so it commutes with max. -/
theorem max {x y : EReal} (hx : IsReal x) (hy : IsReal y) : IsReal (max x y) := by
  obtain ⟨a, rfl⟩ := hx
  obtain ⟨b, rfl⟩ := hy
  exact ⟨Max.max a b, (EReal.coe_strictMono.monotone.map_max (a := a) (b := b)).symm⟩

/-- The smaller of two reals is real. -/
theorem min {x y : EReal} (hx : IsReal x) (hy : IsReal y) : IsReal (min x y) := by
  obtain ⟨a, rfl⟩ := hx
  obtain ⟨b, rfl⟩ := hy
  exact ⟨Min.min a b, (EReal.coe_strictMono.monotone.map_min (a := a) (b := b)).symm⟩

/-- A choice between two reals is real. -/
theorem ite {p : Prop} [Decidable p] {x y : EReal} (hx : IsReal x) (hy : IsReal y) :
    IsReal (if p then x else y) := by
  split
  · exact hx
  · exact hy

/-- A finite sum of reals is real. -/
theorem sum {α : Type*} (s : Finset α) (f : α → EReal) (hf : ∀ a ∈ s, IsReal (f a)) :
    IsReal (∑ a ∈ s, f a) := by
  classical
  induction s using Finset.induction_on with
  | empty => simpa using zero
  | insert a s ha ih =>
    rw [Finset.sum_insert ha]
    exact add (hf a (Finset.mem_insert_self a s))
      (ih fun b hb => hf b (Finset.mem_insert_of_mem hb))

/-- A sum of reals over a whole finite type is real. -/
theorem sum_univ {α : Type*} [Fintype α] (f : α → EReal) (hf : ∀ a, IsReal (f a)) :
    IsReal (∑ a, f a) :=
  sum Finset.univ f fun a _ => hf a

/-- A real is not plus infinity. -/
theorem ne_top {x : EReal} (hx : IsReal x) : x ≠ ⊤ := by
  obtain ⟨a, rfl⟩ := hx
  exact EReal.coe_ne_top a

/-- A real is not minus infinity. -/
theorem ne_bot {x : EReal} (hx : IsReal x) : x ≠ ⊥ := by
  obtain ⟨a, rfl⟩ := hx
  exact EReal.coe_ne_bot a

/-- An extended real that is neither infinity is real. -/
theorem of_ne {x : EReal} (hb : x ≠ ⊥) (ht : x ≠ ⊤) : IsReal x := by
  induction x using EReal.rec with
  | bot => exact absurd rfl hb
  | coe r => exact ⟨r, rfl⟩
  | top => exact absurd rfl ht

/-- Being real is being neither infinity. -/
theorem iff_ne {x : EReal} : IsReal x ↔ x ≠ ⊥ ∧ x ≠ ⊤ :=
  ⟨fun h => ⟨h.ne_bot, h.ne_top⟩, fun h => of_ne h.1 h.2⟩

end IsReal

/-! ### The embedding of the reals commutes with finite sums and with choices -/

/-- The image of a finite sum of real numbers is the sum of the images. -/
@[norm_cast]
theorem coe_finset_sum {α : Type*} (s : Finset α) (f : α → ℝ) :
    ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The image of a choice between two real numbers is the choice between the images. -/
@[norm_cast]
theorem coe_ite (p : Prop) [Decidable p] (a b : ℝ) :
    ((if p then a else b : ℝ) : EReal) = if p then (a : EReal) else (b : EReal) := by
  split <;> rfl

/-- The image of a choice between a real number and zero. -/
theorem coe_ite_zero (p : Prop) [Decidable p] (a : ℝ) :
    ((if p then a else 0 : ℝ) : EReal) = if p then (a : EReal) else 0 := by
  split <;> rfl

/-! ### One layer, over the reals -/

section Real

variable {ι ε κ φ : Type*} [Fintype ε] [Fintype κ]

/-- Aggregate-then-transform equals transform-then-aggregate, over the reals.  The left side multiplies the
aggregated features (edge term plus self-loop term) by the weight matrix; the right side aggregates the already
multiplied features.  Both are the double sum over edges and feature coordinates plus the self-loop sum. -/
theorem gcn_layer_swap_real (h : ι → κ → ℝ) (W : κ → φ → ℝ) (g : ε → ι) (hit : ε → ι → Prop)
    [∀ e i, Decidable (hit e i)] (w : ε → ℝ) (sn : ι → ℝ) (i : ι) (f : φ) :
    ∑ k, ((0 + ∑ e, if hit e i then h (g e) k * w e else 0) + sn i * h i k) * W k f
      = 0 + ((∑ e, if hit e i then (∑ k, h (g e) k * W k f) * w e else 0)
          + (∑ k, h i k * W k f) * sn i) := by
  simp only [zero_add, add_mul, Finset.sum_add_distrib, Finset.sum_mul]
  congr 1
  · rw [Finset.sum_comm]
    refine Finset.sum_congr rfl fun e _ => ?_
    by_cases hc : hit e i
    · simp only [hc, if_true]
      refine Finset.sum_congr rfl fun k _ => ?_
      ring
    · simp only [hc, if_false, zero_mul, Finset.sum_const_zero]
  · refine Finset.sum_congr rfl fun k _ => ?_
    ring

end Real

/-! ### One layer, over the extended reals -/

section Ext

variable {ι ε κ φ : Type*} [Fintype ε] [Fintype κ]

/-- Aggregate-then-transform equals transform-then-aggregate, over the extended reals, when every entry of the
features, of the weight matrix, of the edge weights and of the self-loop weights is a real number.  Every entry
is replaced by the real number it is; then both sides are the image of the two sides of the real identity. -/
theorem gcn_layer_swap (h : ι → κ → EReal) (W : κ → φ → EReal) (g : ε → ι) (hit : ε → ι → Prop)
    [∀ e i, Decidable (hit e i)] (w : ε → EReal) (sn : ι → EReal)
    (hh : ∀ i k, IsReal (h i k)) (hW : ∀ k f, IsReal (W k f)) (hw : ∀ e, IsReal (w e))
    (hsn : ∀ i, IsReal (sn i)) (i : ι) (f : φ) :
    ∑ k, ((0 + ∑ e, if hit e i then h (g e) k * w e else 0) + sn i * h i k) * W k f
      = 0 + ((∑ e, if hit e i then (∑ k, h (g e) k * W k f) * w e else 0)
          + (∑ k, h i k * W k f) * sn i) := by
  choose h' hh' using hh
  choose W' hW' using hW
  choose w' hw' using hw
  choose sn' hsn' using hsn
  obtain rfl : h = fun i k => (h' i k : EReal) := funext fun i => funext fun k => hh' i k
  obtain rfl : W = fun k f => (W' k f : EReal) := funext fun k => funext fun f => hW' k f
  obtain rfl : w = fun e => (w' e : EReal) := funext hw'
  obtain rfl : sn = fun i => (sn' i : EReal) := funext hsn'
  have key := congrArg Real.toEReal (gcn_layer_swap_real h' W' g hit w' sn' i f)
  simp only [EReal.coe_add, EReal.coe_mul, EReal.coe_zero, coe_finset_sum, coe_ite_zero] at key
  exact key

/-- The aggregate-then-transform side is real when every entry is. -/
theorem isReal_gcn_kernel_side (h : ι → κ → EReal) (W : κ → φ → EReal) (g : ε → ι) (hit : ε → ι → Prop)
    [∀ e i, Decidable (hit e i)] (w : ε → EReal) (sn : ι → EReal)
    (hh : ∀ i k, IsReal (h i k)) (hW : ∀ k f, IsReal (W k f)) (hw : ∀ e, IsReal (w e))
    (hsn : ∀ i, IsReal (sn i)) (i : ι) (f : φ) :
    IsReal (∑ k, ((0 + ∑ e, if hit e i then h (g e) k * w e else 0) + sn i * h i k) * W k f) :=
  IsReal.sum_univ _ fun k =>
    (((IsReal.zero.add (IsReal.sum_univ _ fun e => IsReal.ite ((hh (g e) k).mul (hw e)) IsReal.zero)).add
      ((hsn i).mul (hh i k))).mul (hW k f))

/-- The transform-then-aggregate side is real when every entry is. -/
theorem isReal_gcn_reference_side (h : ι → κ → EReal) (W : κ → φ → EReal) (g : ε → ι) (hit : ε → ι → Prop)
    [∀ e i, Decidable (hit e i)] (w : ε → EReal) (sn : ι → EReal)
    (hh : ∀ i k, IsReal (h i k)) (hW : ∀ k f, IsReal (W k f)) (hw : ∀ e, IsReal (w e))
    (hsn : ∀ i, IsReal (sn i)) (i : ι) (f : φ) :
    IsReal (0 + ((∑ e, if hit e i then (∑ k, h (g e) k * W k f) * w e else 0)
      + (∑ k, h i k * W k f) * sn i)) :=
  IsReal.zero.add
    ((IsReal.sum_univ _ fun e =>
        IsReal.ite ((IsReal.sum_univ _ fun k => (hh (g e) k).mul (hW k f)).mul (hw e)) IsReal.zero).add
      ((IsReal.sum_univ _ fun k => (hh i k).mul (hW k f)).mul (hsn i)))

end Ext

/-- Adding a real bias to a real number and clamping below at zero gives a real number. -/
theorem isReal_max_add_zero {X b : EReal} (hX : IsReal X) (hb : IsReal b) : IsReal (max (X + b) 0) :=
  (hX.add hb).max IsReal.zero

end Cert.Lib
-- ==== Proof.LibHostRead.lean ====
/-
  HOST LAYOUT OPERATIONS OF A GRAPH PROPAGATION STEP, READ AT AN ELEMENT. Generic in the sizes.

  A propagation step's host side moves per-edge and per-node vectors into the shapes its gather, scatter and
  elementwise products want:
    row r of a [2, E] index table, sliced out as [1, E] and reshaped to [E]            (rowOfPair_apply);
    a vector [E] made a column [E, 1]                                                    (col_apply);
    that column spread along a new feature axis to [E, D]                                (spread_apply, colSpread_apply);
    a scalar spread to any shape                                                         (splat_apply);
    a vector [D] made a row [1, D] by a reshape                                          (rowOfVec_apply).
  Each lemma says which element of the source the result holds at a given element; none depends on the element type.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- A scalar spread to any shape holds the scalar everywhere. -/
theorem splat_apply {t : Shape} (dims : Fin (⟨0, ![]⟩ : Shape).rank → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector made a column: the column's element (e, 0) is the vector's element e. -/
theorem col_apply {E : Nat} (dims : Fin (⟨1, ![E]⟩ : Shape).rank → Fin (⟨2, ![E, 1]⟩ : Shape).rank) (hd : dims 0 = 0)
    (h : (⟨1, ![E]⟩ : Shape).BroadcastsInDim ⟨2, ![E, 1]⟩ dims) (v : (⟨1, ![E]⟩ : Shape).Idx → α) (e : Fin E) (z : Fin 1) :
    broadcastInDim ⟨2, ![E, 1]⟩ dims h v (ix2 e z) = v (ix1 e) := by
  refine broadcastInDim_apply dims h v (ix2 e z) (ix1 e) (fun a => ?_)
  match a with
  | ⟨0, _⟩ =>
    show e.val = if E = 1 then 0 else ((ix2 e z) (dims 0)).val
    rw [hd]
    split
    · rename_i h1; have := e.isLt; show e.val = 0; omega
    · rfl

/-- A column spread along a new feature axis: element (e, k) is the column's element (e, 0). -/
theorem spread_apply {E D : Nat} (dims : Fin (⟨2, ![E, 1]⟩ : Shape).rank → Fin (⟨2, ![E, D]⟩ : Shape).rank)
    (hd0 : dims 0 = 0) (hd1 : dims 1 = 1)
    (h : (⟨2, ![E, 1]⟩ : Shape).BroadcastsInDim ⟨2, ![E, D]⟩ dims) (v : (⟨2, ![E, 1]⟩ : Shape).Idx → α) (e : Fin E) (k : Fin D) :
    broadcastInDim ⟨2, ![E, D]⟩ dims h v (ix2 e k) = v (ix2 e (0 : Fin 1)) := by
  refine broadcastInDim_apply dims h v (ix2 e k) (ix2 e (0 : Fin 1)) (fun a => ?_)
  match a with
  | ⟨0, _⟩ =>
    show e.val = if E = 1 then 0 else ((ix2 e k) (dims 0)).val
    rw [hd0]
    split
    · rename_i h1; have := e.isLt; show e.val = 0; omega
    · rfl
  | ⟨1, _⟩ =>
    show (0 : Nat) = if (1 : Nat) = 1 then 0 else ((ix2 e k) (dims 1)).val
    rw [if_pos rfl]

/-- A vector made a column and spread along a feature axis: element (e, k) is the vector's element e. -/
theorem colSpread_apply {E D : Nat} (dims1 : Fin (⟨1, ![E]⟩ : Shape).rank → Fin (⟨2, ![E, 1]⟩ : Shape).rank) (hd : dims1 0 = 0)
    (h1 : (⟨1, ![E]⟩ : Shape).BroadcastsInDim ⟨2, ![E, 1]⟩ dims1)
    (dims2 : Fin (⟨2, ![E, 1]⟩ : Shape).rank → Fin (⟨2, ![E, D]⟩ : Shape).rank) (hd0 : dims2 0 = 0) (hd1 : dims2 1 = 1)
    (h2 : (⟨2, ![E, 1]⟩ : Shape).BroadcastsInDim ⟨2, ![E, D]⟩ dims2) (v : (⟨1, ![E]⟩ : Shape).Idx → α) (e : Fin E) (k : Fin D) :
    broadcastInDim ⟨2, ![E, D]⟩ dims2 h2 (broadcastInDim ⟨2, ![E, 1]⟩ dims1 h1 v) (ix2 e k) = v (ix1 e) := by
  rw [spread_apply dims2 hd0 hd1 h2, col_apply dims1 hd h1]

/-- Row r of a two-row table, sliced out and flattened: element e is the table's element (r, e). -/
theorem rowOfPair_apply {E : Nat} (r : Fin 2) (off : Fin (⟨2, ![2, E]⟩ : Shape).rank → Nat) (ho0 : off 0 = r.val) (ho1 : off 1 = 0)
    (hs : (⟨2, ![2, E]⟩ : Shape).Slices off ⟨2, ![1, E]⟩) (hc : (⟨2, ![1, E]⟩ : Shape).ShapeCasts ⟨1, ![E]⟩)
    (A : (⟨2, ![2, E]⟩ : Shape).Idx → α) (e : Fin E) :
    shapeCast ⟨1, ![E]⟩ (extractStridedSlice ⟨2, ![1, E]⟩ off A hs) hc (ix1 e) = A (ix2 r e) := by
  rw [shapeCast_apply _ hc (ix1 e) (ix2 (0 : Fin 1) e) (by
    rw [Shape.rowMajor_val_two, Shape.rowMajor_val_one]
    show 0 * E + e.val = e.val
    omega)]
  refine extractStridedSlice_apply off A hs (ix2 (0 : Fin 1) e) (ix2 r e) (fun a => ?_)
  match a with
  | ⟨0, _⟩ => show r.val = off 0 + 0; rw [ho0, Nat.add_zero]
  | ⟨1, _⟩ => show e.val = off 1 + e.val; rw [ho1]; omega

/-- A vector made a row by a reshape: the row's element (0, f) is the vector's element f. -/
theorem rowOfVec_apply {D : Nat} (hc : (⟨1, ![D]⟩ : Shape).ShapeCasts ⟨2, ![1, D]⟩) (v : (⟨1, ![D]⟩ : Shape).Idx → α)
    (z : Fin 1) (f : Fin D) : shapeCast ⟨2, ![1, D]⟩ v hc (ix2 z f) = v (ix1 f) := by
  refine shapeCast_apply v hc (ix2 z f) (ix1 f) ?_
  rw [Shape.rowMajor_val_two, Shape.rowMajor_val_one]
  show f.val = z.val * D + f.val
  have := z.isLt
  have hz : z.val = 0 := by omega
  rw [hz]; omega

end Cert.Lib

end
-- ==== Proof.LibScatterExact.lean ====
/-
  The host's scatter-add on extended reals is the exact sum: what was there plus every update that lands there.
  Stated once, for any dimension numbers.
-/
import Idealize.ShloMosaic.PureOps.Ideal

noncomputable section

namespace Cert.Lib

open Idealize.ShloMosaic

/-- On extended reals the host's scatter-add is the exact sum of the operand and the landing updates. -/
theorem hostScatterAdd_exact {s si su : Shape} {φ : FTy} {w : Nat} (d : ScatterDims s si su) (x : FVec Ideal s φ)
    (idx : IVec si w) (upd : FVec Ideal su φ) :
    Host.scatterAdd d x idx upd = Ideal.hostScatterAdd d x idx upd := rfl

end Cert.Lib

end
-- ==== Proof.Bridge.Chain.lean ====
/-
  One message-passing step of the host side, as one function of the node features, the edge table and the edge
  weights:

    src, dst      rows 0 and 1 of the [2, E] edge table, each sliced out as [1, E] and flattened to [E];
    take P src    the row "take" with fill: a negative index is wrapped by adding N, an index is in range when
                  0 ≤ index ≤ N − 1, the rows are gathered at the (wrapped) indices, and a row whose index is out
                  of range is replaced by the not-a-number word;
    scale         every gathered row is multiplied by its edge's weight (the weight vector made a column and spread
                  along the feature axis);
    aggregate     the scaled rows are added into an all-zero [N, D] array at the rows dst names.

  When every source index is a node number (0 ≤ src e < N) nothing is wrapped, every index is in range, the mask is
  all ones and the selection takes the gathered row everywhere.  A gathered entry is an entry of P, so it is a real
  number when every entry of P is; its product with a real weight is real; and an entry of the aggregate is zero
  plus a finite sum of such products, hence a real number.
-/
import proofs.«163396_j33732673143025_1_alg».proof.KernelIdeal
import proofs.«163396_j33732673143025_1_alg».proof.Proof.LibGcnAlgebra
import proofs.«163396_j33732673143025_1_alg».proof.Proof.LibHostRead
import proofs.«163396_j33732673143025_1_alg».proof.Proof.LibScatterExact
import Idealize.ShloMosaic.Lib.ValueIdx
import Idealize.ShloMosaic.PureOps.Ideal.Laws

noncomputable section

open scoped BigOperators

namespace Cert.Bridge

open Cert.KernelIdeal Cert.KernelIdeal.Facts₀
open Idealize.ShloMosaic Idealize.ShloMosaic.ValueIdx
open Cert.Lib

variable [Cert.KernelIdeal.Facts₀]

/-! ## The step, operation by operation -/

/-- Row 0 of the edge table, flattened: the source node of every edge. -/
def srcK (ei : IVec S2x1600000 32) : IVec S1600000 32 :=
  shapeCast S1600000 (extractStridedSlice S1x1600000 ![0, 0] ei slices_S2x1600000_S1x1600000_0_0)
    shapeCasts_S1x1600000_S1600000

/-- Row 1 of the edge table, flattened: the destination node of every edge. -/
def dstK (ei : IVec S2x1600000 32) : IVec S1600000 32 :=
  shapeCast S1600000 (extractStridedSlice S1x1600000 ![1, 0] ei slices_S2x1600000_S1x1600000_1_0)
    shapeCasts_S1x1600000_S1600000

/-- The take's index after wrapping: index + N where the index is negative, the index itself otherwise. -/
def takeWrapK (a1 : IVec S1600000 32) : IVec S1600000 32 :=
  select (cmpi .slt a1 (broadcastInDim S1600000 ![] bcast_S_S1600000 (constantI S_ 32 0#32)))
    (addi a1 (broadcastInDim S1600000 ![] bcast_S_S1600000 (constantI S_ 32 100000#32))) a1

/-- The wrapped index as a column: the gather's start indices. -/
def takeIdxK (a1 : IVec S1600000 32) : IVec S1600000x1 32 :=
  broadcastInDim S1600000x1 ![0] bcast_S1600000_S1600000x1_0 (takeWrapK a1)

/-- The take's in-range mask, per edge: 0 ≤ wrapped index and wrapped index ≤ N − 1, the conjunction folded along
    the column's one-element axis from the word of "true". -/
def takeMaskK (a1 : IVec S1600000 32) : IVec S1600000 1 :=
  Host.reduce IntOp.andi
    (andi
      (cmpi .sge (takeIdxK a1) (broadcastInDim S1600000x1 ![] bcast_S_S1600000x1 (constantI S_ 32 0#32)))
      (cmpi .sle (takeIdxK a1)
        (broadcastInDim S1600000x1 ![0, 1] bcast_S1x1_S1600000x1_0_1
          (broadcastInDim S1x1 ![1] bcast_S1_S1x1_1 (constantI S1 32 99999#32)))))
    (constantI S_ 1 1#1) reducesTo_S1600000x1_S1600000_d1 h_S_

/-- The take: the rows of P at the wrapped indices where the index is in range, the not-a-number word elsewhere. -/
def takeK (P : FVec Ideal S100000x128 .f32) (a1 : IVec S1600000 32) : FVec Ideal S1600000x128 .f32 :=
  select (broadcastInDim S1600000x128 ![0] bcast_S1600000_S1600000x128_0 (takeMaskK a1))
    (Host.gather gather_S100000x128_S1600000x1_S1600000x128_1_0_n_n_0_1_1128 P (takeIdxK a1))
    (broadcastInDim S1600000x128 ![] bcast_S_S1600000x128 (constant (F := Ideal) S_ .f32 0x7FC00000#32))

/-- The edge weights made a column and spread along the feature axis. -/
def weightK (w : FVec Ideal S1600000 .f32) : FVec Ideal S1600000x128 .f32 :=
  broadcastInDim S1600000x128 ![0, 1] bcast_S1600000x1_S1600000x128_0_1
    (broadcastInDim S1600000x1 ![0] bcast_S1600000_S1600000x1_0 w)

/-- The whole step: the weighted taken rows added into zeros at the destination rows. -/
def chainK (P : FVec Ideal S100000x128 .f32) (ei : IVec S2x1600000 32) (w : FVec Ideal S1600000 .f32) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstK ei))
    (mulf (weightK w) (takeK P (srcK ei)))

/-! ## Source indices that are node numbers -/

/-- The flattened row 0 of the edge table at edge e is the table's entry (0, e). -/
theorem srcK_apply (ei : IVec S2x1600000 32) (e : Fin 1600000) : srcK ei (ix1 e) = ei (ix2 0 e) :=
  rowOfPair_apply (0 : Fin 2) ![0, 0] rfl rfl slices_S2x1600000_S1x1600000_0_0 shapeCasts_S1x1600000_S1600000 ei e

/-- The flattened row 1 of the edge table at edge e is the table's entry (1, e). -/
theorem dstK_apply (ei : IVec S2x1600000 32) (e : Fin 1600000) : dstK ei (ix1 e) = ei (ix2 1 e) :=
  rowOfPair_apply (1 : Fin 2) ![1, 0] rfl rfl slices_S2x1600000_S1x1600000_1_0 shapeCasts_S1x1600000_S1600000 ei e

/-- A 32-bit word whose signed value is not negative is not below zero in the signed order. -/
theorem cmpi_slt_zero_of_nonneg (x : BitVec 32) (h : 0 ≤ x.toInt) : IntOp.cmpi .slt x 0#32 = 0#1 := by
  have : x.slt 0#32 = false := by
    rw [BitVec.slt, decide_eq_false_iff_not]
    show ¬ x.toInt < (0#32 : BitVec 32).toInt
    rw [show (0#32 : BitVec 32).toInt = 0 by decide]; omega
  show BitVec.ofBool (x.slt 0#32) = 0#1
  rw [this]; rfl

/-- A 32-bit word whose signed value is not negative is at least zero in the signed order. -/
theorem cmpi_sge_zero_of_nonneg (x : BitVec 32) (h : 0 ≤ x.toInt) : IntOp.cmpi .sge x 0#32 = 1#1 := by
  have : (0#32 : BitVec 32).sle x = true := by
    rw [BitVec.sle, decide_eq_true_iff]
    show (0#32 : BitVec 32).toInt ≤ x.toInt
    rw [show (0#32 : BitVec 32).toInt = 0 by decide]; exact h
  show BitVec.ofBool ((0#32 : BitVec 32).sle x) = 1#1
  rw [this]; rfl

/-- A 32-bit word whose signed value is below 100000 is at most 99999 in the signed order. -/
theorem cmpi_sle_of_lt (x : BitVec 32) (h : x.toInt < 100000) : IntOp.cmpi .sle x 99999#32 = 1#1 := by
  have : x.sle 99999#32 = true := by
    rw [BitVec.sle, decide_eq_true_iff]
    show x.toInt ≤ (99999#32 : BitVec 32).toInt
    rw [show (99999#32 : BitVec 32).toInt = 99999 by decide]; omega
  show BitVec.ofBool (x.sle 99999#32) = 1#1
  rw [this]; rfl

/-- A fold of "and" from the word of true over words that are all true is the word of true. -/
theorem foldl_andi_one {ι : Type} (l : List ι) (f : ι → BitVec 1) (hf : ∀ n, f n = 1#1) :
    l.foldl (fun r n => IntOp.andi r (f n)) 1#1 = 1#1 := by
  induction l with
  | nil => rfl
  | cons a l ih =>
    rw [List.foldl_cons, hf a, show IntOp.andi (1#1 : BitVec 1) 1#1 = 1#1 by decide]
    exact ih

section InRange

variable (a1 : IVec S1600000 32) (ha : ∀ e, 0 ≤ (a1 e).toInt ∧ (a1 e).toInt < 100000)

include ha

/-- Nothing is wrapped: the wrapped index is the index. -/
theorem takeWrapK_eq (e : S1600000.Idx) : takeWrapK a1 e = a1 e := by
  show Scalar.select (IntOp.cmpi .slt (a1 e) 0#32) _ (a1 e) = a1 e
  rw [cmpi_slt_zero_of_nonneg _ (ha e).1, select_zero]

/-- Every start index of the gather is a node number. -/
theorem takeIdxK_range (i : S1600000x1.Idx) : 0 ≤ (takeIdxK a1 i).toInt ∧ (takeIdxK a1 i).toInt < 100000 := by
  unfold takeIdxK broadcastInDim
  rw [takeWrapK_eq a1 ha]
  exact ha _

/-- The in-range mask is all ones. -/
theorem takeMaskK_eq (e : S1600000.Idx) : takeMaskK a1 e = 1#1 := by
  unfold takeMaskK Host.reduce
  refine foldl_andi_one (ι := Fin S1600000x1.numel) _ _ fun n => ?_
  show IntOp.andi (IntOp.cmpi .sge (takeIdxK a1 _) 0#32) (IntOp.cmpi .sle (takeIdxK a1 _) 99999#32) = 1#1
  rw [cmpi_sge_zero_of_nonneg _ (takeIdxK_range a1 ha _).1, cmpi_sle_of_lt _ (takeIdxK_range a1 ha _).2]
  decide

/-- So the take is the gather: at every element an entry of P. -/
theorem takeK_eq (P : FVec Ideal S100000x128 .f32) (i : S1600000x128.Idx) :
    takeK P a1 i = Host.gather gather_S100000x128_S1600000x1_S1600000x128_1_0_n_n_0_1_1128 P (takeIdxK a1) i := by
  unfold takeK
  rw [select_apply]
  unfold broadcastInDim
  rw [takeMaskK_eq a1 ha, select_one]

/-- Every taken entry is real when every entry of P is. -/
theorem takeK_real (P : FVec Ideal S100000x128 .f32) (hP : ∀ i, ∃ r : ℝ, P i = r) (i : S1600000x128.Idx) :
    ∃ r : ℝ, takeK P a1 i = r := by
  rw [takeK_eq a1 ha P i]
  unfold Host.gather
  exact hP _

end InRange

/-- The source row of the edge table consists of node numbers when its entries do. -/
theorem srcK_range (ei : IVec S2x1600000 32)
    (hsrc : ∀ e : Fin 1600000, 0 ≤ (ei (ValueIdx.ix2 0 e)).toInt ∧ (ei (ValueIdx.ix2 0 e)).toInt < 100000)
    (e : S1600000.Idx) : 0 ≤ (srcK ei e).toInt ∧ (srcK ei e).toInt < 100000 := by
  obtain ⟨e0, rfl⟩ : ∃ e0 : Fin 1600000, e = ix1 e0 := ⟨e 0, eq_ix1 e⟩
  rw [srcK_apply]
  exact hsrc e0

/-! ## The aggregate is real -/

/-- An entry of a scatter-add into reals of reals is real: it is the operand's entry plus a finite sum of updates. -/
theorem hostScatterAdd_real {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- Every spread weight is one of the weights. -/
theorem weightK_real (w : FVec Ideal S1600000 .f32) (hw : ∀ e, ∃ r : ℝ, w e = r) (i : S1600000x128.Idx) :
    ∃ r : ℝ, weightK w i = r := by
  unfold weightK broadcastInDim
  exact hw _

/-- Every entry of the aggregate is a real number. -/
theorem chainK_real (P : FVec Ideal S100000x128 .f32) (ei : IVec S2x1600000 32) (w : FVec Ideal S1600000 .f32)
    (hP : ∀ i, ∃ r : ℝ, P i = r) (hw : ∀ e, ∃ r : ℝ, w e = r)
    (hsrc : ∀ e : Fin 1600000, 0 ≤ (ei (ValueIdx.ix2 0 e)).toInt ∧ (ei (ValueIdx.ix2 0 e)).toInt < 100000) :
    ∀ i, ∃ r : ℝ, chainK P ei w i = r := by
  intro i
  unfold chainK
  rw [hostScatterAdd_exact]
  refine hostScatterAdd_real _ _ _ _ (fun i => ?_) (fun j => ?_) i
  · unfold broadcastInDim
    rw [constant_apply, Ideal.ofBits_zero_f32]
    exact IsReal.zero
  · rw [mulf_apply]
    exact IsReal.mul (weightK_real w hw j) (takeK_real _ (srcK_range ei hsrc) P hP j)

end Cert.Bridge

end
-- ==== Proof.KernelIdeal.Glue.lean ====
/-
  The kernel program's result as ONE function of its eleven arguments: per layer a matrix product, the host's
  message-passing step (`chainK`), the column sums of A + b and of its square, the host glue (divide by the row count,
  subtract the squared mean, lay the rows out) and the normalisation. Definitions only.
-/
import proofs.«163396_j33732673143025_1_alg».proof.KernelIdeal
import proofs.«163396_j33732673143025_1_alg».proof.Proof.Spec
import proofs.«163396_j33732673143025_1_alg».proof.Proof.Bridge.Chain

noncomputable section

namespace Cert.KernelIdeal.Hand

open Cert.KernelIdeal Cert.Bridge
open Idealize.ShloMosaic

variable [Cert.KernelIdeal.Facts]
open Cert.KernelIdeal.Facts₀ Cert.KernelIdeal.Facts

/-! ## The host glue after a statistics region -/

/-- A [128] vector laid out as a [1,128] row, and back. -/
def rowOf (v : FVec Ideal S128 .f32) : FVec Ideal S1x128 .f32 := shapeCast S1x128 v shapeCasts_S128_S1x128
def vecOf (r : FVec Ideal S1x128 .f32) : FVec Ideal S128 .f32 := shapeCast S128 r shapeCasts_S1x128_S128
/-- The row count, as the splat of its f32 word. -/
def nVec : FVec Ideal S128 .f32 := broadcastInDim S128 ![] bcast_S_S128 (constant (F := Ideal) S_ .f32 0x47C35000#32)
/-- The column means from the column sums. -/
def meanK (S : FVec Ideal S1x128 .f32) : FVec Ideal S128 .f32 := Host.divf (vecOf S) nVec
/-- The column variances: mean of squares minus squared mean. -/
def varK (S Q : FVec Ideal S1x128 .f32) : FVec Ideal S128 .f32 := subf (Host.divf (vecOf Q) nVec) (mulf (meanK S) (meanK S))
/-- One layer after the aggregate A: statistics of A + b, then normalise, scale, shift, clamp. -/
def layerK (A : FVec Ideal S100000x128 .f32) (b g be : FVec Ideal S128 .f32) : FVec Ideal S100000x128 .f32 :=
  Cert.Spec.normRelu A (rowOf b) (rowOf (meanK (Cert.Spec.colSum A (rowOf b))))
    (rowOf (varK (Cert.Spec.colSum A (rowOf b)) (Cert.Spec.colSq A (rowOf b)))) (rowOf g) (rowOf be)
/-- The kernel program's result as a function of its eleven arguments. -/
def kval (a0 : FVec Ideal S100000x256 .f32) (a1 : IVec S2x1600000 32) (a2 : FVec Ideal S1600000 .f32) (a3 : FVec Ideal S256x128 .f32)
    (a4 a5 a6 : FVec Ideal S128 .f32) (a7 : FVec Ideal S128x128 .f32) (a8 a9 a10 : FVec Ideal S128 .f32) : FVec Ideal S100000x128 .f32 :=
  layerK (chainK (Cert.Spec.mm128 (layerK (chainK (Cert.Spec.mm256 a0 a3) a1 a2) a4 a5 a6) a7) a1 a2) a8 a9 a10

end Cert.KernelIdeal.Hand

end
-- ==== Proof.LibCallCast.lean ====
/-
  A VALUE STORED IN A CALLED FUNCTION'S BUFFER AND READ BACK. A host program's func.call prints its body's operations
  over typed references: each operation carries its operands from the buffers' own types to the values' types and
  its result back (TRef.ofBuf, TRef.toBuf: transports along the reference's type equation). Carried to the buffer's
  type and back, a value is unchanged, whatever the reference: the equation is eliminated, so no buffer is looked
  up. Rewriting with this lemma collapses every inner pair of transports in a stretch of a called function's
  operations read over an opaque valuation; what is left is one transport at the stretch's result and one at each
  buffer it starts from.
-/
import Idealize.ShloMosaic.Lib.StableHlo

noncomputable section

namespace Cert.Lib

open Idealize.ShloMosaic Idealize.ShloMosaic.StableHlo

/-- Contents carried to a buffer's own type and back are unchanged. -/
theorem ofBuf_toBuf {sig : RefSig} {Val : EltTy → Type} {T : BufTy} (x : TRef sig T) (v : T.Contents Val) :
    x.ofBuf (x.toBuf v) = v := by
  obtain ⟨ref, rfl, od, us⟩ := x
  rfl

/-- Contents of a buffer carried to the value's type and back are unchanged. -/
theorem toBuf_ofBuf {sig : RefSig} {Val : EltTy → Type} {T : BufTy} (x : TRef sig T) (v : x.ref.ty.Contents Val) :
    x.toBuf (x.ofBuf v) = v := by
  obtain ⟨ref, rfl, od, us⟩ := x
  rfl

end Cert.Lib

end
-- ==== Proof.KernelIdeal.Take.lean ====
/-
  The two takings of rows in the kernel program's host side, as one function each.

  Each is a stretch of 23 host operations over the buffers its call owns: the index vector compared with zero, the
  row count added where it is negative, the choice between the two; that index as a column, compared with the bounds
  0 and 99999, the conjunction of the two comparisons folded along the column's one-entry axis; the rows gathered at
  the column; the conjunction spread along the feature axis; and the choice, entry by entry, between the gathered
  row and the not-a-number word. Read off the list — each operation's result at its own buffer its function's value,
  at any other buffer what was there — the stretch's result buffer holds that composition of the array and the index
  vector it starts from, whatever the other buffers hold. The operations of a called function carry their operands
  from the buffers' types to the values' types and back; carried there and back a value is unchanged, and at a
  literal buffer the transport of any value is that value.
-/
import proofs.«163396_j33732673143025_1_alg».proof.Proof.KernelIdeal.Run
import proofs.«163396_j33732673143025_1_alg».proof.Proof.Bridge.Chain
import proofs.«163396_j33732673143025_1_alg».proof.Proof.LibCallCast
import Idealize.ShloMosaic.Lib.StableHlo.Run

noncomputable section

namespace Cert.KernelIdeal.Hand

open Cert.KernelIdeal Cert.KernelIdeal.Gen Cert.Bridge Idealize.ShloMosaic Idealize.ShloMosaic.TcCoe
  Idealize.ShloMosaic.StableHlo

section Stretch

attribute [local irreducible] Host.reduce Host.gather broadcastInDim select cmpi addi andi constant constantI

set_option maxRecDepth 8192 in
/-- Whatever the buffers hold before them, the 23 operations of this taking of rows leave in its result buffer the
    rows of the array in `main_v4` taken at the indices in `main_v1`. -/
theorem take_stretch1 (W : Valuation τ sig (Elt Ideal)) :
    after hostOps1_1 W (Proc.devRef .tc main_v6)
      = takeK (W (Proc.devRef .tc main_v4)) (W (Proc.devRef .tc main_v1)) := by
  have e1 : ∀ v : IVec S1600000 32,
      (TRef.of main_v1 : TRef sig ⟨S1600000, .i32⟩).ofBuf (Val := Elt Ideal) v = v := fun _ => rfl
  have e4 : ∀ v : FVec Ideal S100000x128 .f32,
      (TRef.of main_v4 : TRef sig ⟨S100000x128, .f32⟩).ofBuf (Val := Elt Ideal) v = v := fun _ => rfl
  have e6 : ∀ v : FVec Ideal S1600000x128 .f32,
      (TRef.of main_v6 : TRef sig ⟨S1600000x128, .f32⟩).toBuf (Val := Elt Ideal) v = v := fun _ => rfl
  unfold hostOps1_1
  after_results_simp
  simp only [Cert.Lib.ofBuf_toBuf, takeK, takeMaskK, takeIdxK, takeWrapK, e1, e4, e6]

set_option maxRecDepth 8192 in
/-- Whatever the buffers hold before them, the 23 operations of this taking of rows leave in its result buffer the
    rows of the array in `main_v28` taken at the indices in `main_v1`. -/
theorem take_stretch2 (W : Valuation τ sig (Elt Ideal)) :
    after hostOps4_1 W (Proc.devRef .tc main_v30)
      = takeK (W (Proc.devRef .tc main_v28)) (W (Proc.devRef .tc main_v1)) := by
  have e1 : ∀ v : IVec S1600000 32,
      (TRef.of main_v1 : TRef sig ⟨S1600000, .i32⟩).ofBuf (Val := Elt Ideal) v = v := fun _ => rfl
  have e4 : ∀ v : FVec Ideal S100000x128 .f32,
      (TRef.of main_v28 : TRef sig ⟨S100000x128, .f32⟩).ofBuf (Val := Elt Ideal) v = v := fun _ => rfl
  have e6 : ∀ v : FVec Ideal S1600000x128 .f32,
      (TRef.of main_v30 : TRef sig ⟨S1600000x128, .f32⟩).toBuf (Val := Elt Ideal) v = v := fun _ => rfl
  unfold hostOps4_1
  after_results_simp
  simp only [Cert.Lib.ofBuf_toBuf, takeK, takeMaskK, takeIdxK, takeWrapK, e1, e4, e6]

end Stretch

variable (m : (ℓ : Loc nD τ sig) → Buf (Elt Ideal) ℓ)

/-- After the first taking of rows its result buffer holds the rows of the first product taken at the source
    nodes. -/
theorem take1 (c : Dev nD) :
    W4 m c (Proc.devRef .tc main_v6)
      = takeK (W3 m c (Proc.devRef .tc main_v4)) (W3 m c (Proc.devRef .tc main_v1)) := by
  unfold W4
  exact take_stretch1 (W3 m c)

/-- After the second taking of rows its result buffer holds the rows of the second product taken at the source
    nodes. -/
theorem take2 (c : Dev nD) :
    W11 m c (Proc.devRef .tc main_v30)
      = takeK (W10 m c (Proc.devRef .tc main_v28)) (W10 m c (Proc.devRef .tc main_v1)) := by
  unfold W11
  exact take_stretch2 (W10 m c)

end Cert.KernelIdeal.Hand

end
-- ==== Proof.KernelIdeal.Value.lean ====
/-
  The result buffer's last contents as ONE function of the argument arrays. Reading the boundaries back: a matrix
  product's region leaves x·W; the host operations between it and the statistics region take the rows at the source node
  of every edge, scale them by the edge weight and add them up at the destination node (`chainK`); the statistics region
  leaves the column sums of A + b and of its square; the host operations after it divide by the row count for the mean and
  for the mean of squares, subtract the squared mean for the variance, and lay the rows out; the normalisation region
  leaves max(((A + b) − mean)·rsqrt(var + ε)·g + β, 0). Twice over.
-/
import proofs.«163396_j33732673143025_1_alg».proof.Proof.KernelIdeal.Final
import proofs.«163396_j33732673143025_1_alg».proof.Proof.KernelIdeal.R0Value
import proofs.«163396_j33732673143025_1_alg».proof.Proof.KernelIdeal.R1Value
import proofs.«163396_j33732673143025_1_alg».proof.Proof.KernelIdeal.R2Value
import proofs.«163396_j33732673143025_1_alg».proof.Proof.KernelIdeal.R3Value
import proofs.«163396_j33732673143025_1_alg».proof.Proof.KernelIdeal.R4Value
import proofs.«163396_j33732673143025_1_alg».proof.Proof.KernelIdeal.R5Value
import proofs.«163396_j33732673143025_1_alg».proof.Proof.Bridge.Chain
import proofs.«163396_j33732673143025_1_alg».proof.Proof.KernelIdeal.Glue
import proofs.«163396_j33732673143025_1_alg».proof.Proof.KernelIdeal.Take
import Idealize.ShloMosaic.Lib.StableHlo.Run

set_option maxRecDepth 16384

noncomputable section

namespace Cert.KernelIdeal.Hand

open Cert.KernelIdeal Cert.KernelIdeal.Gen Cert.Bridge
open Idealize.ShloMosaic Idealize.ShloMosaic.TcCoe Idealize.ShloMosaic.StableHlo
open Idealize.SL.Sem
open Idealize.ShloMosaic.Pipeline (Dat)

variable (m : (ℓ : Loc nD τ sig) → Buf (Elt Ideal) ℓ)

/-! ## Arguments and kept buffers at the boundaries where they are read -/

theorem W1_arg0 (c : Dev nD) : W1 m c (Proc.devRef .tc main_arg0) = m ((c : Thread nD τ).loc main_arg0) :=
  (W1_keep m c main_arg0 (by decide))
theorem W1_arg3 (c : Dev nD) : W1 m c (Proc.devRef .tc main_arg3) = m ((c : Thread nD τ).loc main_arg3) :=
  (W1_keep m c main_arg3 (by decide))
theorem W2_arg2 (c : Dev nD) : W2 m c (Proc.devRef .tc main_arg2) = m ((c : Thread nD τ).loc main_arg2) :=
  (W2_of_ne m c main_arg2 (by decide)).trans <|
    (W1_keep m c main_arg2 (by decide))
theorem W4_arg4 (c : Dev nD) : W4 m c (Proc.devRef .tc main_arg4) = m ((c : Thread nD τ).loc main_arg4) :=
  (W4_keep m c main_arg4 (by decide)).trans <|
    (W3_keep m c main_arg4 (by decide)).trans <|
    (W2_of_ne m c main_arg4 (by decide)).trans <|
    (W1_keep m c main_arg4 (by decide))
theorem W6_arg4 (c : Dev nD) : W6 m c (Proc.devRef .tc main_arg4) = m ((c : Thread nD τ).loc main_arg4) :=
  (W6_of_ne m c main_arg4 (by decide)).trans <|
    (W5_keep m c main_arg4 (by decide)).trans <|
    (W4_keep m c main_arg4 (by decide)).trans <|
    (W3_keep m c main_arg4 (by decide)).trans <|
    (W2_of_ne m c main_arg4 (by decide)).trans <|
    (W1_keep m c main_arg4 (by decide))
theorem W6_arg5 (c : Dev nD) : W6 m c (Proc.devRef .tc main_arg5) = m ((c : Thread nD τ).loc main_arg5) :=
  (W6_of_ne m c main_arg5 (by decide)).trans <|
    (W5_keep m c main_arg5 (by decide)).trans <|
    (W4_keep m c main_arg5 (by decide)).trans <|
    (W3_keep m c main_arg5 (by decide)).trans <|
    (W2_of_ne m c main_arg5 (by decide)).trans <|
    (W1_keep m c main_arg5 (by decide))
theorem W6_arg6 (c : Dev nD) : W6 m c (Proc.devRef .tc main_arg6) = m ((c : Thread nD τ).loc main_arg6) :=
  (W6_of_ne m c main_arg6 (by decide)).trans <|
    (W5_keep m c main_arg6 (by decide)).trans <|
    (W4_keep m c main_arg6 (by decide)).trans <|
    (W3_keep m c main_arg6 (by decide)).trans <|
    (W2_of_ne m c main_arg6 (by decide)).trans <|
    (W1_keep m c main_arg6 (by decide))
theorem W8_arg7 (c : Dev nD) : W8 m c (Proc.devRef .tc main_arg7) = m ((c : Thread nD τ).loc main_arg7) :=
  (W8_of_ne m c main_arg7 (by decide)).trans <|
    (W7_keep m c main_arg7 (by decide)).trans <|
    (W6_of_ne m c main_arg7 (by decide)).trans <|
    (W5_keep m c main_arg7 (by decide)).trans <|
    (W4_keep m c main_arg7 (by decide)).trans <|
    (W3_keep m c main_arg7 (by decide)).trans <|
    (W2_of_ne m c main_arg7 (by decide)).trans <|
    (W1_keep m c main_arg7 (by decide))
theorem W9_arg2 (c : Dev nD) : W9 m c (Proc.devRef .tc main_arg2) = m ((c : Thread nD τ).loc main_arg2) :=
  (W9_of_ne m c main_arg2 (by decide)).trans <|
    (W8_of_ne m c main_arg2 (by decide)).trans <|
    (W7_keep m c main_arg2 (by decide)).trans <|
    (W6_of_ne m c main_arg2 (by decide)).trans <|
    (W5_keep m c main_arg2 (by decide)).trans <|
    (W4_keep m c main_arg2 (by decide)).trans <|
    (W3_keep m c main_arg2 (by decide)).trans <|
    (W2_of_ne m c main_arg2 (by decide)).trans <|
    (W1_keep m c main_arg2 (by decide))
theorem W11_arg8 (c : Dev nD) : W11 m c (Proc.devRef .tc main_arg8) = m ((c : Thread nD τ).loc main_arg8) :=
  (W11_keep m c main_arg8 (by decide)).trans <|
    (W10_keep m c main_arg8 (by decide)).trans <|
    (W9_of_ne m c main_arg8 (by decide)).trans <|
    (W8_of_ne m c main_arg8 (by decide)).trans <|
    (W7_keep m c main_arg8 (by decide)).trans <|
    (W6_of_ne m c main_arg8 (by decide)).trans <|
    (W5_keep m c main_arg8 (by decide)).trans <|
    (W4_keep m c main_arg8 (by decide)).trans <|
    (W3_keep m c main_arg8 (by decide)).trans <|
    (W2_of_ne m c main_arg8 (by decide)).trans <|
    (W1_keep m c main_arg8 (by decide))
theorem W13_arg8 (c : Dev nD) : W13 m c (Proc.devRef .tc main_arg8) = m ((c : Thread nD τ).loc main_arg8) :=
  (W13_of_ne m c main_arg8 (by decide)).trans <|
    (W12_keep m c main_arg8 (by decide)).trans <|
    (W11_keep m c main_arg8 (by decide)).trans <|
    (W10_keep m c main_arg8 (by decide)).trans <|
    (W9_of_ne m c main_arg8 (by decide)).trans <|
    (W8_of_ne m c main_arg8 (by decide)).trans <|
    (W7_keep m c main_arg8 (by decide)).trans <|
    (W6_of_ne m c main_arg8 (by decide)).trans <|
    (W5_keep m c main_arg8 (by decide)).trans <|
    (W4_keep m c main_arg8 (by decide)).trans <|
    (W3_keep m c main_arg8 (by decide)).trans <|
    (W2_of_ne m c main_arg8 (by decide)).trans <|
    (W1_keep m c main_arg8 (by decide))
theorem W13_arg9 (c : Dev nD) : W13 m c (Proc.devRef .tc main_arg9) = m ((c : Thread nD τ).loc main_arg9) :=
  (W13_of_ne m c main_arg9 (by decide)).trans <|
    (W12_keep m c main_arg9 (by decide)).trans <|
    (W11_keep m c main_arg9 (by decide)).trans <|
    (W10_keep m c main_arg9 (by decide)).trans <|
    (W9_of_ne m c main_arg9 (by decide)).trans <|
    (W8_of_ne m c main_arg9 (by decide)).trans <|
    (W7_keep m c main_arg9 (by decide)).trans <|
    (W6_of_ne m c main_arg9 (by decide)).trans <|
    (W5_keep m c main_arg9 (by decide)).trans <|
    (W4_keep m c main_arg9 (by decide)).trans <|
    (W3_keep m c main_arg9 (by decide)).trans <|
    (W2_of_ne m c main_arg9 (by decide)).trans <|
    (W1_keep m c main_arg9 (by decide))
theorem W13_arg10 (c : Dev nD) : W13 m c (Proc.devRef .tc main_arg10) = m ((c : Thread nD τ).loc main_arg10) :=
  (W13_of_ne m c main_arg10 (by decide)).trans <|
    (W12_keep m c main_arg10 (by decide)).trans <|
    (W11_keep m c main_arg10 (by decide)).trans <|
    (W10_keep m c main_arg10 (by decide)).trans <|
    (W9_of_ne m c main_arg10 (by decide)).trans <|
    (W8_of_ne m c main_arg10 (by decide)).trans <|
    (W7_keep m c main_arg10 (by decide)).trans <|
    (W6_of_ne m c main_arg10 (by decide)).trans <|
    (W5_keep m c main_arg10 (by decide)).trans <|
    (W4_keep m c main_arg10 (by decide)).trans <|
    (W3_keep m c main_arg10 (by decide)).trans <|
    (W2_of_ne m c main_arg10 (by decide)).trans <|
    (W1_keep m c main_arg10 (by decide))

theorem W3_v1_keep (c : Dev nD) : W3 m c (Proc.devRef .tc main_v1) = W1 m c (Proc.devRef .tc main_v1) :=
  (W3_keep m c main_v1 (by decide)).trans <|
    (W2_of_ne m c main_v1 (by decide))

theorem W4_v3_keep (c : Dev nD) : W4 m c (Proc.devRef .tc main_v3) = W1 m c (Proc.devRef .tc main_v3) :=
  (W4_keep m c main_v3 (by decide)).trans <|
    (W3_keep m c main_v3 (by decide)).trans <|
    (W2_of_ne m c main_v3 (by decide))

theorem W3_v4_keep (c : Dev nD) : W3 m c (Proc.devRef .tc main_v4) = W2 m c (Proc.devRef .tc main_v4) :=
  (W3_keep m c main_v4 (by decide))

theorem W4_v5_keep (c : Dev nD) : W4 m c (Proc.devRef .tc main_v5) = W3 m c (Proc.devRef .tc main_v5) :=
  (W4_keep m c main_v5 (by decide))

theorem W7_v11_keep (c : Dev nD) : W7 m c (Proc.devRef .tc main_v11) = W5 m c (Proc.devRef .tc main_v11) :=
  (W7_keep m c main_v11 (by decide)).trans <|
    ((W6_arr m c 0).trans (((dat1 (V5 m) c).arrAt_in 0 rfl _).trans (A_eq1 (V5 m) c 0)))

theorem W10_v1_keep (c : Dev nD) : W10 m c (Proc.devRef .tc main_v1) = W1 m c (Proc.devRef .tc main_v1) :=
  (W10_keep m c main_v1 (by decide)).trans <|
    (W9_of_ne m c main_v1 (by decide)).trans <|
    (W8_of_ne m c main_v1 (by decide)).trans <|
    (W7_keep m c main_v1 (by decide)).trans <|
    (W6_of_ne m c main_v1 (by decide)).trans <|
    (W5_keep m c main_v1 (by decide)).trans <|
    (W4_keep m c main_v1 (by decide)).trans <|
    (W3_keep m c main_v1 (by decide)).trans <|
    (W2_of_ne m c main_v1 (by decide))

theorem W11_v3_keep (c : Dev nD) : W11 m c (Proc.devRef .tc main_v3) = W1 m c (Proc.devRef .tc main_v3) :=
  (W11_keep m c main_v3 (by decide)).trans <|
    (W10_keep m c main_v3 (by decide)).trans <|
    (W9_of_ne m c main_v3 (by decide)).trans <|
    (W8_of_ne m c main_v3 (by decide)).trans <|
    (W7_keep m c main_v3 (by decide)).trans <|
    (W6_of_ne m c main_v3 (by decide)).trans <|
    (W5_keep m c main_v3 (by decide)).trans <|
    (W4_keep m c main_v3 (by decide)).trans <|
    (W3_keep m c main_v3 (by decide)).trans <|
    (W2_of_ne m c main_v3 (by decide))

theorem W10_v28_keep (c : Dev nD) : W10 m c (Proc.devRef .tc main_v28) = W9 m c (Proc.devRef .tc main_v28) :=
  (W10_keep m c main_v28 (by decide))

theorem W11_v29_keep (c : Dev nD) : W11 m c (Proc.devRef .tc main_v29) = W10 m c (Proc.devRef .tc main_v29) :=
  (W11_keep m c main_v29 (by decide))

theorem W14_v35_keep (c : Dev nD) : W14 m c (Proc.devRef .tc main_v35) = W12 m c (Proc.devRef .tc main_v35) :=
  (W14_keep m c main_v35 (by decide)).trans <|
    ((W13_arr m c 0).trans (((dat4 (V12 m) c).arrAt_in 0 rfl _).trans (A_eq4 (V12 m) c 0)))

/-! ## The edge table's two rows -/

theorem W1_v1 (c : Dev nD) : W1 m c (Proc.devRef .tc main_v1) = srcK (m ((c : Thread nD τ).loc main_arg1)) := by
  unfold W1; dsimp only [hostOps0]; after_results <;> rfl
theorem W1_v3 (c : Dev nD) : W1 m c (Proc.devRef .tc main_v3) = dstK (m ((c : Thread nD τ).loc main_arg1)) := by
  unfold W1; dsimp only [hostOps0]; after_results <;> rfl

/-! ## Layer 1 -/

set_option maxHeartbeats 2000000 in
theorem W2_v4 (c : Dev nD) : W2 m c (Proc.devRef .tc main_v4) = Cert.Spec.mm256 (m ((c : Thread nD τ).loc main_arg0)) (m ((c : Thread nD τ).loc main_arg3)) := by
  have h1 : W2 m c (Proc.devRef .tc main_v4) = (dat0 (V1 m) c).arrAt 2 cfg0.N := W2_arr m c 2
  have h2 := out0_closed (V1 m) c
  have e0 : V1 m c main_arg0 = _ := W1_arg0 m c
  have e1 : V1 m c main_arg3 = _ := W1_arg3 m c
  exact h1.trans (h2.trans (by rw [e0, e1] <;> rfl))
theorem W3_v5 (c : Dev nD) : W3 m c (Proc.devRef .tc main_v5) = broadcastInDim S1600000x1 ![0] bcast_S1600000_S1600000x1_0 (m ((c : Thread nD τ).loc main_arg2)) := by
  have h : W3 m c (Proc.devRef .tc main_v5) = broadcastInDim S1600000x1 ![0] bcast_S1600000_S1600000x1_0 (W2 m c (Proc.devRef .tc main_arg2) : FVec Ideal S1600000 .f32) := by
    unfold W3; dsimp only [hostOps1]; after_results <;> rfl
  rw [h, W2_arg2]
theorem W4_v6 (c : Dev nD) : W4 m c (Proc.devRef .tc main_v6) = takeK (Cert.Spec.mm256 (m ((c : Thread nD τ).loc main_arg0)) (m ((c : Thread nD τ).loc main_arg3))) (srcK (m ((c : Thread nD τ).loc main_arg1))) := by
  rw [take1 m c, W3_v4_keep, W2_v4, W3_v1_keep, W1_v1]
theorem W5_v11 (c : Dev nD) : W5 m c (Proc.devRef .tc main_v11) = chainK (Cert.Spec.mm256 (m ((c : Thread nD τ).loc main_arg0)) (m ((c : Thread nD τ).loc main_arg3))) (m ((c : Thread nD τ).loc main_arg1)) (m ((c : Thread nD τ).loc main_arg2)) := by
  have h : W5 m c (Proc.devRef .tc main_v11)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W4 m c (Proc.devRef .tc main_v3) : IVec S1600000 32))
          (mulf (broadcastInDim S1600000x128 ![0, 1] bcast_S1600000x1_S1600000x128_0_1 (W4 m c (Proc.devRef .tc main_v5) : FVec Ideal S1600000x1 .f32))
            (W4 m c (Proc.devRef .tc main_v6) : FVec Ideal S1600000x128 .f32)) := by
    unfold W5; dsimp only [hostOps1_2]; after_results <;> rfl
  rw [h, W4_v3_keep, W1_v3, W4_v5_keep, W3_v5, W4_v6]
  rfl
theorem W5_v12 (c : Dev nD) : W5 m c (Proc.devRef .tc main_v12) = rowOf (m ((c : Thread nD τ).loc main_arg4)) := by
  have h : W5 m c (Proc.devRef .tc main_v12) = rowOf (W4 m c (Proc.devRef .tc main_arg4)) := by
    unfold W5; dsimp only [hostOps1_2]; after_results <;> rfl
  rw [h, W4_arg4]
set_option maxHeartbeats 2000000 in
theorem W6_v13_0 (c : Dev nD) : W6 m c (Proc.devRef .tc main_v13_0) = Cert.Spec.colSum (chainK (Cert.Spec.mm256 (m ((c : Thread nD τ).loc main_arg0)) (m ((c : Thread nD τ).loc main_arg3))) (m ((c : Thread nD τ).loc main_arg1)) (m ((c : Thread nD τ).loc main_arg2))) (rowOf (m ((c : Thread nD τ).loc main_arg4))) := by
  have h1 : W6 m c (Proc.devRef .tc main_v13_0) = (dat1 (V5 m) c).arrAt 2 cfg1.N := W6_arr m c 2
  have h2 := sum1_closed (V5 m) c
  have e0 : V5 m c main_v11 = _ := W5_v11 m c
  have e1 : V5 m c main_v12 = _ := W5_v12 m c
  exact h1.trans (h2.trans (by rw [e0, e1] <;> rfl))
set_option maxHeartbeats 2000000 in
theorem W6_v13_1 (c : Dev nD) : W6 m c (Proc.devRef .tc main_v13_1) = Cert.Spec.colSq (chainK (Cert.Spec.mm256 (m ((c : Thread nD τ).loc main_arg0)) (m ((c : Thread nD τ).loc main_arg3))) (m ((c : Thread nD τ).loc main_arg1)) (m ((c : Thread nD τ).loc main_arg2))) (rowOf (m ((c : Thread nD τ).loc main_arg4))) := by
  have h1 : W6 m c (Proc.devRef .tc main_v13_1) = (dat1 (V5 m) c).arrAt 3 cfg1.N := W6_arr m c 3
  have h2 := sq1_closed (V5 m) c
  have e0 : V5 m c main_v11 = _ := W5_v11 m c
  have e1 : V5 m c main_v12 = _ := W5_v12 m c
  exact h1.trans (h2.trans (by rw [e0, e1] <;> rfl))
theorem W7_v22 (c : Dev nD) : W7 m c (Proc.devRef .tc main_v22) = rowOf (m ((c : Thread nD τ).loc main_arg4)) := by
  have h : W7 m c (Proc.devRef .tc main_v22) = rowOf (W6 m c (Proc.devRef .tc main_arg4)) := by
    unfold W7; dsimp only [hostOps2]; after_results <;> rfl
  rw [h, W6_arg4]
theorem W7_v25 (c : Dev nD) : W7 m c (Proc.devRef .tc main_v25) = rowOf (m ((c : Thread nD τ).loc main_arg5)) := by
  have h : W7 m c (Proc.devRef .tc main_v25) = rowOf (W6 m c (Proc.devRef .tc main_arg5)) := by
    unfold W7; dsimp only [hostOps2]; after_results <;> rfl
  rw [h, W6_arg5]
theorem W7_v26 (c : Dev nD) : W7 m c (Proc.devRef .tc main_v26) = rowOf (m ((c : Thread nD τ).loc main_arg6)) := by
  have h : W7 m c (Proc.devRef .tc main_v26) = rowOf (W6 m c (Proc.devRef .tc main_arg6)) := by
    unfold W7; dsimp only [hostOps2]; after_results <;> rfl
  rw [h, W6_arg6]
theorem W7_v23 (c : Dev nD) : W7 m c (Proc.devRef .tc main_v23) = rowOf (meanK (Cert.Spec.colSum (chainK (Cert.Spec.mm256 (m ((c : Thread nD τ).loc main_arg0)) (m ((c : Thread nD τ).loc main_arg3))) (m ((c : Thread nD τ).loc main_arg1)) (m ((c : Thread nD τ).loc main_arg2))) (rowOf (m ((c : Thread nD τ).loc main_arg4))))) := by
  have h : W7 m c (Proc.devRef .tc main_v23) = rowOf (meanK (W6 m c (Proc.devRef .tc main_v13_0))) := by
    unfold W7; dsimp only [hostOps2]; after_results <;> rfl
  rw [h, W6_v13_0]
theorem W7_v24 (c : Dev nD) : W7 m c (Proc.devRef .tc main_v24) = rowOf (varK (Cert.Spec.colSum (chainK (Cert.Spec.mm256 (m ((c : Thread nD τ).loc main_arg0)) (m ((c : Thread nD τ).loc main_arg3))) (m ((c : Thread nD τ).loc main_arg1)) (m ((c : Thread nD τ).loc main_arg2))) (rowOf (m ((c : Thread nD τ).loc main_arg4)))) (Cert.Spec.colSq (chainK (Cert.Spec.mm256 (m ((c : Thread nD τ).loc main_arg0)) (m ((c : Thread nD τ).loc main_arg3))) (m ((c : Thread nD τ).loc main_arg1)) (m ((c : Thread nD τ).loc main_arg2))) (rowOf (m ((c : Thread nD τ).loc main_arg4))))) := by
  have h : W7 m c (Proc.devRef .tc main_v24) = rowOf (varK (W6 m c (Proc.devRef .tc main_v13_0)) (W6 m c (Proc.devRef .tc main_v13_1))) := by
    unfold W7; dsimp only [hostOps2]; after_results <;> rfl
  rw [h, W6_v13_0, W6_v13_1]
set_option maxHeartbeats 2000000 in
theorem W8_v27 (c : Dev nD) : W8 m c (Proc.devRef .tc main_v27) = layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6)) := by
  have h1 : W8 m c (Proc.devRef .tc main_v27) = (dat2 (V7 m) c).arrAt 6 cfg2.N := W8_arr m c 6
  have h2 := out2_closed (V7 m) c
  have e0 : V7 m c main_v11 = _ := (W7_v11_keep m c).trans (W5_v11 m c)
  have e1 : V7 m c main_v22 = _ := W7_v22 m c
  have e2 : V7 m c main_v23 = _ := W7_v23 m c
  have e3 : V7 m c main_v24 = _ := W7_v24 m c
  have e4 : V7 m c main_v25 = _ := W7_v25 m c
  have e5 : V7 m c main_v26 = _ := W7_v26 m c
  exact h1.trans (h2.trans (by rw [e0, e1, e2, e3, e4, e5] <;> rfl))

/-! ## Layer 2 -/

set_option maxHeartbeats 2000000 in
theorem W9_v28 (c : Dev nD) : W9 m c (Proc.devRef .tc main_v28) = Cert.Spec.mm128 (layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6))) (m ((c : Thread nD τ).loc main_arg7)) := by
  have h1 : W9 m c (Proc.devRef .tc main_v28) = (dat3 (V8 m) c).arrAt 2 cfg3.N := W9_arr m c 2
  have h2 := out3_closed (V8 m) c
  have e0 : V8 m c main_v27 = _ := W8_v27 m c
  have e1 : V8 m c main_arg7 = _ := W8_arg7 m c
  exact h1.trans (h2.trans (by rw [e0, e1] <;> rfl))
theorem W10_v29 (c : Dev nD) : W10 m c (Proc.devRef .tc main_v29) = broadcastInDim S1600000x1 ![0] bcast_S1600000_S1600000x1_0 (m ((c : Thread nD τ).loc main_arg2)) := by
  have h : W10 m c (Proc.devRef .tc main_v29) = broadcastInDim S1600000x1 ![0] bcast_S1600000_S1600000x1_0 (W9 m c (Proc.devRef .tc main_arg2) : FVec Ideal S1600000 .f32) := by
    unfold W10; dsimp only [hostOps4]; after_results <;> rfl
  rw [h, W9_arg2]
theorem W11_v30 (c : Dev nD) : W11 m c (Proc.devRef .tc main_v30) = takeK (Cert.Spec.mm128 (layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6))) (m ((c : Thread nD τ).loc main_arg7))) (srcK (m ((c : Thread nD τ).loc main_arg1))) := by
  rw [take2 m c, W10_v28_keep, W9_v28, W10_v1_keep, W1_v1]
theorem W12_v35 (c : Dev nD) : W12 m c (Proc.devRef .tc main_v35) = chainK (Cert.Spec.mm128 (layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6))) (m ((c : Thread nD τ).loc main_arg7))) (m ((c : Thread nD τ).loc main_arg1)) (m ((c : Thread nD τ).loc main_arg2)) := by
  have h : W12 m c (Proc.devRef .tc main_v35)
      = Host.scatterAdd scatter_S100000x128_S1600000x1_S1600000x128_1_0_0_1
          (broadcastInDim S100000x128 ![] bcast_S_S100000x128 (constant (F := Ideal) S_ .f32 0x00000000#32))
          (broadcastInDim S1600000x1 ![0] bcast_S1600000_S1600000x1_0 (W11 m c (Proc.devRef .tc main_v3) : IVec S1600000 32))
          (mulf (broadcastInDim S1600000x128 ![0, 1] bcast_S1600000x1_S1600000x128_0_1 (W11 m c (Proc.devRef .tc main_v29) : FVec Ideal S1600000x1 .f32))
            (W11 m c (Proc.devRef .tc main_v30) : FVec Ideal S1600000x128 .f32)) := by
    unfold W12; dsimp only [hostOps4_2]; after_results <;> rfl
  rw [h, W11_v3_keep, W1_v3, W11_v29_keep, W10_v29, W11_v30]
  rfl
theorem W12_v36 (c : Dev nD) : W12 m c (Proc.devRef .tc main_v36) = rowOf (m ((c : Thread nD τ).loc main_arg8)) := by
  have h : W12 m c (Proc.devRef .tc main_v36) = rowOf (W11 m c (Proc.devRef .tc main_arg8)) := by
    unfold W12; dsimp only [hostOps4_2]; after_results <;> rfl
  rw [h, W11_arg8]
set_option maxHeartbeats 2000000 in
theorem W13_v37_0 (c : Dev nD) : W13 m c (Proc.devRef .tc main_v37_0) = Cert.Spec.colSum (chainK (Cert.Spec.mm128 (layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6))) (m ((c : Thread nD τ).loc main_arg7))) (m ((c : Thread nD τ).loc main_arg1)) (m ((c : Thread nD τ).loc main_arg2))) (rowOf (m ((c : Thread nD τ).loc main_arg8))) := by
  have h1 : W13 m c (Proc.devRef .tc main_v37_0) = (dat4 (V12 m) c).arrAt 2 cfg4.N := W13_arr m c 2
  have h2 := sum4_closed (V12 m) c
  have e0 : V12 m c main_v35 = _ := W12_v35 m c
  have e1 : V12 m c main_v36 = _ := W12_v36 m c
  exact h1.trans (h2.trans (by rw [e0, e1] <;> rfl))
set_option maxHeartbeats 2000000 in
theorem W13_v37_1 (c : Dev nD) : W13 m c (Proc.devRef .tc main_v37_1) = Cert.Spec.colSq (chainK (Cert.Spec.mm128 (layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6))) (m ((c : Thread nD τ).loc main_arg7))) (m ((c : Thread nD τ).loc main_arg1)) (m ((c : Thread nD τ).loc main_arg2))) (rowOf (m ((c : Thread nD τ).loc main_arg8))) := by
  have h1 : W13 m c (Proc.devRef .tc main_v37_1) = (dat4 (V12 m) c).arrAt 3 cfg4.N := W13_arr m c 3
  have h2 := sq4_closed (V12 m) c
  have e0 : V12 m c main_v35 = _ := W12_v35 m c
  have e1 : V12 m c main_v36 = _ := W12_v36 m c
  exact h1.trans (h2.trans (by rw [e0, e1] <;> rfl))
theorem W14_v46 (c : Dev nD) : W14 m c (Proc.devRef .tc main_v46) = rowOf (m ((c : Thread nD τ).loc main_arg8)) := by
  have h : W14 m c (Proc.devRef .tc main_v46) = rowOf (W13 m c (Proc.devRef .tc main_arg8)) := by
    unfold W14; dsimp only [hostOps5]; after_results <;> rfl
  rw [h, W13_arg8]
theorem W14_v49 (c : Dev nD) : W14 m c (Proc.devRef .tc main_v49) = rowOf (m ((c : Thread nD τ).loc main_arg9)) := by
  have h : W14 m c (Proc.devRef .tc main_v49) = rowOf (W13 m c (Proc.devRef .tc main_arg9)) := by
    unfold W14; dsimp only [hostOps5]; after_results <;> rfl
  rw [h, W13_arg9]
theorem W14_v50 (c : Dev nD) : W14 m c (Proc.devRef .tc main_v50) = rowOf (m ((c : Thread nD τ).loc main_arg10)) := by
  have h : W14 m c (Proc.devRef .tc main_v50) = rowOf (W13 m c (Proc.devRef .tc main_arg10)) := by
    unfold W14; dsimp only [hostOps5]; after_results <;> rfl
  rw [h, W13_arg10]
theorem W14_v47 (c : Dev nD) : W14 m c (Proc.devRef .tc main_v47) = rowOf (meanK (Cert.Spec.colSum (chainK (Cert.Spec.mm128 (layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6))) (m ((c : Thread nD τ).loc main_arg7))) (m ((c : Thread nD τ).loc main_arg1)) (m ((c : Thread nD τ).loc main_arg2))) (rowOf (m ((c : Thread nD τ).loc main_arg8))))) := by
  have h : W14 m c (Proc.devRef .tc main_v47) = rowOf (meanK (W13 m c (Proc.devRef .tc main_v37_0))) := by
    unfold W14; dsimp only [hostOps5]; after_results <;> rfl
  rw [h, W13_v37_0]
theorem W14_v48 (c : Dev nD) : W14 m c (Proc.devRef .tc main_v48) = rowOf (varK (Cert.Spec.colSum (chainK (Cert.Spec.mm128 (layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6))) (m ((c : Thread nD τ).loc main_arg7))) (m ((c : Thread nD τ).loc main_arg1)) (m ((c : Thread nD τ).loc main_arg2))) (rowOf (m ((c : Thread nD τ).loc main_arg8)))) (Cert.Spec.colSq (chainK (Cert.Spec.mm128 (layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6))) (m ((c : Thread nD τ).loc main_arg7))) (m ((c : Thread nD τ).loc main_arg1)) (m ((c : Thread nD τ).loc main_arg2))) (rowOf (m ((c : Thread nD τ).loc main_arg8))))) := by
  have h : W14 m c (Proc.devRef .tc main_v48) = rowOf (varK (W13 m c (Proc.devRef .tc main_v37_0)) (W13 m c (Proc.devRef .tc main_v37_1))) := by
    unfold W14; dsimp only [hostOps5]; after_results <;> rfl
  rw [h, W13_v37_0, W13_v37_1]
set_option maxHeartbeats 2000000 in
theorem W15_v51 (c : Dev nD) : W15 m c (Proc.devRef .tc main_v51) = layerK (chainK (Cert.Spec.mm128 (layerK (chainK (Cert.Spec.mm256 (m ((c : Thread nD τ).loc main_arg0)) (m ((c : Thread nD τ).loc main_arg3))) (m ((c : Thread nD τ).loc main_arg1)) (m ((c : Thread nD τ).loc main_arg2))) (m ((c : Thread nD τ).loc main_arg4)) (m ((c : Thread nD τ).loc main_arg5)) (m ((c : Thread nD τ).loc main_arg6))) (m ((c : Thread nD τ).loc main_arg7))) (m ((c : Thread nD τ).loc main_arg1)) (m ((c : Thread nD τ).loc main_arg2))) (m ((c : Thread nD τ).loc main_arg8)) (m ((c : Thread nD τ).loc main_arg9)) (m ((c : Thread nD τ).loc main_arg10)) := by
  have h1 : W15 m c (Proc.devRef .tc main_v51) = (dat5 (V14 m) c).arrAt 6 cfg5.N := W15_arr m c 6
  have h2 := out5_closed (V14 m) c
  have e0 : V14 m c main_v35 = _ := (W14_v35_keep m c).trans (W12_v35 m c)
  have e1 : V14 m c main_v46 = _ := W14_v46 m c
  have e2 : V14 m c main_v47 = _ := W14_v47 m c
  have e3 : V14 m c main_v48 = _ := W14_v48 m c
  have e4 : V14 m c main_v49 = _ := W14_v49 m c
  have e5 : V14 m c main_v50 = _ := W14_v50 m c
  exact h1.trans (h2.trans (by rw [e0, e1, e2, e3, e4, e5] <;> rfl))

/-! ## The result -/

/-- The result buffer ends at `kval` of the arguments. -/
theorem W15_v51' (c : Dev nD) : W15 m c (Proc.devRef .tc main_v51)
    = kval (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := W15_v51 m c

end Cert.KernelIdeal.Hand

end
-- ==== Proof.Reference.Ops.lean ====
/-
  The reference program as a list of operations. Its four calls of local functions (rows taken at given indices,
  twice; the clamp at zero, twice) are read with the called function's operations in the caller's line, over the
  buffers that call owns, so the whole program is one line of 138 operations: running it is running the list.
-/
import proofs.«163396_j33732673143025_1_alg».proof.ReferenceIdeal
import proofs.«163396_j33732673143025_1_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-- The reference's 138 operations in order: @main's own 86, and at each of its four calls the called function's
    operations over that call's buffers (23 for each taking of rows, the index selection of its inner call among
    them; 3 for each clamp at zero). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg2 main_v5 (broadcastInDim S1600000x1 ![0] bcast_S1600000_S1600000x1_0 : (⟨S1600000, .f32⟩ : BufTy).Contents (Elt F) → (⟨S1600000x1, .f32⟩ : BufTy).Contents (Elt F)),
    TRef.nullary main_call0.c (constantI S_ 32 0#32),
    TRef.unary main_call0.c main_call0.v0 (broadcastInDim S1600000 ![] bcast_S_S1600000),
    TRef.binary (.of main_v1) main_call0.v0 main_call0.v1 (cmpi .slt),
    TRef.nullary main_call0.c_0 (constantI S_ 32 100000#32),
    TRef.unary main_call0.c_0 main_call0.v2 (broadcastInDim S1600000 ![] bcast_S_S1600000),
    TRef.binary (.of main_v1) main_call0.v2 main_call0.v3 addi,
    TRef.ternary main_call0.v1 main_call0.v3 (.of main_v1) main_call0.call0.v0 select,
    TRef.unary main_call0.call0.v0 main_call0.v5 (broadcastInDim S1600000x1 ![0] bcast_S1600000_S1600000x1_0),
    TRef.nullary main_call0.c_1 (constantI S1 32 99999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_v4) main_call0.v5 main_call0.v13 (fun x i => Host.gather gather_S100000x128_S1600000x1_S1600000x128_1_0_n_n_0_1_1128 x i),
    TRef.unary main_call0.v12 main_call0.v14 (broadcastInDim S1600000x128 ![0] bcast_S1600000_S1600000x128_0),
    TRef.nullary main_call0.cst (constant S_ .f32 0x7FC00000#32),
    TRef.unary main_call0.cst main_call0.v15 (broadcastInDim S1600000x128 ![] bcast_S_S1600000x128),
    TRef.ternary main_call0.v14 main_call0.v13 main_call0.v15 main_call0.v16 select,
    unary main_v5 main_v7 (broadcastInDim S1600000x128 ![0, 1] bcast_S1600000x1_S1600000x128_0_1 : (⟨S1600000x1, .f32⟩ : BufTy).Contents (Elt F) → (⟨S1600000x128, .f32⟩ : BufTy).Contents (Elt F)),
    binary main_v7 main_v6 main_v8 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v9 (broadcastInDim S100000x128 ![] bcast_S_S100000x128 : (⟨S_, .f32⟩ : BufTy).Contents (Elt F) → (⟨S100000x128, .f32⟩ : BufTy).Contents (Elt F)),
    unary main_v3 main_v10 (broadcastInDim S1600000x1 ![0] bcast_S1600000_S1600000x1_0 : (⟨S1600000, .i32⟩ : BufTy).Contents (Elt F) → (⟨S1600000x1, .i32⟩ : BufTy).Contents (Elt F)),
    ternary main_v9 main_v10 main_v8 main_v11 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S100000x128 ![0, 1] bcast_S1x128_S100000x128_0_1 : (⟨S1x128, .f32⟩ : BufTy).Contents (Elt F) → (⟨S100000x128, .f32⟩ : BufTy).Contents (Elt F)),
    binary main_v11 main_v13 main_v14 (addf : (⟨S100000x128, .f32⟩ : BufTy).Contents (Elt F) → (⟨S100000x128, .f32⟩ : BufTy).Contents (Elt F) → (⟨S100000x128, .f32⟩ : BufTy).Contents (Elt F)),
    nullary main_cst_0 (constant S_ .f32 0x00000000#32),
    binary main_v14 main_cst_0 main_v15 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_1 (constant S_ .f32 0x47C35000#32),
    unary main_cst_1 main_v16 (broadcastInDim S128 ![] bcast_S_S128 : (⟨S_, .f32⟩ : BufTy).Contents (Elt F) → (⟨S128, .f32⟩ : BufTy).Contents (Elt F)),
    binary main_v15 main_v16 main_v17 (Host.divf : (⟨S128, .f32⟩ : BufTy).Contents (Elt F) → (⟨S128, .f32⟩ : BufTy).Contents (Elt F) → (⟨S128, .f32⟩ : BufTy).Contents (Elt F)),
    unary main_v17 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v14 main_v19 main_v20 (subf : (⟨S100000x128, .f32⟩ : BufTy).Contents (Elt F) → (⟨S100000x128, .f32⟩ : BufTy).Contents (Elt F) → (⟨S100000x128, .f32⟩ : BufTy).Contents (Elt F)),
    binary main_v20 main_v20 main_v21 (mulf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x00000000#32),
    binary main_v21 main_cst_2 main_v22 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_3 (constant S_ .f32 0x47C35000#32),
    unary main_cst_3 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    unary main_v17 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v14 main_v26 main_v27 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v28 (broadcastInDim S128 ![] bcast_S_S128 : (⟨S_, .f32⟩ : BufTy).Contents (Elt F) → (⟨S128, .f32⟩ : BufTy).Contents (Elt F)),
    binary main_v24 main_v28 main_v29 (addf : (⟨S128, .f32⟩ : BufTy).Contents (Elt F) → (⟨S128, .f32⟩ : BufTy).Contents (Elt F) → (⟨S128, .f32⟩ : BufTy).Contents (Elt F)),
    unary main_v29 main_v30 (Host.rsqrt : (⟨S128, .f32⟩ : BufTy).Contents (Elt F) → (⟨S128, .f32⟩ : BufTy).Contents (Elt F)),
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v27 main_v32 main_v33 (mulf : (⟨S100000x128, .f32⟩ : BufTy).Contents (Elt F) → (⟨S100000x128, .f32⟩ : BufTy).Contents (Elt F) → (⟨S100000x128, .f32⟩ : BufTy).Contents (Elt F)),
    unary main_arg5 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (mulf : (⟨S100000x128, .f32⟩ : BufTy).Contents (Elt F) → (⟨S100000x128, .f32⟩ : BufTy).Contents (Elt F) → (⟨S100000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v39) main_call1.v0 main_call1.v1 maximumf,
    binary main_v40 main_arg7 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v42 (broadcastInDim S1600000x1 ![0] bcast_S1600000_S1600000x1_0 : (⟨S1600000, .f32⟩ : BufTy).Contents (Elt F) → (⟨S1600000x1, .f32⟩ : BufTy).Contents (Elt F)),
    TRef.nullary main_call2.c (constantI S_ 32 0#32),
    TRef.unary main_call2.c main_call2.v0 (broadcastInDim S1600000 ![] bcast_S_S1600000),
    TRef.binary (.of main_v1) main_call2.v0 main_call2.v1 (cmpi .slt),
    TRef.nullary main_call2.c_0 (constantI S_ 32 100000#32),
    TRef.unary main_call2.c_0 main_call2.v2 (broadcastInDim S1600000 ![] bcast_S_S1600000),
    TRef.binary (.of main_v1) main_call2.v2 main_call2.v3 addi,
    TRef.ternary main_call2.v1 main_call2.v3 (.of main_v1) main_call2.call0.v0 select,
    TRef.unary main_call2.call0.v0 main_call2.v5 (broadcastInDim S1600000x1 ![0] bcast_S1600000_S1600000x1_0),
    TRef.nullary main_call2.c_1 (constantI S1 32 99999#32),
    TRef.nullary main_call2.c_2 (constantI S_ 32 0#32),
    TRef.unary main_call2.c_2 main_call2.v6 (broadcastInDim S1600000x1 ![] bcast_S_S1600000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S1600000x1 ![0, 1] bcast_S1x1_S1600000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1600000x1_S1600000_d1 h_S_),
    TRef.binary (.of main_v41) main_call2.v5 main_call2.v13 (fun x i => Host.gather gather_S100000x128_S1600000x1_S1600000x128_1_0_n_n_0_1_1128 x i),
    TRef.unary main_call2.v12 main_call2.v14 (broadcastInDim S1600000x128 ![0] bcast_S1600000_S1600000x128_0),
    TRef.nullary main_call2.cst (constant S_ .f32 0x7FC00000#32),
    TRef.unary main_call2.cst main_call2.v15 (broadcastInDim S1600000x128 ![] bcast_S_S1600000x128),
    TRef.ternary main_call2.v14 main_call2.v13 main_call2.v15 main_call2.v16 select,
    unary main_v42 main_v44 (broadcastInDim S1600000x128 ![0, 1] bcast_S1600000x1_S1600000x128_0_1 : (⟨S1600000x1, .f32⟩ : BufTy).Contents (Elt F) → (⟨S1600000x128, .f32⟩ : BufTy).Contents (Elt F)),
    binary main_v44 main_v43 main_v45 (mulf : (⟨S1600000x128, .f32⟩ : BufTy).Contents (Elt F) → (⟨S1600000x128, .f32⟩ : BufTy).Contents (Elt F) → (⟨S1600000x128, .f32⟩ : BufTy).Contents (Elt F)),
    nullary main_cst_5 (constant S_ .f32 0x00000000#32),
    unary main_cst_5 main_v46 (broadcastInDim S100000x128 ![] bcast_S_S100000x128 : (⟨S_, .f32⟩ : BufTy).Contents (Elt F) → (⟨S100000x128, .f32⟩ : BufTy).Contents (Elt F)),
    unary main_v3 main_v47 (broadcastInDim S1600000x1 ![0] bcast_S1600000_S1600000x1_0 : (⟨S1600000, .i32⟩ : BufTy).Contents (Elt F) → (⟨S1600000x1, .i32⟩ : BufTy).Contents (Elt F)),
    ternary main_v46 main_v47 main_v45 main_v48 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg8 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v51 main_cst_6 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v53 (broadcastInDim S128 ![] bcast_S_S128 : (⟨S_, .f32⟩ : BufTy).Contents (Elt F) → (⟨S128, .f32⟩ : BufTy).Contents (Elt F)),
    binary main_v52 main_v53 main_v54 (Host.divf : (⟨S128, .f32⟩ : BufTy).Contents (Elt F) → (⟨S128, .f32⟩ : BufTy).Contents (Elt F) → (⟨S128, .f32⟩ : BufTy).Contents (Elt F)),
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v51 main_v56 main_v57 (subf : (⟨S100000x128, .f32⟩ : BufTy).Contents (Elt F) → (⟨S100000x128, .f32⟩ : BufTy).Contents (Elt F) → (⟨S100000x128, .f32⟩ : BufTy).Contents (Elt F)),
    binary main_v57 main_v57 main_v58 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v58 main_cst_8 main_v59 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v60 (broadcastInDim S128 ![] bcast_S_S128 : (⟨S_, .f32⟩ : BufTy).Contents (Elt F) → (⟨S128, .f32⟩ : BufTy).Contents (Elt F)),
    binary main_v59 main_v60 main_v61 (Host.divf : (⟨S128, .f32⟩ : BufTy).Contents (Elt F) → (⟨S128, .f32⟩ : BufTy).Contents (Elt F) → (⟨S128, .f32⟩ : BufTy).Contents (Elt F)),
    unary main_v54 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v51 main_v63 main_v64 (subf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v65 (broadcastInDim S128 ![] bcast_S_S128 : (⟨S_, .f32⟩ : BufTy).Contents (Elt F) → (⟨S128, .f32⟩ : BufTy).Contents (Elt F)),
    binary main_v61 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (mulf : (⟨S100000x128, .f32⟩ : BufTy).Contents (Elt F) → (⟨S100000x128, .f32⟩ : BufTy).Contents (Elt F) → (⟨S100000x128, .f32⟩ : BufTy).Contents (Elt F)),
    unary main_arg9 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (mulf : (⟨S100000x128, .f32⟩ : BufTy).Contents (Elt F) → (⟨S100000x128, .f32⟩ : BufTy).Contents (Elt F) → (⟨S100000x128, .f32⟩ : BufTy).Contents (Elt F)),
    unary main_arg10 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v76) main_call3.v0 main_call3.v1 maximumf ]

set_option maxRecDepth 4096 in
/-- @main is the list run in order: its two windows and the called functions opened at their calls, both sides are
    one chain of single-operation steps once the sequencing is re-associated. -/
theorem main_eq (c : Dev nD) : main (F := F) c = seq ops := by
  simp only [main, main_part0, main_part1, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., nullary_bufs_sub .., binary_bufs_sub .., nullary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., binary_bufs_sub .., nullary_bufs_sub ..,
    unary_bufs_sub .., binary_bufs_sub .., unary_bufs_sub .., unary_bufs_sub .., binary_bufs_sub .., binary_bufs_sub ..,
    nullary_bufs_sub .., binary_bufs_sub .., nullary_bufs_sub .., unary_bufs_sub .., binary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..⟩

end Cert.ReferenceIdeal.Hand

end
-- ==== Proof.Reference.Segs.lean ====
/-
  The reference's line of 138 operations cut into five stretches:

    A  the two rows of the edge table as vectors, the first matrix product, the edge weights as a column;
    B  the first message-passing step (rows taken at the source nodes, scaled, summed at the destination nodes);
    C  the bias added, the first batch normalisation and clamp at zero;
    D  the second matrix product, the weights as a column again, the second message-passing step;
    E  the bias added, the second batch normalisation and clamp at zero.
-/
import proofs.«163396_j33732673143025_1_alg».proof.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ## The stretches -/

/-- Operations 1 … 6: the index vectors, the first product, the weights as a column. -/
def segA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg3 main_v4 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg2 main_v5 (broadcastInDim S1600000x1 ![0] bcast_S1600000_S1600000x1_0 : (⟨S1600000, .f32⟩ : BufTy).Contents (Elt F) → (⟨S1600000x1, .f32⟩ : BufTy).Contents (Elt F)) ]

/-- Operations 7 … 35: the first taking of rows (23 operations over its call's buffers), the scaling, the zeros, the destination column, the scatter-add. -/
def segB : List (HloOp τ sig (Elt F)) :=
  [ TRef.nullary main_call0.c (constantI S_ 32 0#32),
    TRef.unary main_call0.c main_call0.v0 (broadcastInDim S1600000 ![] bcast_S_S1600000),
    TRef.binary (.of main_v1) main_call0.v0 main_call0.v1 (cmpi .slt),
    TRef.nullary main_call0.c_0 (constantI S_ 32 100000#32),
    TRef.unary main_call0.c_0 main_call0.v2 (broadcastInDim S1600000 ![] bcast_S_S1600000),
    TRef.binary (.of main_v1) main_call0.v2 main_call0.v3 addi,
    TRef.ternary main_call0.v1 main_call0.v3 (.of main_v1) main_call0.call0.v0 select,
    TRef.unary main_call0.call0.v0 main_call0.v5 (broadcastInDim S1600000x1 ![0] bcast_S1600000_S1600000x1_0),
    TRef.nullary main_call0.c_1 (constantI S1 32 99999#32),
    TRef.nullary main_call0.c_2 (constantI S_ 32 0#32),
    TRef.unary main_call0.c_2 main_call0.v6 (broadcastInDim S1600000x1 ![] bcast_S_S1600000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S1600000x1 ![0, 1] bcast_S1x1_S1600000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1600000x1_S1600000_d1 h_S_),
    TRef.binary (.of main_v4) main_call0.v5 main_call0.v13 (fun x i => Host.gather gather_S100000x128_S1600000x1_S1600000x128_1_0_n_n_0_1_1128 x i),
    TRef.unary main_call0.v12 main_call0.v14 (broadcastInDim S1600000x128 ![0] bcast_S1600000_S1600000x128_0),
    TRef.nullary main_call0.cst (constant S_ .f32 0x7FC00000#32),
    TRef.unary main_call0.cst main_call0.v15 (broadcastInDim S1600000x128 ![] bcast_S_S1600000x128),
    TRef.ternary main_call0.v14 main_call0.v13 main_call0.v15 main_call0.v16 select,
    unary main_v5 main_v7 (broadcastInDim S1600000x128 ![0, 1] bcast_S1600000x1_S1600000x128_0_1 : (⟨S1600000x1, .f32⟩ : BufTy).Contents (Elt F) → (⟨S1600000x128, .f32⟩ : BufTy).Contents (Elt F)),
    binary main_v7 main_v6 main_v8 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v9 (broadcastInDim S100000x128 ![] bcast_S_S100000x128 : (⟨S_, .f32⟩ : BufTy).Contents (Elt F) → (⟨S100000x128, .f32⟩ : BufTy).Contents (Elt F)),
    unary main_v3 main_v10 (broadcastInDim S1600000x1 ![0] bcast_S1600000_S1600000x1_0 : (⟨S1600000, .i32⟩ : BufTy).Contents (Elt F) → (⟨S1600000x1, .i32⟩ : BufTy).Contents (Elt F)),
    ternary main_v9 main_v10 main_v8 main_v11 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Operations 36 … 71: the bias, the column statistics, the normalisation, and the first clamp at zero (3 operations over its call's buffers). -/
def segC : List (HloOp τ sig (Elt F)) :=
  [ unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S100000x128 ![0, 1] bcast_S1x128_S100000x128_0_1 : (⟨S1x128, .f32⟩ : BufTy).Contents (Elt F) → (⟨S100000x128, .f32⟩ : BufTy).Contents (Elt F)),
    binary main_v11 main_v13 main_v14 (addf : (⟨S100000x128, .f32⟩ : BufTy).Contents (Elt F) → (⟨S100000x128, .f32⟩ : BufTy).Contents (Elt F) → (⟨S100000x128, .f32⟩ : BufTy).Contents (Elt F)),
    nullary main_cst_0 (constant S_ .f32 0x00000000#32),
    binary main_v14 main_cst_0 main_v15 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_1 (constant S_ .f32 0x47C35000#32),
    unary main_cst_1 main_v16 (broadcastInDim S128 ![] bcast_S_S128 : (⟨S_, .f32⟩ : BufTy).Contents (Elt F) → (⟨S128, .f32⟩ : BufTy).Contents (Elt F)),
    binary main_v15 main_v16 main_v17 (Host.divf : (⟨S128, .f32⟩ : BufTy).Contents (Elt F) → (⟨S128, .f32⟩ : BufTy).Contents (Elt F) → (⟨S128, .f32⟩ : BufTy).Contents (Elt F)),
    unary main_v17 main_v18 (broadcastInDim S1x128 ![1] bcast_S128_S1x128_1 : (⟨S128, .f32⟩ : BufTy).Contents (Elt F) → (⟨S1x128, .f32⟩ : BufTy).Contents (Elt F)),
    unary main_v18 main_v19 (broadcastInDim S100000x128 ![0, 1] bcast_S1x128_S100000x128_0_1 : (⟨S1x128, .f32⟩ : BufTy).Contents (Elt F) → (⟨S100000x128, .f32⟩ : BufTy).Contents (Elt F)),
    binary main_v14 main_v19 main_v20 (subf : (⟨S100000x128, .f32⟩ : BufTy).Contents (Elt F) → (⟨S100000x128, .f32⟩ : BufTy).Contents (Elt F) → (⟨S100000x128, .f32⟩ : BufTy).Contents (Elt F)),
    binary main_v20 main_v20 main_v21 (mulf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x00000000#32),
    binary main_v21 main_cst_2 main_v22 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_3 (constant S_ .f32 0x47C35000#32),
    unary main_cst_3 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    unary main_v17 main_v25 (broadcastInDim S1x128 ![1] bcast_S128_S1x128_1 : (⟨S128, .f32⟩ : BufTy).Contents (Elt F) → (⟨S1x128, .f32⟩ : BufTy).Contents (Elt F)),
    unary main_v25 main_v26 (broadcastInDim S100000x128 ![0, 1] bcast_S1x128_S100000x128_0_1 : (⟨S1x128, .f32⟩ : BufTy).Contents (Elt F) → (⟨S100000x128, .f32⟩ : BufTy).Contents (Elt F)),
    binary main_v14 main_v26 main_v27 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v28 (broadcastInDim S128 ![] bcast_S_S128 : (⟨S_, .f32⟩ : BufTy).Contents (Elt F) → (⟨S128, .f32⟩ : BufTy).Contents (Elt F)),
    binary main_v24 main_v28 main_v29 (addf : (⟨S128, .f32⟩ : BufTy).Contents (Elt F) → (⟨S128, .f32⟩ : BufTy).Contents (Elt F) → (⟨S128, .f32⟩ : BufTy).Contents (Elt F)),
    unary main_v29 main_v30 (Host.rsqrt : (⟨S128, .f32⟩ : BufTy).Contents (Elt F) → (⟨S128, .f32⟩ : BufTy).Contents (Elt F)),
    unary main_v30 main_v31 (broadcastInDim S1x128 ![1] bcast_S128_S1x128_1 : (⟨S128, .f32⟩ : BufTy).Contents (Elt F) → (⟨S1x128, .f32⟩ : BufTy).Contents (Elt F)),
    unary main_v31 main_v32 (broadcastInDim S100000x128 ![0, 1] bcast_S1x128_S100000x128_0_1 : (⟨S1x128, .f32⟩ : BufTy).Contents (Elt F) → (⟨S100000x128, .f32⟩ : BufTy).Contents (Elt F)),
    binary main_v27 main_v32 main_v33 (mulf : (⟨S100000x128, .f32⟩ : BufTy).Contents (Elt F) → (⟨S100000x128, .f32⟩ : BufTy).Contents (Elt F) → (⟨S100000x128, .f32⟩ : BufTy).Contents (Elt F)),
    unary main_arg5 main_v34 (broadcastInDim S1x128 ![1] bcast_S128_S1x128_1 : (⟨S128, .f32⟩ : BufTy).Contents (Elt F) → (⟨S1x128, .f32⟩ : BufTy).Contents (Elt F)),
    unary main_v34 main_v35 (broadcastInDim S100000x128 ![0, 1] bcast_S1x128_S100000x128_0_1 : (⟨S1x128, .f32⟩ : BufTy).Contents (Elt F) → (⟨S100000x128, .f32⟩ : BufTy).Contents (Elt F)),
    binary main_v33 main_v35 main_v36 (mulf : (⟨S100000x128, .f32⟩ : BufTy).Contents (Elt F) → (⟨S100000x128, .f32⟩ : BufTy).Contents (Elt F) → (⟨S100000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v39) main_call1.v0 main_call1.v1 maximumf ]

/-- Operations 72 … 102: the second product, the weights as a column, the second taking of rows, the scaling, the zeros, the destination column, the scatter-add. -/
def segD : List (HloOp τ sig (Elt F)) :=
  [ binary main_v40 main_arg7 main_v41 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg2 main_v42 (broadcastInDim S1600000x1 ![0] bcast_S1600000_S1600000x1_0 : (⟨S1600000, .f32⟩ : BufTy).Contents (Elt F) → (⟨S1600000x1, .f32⟩ : BufTy).Contents (Elt F)),
    TRef.nullary main_call2.c (constantI S_ 32 0#32),
    TRef.unary main_call2.c main_call2.v0 (broadcastInDim S1600000 ![] bcast_S_S1600000),
    TRef.binary (.of main_v1) main_call2.v0 main_call2.v1 (cmpi .slt),
    TRef.nullary main_call2.c_0 (constantI S_ 32 100000#32),
    TRef.unary main_call2.c_0 main_call2.v2 (broadcastInDim S1600000 ![] bcast_S_S1600000),
    TRef.binary (.of main_v1) main_call2.v2 main_call2.v3 addi,
    TRef.ternary main_call2.v1 main_call2.v3 (.of main_v1) main_call2.call0.v0 select,
    TRef.unary main_call2.call0.v0 main_call2.v5 (broadcastInDim S1600000x1 ![0] bcast_S1600000_S1600000x1_0),
    TRef.nullary main_call2.c_1 (constantI S1 32 99999#32),
    TRef.nullary main_call2.c_2 (constantI S_ 32 0#32),
    TRef.unary main_call2.c_2 main_call2.v6 (broadcastInDim S1600000x1 ![] bcast_S_S1600000x1),
    TRef.binary main_call2.v5 main_call2.v6 main_call2.v7 (cmpi .sge),
    TRef.unary main_call2.c_1 main_call2.v8 (broadcastInDim S1x1 ![1] bcast_S1_S1x1_1),
    TRef.unary main_call2.v8 main_call2.v9 (broadcastInDim S1600000x1 ![0, 1] bcast_S1x1_S1600000x1_0_1),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S1600000x1_S1600000_d1 h_S_),
    TRef.binary (.of main_v41) main_call2.v5 main_call2.v13 (fun x i => Host.gather gather_S100000x128_S1600000x1_S1600000x128_1_0_n_n_0_1_1128 x i),
    TRef.unary main_call2.v12 main_call2.v14 (broadcastInDim S1600000x128 ![0] bcast_S1600000_S1600000x128_0),
    TRef.nullary main_call2.cst (constant S_ .f32 0x7FC00000#32),
    TRef.unary main_call2.cst main_call2.v15 (broadcastInDim S1600000x128 ![] bcast_S_S1600000x128),
    TRef.ternary main_call2.v14 main_call2.v13 main_call2.v15 main_call2.v16 select,
    unary main_v42 main_v44 (broadcastInDim S1600000x128 ![0, 1] bcast_S1600000x1_S1600000x128_0_1 : (⟨S1600000x1, .f32⟩ : BufTy).Contents (Elt F) → (⟨S1600000x128, .f32⟩ : BufTy).Contents (Elt F)),
    binary main_v44 main_v43 main_v45 (mulf : (⟨S1600000x128, .f32⟩ : BufTy).Contents (Elt F) → (⟨S1600000x128, .f32⟩ : BufTy).Contents (Elt F) → (⟨S1600000x128, .f32⟩ : BufTy).Contents (Elt F)),
    nullary main_cst_5 (constant S_ .f32 0x00000000#32),
    unary main_cst_5 main_v46 (broadcastInDim S100000x128 ![] bcast_S_S100000x128 : (⟨S_, .f32⟩ : BufTy).Contents (Elt F) → (⟨S100000x128, .f32⟩ : BufTy).Contents (Elt F)),
    unary main_v3 main_v47 (broadcastInDim S1600000x1 ![0] bcast_S1600000_S1600000x1_0 : (⟨S1600000, .i32⟩ : BufTy).Contents (Elt F) → (⟨S1600000x1, .i32⟩ : BufTy).Contents (Elt F)),
    ternary main_v46 main_v47 main_v45 main_v48 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- Operations 103 … 138: the bias, the column statistics, the normalisation, and the second clamp at zero. -/
def segE : List (HloOp τ sig (Elt F)) :=
  [ unary main_arg8 main_v49 (broadcastInDim S1x128 ![1] bcast_S128_S1x128_1 : (⟨S128, .f32⟩ : BufTy).Contents (Elt F) → (⟨S1x128, .f32⟩ : BufTy).Contents (Elt F)),
    unary main_v49 main_v50 (broadcastInDim S100000x128 ![0, 1] bcast_S1x128_S100000x128_0_1 : (⟨S1x128, .f32⟩ : BufTy).Contents (Elt F) → (⟨S100000x128, .f32⟩ : BufTy).Contents (Elt F)),
    binary main_v48 main_v50 main_v51 (addf : (⟨S100000x128, .f32⟩ : BufTy).Contents (Elt F) → (⟨S100000x128, .f32⟩ : BufTy).Contents (Elt F) → (⟨S100000x128, .f32⟩ : BufTy).Contents (Elt F)),
    nullary main_cst_6 (constant S_ .f32 0x00000000#32),
    binary main_v51 main_cst_6 main_v52 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_7 (constant S_ .f32 0x47C35000#32),
    unary main_cst_7 main_v53 (broadcastInDim S128 ![] bcast_S_S128 : (⟨S_, .f32⟩ : BufTy).Contents (Elt F) → (⟨S128, .f32⟩ : BufTy).Contents (Elt F)),
    binary main_v52 main_v53 main_v54 (Host.divf : (⟨S128, .f32⟩ : BufTy).Contents (Elt F) → (⟨S128, .f32⟩ : BufTy).Contents (Elt F) → (⟨S128, .f32⟩ : BufTy).Contents (Elt F)),
    unary main_v54 main_v55 (broadcastInDim S1x128 ![1] bcast_S128_S1x128_1 : (⟨S128, .f32⟩ : BufTy).Contents (Elt F) → (⟨S1x128, .f32⟩ : BufTy).Contents (Elt F)),
    unary main_v55 main_v56 (broadcastInDim S100000x128 ![0, 1] bcast_S1x128_S100000x128_0_1 : (⟨S1x128, .f32⟩ : BufTy).Contents (Elt F) → (⟨S100000x128, .f32⟩ : BufTy).Contents (Elt F)),
    binary main_v51 main_v56 main_v57 (subf : (⟨S100000x128, .f32⟩ : BufTy).Contents (Elt F) → (⟨S100000x128, .f32⟩ : BufTy).Contents (Elt F) → (⟨S100000x128, .f32⟩ : BufTy).Contents (Elt F)),
    binary main_v57 main_v57 main_v58 (mulf : (⟨S100000x128, .f32⟩ : BufTy).Contents (Elt F) → (⟨S100000x128, .f32⟩ : BufTy).Contents (Elt F) → (⟨S100000x128, .f32⟩ : BufTy).Contents (Elt F)),
    nullary main_cst_8 (constant S_ .f32 0x00000000#32),
    binary main_v58 main_cst_8 main_v59 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v60 (broadcastInDim S128 ![] bcast_S_S128 : (⟨S_, .f32⟩ : BufTy).Contents (Elt F) → (⟨S128, .f32⟩ : BufTy).Contents (Elt F)),
    binary main_v59 main_v60 main_v61 (Host.divf : (⟨S128, .f32⟩ : BufTy).Contents (Elt F) → (⟨S128, .f32⟩ : BufTy).Contents (Elt F) → (⟨S128, .f32⟩ : BufTy).Contents (Elt F)),
    unary main_v54 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v51 main_v63 main_v64 (subf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3727C5AC#32),
    unary main_cst_10 main_v65 (broadcastInDim S128 ![] bcast_S_S128 : (⟨S_, .f32⟩ : BufTy).Contents (Elt F) → (⟨S128, .f32⟩ : BufTy).Contents (Elt F)),
    binary main_v61 main_v65 main_v66 (addf : (⟨S128, .f32⟩ : BufTy).Contents (Elt F) → (⟨S128, .f32⟩ : BufTy).Contents (Elt F) → (⟨S128, .f32⟩ : BufTy).Contents (Elt F)),
    unary main_v66 main_v67 (Host.rsqrt : (⟨S128, .f32⟩ : BufTy).Contents (Elt F) → (⟨S128, .f32⟩ : BufTy).Contents (Elt F)),
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S100000x128 ![0, 1] bcast_S1x128_S100000x128_0_1 : (⟨S1x128, .f32⟩ : BufTy).Contents (Elt F) → (⟨S100000x128, .f32⟩ : BufTy).Contents (Elt F)),
    binary main_v64 main_v69 main_v70 (mulf : (⟨S100000x128, .f32⟩ : BufTy).Contents (Elt F) → (⟨S100000x128, .f32⟩ : BufTy).Contents (Elt F) → (⟨S100000x128, .f32⟩ : BufTy).Contents (Elt F)),
    unary main_arg9 main_v71 (broadcastInDim S1x128 ![1] bcast_S128_S1x128_1 : (⟨S128, .f32⟩ : BufTy).Contents (Elt F) → (⟨S1x128, .f32⟩ : BufTy).Contents (Elt F)),
    unary main_v71 main_v72 (broadcastInDim S100000x128 ![0, 1] bcast_S1x128_S100000x128_0_1 : (⟨S1x128, .f32⟩ : BufTy).Contents (Elt F) → (⟨S100000x128, .f32⟩ : BufTy).Contents (Elt F)),
    binary main_v70 main_v72 main_v73 (mulf : (⟨S100000x128, .f32⟩ : BufTy).Contents (Elt F) → (⟨S100000x128, .f32⟩ : BufTy).Contents (Elt F) → (⟨S100000x128, .f32⟩ : BufTy).Contents (Elt F)),
    unary main_arg10 main_v74 (broadcastInDim S1x128 ![1] bcast_S128_S1x128_1 : (⟨S128, .f32⟩ : BufTy).Contents (Elt F) → (⟨S1x128, .f32⟩ : BufTy).Contents (Elt F)),
    unary main_v74 main_v75 (broadcastInDim S100000x128 ![0, 1] bcast_S1x128_S100000x128_0_1 : (⟨S1x128, .f32⟩ : BufTy).Contents (Elt F) → (⟨S100000x128, .f32⟩ : BufTy).Contents (Elt F)),
    binary main_v73 main_v75 main_v76 (addf : (⟨S100000x128, .f32⟩ : BufTy).Contents (Elt F) → (⟨S100000x128, .f32⟩ : BufTy).Contents (Elt F) → (⟨S100000x128, .f32⟩ : BufTy).Contents (Elt F)),
    TRef.nullary main_call3.cst (constant S_ .f32 0x00000000#32),
    TRef.unary main_call3.cst main_call3.v0 (broadcastInDim S100000x128 ![] bcast_S_S100000x128),
    TRef.binary (.of main_v76) main_call3.v0 main_call3.v1 maximumf ]

end Cert.ReferenceIdeal.Hand

end
-- ==== Proof.LibKeepLow.lean ====
/-
  A LINE OF OPERATIONS THAT WRITES ONLY HIGH-NUMBERED BUFFERS LEAVES THE LOW-NUMBERED ONES ALONE.

  A program's buffers are numbered, its arguments first. If every buffer a line of operations writes has index at
  least n, then a buffer of index below n holds after the line what it held before it.
-/
import Idealize.ShloMosaic.Lib.StableHlo.Run

noncomputable section

namespace Cert.Lib

open Idealize.ShloMosaic Idealize.SL.Sem

variable {τ : Topo} {sig : RefSig} {Val : EltTy → Type}

/-- A reference of index below `n` keeps its contents through a line whose operations write only references of index
    at least `n`: it is none of the written ones, since equal device buffers are equal references. -/
theorem after_of_writes_ge (n : Nat) (ops : List (HloOp τ sig Val))
    (h : ops.Forall fun op => ∀ d ∈ op.writes, ∃ y : Ref sig .tc, d = Proc.devRef .tc y ∧ n ≤ y.idx.val)
    (V : Valuation τ sig Val) (y : Ref sig .tc) (hy : y.idx.val < n) :
    StableHlo.after ops V (Proc.devRef .tc y) = V (Proc.devRef .tc y) :=
  StableHlo.after_of_forall_not_mem ops V fun op hop hmem => by
    obtain ⟨z, hz, hzn⟩ := (List.forall_iff_forall_mem.mp h) op hop _ hmem
    have : y = z := Proc.devRef_injective _ hz
    subst this
    omega

end Cert.Lib

end
-- ==== Proof.Reference.Keep.lean ====
/-
  A stretch of the reference's line writes only buffers numbered from its first result on, so every lower-numbered
  buffer — the eleven arguments, and from stretch B on also the two index vectors — passes through it unchanged.
-/
import proofs.«163396_j33732673143025_1_alg».proof.Proof.Reference.Segs
import proofs.«163396_j33732673143025_1_alg».proof.Proof.LibKeepLow

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ## What a stretch leaves alone -/

/-- An operation whose one written buffer is the reference `y`, numbered at least `n`, writes only buffers numbered
    at least `n`. -/
theorem wr {n : Nat} (op : HloOp τ sig (Elt F)) (y : Ref sig .tc) (h : op.writes = {Proc.devRef .tc y})
    (hn : n ≤ y.idx.val) : ∀ d ∈ op.writes, ∃ z : Ref sig .tc, d = Proc.devRef .tc z ∧ n ≤ z.idx.val := by
  intro d hd
  rw [h, Finset.mem_singleton] at hd
  exact ⟨y, hd, hn⟩

theorem segA_low : (segA (F := F)).Forall fun op =>
    ∀ d ∈ op.writes, ∃ y : Ref sig .tc, d = Proc.devRef .tc y ∧ 11 ≤ y.idx.val :=
  ⟨wr _ main_v0 rfl (by decide), wr _ main_v1 rfl (by decide), wr _ main_v2 rfl (by decide),
    wr _ main_v3 rfl (by decide), wr _ main_v4 rfl (by decide), wr _ main_v5 rfl (by decide)⟩

/-- A buffer numbered below 11 holds after stretch A what it held before. -/
theorem keepA (W : Valuation τ sig (Elt F)) (y : Ref sig .tc) (hy : y.idx.val < 11) :
    after segA W (no_index (Proc.devRef .tc y)) = W (Proc.devRef .tc y) :=
  Cert.Lib.after_of_writes_ge 11 segA segA_low W y hy

theorem segB_low : (segB (F := F)).Forall fun op =>
    ∀ d ∈ op.writes, ∃ y : Ref sig .tc, d = Proc.devRef .tc y ∧ 15 ≤ y.idx.val :=
  ⟨wr _ main_call0.c.ref rfl (by decide), wr _ main_call0.v0.ref rfl (by decide), wr _ main_call0.v1.ref rfl (by decide),
    wr _ main_call0.c_0.ref rfl (by decide), wr _ main_call0.v2.ref rfl (by decide), wr _ main_call0.v3.ref rfl (by decide),
    wr _ main_call0.call0.v0.ref rfl (by decide), wr _ main_call0.v5.ref rfl (by decide), wr _ main_call0.c_1.ref rfl (by decide),
    wr _ main_call0.c_2.ref rfl (by decide), wr _ main_call0.v6.ref rfl (by decide), wr _ main_call0.v7.ref rfl (by decide),
    wr _ main_call0.v8.ref rfl (by decide), wr _ main_call0.v9.ref rfl (by decide), wr _ main_call0.v10.ref rfl (by decide),
    wr _ main_call0.v11.ref rfl (by decide), wr _ main_call0.c_3.ref rfl (by decide), wr _ main_call0.v12.ref rfl (by decide),
    wr _ main_call0.v13.ref rfl (by decide), wr _ main_call0.v14.ref rfl (by decide), wr _ main_call0.cst.ref rfl (by decide),
    wr _ main_call0.v15.ref rfl (by decide), wr _ main_call0.v16.ref rfl (by decide), wr _ main_v7 rfl (by decide),
    wr _ main_v8 rfl (by decide), wr _ main_cst rfl (by decide), wr _ main_v9 rfl (by decide),
    wr _ main_v10 rfl (by decide), wr _ main_v11 rfl (by decide)⟩

/-- A buffer numbered below 15 holds after stretch B what it held before. -/
theorem keepB (W : Valuation τ sig (Elt F)) (y : Ref sig .tc) (hy : y.idx.val < 15) :
    after segB W (no_index (Proc.devRef .tc y)) = W (Proc.devRef .tc y) :=
  Cert.Lib.after_of_writes_ge 15 segB segB_low W y hy

theorem segC_low : (segC (F := F)).Forall fun op =>
    ∀ d ∈ op.writes, ∃ y : Ref sig .tc, d = Proc.devRef .tc y ∧ 15 ≤ y.idx.val :=
  ⟨wr _ main_v12 rfl (by decide), wr _ main_v13 rfl (by decide), wr _ main_v14 rfl (by decide),
    wr _ main_cst_0 rfl (by decide), wr _ main_v15 rfl (by decide), wr _ main_cst_1 rfl (by decide),
    wr _ main_v16 rfl (by decide), wr _ main_v17 rfl (by decide), wr _ main_v18 rfl (by decide),
    wr _ main_v19 rfl (by decide), wr _ main_v20 rfl (by decide), wr _ main_v21 rfl (by decide),
    wr _ main_cst_2 rfl (by decide), wr _ main_v22 rfl (by decide), wr _ main_cst_3 rfl (by decide),
    wr _ main_v23 rfl (by decide), wr _ main_v24 rfl (by decide), wr _ main_v25 rfl (by decide),
    wr _ main_v26 rfl (by decide), wr _ main_v27 rfl (by decide), wr _ main_cst_4 rfl (by decide),
    wr _ main_v28 rfl (by decide), wr _ main_v29 rfl (by decide), wr _ main_v30 rfl (by decide),
    wr _ main_v31 rfl (by decide), wr _ main_v32 rfl (by decide), wr _ main_v33 rfl (by decide),
    wr _ main_v34 rfl (by decide), wr _ main_v35 rfl (by decide), wr _ main_v36 rfl (by decide),
    wr _ main_v37 rfl (by decide), wr _ main_v38 rfl (by decide), wr _ main_v39 rfl (by decide),
    wr _ main_call1.cst.ref rfl (by decide), wr _ main_call1.v0.ref rfl (by decide), wr _ main_call1.v1.ref rfl (by decide)⟩

/-- A buffer numbered below 15 holds after stretch C what it held before. -/
theorem keepC (W : Valuation τ sig (Elt F)) (y : Ref sig .tc) (hy : y.idx.val < 15) :
    after segC W (no_index (Proc.devRef .tc y)) = W (Proc.devRef .tc y) :=
  Cert.Lib.after_of_writes_ge 15 segC segC_low W y hy

theorem segD_low : (segD (F := F)).Forall fun op =>
    ∀ d ∈ op.writes, ∃ y : Ref sig .tc, d = Proc.devRef .tc y ∧ 15 ≤ y.idx.val :=
  ⟨wr _ main_v41 rfl (by decide), wr _ main_v42 rfl (by decide), wr _ main_call2.c.ref rfl (by decide),
    wr _ main_call2.v0.ref rfl (by decide), wr _ main_call2.v1.ref rfl (by decide), wr _ main_call2.c_0.ref rfl (by decide),
    wr _ main_call2.v2.ref rfl (by decide), wr _ main_call2.v3.ref rfl (by decide), wr _ main_call2.call0.v0.ref rfl (by decide),
    wr _ main_call2.v5.ref rfl (by decide), wr _ main_call2.c_1.ref rfl (by decide), wr _ main_call2.c_2.ref rfl (by decide),
    wr _ main_call2.v6.ref rfl (by decide), wr _ main_call2.v7.ref rfl (by decide), wr _ main_call2.v8.ref rfl (by decide),
    wr _ main_call2.v9.ref rfl (by decide), wr _ main_call2.v10.ref rfl (by decide), wr _ main_call2.v11.ref rfl (by decide),
    wr _ main_call2.c_3.ref rfl (by decide), wr _ main_call2.v12.ref rfl (by decide), wr _ main_call2.v13.ref rfl (by decide),
    wr _ main_call2.v14.ref rfl (by decide), wr _ main_call2.cst.ref rfl (by decide), wr _ main_call2.v15.ref rfl (by decide),
    wr _ main_call2.v16.ref rfl (by decide), wr _ main_v44 rfl (by decide), wr _ main_v45 rfl (by decide),
    wr _ main_cst_5 rfl (by decide), wr _ main_v46 rfl (by decide), wr _ main_v47 rfl (by decide),
    wr _ main_v48 rfl (by decide)⟩

/-- A buffer numbered below 15 holds after stretch D what it held before. -/
theorem keepD (W : Valuation τ sig (Elt F)) (y : Ref sig .tc) (hy : y.idx.val < 15) :
    after segD W (no_index (Proc.devRef .tc y)) = W (Proc.devRef .tc y) :=
  Cert.Lib.after_of_writes_ge 15 segD segD_low W y hy

theorem segE_low : (segE (F := F)).Forall fun op =>
    ∀ d ∈ op.writes, ∃ y : Ref sig .tc, d = Proc.devRef .tc y ∧ 15 ≤ y.idx.val :=
  ⟨wr _ main_v49 rfl (by decide), wr _ main_v50 rfl (by decide), wr _ main_v51 rfl (by decide),
    wr _ main_cst_6 rfl (by decide), wr _ main_v52 rfl (by decide), wr _ main_cst_7 rfl (by decide),
    wr _ main_v53 rfl (by decide), wr _ main_v54 rfl (by decide), wr _ main_v55 rfl (by decide),
    wr _ main_v56 rfl (by decide), wr _ main_v57 rfl (by decide), wr _ main_v58 rfl (by decide),
    wr _ main_cst_8 rfl (by decide), wr _ main_v59 rfl (by decide), wr _ main_cst_9 rfl (by decide),
    wr _ main_v60 rfl (by decide), wr _ main_v61 rfl (by decide), wr _ main_v62 rfl (by decide),
    wr _ main_v63 rfl (by decide), wr _ main_v64 rfl (by decide), wr _ main_cst_10 rfl (by decide),
    wr _ main_v65 rfl (by decide), wr _ main_v66 rfl (by decide), wr _ main_v67 rfl (by decide),
    wr _ main_v68 rfl (by decide), wr _ main_v69 rfl (by decide), wr _ main_v70 rfl (by decide),
    wr _ main_v71 rfl (by decide), wr _ main_v72 rfl (by decide), wr _ main_v73 rfl (by decide),
    wr _ main_v74 rfl (by decide), wr _ main_v75 rfl (by decide), wr _ main_v76 rfl (by decide),
    wr _ main_call3.cst.ref rfl (by decide), wr _ main_call3.v0.ref rfl (by decide), wr _ main_call3.v1.ref rfl (by decide)⟩

/-- A buffer numbered below 15 holds after stretch E what it held before. -/
theorem keepE (W : Valuation τ sig (Elt F)) (y : Ref sig .tc) (hy : y.idx.val < 15) :
    after segE W (no_index (Proc.devRef .tc y)) = W (Proc.devRef .tc y) :=
  Cert.Lib.after_of_writes_ge 15 segE segE_low W y hy

end Cert.ReferenceIdeal.Hand

end
-- ==== Proof.Reference.Defs.lean ====
/-
  The pure functions the reference composes, as whole-array functions of its arguments.

  The reference is two rounds of: a matrix product, one message-passing step over the edges, batch normalisation
  with the clamp at zero.

  chain  : one message-passing step — rows of P taken at every edge's source node (an index below zero wrapped
           once, an index still out of range answered by the not-a-number word), scaled by the edge's weight, summed
           into the row of the edge's destination node, starting from zeros.
  bnRelu : per column the mean over all rows and the mean squared deviation from it; every entry centred,
           multiplied by the inverse root of (variance + ε), scaled, shifted, and clamped at zero.
  result : the two rounds composed.
-/
import proofs.«163396_j33732673143025_1_alg».proof.ReferenceIdeal

noncomputable section

namespace Cert.ReferenceIdeal.Hand

open Cert.ReferenceIdeal Idealize.ShloMosaic

variable {F : FTy → Type} [FloatOps F]
variable [Facts]
open Facts₀ Facts

/-! ## The pure functions -/

/-- Row 0 of the edge table as a vector: every edge's source node. -/
def srcIdx (ei : IVec S2x1600000 32) : IVec S1600000 32 :=
  shapeCast S1600000 (extractStridedSlice S1x1600000 ![0, 0] ei slices_S2x1600000_S1x1600000_0_0)
    shapeCasts_S1x1600000_S1600000

/-- Row 1 of the edge table as a vector: every edge's destination node. -/
def dstIdx (ei : IVec S2x1600000 32) : IVec S1600000 32 :=
  shapeCast S1600000 (extractStridedSlice S1x1600000 ![1, 0] ei slices_S2x1600000_S1x1600000_1_0)
    shapeCasts_S1x1600000_S1600000

/-- An index below zero counted from the end (100000 added once), as a column of one-entry index vectors. -/
def wrapIdx (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- Per edge, whether the wrapped index lies in 0 … 99999 (the conjunction over the one-entry index vector). -/
def inRange (j : IVec S1600000x1 32) : IVec S1600000 1 :=
  Host.reduce IntOp.andi
    (andi (cmpi .sge j (broadcastInDim S1600000x1 ![] bcast_S_S1600000x1 (constantI S_ 32 0#32)))
      (cmpi .sle j (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Rows of `P` taken at the given indices: the gathered row where the wrapped index is in range, the
    not-a-number word elsewhere. -/
def takeRows (P : FVec F S100000x128 .f32) (idx : IVec S1600000 32) : FVec F S1600000x128 .f32 :=
  select (broadcastInDim S1600000x128 ![0] bcast_S1600000_S1600000x128_0 (inRange (wrapIdx idx)))
    (Host.gather gather_S100000x128_S1600000x1_S1600000x128_1_0_n_n_0_1_1128 P (wrapIdx idx))
    (broadcastInDim S1600000x128 ![] bcast_S_S1600000x128 (constant (F := F) S_ .f32 0x7FC00000#32))

/-- One message-passing step over given source and destination vectors and the edge weights as a column: the taken
    rows scaled by the weights, summed into the destination rows of an array of zeros. -/
def step (P : FVec F S100000x128 .f32) (src dst : IVec S1600000 32) (wcol : FVec F S1600000x1 .f32) :
    FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (mulf (broadcastInDim S1600000x128 ![0, 1] bcast_S1600000x1_S1600000x128_0_1 wcol) (takeRows P src))

/-- One message-passing step over the edge table. -/
def chain (P : FVec F S100000x128 .f32) (ei : IVec S2x1600000 32) (w : FVec F S1600000 .f32) :
    FVec F S100000x128 .f32 :=
  step P (srcIdx ei) (dstIdx ei) (broadcastInDim S1600000x1 ![0] bcast_S1600000_S1600000x1_0 w)

/-- A vector of 128 entries repeated down the 100000 rows. -/
def rowBcast (v : FVec F S128 .f32) : FVec F S100000x128 .f32 :=
  broadcastInDim S100000x128 ![0, 1] bcast_S1x128_S100000x128_0_1 (broadcastInDim S1x128 ![1] bcast_S128_S1x128_1 v)

/-- Per column, the sum over the rows divided by 100000. -/
def colMean (H : FVec F S100000x128 .f32) : FVec F S128 .f32 :=
  Host.divf (Host.reduceAdd H (constant (F := F) S_ .f32 0x00000000#32) reducesTo_S100000x128_S128_d0 h_S_)
    (broadcastInDim S128 ![] bcast_S_S128 (constant (F := F) S_ .f32 0x47C35000#32))

/-- Per column, the mean squared deviation from the column's mean. -/
def colVar (H : FVec F S100000x128 .f32) : FVec F S128 .f32 :=
  Host.divf
    (Host.reduceAdd (mulf (subf H (rowBcast (colMean H))) (subf H (rowBcast (colMean H))))
      (constant (F := F) S_ .f32 0x00000000#32) reducesTo_S100000x128_S128_d0 h_S_)
    (broadcastInDim S128 ![] bcast_S_S128 (constant (F := F) S_ .f32 0x47C35000#32))

/-- Batch normalisation with scale `g` and shift `be`, then the clamp at zero. -/
def bnRelu (H : FVec F S100000x128 .f32) (g be : FVec F S128 .f32) : FVec F S100000x128 .f32 :=
  maximumf
    (addf
      (mulf
        (mulf (subf H (rowBcast (colMean H)))
          (rowBcast (Host.rsqrt (addf (colVar H)
            (broadcastInDim S128 ![] bcast_S_S128 (constant (F := F) S_ .f32 0x3727C5AC#32))))))
        (rowBcast g))
      (rowBcast be))
    (broadcastInDim S100000x128 ![] bcast_S_S100000x128 (constant (F := F) S_ .f32 0x00000000#32))

/-- What the reference computes from its eleven arguments. -/
def result (a0 : FVec F S100000x256 .f32) (a1 : IVec S2x1600000 32) (a2 : FVec F S1600000 .f32)
    (a3 : FVec F S256x128 .f32) (a4 a5 a6 : FVec F S128 .f32) (a7 : FVec F S128x128 .f32)
    (a8 a9 a10 : FVec F S128 .f32) : FVec F S100000x128 .f32 :=
  bnRelu
    (addf
      (chain
        (Host.dotGeneral dot_S100000x128_S128x128_S100000x128_1_0_0_1_n_n none
          (bnRelu
            (addf (chain (Host.dotGeneral dot_S100000x256_S256x128_S100000x128_1_0_0_1_n_n none a0 a3) a1 a2)
              (broadcastInDim S100000x128 ![0, 1] bcast_S1x128_S100000x128_0_1
                (broadcastInDim S1x128 ![1] bcast_S128_S1x128_1 a4)))
            a5 a6)
          a7)
        a1 a2)
      (broadcastInDim S100000x128 ![0, 1] bcast_S1x128_S100000x128_0_1
        (broadcastInDim S1x128 ![1] bcast_S128_S1x128_1 a8)))
    a9 a10

end Cert.ReferenceIdeal.Hand

end
-- ==== Proof.Reference.Stages.lean ====
/-
  What each stretch of the reference's line computes from the buffers it starts from, whatever they hold.
-/
import proofs.«163396_j33732673143025_1_alg».proof.Proof.Reference.Defs
import proofs.«163396_j33732673143025_1_alg».proof.Proof.Reference.Segs
import proofs.«163396_j33732673143025_1_alg».proof.Proof.LibCallCast

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-! ## What a stretch computes

Each equation is read off the list: the fold over the stretch unrolled, each operation's result at its own buffer
its function's value and at any other buffer what was there. What is left differs from the right-hand side only by
the transports of a called function's typed buffers: a value carried to a buffer's type and back is unchanged, and
at a literal buffer the transport of any value is that value. -/

section Stages

attribute [local irreducible] Host.reduce Host.reduceAdd Host.gather Host.scatterAdd Host.divf Host.rsqrt
  broadcastInDim shapeCast extractStridedSlice select cmpi addi andi mulf addf subf maximumf constant constantI

variable (W : Valuation τ sig (Elt F))

theorem stageA_v1 : after segA W (main_v1 : DevRef τ sig) = srcIdx (W (main_arg1 : DevRef τ sig)) := by
  unfold segA; after_results_simp; rfl

theorem stageA_v3 : after segA W (main_v3 : DevRef τ sig) = dstIdx (W (main_arg1 : DevRef τ sig)) := by
  unfold segA; after_results_simp; rfl

theorem stageA_v4 : after segA W (main_v4 : DevRef τ sig)
    = Host.dotGeneral dot_S100000x256_S256x128_S100000x128_1_0_0_1_n_n none (W (main_arg0 : DevRef τ sig))
        (W (main_arg3 : DevRef τ sig)) := by
  unfold segA; after_results_simp

theorem stageA_v5 : after segA W (main_v5 : DevRef τ sig)
    = broadcastInDim S1600000x1 ![0] bcast_S1600000_S1600000x1_0 (W (main_arg2 : DevRef τ sig)) := by
  unfold segA; after_results_simp

set_option maxRecDepth 8192 in
theorem stageB : after segB W (main_v11 : DevRef τ sig)
    = step (W (main_v4 : DevRef τ sig)) (W (main_v1 : DevRef τ sig)) (W (main_v3 : DevRef τ sig))
        (W (main_v5 : DevRef τ sig)) := by
  have e1 : ∀ v : IVec S1600000 32, (TRef.of main_v1 : TRef sig ⟨S1600000, .i32⟩).ofBuf (Val := Elt F) v = v := fun _ => rfl
  have e4 : ∀ v : FVec F S100000x128 .f32, (TRef.of main_v4 : TRef sig ⟨S100000x128, .f32⟩).ofBuf (Val := Elt F) v = v := fun _ => rfl
  have e6 : ∀ v : FVec F S1600000x128 .f32, (TRef.of main_v6 : TRef sig ⟨S1600000x128, .f32⟩).toBuf (Val := Elt F) v = v := fun _ => rfl
  unfold segB; after_results_simp
  simp only [Cert.Lib.ofBuf_toBuf, step, takeRows, wrapIdx, inRange, e1, e4, e6]

set_option maxRecDepth 8192 in
theorem stageC : after segC W (main_v40 : DevRef τ sig)
    = bnRelu (addf (W (main_v11 : DevRef τ sig)) (rowBcast (W (main_arg4 : DevRef τ sig))))
        (W (main_arg5 : DevRef τ sig)) (W (main_arg6 : DevRef τ sig)) := by
  have e39 : ∀ v : FVec F S100000x128 .f32, (TRef.of main_v39 : TRef sig ⟨S100000x128, .f32⟩).ofBuf (Val := Elt F) v = v := fun _ => rfl
  have e40 : ∀ v : FVec F S100000x128 .f32, (TRef.of main_v40 : TRef sig ⟨S100000x128, .f32⟩).toBuf (Val := Elt F) v = v := fun _ => rfl
  unfold segC; after_results_simp
  simp only [Cert.Lib.ofBuf_toBuf, bnRelu, colMean, colVar, rowBcast, e39, e40]

set_option maxRecDepth 8192 in
theorem stageD : after segD W (main_v48 : DevRef τ sig)
    = step (Host.dotGeneral dot_S100000x128_S128x128_S100000x128_1_0_0_1_n_n none (W (main_v40 : DevRef τ sig))
          (W (main_arg7 : DevRef τ sig)))
        (W (main_v1 : DevRef τ sig)) (W (main_v3 : DevRef τ sig))
        (broadcastInDim S1600000x1 ![0] bcast_S1600000_S1600000x1_0 (W (main_arg2 : DevRef τ sig))) := by
  have e1 : ∀ v : IVec S1600000 32, (TRef.of main_v1 : TRef sig ⟨S1600000, .i32⟩).ofBuf (Val := Elt F) v = v := fun _ => rfl
  have e41 : ∀ v : FVec F S100000x128 .f32, (TRef.of main_v41 : TRef sig ⟨S100000x128, .f32⟩).ofBuf (Val := Elt F) v = v := fun _ => rfl
  have e43 : ∀ v : FVec F S1600000x128 .f32, (TRef.of main_v43 : TRef sig ⟨S1600000x128, .f32⟩).toBuf (Val := Elt F) v = v := fun _ => rfl
  unfold segD; after_results_simp
  simp only [Cert.Lib.ofBuf_toBuf, step, takeRows, wrapIdx, inRange, e1, e41, e43]

set_option maxRecDepth 8192 in
theorem stageE : after segE W (main_v77 : DevRef τ sig)
    = bnRelu (addf (W (main_v48 : DevRef τ sig)) (rowBcast (W (main_arg8 : DevRef τ sig))))
        (W (main_arg9 : DevRef τ sig)) (W (main_arg10 : DevRef τ sig)) := by
  have e76 : ∀ v : FVec F S100000x128 .f32, (TRef.of main_v76 : TRef sig ⟨S100000x128, .f32⟩).ofBuf (Val := Elt F) v = v := fun _ => rfl
  have e77 : ∀ v : FVec F S100000x128 .f32, (TRef.of main_v77 : TRef sig ⟨S100000x128, .f32⟩).toBuf (Val := Elt F) v = v := fun _ => rfl
  unfold segE; after_results_simp
  simp only [Cert.Lib.ofBuf_toBuf, bnRelu, colMean, colVar, rowBcast, e76, e77]

end Stages

end Cert.ReferenceIdeal.Hand

end
-- ==== Proof.Reference.Run.lean ====
/-
  The reference's run. Every weakly fair execution of the reference terminates; at the end the result buffer holds
  `result` of the arguments' contents at launch, and each argument buffer holds what it held at launch.

  The program is the list `ops`; the list is the five stretches one after the other; after the stretches the
  result buffer holds the last stretch's function of what the stretch before it left, and so on back to the launch
  contents; the buffers a later stretch reads from an earlier one (the arguments, the two index vectors) pass
  through the stretches between unchanged.
-/
import proofs.«163396_j33732673143025_1_alg».proof.Proof.Reference.Ops
import proofs.«163396_j33732673143025_1_alg».proof.Proof.Reference.Keep
import proofs.«163396_j33732673143025_1_alg».proof.Proof.Reference.Stages

noncomputable section

namespace Cert.ReferenceIdeal.Hand

open Cert.ReferenceIdeal Idealize.ShloMosaic Idealize.ShloMosaic.TcCoe Idealize.SL.Sem Idealize.ShloMosaic.StableHlo

variable {F : FTy → Type} [FloatOps F]
variable [Facts]
open Facts₀ Facts

/-- Running two lines one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The program's line is the five stretches in order. -/
theorem ops_split : (ops : List (HloOp τ sig (Elt F))) = segA ++ (segB ++ (segC ++ (segD ++ segE))) := rfl

/-- After the whole line is after the stretches in turn. -/
theorem after_ops (V : Valuation τ sig (Elt F)) :
    after ops V = after segE (after segD (after segC (after segB (after segA V)))) := by
  rw [ops_split, after_append, after_append, after_append, after_append]

/-- A buffer numbered below 11 — an argument — holds after the line what it held before it. -/
theorem arg_eq (V : Valuation τ sig (Elt F)) (y : Ref sig .tc) (hy : y.idx.val < 11) :
    after ops V (Proc.devRef .tc y) = V (Proc.devRef .tc y) := by
  rw [after_ops, keepE _ y (by omega), keepD _ y (by omega), keepC _ y (by omega), keepB _ y (by omega), keepA _ y hy]

/-- The result buffer after the line: `result` of the arguments' contents before it. -/
theorem res_eq (V : Valuation τ sig (Elt F)) :
    after ops V (main_v77 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  rw [after_ops, stageE, stageD, stageC, stageB]
  simp (disch := decide) only [keepA, keepB, keepC, keepD]
  rw [stageA_v1, stageA_v3, stageA_v4, stageA_v5]
  rfl

/-- On every device, for any float values, from any memory with zero counters: every weakly fair execution of the
    reference terminates with the result buffer at `result` of the arguments' launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v77)
        = result (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v77).trans (res_eq _),
      (h c main_arg0).trans (arg_eq _ main_arg0 (by decide)),
      (h c main_arg1).trans (arg_eq _ main_arg1 (by decide)),
      (h c main_arg2).trans (arg_eq _ main_arg2 (by decide)),
      (h c main_arg3).trans (arg_eq _ main_arg3 (by decide)),
      (h c main_arg4).trans (arg_eq _ main_arg4 (by decide)),
      (h c main_arg5).trans (arg_eq _ main_arg5 (by decide)),
      (h c main_arg6).trans (arg_eq _ main_arg6 (by decide)),
      (h c main_arg7).trans (arg_eq _ main_arg7 (by decide)),
      (h c main_arg8).trans (arg_eq _ main_arg8 (by decide)),
      (h c main_arg9).trans (arg_eq _ main_arg9 (by decide)),
      (h c main_arg10).trans (arg_eq _ main_arg10 (by decide))⟩)
    (run_seq scopedRefs_eq scopedSems_eq defs main (fun _ => ops) main_eq (fun _ => ops_sub) m ρ)

end Cert.ReferenceIdeal.Hand

end
-- ==== Proof.Bridge.Pre.lean ====
/-
  The precondition, decoded.

  The predicate is a conjunction of twelve "all" tests folded by "and": for each of the ten float arrays, "every
  |x| is below plus infinity", and for the source row of the edge table (row 0, sliced out and flattened), "every
  entry is at least 0" and "every entry is below 100000", both read signed.  Its being true says, conjunct by
  conjunct: a fold by "and" that came out true met only trues; |x| < +∞ leaves neither infinity, so x is a real
  number; and a signed comparison that came out true is the inequality of the signed values.
-/
import proofs.«163396_j33732673143025_1_alg».proof.Pre_finite_inputs
import proofs.«163396_j33732673143025_1_alg».proof.Proof.Gen.Pre_finite_inputs
import proofs.«163396_j33732673143025_1_alg».proof.Proof.LibHostRead
import Idealize.ShloMosaic.Lib.ReduceAll
import Idealize.ShloMosaic.Lib.ValueIdx
import Idealize.ShloMosaic.PureOps.Ideal

noncomputable section

namespace Cert.Bridge

open Cert.Pre_finite_inputs Cert.Pre_finite_inputs.Facts
open Idealize.ShloMosaic Idealize.ShloMosaic.ValueIdx

variable [Cert.Pre_finite_inputs.Facts]

/-- The rank-0 shape has one index. -/
instance : Subsingleton S_.Idx := ⟨fun a b => funext fun d => d.elim0⟩

/-- The word 0x7F800000 is plus infinity. -/
theorem infW_eq : Ideal.ofBits .f32 0x7F800000#32 = ⊤ := by simp [Ideal.ofBits, Ideal.ieee]

/-- An extended real whose absolute value is below plus infinity is a real number. -/
theorem real_of_abs_lt_inf (x : EReal) (h : Ideal.cmp .olt (max x (-x)) (Ideal.ofBits .f32 0x7F800000#32) = 1#1) :
    ∃ r : ℝ, x = r := by
  rw [infW_eq] at h
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at h; exact absurd h (by decide)
  induction x using EReal.rec with
  | bot => exact absurd hlt (by simp)
  | coe r => exact ⟨r, rfl⟩
  | top => exact absurd hlt (by simp)

/-- One "all finite" test that came out true: every entry of the array is a real number. -/
theorem all_finite {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1) (i : s.Idx) : ∃ r : ℝ, a i = r :=
  real_of_abs_lt_inf (a i) (Host.reduce_andi_all _ _ hr hu ix0 e i)

/-- A conjunction of two tests that came out true: both did. -/
theorem andi_split {s : Shape} (x y : IVec s 1) (i : s.Idx) (h : andi x y i = 1#1) : x i = 1#1 ∧ y i = 1#1 :=
  IntOp.andi_eq_one.mp h

/-- The precondition decoded: every float input is a real number everywhere, and every source node of the edge
    table is a node number. -/
theorem decode (a0 : FVec Ideal S100000x256 .f32) (a1 : IVec S2x1600000 32) (a2 : FVec Ideal S1600000 .f32)
    (a3 : FVec Ideal S256x128 .f32) (a4 a5 a6 : FVec Ideal S128 .f32) (a7 : FVec Ideal S128x128 .f32)
    (a8 a9 a10 : FVec Ideal S128 .f32)
    (h : Cert.Pre_finite_inputs.fn (F := Ideal) a0 a1 a2 a3 a4 a5 a6 a7 a8 a9 a10 = fun _ => 1#1) :
    (∀ i, ∃ r : ℝ, a0 i = r) ∧ (∀ i, ∃ r : ℝ, a2 i = r) ∧ (∀ i, ∃ r : ℝ, a3 i = r) ∧ (∀ i, ∃ r : ℝ, a4 i = r) ∧
    (∀ i, ∃ r : ℝ, a5 i = r) ∧ (∀ i, ∃ r : ℝ, a6 i = r) ∧ (∀ i, ∃ r : ℝ, a7 i = r) ∧ (∀ i, ∃ r : ℝ, a8 i = r) ∧
    (∀ i, ∃ r : ℝ, a9 i = r) ∧ (∀ i, ∃ r : ℝ, a10 i = r) ∧
    (∀ e : Fin 1600000, 0 ≤ (a1 (ValueIdx.ix2 0 e)).toInt ∧ (a1 (ValueIdx.ix2 0 e)).toInt < 100000) := by
  have e := congrFun h ix0
  dsimp only [Cert.Pre_finite_inputs.fn, Cert.Pre_finite_inputs.fn_part1, Cert.Pre_finite_inputs.fn_part2,
    Cert.Pre_finite_inputs.fn_part3] at e
  obtain ⟨e, h59⟩ := andi_split _ _ _ e
  obtain ⟨e, h53⟩ := andi_split _ _ _ e
  obtain ⟨e, h47⟩ := andi_split _ _ _ e
  obtain ⟨e, h42⟩ := andi_split _ _ _ e
  obtain ⟨e, h37⟩ := andi_split _ _ _ e
  obtain ⟨e, h32⟩ := andi_split _ _ _ e
  obtain ⟨e, h27⟩ := andi_split _ _ _ e
  obtain ⟨e, h22⟩ := andi_split _ _ _ e
  obtain ⟨e, h17⟩ := andi_split _ _ _ e
  obtain ⟨e, h12⟩ := andi_split _ _ _ e
  obtain ⟨h3, h7⟩ := andi_split _ _ _ e
  refine ⟨all_finite a0 _ _ _ h3, all_finite a2 _ _ _ h7, all_finite a3 _ _ _ h12, all_finite a4 _ _ _ h17,
    all_finite a5 _ _ _ h22, all_finite a6 _ _ _ h27, all_finite a7 _ _ _ h32, all_finite a8 _ _ _ h37,
    all_finite a9 _ _ _ h42, all_finite a10 _ _ _ h47, fun ed => ?_⟩
  have g0 := Host.reduce_andi_all _ _ _ _ ix0 h53 (ix1 ed)
  have g1 := Host.reduce_andi_all _ _ _ _ ix0 h59 (ix1 ed)
  have r0 : shapeCast S1600000 (extractStridedSlice S1x1600000 ![0, 0] a1 slices_S2x1600000_S1x1600000_0_0)
      shapeCasts_S1x1600000_S1600000 (ix1 ed) = a1 (ix2 0 ed) :=
    Cert.Lib.rowOfPair_apply (0 : Fin 2) ![0, 0] rfl rfl slices_S2x1600000_S1x1600000_0_0
      shapeCasts_S1x1600000_S1600000 a1 ed
  have g0' : IntOp.cmpi .sge (a1 (ix2 0 ed)) 0#32 = 1#1 := by rw [← r0]; exact g0
  have g1' : IntOp.cmpi .slt (a1 (ix2 0 ed)) 100000#32 = 1#1 := by rw [← r0]; exact g1
  rw [IntOp.cmpi_sge, show (0#32 : BitVec 32).toInt = 0 by decide] at g0'
  rw [IntOp.cmpi_slt, show (100000#32 : BitVec 32).toInt = 100000 by decide] at g1'
  exact ⟨g0', g1'⟩

end Cert.Bridge

end
-- ==== Proof.LibBatchNorm.lean ====
/-
  Batch statistics over the extended reals.

  For a finite family of REAL numbers `h i`, `i : ι`, with `n` the number of indices (as a nonzero real):
    mean = (∑ h) / n
    (∑ (h − mean)²) / n  =  (∑ h²) / n − mean²          (the two usual forms of the variance)
  and the common value is ≥ 0, so clamping it at zero changes nothing.  The same statements are then given for
  extended-real families every entry of which is a real number, with the quotient written as a product by the
  reciprocal (the form a quotient by a nonzero real constant takes on the extended reals) — finiteness is what the
  identity needs: it moves a factor across a sum and cancels, neither of which survives an infinity.
-/
import Mathlib

namespace Cert.LibBatchNorm

open Finset

/-- The coercion of a finite real sum is the extended-real sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A finite sum of extended reals that are all real is real, and is the coercion of the real sum. -/
theorem sum_eq_coe {ι : Type*} (s : Finset ι) (F : ι → EReal) (f : ι → ℝ) (h : ∀ i ∈ s, F i = (f i : EReal)) :
    ∑ i ∈ s, F i = ((∑ i ∈ s, f i : ℝ) : EReal) := by
  rw [coe_sum]; exact sum_congr rfl h

/-- The two forms of the variance agree, over the reals. -/
theorem var_forms {ι : Type*} [Fintype ι] (h : ι → ℝ) (n : ℝ) (hn : (Fintype.card ι : ℝ) = n) (hn0 : n ≠ 0) :
    (∑ i, (h i - (∑ j, h j) / n) * (h i - (∑ j, h j) / n)) / n
      = (∑ i, h i * h i) / n - ((∑ j, h j) / n) * ((∑ j, h j) / n) := by
  set μ := (∑ j, h j) / n with hμ
  have hs : ∑ j, h j = n * μ := by rw [hμ]; field_simp
  have e : ∑ i, (h i - μ) * (h i - μ) = ∑ i, h i * h i - n * μ * μ := by
    have e1 : ∀ i, (h i - μ) * (h i - μ) = h i * h i - 2 * μ * h i + μ * μ := fun i => by ring
    simp only [e1, sum_add_distrib, sum_sub_distrib, ← mul_sum, sum_const, card_univ, nsmul_eq_mul, hn, hs]
    ring
  rw [e]; field_simp

/-- The variance is not negative (for a positive count). -/
theorem var_nonneg {ι : Type*} [Fintype ι] (h : ι → ℝ) (n : ℝ) (hn : 0 < n) (μ : ℝ) :
    0 ≤ (∑ i, (h i - μ) * (h i - μ)) / n :=
  div_nonneg (sum_nonneg fun i _ => mul_self_nonneg _) hn.le

/-- So the "mean of squares minus squared mean" form, clamped at zero, is the "mean squared deviation" form. -/
theorem clamped_eq {ι : Type*} [Fintype ι] (h : ι → ℝ) (n : ℝ) (hn : (Fintype.card ι : ℝ) = n) (hn0 : 0 < n) :
    max ((∑ i, h i * h i) / n - ((∑ j, h j) / n) * ((∑ j, h j) / n)) 0
      = (∑ i, (h i - (∑ j, h j) / n) * (h i - (∑ j, h j) / n)) / n := by
  rw [← var_forms h n hn hn0.ne']
  exact max_eq_left (var_nonneg h n hn0 _)

/-- The same over the extended reals, for a family of reals, the quotients written as products by `1 / n`:
    with `S = ∑ H`, `Q = ∑ H²`, `M = S · (1/n)`:  `max (Q · (1/n) − M · M) 0 = (∑ (H − M)²) · (1/n)`. -/
theorem clamped_eq_ereal {ι : Type*} [Fintype ι] (H : ι → EReal) (h : ι → ℝ) (hH : ∀ i, H i = (h i : EReal))
    (n : ℝ) (hn : (Fintype.card ι : ℝ) = n) (hn0 : 0 < n) :
    max ((∑ i, H i * H i) * ((1 / n : ℝ) : EReal)
          - ((∑ j, H j) * ((1 / n : ℝ) : EReal)) * ((∑ j, H j) * ((1 / n : ℝ) : EReal))) 0
      = (∑ i, (H i - (∑ j, H j) * ((1 / n : ℝ) : EReal)) * (H i - (∑ j, H j) * ((1 / n : ℝ) : EReal)))
          * ((1 / n : ℝ) : EReal) := by
  have hS : ∑ j, H j = ((∑ j, h j : ℝ) : EReal) := sum_eq_coe _ _ _ fun i _ => hH i
  have hQ : ∑ i, H i * H i = ((∑ i, h i * h i : ℝ) : EReal) :=
    sum_eq_coe _ _ _ fun i _ => by rw [hH i, ← EReal.coe_mul]
  have hD : ∑ i, (H i - (∑ j, H j) * ((1 / n : ℝ) : EReal)) * (H i - (∑ j, H j) * ((1 / n : ℝ) : EReal))
      = ((∑ i, (h i - (∑ j, h j) / n) * (h i - (∑ j, h j) / n) : ℝ) : EReal) :=
    sum_eq_coe _ _ _ fun i _ => by
      rw [hS, hH i, ← EReal.coe_mul, ← EReal.coe_sub, ← EReal.coe_mul]; congr 1; ring
  rw [hD, hS, hQ, ← EReal.coe_mul, ← EReal.coe_mul, ← EReal.coe_mul, ← EReal.coe_sub, ← EReal.coe_mul,
    show (0 : EReal) = ((0 : ℝ) : EReal) from rfl, ← EReal.coe_strictMono.monotone.map_max]
  congr 1
  simp only [mul_one_div]
  exact clamped_eq h n hn hn0

end Cert.LibBatchNorm
-- ==== Proof.Bridge.Math.lean ====
/-
  The arithmetic that joins the two programs, over the extended reals.

  Per layer and per column, with H i the real numbers A[i,j] + b[j] over the 100000 rows, one program takes the
  variance as "mean of squares minus squared mean", the other as "mean squared deviation"; both take the mean as
  (Σ H) / N.  N is the f32 word of 100000, the quotient is x · N⁻¹.  When every H i is a real number all of these are
  images of real expressions, and the two variances are the two sides of the real identity
      (Σ (h − μ)²) / n = (Σ h²) / n − μ².
  The common value is not negative, so adding the positive word ε under the inverse square root gives a positive
  real, whose inverse square root is a real number; the normalised, scaled, shifted and clamped entry is then real
  as well.  A finite sum of products of real numbers is real.
-/
import Mathlib
import Idealize.ShloMosaic.PureOps.Ideal
import proofs.«163396_j33732673143025_1_alg».proof.Proof.Spec
import proofs.«163396_j33732673143025_1_alg».proof.Proof.LibBatchNorm
import proofs.«163396_j33732673143025_1_alg».proof.Proof.LibGcnAlgebra

noncomputable section

open scoped BigOperators

namespace Cert.Bridge

open Idealize.ShloMosaic Cert.Lib

/-- The f32 word the sums are divided by: the number of rows. -/
abbrev nW : EReal := Ideal.ofBits .f32 0x47C35000#32

/-- That word is the real number 100000: exponent field 143, significand field 4411392, so
    (2²³ + 4411392) · 2^(143 − 127 − 23) = 12800000 / 128. -/
theorem nW_eq : nW = ((100000 : ℝ) : EReal) := by
  simp [nW, Ideal.ofBits, Ideal.ieee, -EReal.coe_mul]; norm_num

/-- The word added under the inverse square root is a positive real: exponent field 110, significand field
    2606508, so (2²³ + 2606508) · 2^(110 − 127 − 23). -/
theorem eps_pos : ∃ e : ℝ, 0 < e ∧ Cert.Spec.epsW = (e : EReal) := by
  refine ⟨10995116 * (2 : ℝ) ^ (-40 : ℤ), by positivity, ?_⟩
  simp [Cert.Spec.epsW, Ideal.ofBits, Ideal.ieee, -EReal.coe_mul]

/-- The word the final maximum clamps at is zero. -/
theorem zeroW_eq : Cert.Spec.zeroW = 0 := by
  simp [Cert.Spec.zeroW, Ideal.ofBits, Ideal.ieee]

/-- A real number divided by the row count, as a real number. -/
theorem div_nW (x : ℝ) : Ideal.div (x : EReal) nW = ((x / 100000 : ℝ) : EReal) := by
  have h0 : ((100000 : ℝ) : EReal) ≠ 0 := by
    intro h; have := EReal.coe_eq_zero.mp h; norm_num at this
  rw [nW_eq, Ideal.div, if_neg h0, ← EReal.coe_inv, ← EReal.coe_mul, div_eq_mul_inv]

/-- The existential form of "is a real number", as the notion of the algebra library. -/
theorem isReal_iff (x : EReal) : IsReal x ↔ ∃ r : ℝ, x = (r : EReal) := Iff.rfl

section Stats

variable (H : Fin 100000 → EReal) (hH : ∀ i, ∃ r : ℝ, H i = (r : EReal))

include hH

/-- The mean of a column of reals is a real. -/
theorem mean_real : ∃ r : ℝ, Ideal.div (∑ i, H i) nW = r := by
  choose h hh using hH
  rw [Cert.LibBatchNorm.sum_eq_coe _ H h fun i _ => hh i, div_nW]
  exact ⟨_, rfl⟩

/-- The two forms of the variance agree for a column of reals. -/
theorem var_forms :
    Ideal.div (∑ i, H i * H i) nW - Ideal.div (∑ i, H i) nW * Ideal.div (∑ i, H i) nW
      = Ideal.div (∑ i, (H i - Ideal.div (∑ i, H i) nW) * (H i - Ideal.div (∑ i, H i) nW)) nW := by
  choose h hh using hH
  have hS : ∑ i, H i = ((∑ i, h i : ℝ) : EReal) := Cert.LibBatchNorm.sum_eq_coe _ H h fun i _ => hh i
  have hQ : ∑ i, H i * H i = ((∑ i, h i * h i : ℝ) : EReal) :=
    Cert.LibBatchNorm.sum_eq_coe _ _ _ fun i _ => by rw [hh i, ← EReal.coe_mul]
  rw [hS, hQ, div_nW, div_nW]
  have hD : ∑ i, (H i - (((∑ j, h j) / 100000 : ℝ) : EReal)) * (H i - (((∑ j, h j) / 100000 : ℝ) : EReal))
      = ((∑ i, (h i - (∑ j, h j) / 100000) * (h i - (∑ j, h j) / 100000) : ℝ) : EReal) :=
    Cert.LibBatchNorm.sum_eq_coe _ _ _ fun i _ => by
      rw [hh i, ← EReal.coe_sub, ← EReal.coe_mul]
  rw [hD, div_nW, ← EReal.coe_mul, ← EReal.coe_sub]
  have hc : (Fintype.card (Fin 100000) : ℝ) = 100000 := by rw [Fintype.card_fin]; norm_num
  exact congrArg Real.toEReal (Cert.LibBatchNorm.var_forms h 100000 hc (by norm_num)).symm

/-- The mean squared deviation of a column of reals is a real that is not negative. -/
theorem var_real_nonneg :
    ∃ v : ℝ, 0 ≤ v ∧
      Ideal.div (∑ i, (H i - Ideal.div (∑ i, H i) nW) * (H i - Ideal.div (∑ i, H i) nW)) nW = v := by
  choose h hh using hH
  have hS : ∑ i, H i = ((∑ i, h i : ℝ) : EReal) := Cert.LibBatchNorm.sum_eq_coe _ H h fun i _ => hh i
  rw [hS, div_nW]
  have hD : ∑ i, (H i - (((∑ j, h j) / 100000 : ℝ) : EReal)) * (H i - (((∑ j, h j) / 100000 : ℝ) : EReal))
      = ((∑ i, (h i - (∑ j, h j) / 100000) * (h i - (∑ j, h j) / 100000) : ℝ) : EReal) :=
    Cert.LibBatchNorm.sum_eq_coe _ _ _ fun i _ => by
      rw [hh i, ← EReal.coe_sub, ← EReal.coe_mul]
  rw [hD, div_nW]
  exact ⟨_, Cert.LibBatchNorm.var_nonneg h 100000 (by norm_num) _, rfl⟩

end Stats

/-- The inverse square root of a nonnegative real plus ε is a real number. -/
theorem rsqrt_real (v : ℝ) (hv : 0 ≤ v) : ∃ r : ℝ, Ideal.rsqrt ((v : EReal) + Cert.Spec.epsW) = r := by
  obtain ⟨e, he, hE⟩ := eps_pos
  have hp : 0 < v + e := by linarith
  rw [hE, ← EReal.coe_add, Ideal.rsqrt_coe, if_neg (not_lt.mpr hp.le), if_neg hp.ne']
  exact ⟨_, rfl⟩

/-- A normalised, scaled, shifted and clamped entry is a real number. -/
theorem norm_real (h μ v g β : ℝ) (hv : 0 ≤ v) :
    ∃ r : ℝ, max ((((h : EReal) - μ) * Ideal.rsqrt ((v : EReal) + Cert.Spec.epsW)) * g + β) Cert.Spec.zeroW = r := by
  have hr : IsReal (Ideal.rsqrt ((v : EReal) + Cert.Spec.epsW)) := rsqrt_real v hv
  have hz : IsReal Cert.Spec.zeroW := by rw [zeroW_eq]; exact IsReal.zero
  exact (((((IsReal.coe h).sub (IsReal.coe μ)).mul hr).mul (IsReal.coe g)).add (IsReal.coe β)).max hz

/-- A finite sum of products of reals is real. -/
theorem dot_real {K : ℕ} (x W : Fin K → EReal) (hx : ∀ k, ∃ r : ℝ, x k = r) (hW : ∀ k, ∃ r : ℝ, W k = r) :
    ∃ r : ℝ, ∑ k, x k * W k = r :=
  IsReal.sum_univ _ fun k => IsReal.mul (hx k) (hW k)

/-- A sum of two reals is real. -/
theorem add_real {x y : EReal} (hx : ∃ r : ℝ, x = r) (hy : ∃ r : ℝ, y = r) : ∃ r : ℝ, x + y = r :=
  IsReal.add hx hy

/-- A product of two reals is real. -/
theorem mul_real {x y : EReal} (hx : ∃ r : ℝ, x = r) (hy : ∃ r : ℝ, y = r) : ∃ r : ℝ, x * y = r :=
  IsReal.mul hx hy

/-- A finite sum of reals is real. -/
theorem sum_real {α : Type*} [Fintype α] (f : α → EReal) (hf : ∀ a, ∃ r : ℝ, f a = r) : ∃ r : ℝ, ∑ a, f a = r :=
  IsReal.sum_univ f hf

end Cert.Bridge

end
-- ==== Proof.Reference.Read.lean ====
/-
  The reference's pure functions read at an index, over the extended reals.

  A plain matrix product at (r, j) is the sum over k of left(r, k) · right(k, j); a vector repeated down the rows
  reads, at (r, j), its entry j; a column's mean is the zero word plus the sum of the column's entries, divided by
  the row count's word; a column's variance the same of the squared deviations from the mean; and the normalised,
  scaled, shifted entry clamped at zero is the maximum of that entry and the zero word.
-/
import proofs.«163396_j33732673143025_1_alg».proof.Proof.Reference.Defs
import proofs.«163396_j33732673143025_1_alg».proof.Proof.Spec
import proofs.«163396_j33732673143025_1_alg».proof.Proof.Bridge.Math
import proofs.«163396_j33732673143025_1_alg».proof.Proof.LibRowReads
import Idealize.ShloMosaic.Lib.ValueIdx
import Idealize.ShloMosaic.Lib.IdealHost
import Idealize.ShloMosaic.PureOps.Ideal.Laws

noncomputable section

namespace Cert.ReferenceIdeal.Hand

open Cert.ReferenceIdeal Idealize.ShloMosaic Idealize.ShloMosaic.ValueIdx
open scoped BigOperators

variable [Facts]
open Facts₀ Facts

/-! ## The matrix products -/

/-- x·W1 at (r, j). -/
theorem dot256_apply (x : FVec Ideal S100000x256 .f32) (W : FVec Ideal S256x128 .f32) (r : Fin 100000) (j : Fin 128) :
    Host.dotGeneral dot_S100000x256_S256x128_S100000x128_1_0_0_1_n_n none x W (ix2 r j) = ∑ k : Fin 256, x (ix2 r k) * W (ix2 k j) :=
  Cert.Lib.dotGeneral_at dot_S100000x256_S256x128_S100000x128_1_0_0_1_n_n rfl rfl rfl rfl rfl rfl none x W r j

/-- h·W2 at (r, j). -/
theorem dot128_apply (x : FVec Ideal S100000x128 .f32) (W : FVec Ideal S128x128 .f32) (r : Fin 100000) (j : Fin 128) :
    Host.dotGeneral dot_S100000x128_S128x128_S100000x128_1_0_0_1_n_n none x W (ix2 r j) = ∑ k : Fin 128, x (ix2 r k) * W (ix2 k j) :=
  Cert.Lib.dotGeneral_at dot_S100000x128_S128x128_S100000x128_1_0_0_1_n_n rfl rfl rfl rfl rfl rfl none x W r j

/-! ## A vector repeated down the rows -/

theorem rowBcast_apply (v : FVec Ideal S128 .f32) (r : Fin 100000) (j : Fin 128) :
    rowBcast v (ix2 r j) = v (ix1 j) := by
  unfold rowBcast
  exact Cert.Lib.bcastInDim_vecRows_apply bcast_S128_S1x128_1 bcast_S1x128_S100000x128_0_1 v r j

/-- A + b at (r, j). -/
theorem addRow_apply (A : FVec Ideal S100000x128 .f32) (b : FVec Ideal S128 .f32) (r : Fin 100000) (j : Fin 128) :
    addf A (rowBcast b) (ix2 r j) = A (ix2 r j) + b (ix1 j) := by
  show (A (ix2 r j) : EReal) + rowBcast b (ix2 r j) = _
  rw [rowBcast_apply]

/-! ## The column statistics -/

/-- The host's sum down the rows at column j: the initial value plus the sum of the column's entries. -/
theorem colSum_apply (H : FVec Ideal S100000x128 .f32) (init : S_.Idx → Ideal .f32) (j : Fin 128) :
    Host.reduceAdd H init reducesTo_S100000x128_S128_d0 h_S_ (ix1 j)
      = init (Shape.Idx.first h_S_) + ∑ i : Fin 100000, H (ix2 i j) := by
  show Ideal.hostReduceAdd reducesTo_S100000x128_S128_d0 H (init (Shape.Idx.first h_S_)) (ix1 j) = _
  rw [Ideal.hostReduceAdd_single reducesTo_S100000x128_S128_d0 (by decide : S100000x128.Reduces [0] S128)]
  exact congrArg _ (Finset.sum_congr rfl fun i _ => congrArg H (funext fun a => Fin.ext (by
    match a with
    | ⟨0, _⟩ => rfl
    | ⟨1, _⟩ => rfl)))

/-- The mean of column j. -/
def colMeanAt (H : FVec Ideal S100000x128 .f32) (j : Fin 128) : EReal :=
  Ideal.div (Cert.Spec.zeroW + ∑ i : Fin 100000, H (ix2 i j)) Cert.Bridge.nW

/-- The mean squared deviation of column j from its mean. -/
def colVarAt (H : FVec Ideal S100000x128 .f32) (j : Fin 128) : EReal :=
  Ideal.div (Cert.Spec.zeroW + ∑ i : Fin 100000, (H (ix2 i j) - colMeanAt H j) * (H (ix2 i j) - colMeanAt H j)) Cert.Bridge.nW

theorem colMean_apply (H : FVec Ideal S100000x128 .f32) (j : Fin 128) : colMean H (ix1 j) = colMeanAt H j := by
  unfold colMean colMeanAt
  rw [hostDivf_apply, colSum_apply, Cert.Lib.bcast_const_apply]
  rfl

theorem colVar_apply (H : FVec Ideal S100000x128 .f32) (j : Fin 128) : colVar H (ix1 j) = colVarAt H j := by
  unfold colVar colVarAt
  rw [hostDivf_apply, colSum_apply, Cert.Lib.bcast_const_apply]
  refine congrArg (fun z => Ideal.div z Cert.Bridge.nW) (congrArg (fun z => Cert.Spec.zeroW + z) (Finset.sum_congr rfl fun i _ => ?_))
  show ((H (ix2 i j) : EReal) - rowBcast (colMean H) (ix2 i j)) * ((H (ix2 i j) : EReal) - rowBcast (colMean H) (ix2 i j)) = _
  rw [rowBcast_apply, colMean_apply]

/-! ## Normalise, scale, shift, clamp -/

/-- The batch-normalised entry (r, j), clamped at zero. -/
theorem bnRelu_apply (H : FVec Ideal S100000x128 .f32) (g be : FVec Ideal S128 .f32) (r : Fin 100000) (j : Fin 128) :
    bnRelu H g be (ix2 r j)
      = max ((((H (ix2 r j) - colMeanAt H j) * Ideal.rsqrt (colVarAt H j + Cert.Spec.epsW)) * g (ix1 j)) + be (ix1 j)) Cert.Spec.zeroW := by
  unfold bnRelu
  show max (((((H (ix2 r j) : EReal) - rowBcast (colMean H) (ix2 r j))
        * rowBcast (Host.rsqrt (addf (colVar H) (broadcastInDim S128 ![] bcast_S_S128 (constant (F := Ideal) S_ .f32 0x3727C5AC#32)))) (ix2 r j))
        * rowBcast g (ix2 r j)) + rowBcast be (ix2 r j))
      (broadcastInDim S100000x128 ![] bcast_S_S100000x128 (constant (F := Ideal) S_ .f32 0x00000000#32) (ix2 r j)) = _
  rw [rowBcast_apply, rowBcast_apply, rowBcast_apply, rowBcast_apply, colMean_apply, Cert.Lib.bcast_const_apply]
  show max (((((H (ix2 r j) : EReal) - colMeanAt H j)
        * Ideal.rsqrt ((colVar H (ix1 j) : EReal) + broadcastInDim S128 ![] bcast_S_S128 (constant (F := Ideal) S_ .f32 0x3727C5AC#32) (ix1 j)))
        * g (ix1 j)) + be (ix1 j)) Cert.Spec.zeroW = _
  rw [colVar_apply, Cert.Lib.bcast_const_apply]

end Cert.ReferenceIdeal.Hand

end
-- ==== Proof.Bridge.Layer.lean ====
/-
  The two programs' results are one function of the arguments.

  Per layer both programs form the aggregate A (the same host operations over the same edge table), add the bias row,
  and normalise every column of H = A + b over the 100000 rows.  One takes the column mean as (Σ H) / N and the variance
  as (Σ H²) / N − mean², the other as (0 + Σ H) / N and (0 + Σ (H − mean)²) / N.  When every entry of H is a real
  number the two variances are the two forms of one real number, so entry by entry both programs compute
      max(((H − mean) · rsqrt(var + ε)) · g + β, 0)
  from equal ingredients.  The entries stay real from layer to layer: a matrix product of reals is real, the aggregate
  of reals is real, and a normalised, scaled, shifted and clamped real is real.
-/
import proofs.«163396_j33732673143025_1_alg».proof.Proof.Bridge.Math
import proofs.«163396_j33732673143025_1_alg».proof.Proof.Bridge.Chain
import proofs.«163396_j33732673143025_1_alg».proof.Proof.KernelIdeal.Glue
import proofs.«163396_j33732673143025_1_alg».proof.Proof.Reference.Defs
import proofs.«163396_j33732673143025_1_alg».proof.Proof.Reference.Read
import proofs.«163396_j33732673143025_1_alg».proof.Proof.LibRowReads
import proofs.«163396_j33732673143025_1_alg».proof.Proof.LibHostRead
import Idealize.ShloMosaic.Lib.ValueIdx
import Idealize.ShloMosaic.Lib.ValueLayout

noncomputable section

open scoped BigOperators

namespace Cert.Bridge

open Idealize.ShloMosaic Idealize.ShloMosaic.ValueIdx
open Cert.KernelIdeal.Hand (rowOf vecOf nVec meanK varK layerK kval)

variable [Cert.KernelIdeal.Facts] [Cert.ReferenceIdeal.Facts]

/-! ## The message-passing step is the same function in both programs -/

/-- Both programs spell the step with the same operations over equal dimension records. -/
theorem chain_eq (P : FVec Ideal Cert.Spec.S100000x128 .f32) (ei : IVec Cert.KernelIdeal.S2x1600000 32)
    (w : FVec Ideal Cert.KernelIdeal.S1600000 .f32) :
    Cert.ReferenceIdeal.Hand.chain (F := Ideal) P ei w = chainK P ei w := rfl

/-! ## The matrix products -/

/-- The [100000,256] × [256,128] product is the host's dot. -/
theorem mm256_eq (x : FVec Ideal Cert.Spec.S100000x256 .f32) (W : FVec Ideal Cert.Spec.S256x128 .f32) :
    Cert.Spec.mm256 x W
      = Host.dotGeneral Cert.ReferenceIdeal.dot_S100000x256_S256x128_S100000x128_1_0_0_1_n_n none x W := by
  funext i
  obtain ⟨r, j, rfl⟩ : ∃ (r : Fin 100000) (j : Fin 128), i = ix2 r j := ⟨i 0, i 1, eq_ix2 i⟩
  rw [Cert.Lib.dotGeneral_at Cert.ReferenceIdeal.dot_S100000x256_S256x128_S100000x128_1_0_0_1_n_n rfl rfl rfl rfl rfl rfl]
  rfl

/-- The [100000,128] × [128,128] product is the host's dot. -/
theorem mm128_eq (x : FVec Ideal Cert.Spec.S100000x128 .f32) (W : FVec Ideal Cert.Spec.S128x128 .f32) :
    Cert.Spec.mm128 x W
      = Host.dotGeneral Cert.ReferenceIdeal.dot_S100000x128_S128x128_S100000x128_1_0_0_1_n_n none x W := by
  funext i
  obtain ⟨r, j, rfl⟩ : ∃ (r : Fin 100000) (j : Fin 128), i = ix2 r j := ⟨i 0, i 1, eq_ix2 i⟩
  rw [Cert.Lib.dotGeneral_at Cert.ReferenceIdeal.dot_S100000x128_S128x128_S100000x128_1_0_0_1_n_n rfl rfl rfl rfl rfl rfl]
  rfl

omit [Cert.KernelIdeal.Facts] [Cert.ReferenceIdeal.Facts] in
/-- A product of real matrices is real. -/
theorem mm256_real (x : FVec Ideal Cert.Spec.S100000x256 .f32) (W : FVec Ideal Cert.Spec.S256x128 .f32)
    (hx : ∀ i, ∃ r : ℝ, x i = r) (hW : ∀ i, ∃ r : ℝ, W i = r) : ∀ i, ∃ r : ℝ, Cert.Spec.mm256 x W i = r :=
  fun i => dot_real _ _ (fun k => hx _) (fun k => hW _)

omit [Cert.KernelIdeal.Facts] [Cert.ReferenceIdeal.Facts] in
/-- A product of real matrices is real. -/
theorem mm128_real (x : FVec Ideal Cert.Spec.S100000x128 .f32) (W : FVec Ideal Cert.Spec.S128x128 .f32)
    (hx : ∀ i, ∃ r : ℝ, x i = r) (hW : ∀ i, ∃ r : ℝ, W i = r) : ∀ i, ∃ r : ℝ, Cert.Spec.mm128 x W i = r :=
  fun i => dot_real _ _ (fun k => hx _) (fun k => hW _)

/-! ## One layer of the kernel program, read at an entry -/

/-- A vector laid out as a row, at (0, j). -/
theorem rowOf_apply (v : FVec Ideal Cert.KernelIdeal.S128 .f32) (z : Fin 1) (j : Fin 128) : rowOf v (ix2 z j) = v (ix1 j) :=
  shapeCast_a_1a_apply v _ z j

/-- A row laid out as a vector, at j. -/
theorem vecOf_apply (r : FVec Ideal Cert.KernelIdeal.S1x128 .f32) (j : Fin 128) : vecOf r (ix1 j) = r (ix2 (0 : Fin 1) j) :=
  shapeCast_1a_a_apply r _ j

/-- The splat of the row count holds the row count everywhere. -/
theorem nVec_apply (i : Cert.KernelIdeal.S128.Idx) : nVec i = nW := rfl

/-- Column j of A + b: the entries the statistics are taken over. -/
def colH (A : FVec Ideal Cert.Spec.S100000x128 .f32) (b : FVec Ideal Cert.KernelIdeal.S128 .f32) (j : Fin 128) :
    Fin 100000 → EReal := fun i => A (ix2 i j) + b (ix1 j)

/-- The column sums of A + b, at column j. -/
theorem colSum_apply (A : FVec Ideal Cert.Spec.S100000x128 .f32) (b : FVec Ideal Cert.KernelIdeal.S128 .f32) (j : Fin 128) :
    Cert.Spec.colSum A (rowOf b) (ix2 (0 : Fin 1) j) = ∑ i, colH A b j i := by
  show ∑ i : Fin 100000, (A (ix2 i j) + rowOf b (ix2 (0 : Fin 1) j)) = _
  rw [rowOf_apply]; rfl

/-- The column sums of (A + b)², at column j. -/
theorem colSq_apply (A : FVec Ideal Cert.Spec.S100000x128 .f32) (b : FVec Ideal Cert.KernelIdeal.S128 .f32) (j : Fin 128) :
    Cert.Spec.colSq A (rowOf b) (ix2 (0 : Fin 1) j) = ∑ i, colH A b j i * colH A b j i := by
  show ∑ i : Fin 100000, (A (ix2 i j) + rowOf b (ix2 (0 : Fin 1) j)) * (A (ix2 i j) + rowOf b (ix2 (0 : Fin 1) j)) = _
  rw [rowOf_apply]; rfl

/-- The kernel program's column mean. -/
theorem meanK_apply (A : FVec Ideal Cert.Spec.S100000x128 .f32) (b : FVec Ideal Cert.KernelIdeal.S128 .f32) (j : Fin 128) :
    meanK (Cert.Spec.colSum A (rowOf b)) (ix1 j) = Ideal.div (∑ i, colH A b j i) nW := by
  show Ideal.div (vecOf (Cert.Spec.colSum A (rowOf b)) (ix1 j)) (nVec (ix1 j)) = _
  rw [vecOf_apply, colSum_apply, nVec_apply]

/-- The kernel program's column variance: mean of squares minus squared mean. -/
theorem varK_apply (A : FVec Ideal Cert.Spec.S100000x128 .f32) (b : FVec Ideal Cert.KernelIdeal.S128 .f32) (j : Fin 128) :
    varK (Cert.Spec.colSum A (rowOf b)) (Cert.Spec.colSq A (rowOf b)) (ix1 j)
      = Ideal.div (∑ i, colH A b j i * colH A b j i) nW
        - Ideal.div (∑ i, colH A b j i) nW * Ideal.div (∑ i, colH A b j i) nW := by
  show Ideal.div (vecOf (Cert.Spec.colSq A (rowOf b)) (ix1 j)) (nVec (ix1 j))
      - meanK (Cert.Spec.colSum A (rowOf b)) (ix1 j) * meanK (Cert.Spec.colSum A (rowOf b)) (ix1 j) = _
  rw [vecOf_apply, colSq_apply, nVec_apply, meanK_apply]

/-- One layer of the kernel program at entry (r, j). -/
theorem layerK_apply (A : FVec Ideal Cert.Spec.S100000x128 .f32) (b g be : FVec Ideal Cert.KernelIdeal.S128 .f32)
    (r : Fin 100000) (j : Fin 128) :
    layerK A b g be (ix2 r j)
      = max ((((colH A b j r - Ideal.div (∑ i, colH A b j i) nW)
            * Ideal.rsqrt ((Ideal.div (∑ i, colH A b j i * colH A b j i) nW
                - Ideal.div (∑ i, colH A b j i) nW * Ideal.div (∑ i, colH A b j i) nW) + Cert.Spec.epsW))
            * g (ix1 j)) + be (ix1 j)) Cert.Spec.zeroW := by
  show max ((((A (ix2 r j) + rowOf b (ix2 (0 : Fin 1) j))
          - rowOf (meanK (Cert.Spec.colSum A (rowOf b))) (ix2 (0 : Fin 1) j))
        * Ideal.rsqrt (rowOf (varK (Cert.Spec.colSum A (rowOf b)) (Cert.Spec.colSq A (rowOf b))) (ix2 (0 : Fin 1) j)
            + Cert.Spec.epsW))
        * rowOf g (ix2 (0 : Fin 1) j) + rowOf be (ix2 (0 : Fin 1) j)) Cert.Spec.zeroW = _
  rw [rowOf_apply, rowOf_apply, rowOf_apply, rowOf_apply, rowOf_apply, meanK_apply, varK_apply]
  rfl

/-- One layer of the kernel program is real-valued on real inputs. -/
theorem layerK_real (A : FVec Ideal Cert.Spec.S100000x128 .f32) (b g be : FVec Ideal Cert.KernelIdeal.S128 .f32)
    (hA : ∀ i, ∃ r : ℝ, A i = r) (hb : ∀ j, ∃ r : ℝ, b j = r) (hg : ∀ j, ∃ r : ℝ, g j = r)
    (hbe : ∀ j, ∃ r : ℝ, be j = r) : ∀ i, ∃ r : ℝ, layerK A b g be i = r := by
  intro i
  obtain ⟨r, j, rfl⟩ : ∃ (r : Fin 100000) (j : Fin 128), i = ix2 r j := ⟨i 0, i 1, eq_ix2 i⟩
  have hH : ∀ i, ∃ x : ℝ, colH A b j i = x := fun i => add_real (hA _) (hb _)
  rw [layerK_apply, var_forms (colH A b j) hH]
  obtain ⟨μ, hμ⟩ := mean_real (colH A b j) hH
  obtain ⟨v, hv0, hv⟩ := var_real_nonneg (colH A b j) hH
  obtain ⟨h, hh⟩ := hH r
  obtain ⟨gr, hgr⟩ := hg (ix1 j)
  obtain ⟨br, hbr⟩ := hbe (ix1 j)
  rw [hv, hμ, hh, hgr, hbr]
  exact norm_real h μ v gr br hv0

/-! ## One layer: the two programs agree -/

/-- The reference's biased aggregate, at column j, is the column the kernel's statistics are taken over. -/
theorem refH_apply (P : FVec Ideal Cert.Spec.S100000x128 .f32) (ei : IVec Cert.KernelIdeal.S2x1600000 32)
    (w : FVec Ideal Cert.KernelIdeal.S1600000 .f32) (b : FVec Ideal Cert.KernelIdeal.S128 .f32) (i : Fin 100000) (j : Fin 128) :
    addf (Cert.ReferenceIdeal.Hand.chain (F := Ideal) P ei w) (Cert.ReferenceIdeal.Hand.rowBcast b) (ix2 i j)
      = colH (chainK P ei w) b j i := by
  rw [Cert.ReferenceIdeal.Hand.addRow_apply, chain_eq]; rfl

/-- One layer of the kernel program is one layer of the reference, when the inputs are real and every source index
    is a node number. -/
theorem layer_eq (P : FVec Ideal Cert.Spec.S100000x128 .f32) (ei : IVec Cert.KernelIdeal.S2x1600000 32)
    (w : FVec Ideal Cert.KernelIdeal.S1600000 .f32) (b g be : FVec Ideal Cert.KernelIdeal.S128 .f32)
    (hP : ∀ i, ∃ r : ℝ, P i = r) (hw : ∀ e, ∃ r : ℝ, w e = r)
    (hsrc : ∀ e : Fin 1600000, 0 ≤ (ei (ix2 0 e)).toInt ∧ (ei (ix2 0 e)).toInt < 100000)
    (hb : ∀ j, ∃ r : ℝ, b j = r) (hg : ∀ j, ∃ r : ℝ, g j = r) (hbe : ∀ j, ∃ r : ℝ, be j = r) :
    layerK (chainK P ei w) b g be
      = Cert.ReferenceIdeal.Hand.bnRelu (F := Ideal)
          (addf (Cert.ReferenceIdeal.Hand.chain (F := Ideal) P ei w) (Cert.ReferenceIdeal.Hand.rowBcast b)) g be := by
  funext i
  obtain ⟨r, j, rfl⟩ : ∃ (r : Fin 100000) (j : Fin 128), i = ix2 r j := ⟨i 0, i 1, eq_ix2 i⟩
  have hA := chainK_real P ei w hP hw hsrc
  have hH : ∀ i, ∃ x : ℝ, colH (chainK P ei w) b j i = x := fun i => add_real (hA _) (hb _)
  rw [layerK_apply, Cert.ReferenceIdeal.Hand.bnRelu_apply, var_forms (colH (chainK P ei w) b j) hH]
  simp only [Cert.ReferenceIdeal.Hand.colMeanAt, Cert.ReferenceIdeal.Hand.colVarAt, refH_apply, zeroW_eq, zero_add]

/-- One layer is real-valued under the same hypotheses. -/
theorem layer_real (P : FVec Ideal Cert.Spec.S100000x128 .f32) (ei : IVec Cert.KernelIdeal.S2x1600000 32)
    (w : FVec Ideal Cert.KernelIdeal.S1600000 .f32) (b g be : FVec Ideal Cert.KernelIdeal.S128 .f32)
    (hP : ∀ i, ∃ r : ℝ, P i = r) (hw : ∀ e, ∃ r : ℝ, w e = r)
    (hsrc : ∀ e : Fin 1600000, 0 ≤ (ei (ix2 0 e)).toInt ∧ (ei (ix2 0 e)).toInt < 100000)
    (hb : ∀ j, ∃ r : ℝ, b j = r) (hg : ∀ j, ∃ r : ℝ, g j = r) (hbe : ∀ j, ∃ r : ℝ, be j = r) :
    ∀ i, ∃ r : ℝ, layerK (chainK P ei w) b g be i = r :=
  layerK_real _ b g be (chainK_real P ei w hP hw hsrc) hb hg hbe

/-! ## The whole programs -/

/-- The kernel program's result is the reference's, when every float input is real everywhere and every source
    index is a node number. -/
theorem kval_eq_result (a0 : FVec Ideal Cert.Spec.S100000x256 .f32) (a1 : IVec Cert.KernelIdeal.S2x1600000 32)
    (a2 : FVec Ideal Cert.KernelIdeal.S1600000 .f32) (a3 : FVec Ideal Cert.Spec.S256x128 .f32)
    (a4 a5 a6 : FVec Ideal Cert.KernelIdeal.S128 .f32) (a7 : FVec Ideal Cert.Spec.S128x128 .f32)
    (a8 a9 a10 : FVec Ideal Cert.KernelIdeal.S128 .f32)
    (h0 : ∀ i, ∃ r : ℝ, a0 i = r) (h2 : ∀ i, ∃ r : ℝ, a2 i = r) (h3 : ∀ i, ∃ r : ℝ, a3 i = r)
    (h4 : ∀ i, ∃ r : ℝ, a4 i = r) (h5 : ∀ i, ∃ r : ℝ, a5 i = r) (h6 : ∀ i, ∃ r : ℝ, a6 i = r)
    (h7 : ∀ i, ∃ r : ℝ, a7 i = r) (h8 : ∀ i, ∃ r : ℝ, a8 i = r) (h9 : ∀ i, ∃ r : ℝ, a9 i = r)
    (h10 : ∀ i, ∃ r : ℝ, a10 i = r)
    (hsrc : ∀ e : Fin 1600000, 0 ≤ (a1 (ix2 0 e)).toInt ∧ (a1 (ix2 0 e)).toInt < 100000) :
    kval a0 a1 a2 a3 a4 a5 a6 a7 a8 a9 a10
      = Cert.ReferenceIdeal.Hand.result (F := Ideal) a0 a1 a2 a3 a4 a5 a6 a7 a8 a9 a10 := by
  have hP1 := mm256_real a0 a3 h0 h3
  have hL1 := layer_real (Cert.Spec.mm256 a0 a3) a1 a2 a4 a5 a6 hP1 h2 hsrc h4 h5 h6
  have hP2 := mm128_real _ a7 hL1 h7
  show layerK (chainK (Cert.Spec.mm128 (layerK (chainK (Cert.Spec.mm256 a0 a3) a1 a2) a4 a5 a6) a7) a1 a2) a8 a9 a10 = _
  rw [layer_eq _ a1 a2 a8 a9 a10 hP2 h2 hsrc h8 h9 h10, mm128_eq,
    layer_eq _ a1 a2 a4 a5 a6 hP1 h2 hsrc h4 h5 h6, mm256_eq]
  rfl

end Cert.Bridge

end
-- ==== Proof.lean ====
/-
  The certificate of a two-layer graph encoder - per layer: a matrix product, one message-passing step on the host
  (rows taken at every edge's source node, scaled by the edge weight, added up at the destination node), batch-norm
  statistics, normalise-scale-shift-clamp - run as six kernel regions, against the plain reference.

  Frames: @main is fifteen segments (nine stretches of host operations, six regions); each region's body is run once at a
  symbolic grid point from its windows' blocks, the statistics regions carrying their two running sums in scratch rows
  from point to point; no segment writes an argument array. The same text serves the word-level program and its
  idealization.

  Values, on the extended reals: a region's output array is a closed form of the arrays it was entered with - x·W; the
  column sums of A + b and of (A + b)²; max(((A + b) − mean)·rsqrt(var + ε)·g + β, 0). The kernel forms the variance as
  the mean of squares minus the squared mean, the reference as the mean squared deviation: equal whenever every entry
  of A + b is a real number, which holds because the float inputs are finite and every source index is a node number (so
  no taken row is the not-a-number fill). The host's message-passing step is the same function in both programs.
-/
import proofs.«163396_j33732673143025_1_alg».proof.Defs
import proofs.«163396_j33732673143025_1_alg».proof.Proof.Gen.Kernel
import proofs.«163396_j33732673143025_1_alg».proof.Proof.Gen.KernelIdeal
import proofs.«163396_j33732673143025_1_alg».proof.Proof.Gen.ReferenceIdeal
import proofs.«163396_j33732673143025_1_alg».proof.Proof.Gen.Pre_finite_inputs
import proofs.«163396_j33732673143025_1_alg».proof.Proof.Kernel.Final
import proofs.«163396_j33732673143025_1_alg».proof.Proof.KernelIdeal.Value
import proofs.«163396_j33732673143025_1_alg».proof.Proof.Reference.Run
import proofs.«163396_j33732673143025_1_alg».proof.Proof.Bridge.Pre
import proofs.«163396_j33732673143025_1_alg».proof.Proof.Bridge.Layer

noncomputable section

namespace Cert.Proof

open Idealize.ShloMosaic Idealize.ShloMosaic.TcCoe Idealize.SL.Sem

/-- The word-level program runs to the end, faults nowhere and leaves its arguments as launched. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- Both idealized programs end with the same result array: the kernel's at `kval` of its arguments (the boundaries read
    back), the reference's at `result` of its own, and the two are one function of arguments that agree, are real numbers
    and name nodes. -/
theorem algebraic : Cert.algebraic_KernelIdeal_ReferenceIdeal := by
  intro m ρ m' ρ' hpre hagree
  refine ⟨fun c => Cert.KernelIdeal.Hand.kval
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono (fun _ h c => ⟨(h c).1.trans (Cert.KernelIdeal.Hand.W15_v51 m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5, e6, e7, e8, e9, e10⟩ := hagree c
    rw [e0, e1, e2, e3, e4, e5, e6, e7, e8, e9, e10]
    obtain ⟨h0, h2, h3, h4, h5, h6, h7, h8, h9, h10, hsrc⟩ := Cert.Bridge.decode _ _ _ _ _ _ _ _ _ _ _ (hpre c)
    exact (Cert.Bridge.kval_eq_result _ _ _ _ _ _ _ _ _ _ _ h0 h2 h3 h4 h5 h6 h7 h8 h9 h10 hsrc).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
